-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64x128 .f32) (main_arg15 : FVec F S64 .f32) (main_v63 : IVec S_ 1) (main_v67 : IVec S_ 1) : IVec S_ 1 :=
  let main_v68 : IVec S_ 1 := andi main_v63 main_v67
  let main_v69 : FVec F S64x128 .f32 := Host.absf main_arg14
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg11 : FVec F S128 .f32) (main_arg12 : FVec F S128 .f32) (main_arg13 : FVec F S128 .f32) (main_arg14 : FVec F S64x128 .f32) (main_arg15 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S64x128 .f32) (main_arg15 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S64x128 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8x256x128 .f32) (main_arg1 : FVec F S8x256x256 .f32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S64x128 .f32) (main_arg15 : FVec F S64 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S1x64 : Shape := ⟨2, ![1, 64]⟩
abbrev S8x256x64 : Shape := ⟨3, ![8, 256, 64]⟩
abbrev S1x256x128 : Shape := ⟨3, ![1, 256, 128]⟩
abbrev S1x256x256 : Shape := ⟨3, ![1, 256, 256]⟩
abbrev S1x256x64 : Shape := ⟨3, ![1, 256, 64]⟩
abbrev S256x256 : Shape := ⟨2, ![256, 256]⟩
abbrev S256 : Shape := ⟨1, ![256]⟩
abbrev S256x128 : Shape := ⟨2, ![256, 128]⟩
abbrev S256x1 : Shape := ⟨2, ![256, 1]⟩
abbrev S256x64 : Shape := ⟨2, ![256, 64]⟩

abbrev nBuf : Space → Nat
  | .hbm => 26
  | .vmem => 20
  | .smem => 0
  | _ => 0

abbrev bufTy : (tb : Table) → Fin (tcTables nBuf tb) → BufTy
  | .hbm, ⟨0, _⟩ => ⟨S8x256x128, .f32⟩
  | .hbm, ⟨1, _⟩ => ⟨S8x256x256, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S64x128, .f32⟩
  | .hbm, ⟨15, _⟩ => ⟨S64, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x64, .f32⟩
  | .hbm, ⟨25, _⟩ => ⟨S8x256x64, .f32⟩
  | .local _ .vmem, ⟨0, _⟩ => ⟨S1x256x128, .f32⟩
  | .local _ .vmem, ⟨1, _⟩ => ⟨S1x256x128, .f32⟩
  | .local _ .vmem, ⟨2, _⟩ => ⟨S1x256x256, .f32⟩
  | .local _ .vmem, ⟨3, _⟩ => ⟨S1x256x256, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S64x128, .f32⟩
  | .local _ .vmem, ⟨17, _⟩ => ⟨S1x64, .f32⟩
  | .local _ .vmem, ⟨18, _⟩ => ⟨S1x256x64, .f32⟩
  | .local _ .vmem, ⟨19, _⟩ => ⟨S1x256x64, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S128_S1x128 : S128.ShapeCasts S1x128
  shapeCasts_S64_S1x64 : S64.ShapeCasts S1x64
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x256_S256 : S256x256.Reduces [0] S256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S128x128_S128x128_0_0 : ∀ a, (![0, 0] : Fin 2 → Nat) a + S128x128.size a ≤ S128x128.size a
  h_S128x128 : 0 < S128x128.numel
  shapeCasts_S256_S256x1 : S256.ShapeCasts S256x1
  broadcasts_S256x1_S256x128 : S256x1.Broadcasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  reduces_S256x128_S256 : S256x128.Reduces [1] S256
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S256x128_S128x128_S256x128_1_1_0_0_n_n_wf : DotDims.WF S256x128 S128x128 S256x128 [1] [1] [0] [0] [] []
  dot_S256x256_S256x128_S256x128_0_0_1_1_n_n_wf : DotDims.WF S256x256 S256x128 S256x128 [0] [0] [1] [1] [] []
  dot_S256x128_S64x128_S256x64_1_1_0_0_n_n_wf : DotDims.WF S256x128 S64x128 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x256x128.size a
  hwx0_0 : ∀ i : grid0.Coords, EltTy.bits .f32 = 32 ∨ (Rect.block (s := S8x256x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .f32 = 32 ∨ (Rect.block (s := S8x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x128.size a ≤ S64x128.size a
  hwx0_14 : ∀ i : grid0.Coords, EltTy.bits .f32 = 32 ∨ (Rect.block (s := S64x128) S64x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256x64.size a ≤ S8x256x64.size a
  hwx0_16 : ∀ i : grid0.Coords, EltTy.bits .f32 = 32 ∨ (Rect.block (s := S8x256x64) S1x256x64.size (cc0_transform_16 i) (hinb0_16 i)).WholeWords (EltTy.packing .f32)

variable [Facts₀]

def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf
def dot_S256x256_S256x128_S256x128_0_0_1_1_n_n : DotDims S256x256 S256x128 S256x128 where
  lhsContracting := [0]
  rhsContracting := [0]
  lhsNonContracting := [1]
  rhsNonContracting := [1]
  lhsBatch := []
  rhsBatch := []
  wf := dot_S256x256_S256x128_S256x128_0_0_1_1_n_n_wf
def dot_S256x128_S64x128_S256x64_1_1_0_0_n_n : DotDims S256x128 S64x128 S256x64 where
  lhsContracting := [1]
  rhsContracting := [1]
  lhsNonContracting := [0]
  rhsNonContracting := [0]
  lhsBatch := []
  rhsBatch := []
  wf := dot_S256x128_S64x128_S256x64_1_1_0_0_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S1x256x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S2048x2048 : Shape := ⟨2, ![2048, 2048]⟩
abbrev S1x256x256 : Shape := ⟨3, ![1, 256, 256]⟩
abbrev S256x256 : Shape := ⟨2, ![256, 256]⟩
abbrev S1 : Shape := ⟨1, ![1]⟩
abbrev S2 : Shape := ⟨1, ![2]⟩
abbrev S524288 : Shape := ⟨1, ![524288]⟩
abbrev S524288x1 : Shape := ⟨2, ![524288, 1]⟩
abbrev S524288x2 : Shape := ⟨2, ![524288, 2]⟩
abbrev S2048x128 : Shape := ⟨2, ![2048, 128]⟩
abbrev S2048 : Shape := ⟨1, ![2048]⟩
abbrev S526336 : Shape := ⟨1, ![526336]⟩
abbrev S526336x1 : Shape := ⟨2, ![526336, 1]⟩
abbrev S526336x128 : Shape := ⟨2, ![526336, 128]⟩
abbrev S1x128 : Shape := ⟨2, ![1, 128]⟩
abbrev S2048x1 : Shape := ⟨2, ![2048, 1]⟩
abbrev S128x64 : Shape := ⟨2, ![128, 64]⟩
abbrev S2048x64 : Shape := ⟨2, ![2048, 64]⟩
abbrev S1x64 : Shape := ⟨2, ![1, 64]⟩
abbrev S8x256x64 : Shape := ⟨3, ![8, 256, 64]⟩

abbrev nBuf : Space → Nat
  | .hbm => 428
  | .vmem => 0
  | .smem => 0
  | _ => 0

abbrev hbmTy0_0 (i : Nat) : BufTy := match i % 128 with
  | 0 => ⟨S8x256x128, .f32⟩
  | 1 => ⟨S8x256x256, .f32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S64x128, .f32⟩
  | 15 => ⟨S64, .f32⟩
  | 16 => ⟨S_, .f32⟩
  | 17 => ⟨S2048x2048, .f32⟩
  | 18 => ⟨S1x256x256, .f32⟩
  | 19 => ⟨S256x256, .f32⟩
  | 20 => ⟨S_, .i32⟩
  | 21 => ⟨S1, .i32⟩
  | 22 => ⟨S_, .i32⟩
  | 23 => ⟨S1, .i32⟩
  | 24 => ⟨S2, .i32⟩
  | 25 => ⟨S2048x2048, .f32⟩
  | 26 => ⟨S1x256x256, .f32⟩
  | 27 => ⟨S256x256, .f32⟩
  | 28 => ⟨S_, .i32⟩
  | 29 => ⟨S1, .i32⟩
  | 30 => ⟨S_, .i32⟩
  | 31 => ⟨S1, .i32⟩
  | 32 => ⟨S2, .i32⟩
  | 33 => ⟨S2048x2048, .f32⟩
  | 34 => ⟨S1x256x256, .f32⟩
  | 35 => ⟨S256x256, .f32⟩
  | 36 => ⟨S_, .i32⟩
  | 37 => ⟨S1, .i32⟩
  | 38 => ⟨S_, .i32⟩
  | 39 => ⟨S1, .i32⟩
  | 40 => ⟨S2, .i32⟩
  | 41 => ⟨S2048x2048, .f32⟩
  | 42 => ⟨S1x256x256, .f32⟩
  | 43 => ⟨S256x256, .f32⟩
  | 44 => ⟨S_, .i32⟩
  | 45 => ⟨S1, .i32⟩
  | 46 => ⟨S_, .i32⟩
  | 47 => ⟨S1, .i32⟩
  | 48 => ⟨S2, .i32⟩
  | 49 => ⟨S2048x2048, .f32⟩
  | 50 => ⟨S1x256x256, .f32⟩
  | 51 => ⟨S256x256, .f32⟩
  | 52 => ⟨S_, .i32⟩
  | 53 => ⟨S1, .i32⟩
  | 54 => ⟨S_, .i32⟩
  | 55 => ⟨S1, .i32⟩
  | 56 => ⟨S2, .i32⟩
  | 57 => ⟨S2048x2048, .f32⟩
  | 58 => ⟨S1x256x256, .f32⟩
  | 59 => ⟨S256x256, .f32⟩
  | 60 => ⟨S_, .i32⟩
  | 61 => ⟨S1, .i32⟩
  | 62 => ⟨S_, .i32⟩
  | 63 => ⟨S1, .i32⟩
  | 64 => ⟨S2, .i32⟩
  | 65 => ⟨S2048x2048, .f32⟩
  | 66 => ⟨S1x256x256, .f32⟩
  | 67 => ⟨S256x256, .f32⟩
  | 68 => ⟨S_, .i32⟩
  | 69 => ⟨S1, .i32⟩
  | 70 => ⟨S_, .i32⟩
  | 71 => ⟨S1, .i32⟩
  | 72 => ⟨S2, .i32⟩
  | 73 => ⟨S2048x2048, .f32⟩
  | 74 => ⟨S1x256x256, .f32⟩
  | 75 => ⟨S256x256, .f32⟩
  | 76 => ⟨S_, .i32⟩
  | 77 => ⟨S1, .i32⟩
  | 78 => ⟨S_, .i32⟩
  | 79 => ⟨S1, .i32⟩
  | 80 => ⟨S2, .i32⟩
  | 81 => ⟨S2048x2048, .f32⟩
  | 82 => ⟨S524288, .i32⟩
  | 83 => ⟨S_, .i32⟩
  | 84 => ⟨S_, .i32⟩
  | 85 => ⟨S524288, .i32⟩
  | 86 => ⟨S524288, .i32⟩
  | 87 => ⟨S524288, .i32⟩
  | 88 => ⟨S_, .i32⟩
  | 89 => ⟨S524288, .i32⟩
  | 90 => ⟨S524288, .i1⟩
  | 91 => ⟨S524288, .i32⟩
  | 92 => ⟨S524288, .i32⟩
  | 93 => ⟨S_, .i32⟩
  | 94 => ⟨S524288, .i32⟩
  | 95 => ⟨S524288, .i1⟩
  | 96 => ⟨S524288, .i1⟩
  | 97 => ⟨S_, .i32⟩
  | 98 => ⟨S524288, .i32⟩
  | 99 => ⟨S524288, .i32⟩
  | 100 => ⟨S524288, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S524288, .i32⟩
  | 108 => ⟨S524288, .i32⟩
  | 109 => ⟨S_, .i32⟩
  | 110 => ⟨S524288, .i32⟩
  | 111 => ⟨S524288, .i1⟩
  | 112 => ⟨S_, .i32⟩
  | 113 => ⟨S524288, .i32⟩
  | 114 => ⟨S524288, .i1⟩
  | 115 => ⟨S_, .i32⟩
  | 116 => ⟨S_, .i1⟩
  | 117 => ⟨S524288, .i1⟩
  | 118 => ⟨S524288, .i1⟩
  | 119 => ⟨S524288, .i1⟩
  | 120 => ⟨S524288, .i32⟩
  | 121 => ⟨S524288, .i32⟩
  | 122 => ⟨S524288, .i32⟩
  | 123 => ⟨S_, .i32⟩
  | 124 => ⟨S524288, .i32⟩
  | 125 => ⟨S524288, .i32⟩
  | 126 => ⟨S_, .i32⟩
  | 127 => ⟨S_, .i32⟩
  | _ => ⟨S8x256x128, .f32⟩

abbrev hbmTy0_1 (i : Nat) : BufTy := match i % 128 with
  | 0 => ⟨S524288, .i32⟩
  | 1 => ⟨S524288, .i32⟩
  | 2 => ⟨S524288, .i32⟩
  | 3 => ⟨S_, .i32⟩
  | 4 => ⟨S524288, .i32⟩
  | 5 => ⟨S524288, .i1⟩
  | 6 => ⟨S524288, .i32⟩
  | 7 => ⟨S524288, .i32⟩
  | 8 => ⟨S_, .i32⟩
  | 9 => ⟨S524288, .i32⟩
  | 10 => ⟨S524288, .i1⟩
  | 11 => ⟨S524288, .i1⟩
  | 12 => ⟨S_, .i32⟩
  | 13 => ⟨S524288, .i32⟩
  | 14 => ⟨S524288, .i32⟩
  | 15 => ⟨S524288, .i32⟩
  | 16 => ⟨S524288, .i32⟩
  | 17 => ⟨S_, .i32⟩
  | 18 => ⟨S524288, .i32⟩
  | 19 => ⟨S524288, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S524288, .i32⟩
  | 27 => ⟨S524288, .i32⟩
  | 28 => ⟨S_, .i32⟩
  | 29 => ⟨S524288, .i32⟩
  | 30 => ⟨S524288, .i1⟩
  | 31 => ⟨S_, .i32⟩
  | 32 => ⟨S524288, .i32⟩
  | 33 => ⟨S524288, .i1⟩
  | 34 => ⟨S_, .i32⟩
  | 35 => ⟨S_, .i1⟩
  | 36 => ⟨S524288, .i1⟩
  | 37 => ⟨S524288, .i1⟩
  | 38 => ⟨S524288, .i1⟩
  | 39 => ⟨S524288, .i32⟩
  | 40 => ⟨S524288, .i32⟩
  | 41 => ⟨S524288, .i32⟩
  | 42 => ⟨S524288, .i32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288x1, .i32⟩
  | 59 => ⟨S524288x2, .i32⟩
  | 60 => ⟨S524288, .f32⟩
  | 61 => ⟨S_, .f32⟩
  | 62 => ⟨S524288, .f32⟩
  | 63 => ⟨S524288, .i1⟩
  | 64 => ⟨S_, .f32⟩
  | 65 => ⟨S524288, .f32⟩
  | 66 => ⟨S524288, .f32⟩
  | 67 => ⟨S2048x128, .f32⟩
  | 68 => ⟨S2048, .i32⟩
  | 69 => ⟨S526336, .i32⟩
  | 70 => ⟨S526336, .i32⟩
  | 71 => ⟨S_, .f32⟩
  | 72 => ⟨S2048, .f32⟩
  | 73 => ⟨S526336, .f32⟩
  | 74 => ⟨S_, .f32⟩
  | 75 => ⟨S2048, .f32⟩
  | 76 => ⟨S_, .i32⟩
  | 77 => ⟨S526336, .i32⟩
  | 78 => ⟨S526336, .i1⟩
  | 79 => ⟨S_, .i32⟩
  | 80 => ⟨S526336, .i32⟩
  | 81 => ⟨S526336, .i32⟩
  | 82 => ⟨S526336, .i32⟩
  | 83 => ⟨S526336x1, .i32⟩
  | 84 => ⟨S2048, .f32⟩
  | 85 => ⟨S_, .f32⟩
  | 86 => ⟨S2048, .f32⟩
  | 87 => ⟨S2048, .i1⟩
  | 88 => ⟨S_, .f32⟩
  | 89 => ⟨S2048, .f32⟩
  | 90 => ⟨S2048, .f32⟩
  | 91 => ⟨S2048, .f32⟩
  | 92 => ⟨S_, .f32⟩
  | 93 => ⟨S_, .f32⟩
  | 94 => ⟨S2048, .f32⟩
  | 95 => ⟨S2048, .f32⟩
  | 96 => ⟨S_, .i32⟩
  | 97 => ⟨S526336, .i32⟩
  | 98 => ⟨S526336, .i1⟩
  | 99 => ⟨S_, .i32⟩
  | 100 => ⟨S526336, .i32⟩
  | 101 => ⟨S526336, .i32⟩
  | 102 => ⟨S526336, .i32⟩
  | 103 => ⟨S526336x1, .i32⟩
  | 104 => ⟨S526336, .f32⟩
  | 105 => ⟨S526336, .f32⟩
  | 106 => ⟨S_, .i32⟩
  | 107 => ⟨S526336, .i32⟩
  | 108 => ⟨S526336, .i1⟩
  | 109 => ⟨S_, .i32⟩
  | 110 => ⟨S526336, .i32⟩
  | 111 => ⟨S526336, .i32⟩
  | 112 => ⟨S526336, .i32⟩
  | 113 => ⟨S526336x1, .i32⟩
  | 114 => ⟨S526336, .f32⟩
  | 115 => ⟨S526336, .f32⟩
  | 116 => ⟨S128x128, .f32⟩
  | 117 => ⟨S2048x128, .f32⟩
  | 118 => ⟨S_, .f32⟩
  | 119 => ⟨S2048x128, .f32⟩
  | 120 => ⟨S_, .i32⟩
  | 121 => ⟨S526336, .i32⟩
  | 122 => ⟨S526336, .i1⟩
  | 123 => ⟨S_, .i32⟩
  | 124 => ⟨S526336, .i32⟩
  | 125 => ⟨S526336, .i32⟩
  | 126 => ⟨S526336, .i32⟩
  | 127 => ⟨S526336x1, .i32⟩
  | _ => ⟨S8x256x128, .f32⟩

abbrev hbmTy0_2 (i : Nat) : BufTy := match i % 128 with
  | 0 => ⟨S526336x128, .f32⟩
  | 1 => ⟨S526336x1, .f32⟩
  | 2 => ⟨S526336x128, .f32⟩
  | 3 => ⟨S526336x128, .f32⟩
  | 4 => ⟨S_, .i32⟩
  | 5 => ⟨S526336, .i32⟩
  | 6 => ⟨S526336, .i1⟩
  | 7 => ⟨S_, .i32⟩
  | 8 => ⟨S526336, .i32⟩
  | 9 => ⟨S526336, .i32⟩
  | 10 => ⟨S526336, .i32⟩
  | 11 => ⟨S526336x1, .i32⟩
  | 12 => ⟨S2048x128, .f32⟩
  | 13 => ⟨S1x128, .f32⟩
  | 14 => ⟨S2048x128, .f32⟩
  | 15 => ⟨S2048x128, .f32⟩
  | 16 => ⟨S128x128, .f32⟩
  | 17 => ⟨S2048x128, .f32⟩
  | 18 => ⟨S1x128, .f32⟩
  | 19 => ⟨S2048x128, .f32⟩
  | 20 => ⟨S2048x128, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S2048x128, .f32⟩
  | 28 => ⟨S2048x128, .f32⟩
  | 29 => ⟨S2048x128, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S2048x128, .f32⟩
  | 37 => ⟨S2048x128, .f32⟩
  | 38 => ⟨S_, .f32⟩
  | 39 => ⟨S2048x1, .f32⟩
  | 40 => ⟨S2048x1, .f32⟩
  | 41 => ⟨S2048x1, .f32⟩
  | 42 => ⟨S2048x128, .f32⟩
  | 43 => ⟨S2048x128, .f32⟩
  | 44 => ⟨S1x128, .f32⟩
  | 45 => ⟨S2048x128, .f32⟩
  | 46 => ⟨S2048x128, .f32⟩
  | 47 => ⟨S1x128, .f32⟩
  | 48 => ⟨S2048x128, .f32⟩
  | 49 => ⟨S2048x128, .f32⟩
  | 50 => ⟨S_, .f32⟩
  | 51 => ⟨S2048x128, .f32⟩
  | 52 => ⟨S2048x128, .f32⟩
  | 53 => ⟨S2048, .i32⟩
  | 54 => ⟨S526336, .i32⟩
  | 55 => ⟨S526336, .i32⟩
  | 56 => ⟨S_, .f32⟩
  | 57 => ⟨S2048, .f32⟩
  | 58 => ⟨S526336, .f32⟩
  | 59 => ⟨S_, .f32⟩
  | 60 => ⟨S2048, .f32⟩
  | 61 => ⟨S_, .i32⟩
  | 62 => ⟨S526336, .i32⟩
  | 63 => ⟨S526336, .i1⟩
  | 64 => ⟨S_, .i32⟩
  | 65 => ⟨S526336, .i32⟩
  | 66 => ⟨S526336, .i32⟩
  | 67 => ⟨S526336, .i32⟩
  | 68 => ⟨S526336x1, .i32⟩
  | 69 => ⟨S2048, .f32⟩
  | 70 => ⟨S_, .f32⟩
  | 71 => ⟨S2048, .f32⟩
  | 72 => ⟨S2048, .i1⟩
  | 73 => ⟨S_, .f32⟩
  | 74 => ⟨S2048, .f32⟩
  | 75 => ⟨S2048, .f32⟩
  | 76 => ⟨S2048, .f32⟩
  | 77 => ⟨S_, .f32⟩
  | 78 => ⟨S_, .f32⟩
  | 79 => ⟨S2048, .f32⟩
  | 80 => ⟨S2048, .f32⟩
  | 81 => ⟨S_, .i32⟩
  | 82 => ⟨S526336, .i32⟩
  | 83 => ⟨S526336, .i1⟩
  | 84 => ⟨S_, .i32⟩
  | 85 => ⟨S526336, .i32⟩
  | 86 => ⟨S526336, .i32⟩
  | 87 => ⟨S526336, .i32⟩
  | 88 => ⟨S526336x1, .i32⟩
  | 89 => ⟨S526336, .f32⟩
  | 90 => ⟨S526336, .f32⟩
  | 91 => ⟨S_, .i32⟩
  | 92 => ⟨S526336, .i32⟩
  | 93 => ⟨S526336, .i1⟩
  | 94 => ⟨S_, .i32⟩
  | 95 => ⟨S526336, .i32⟩
  | 96 => ⟨S526336, .i32⟩
  | 97 => ⟨S526336, .i32⟩
  | 98 => ⟨S526336x1, .i32⟩
  | 99 => ⟨S526336, .f32⟩
  | 100 => ⟨S526336, .f32⟩
  | 101 => ⟨S128x128, .f32⟩
  | 102 => ⟨S2048x128, .f32⟩
  | 103 => ⟨S_, .f32⟩
  | 104 => ⟨S2048x128, .f32⟩
  | 105 => ⟨S_, .i32⟩
  | 106 => ⟨S526336, .i32⟩
  | 107 => ⟨S526336, .i1⟩
  | 108 => ⟨S_, .i32⟩
  | 109 => ⟨S526336, .i32⟩
  | 110 => ⟨S526336, .i32⟩
  | 111 => ⟨S526336, .i32⟩
  | 112 => ⟨S526336x1, .i32⟩
  | 113 => ⟨S526336x128, .f32⟩
  | 114 => ⟨S526336x1, .f32⟩
  | 115 => ⟨S526336x128, .f32⟩
  | 116 => ⟨S526336x128, .f32⟩
  | 117 => ⟨S_, .i32⟩
  | 118 => ⟨S526336, .i32⟩
  | 119 => ⟨S526336, .i1⟩
  | 120 => ⟨S_, .i32⟩
  | 121 => ⟨S526336, .i32⟩
  | 122 => ⟨S526336, .i32⟩
  | 123 => ⟨S526336, .i32⟩
  | 124 => ⟨S526336x1, .i32⟩
  | 125 => ⟨S2048x128, .f32⟩
  | 126 => ⟨S1x128, .f32⟩
  | 127 => ⟨S2048x128, .f32⟩
  | _ => ⟨S8x256x128, .f32⟩

abbrev hbmTy0_3 (i : Nat) : BufTy := match i % 128 with
  | 0 => ⟨S2048x128, .f32⟩
  | 1 => ⟨S128x128, .f32⟩
  | 2 => ⟨S2048x128, .f32⟩
  | 3 => ⟨S1x128, .f32⟩
  | 4 => ⟨S2048x128, .f32⟩
  | 5 => ⟨S2048x128, .f32⟩
  | 6 => ⟨S_, .f32⟩
  | 7 => ⟨S2048, .f32⟩
  | 8 => ⟨S2048x1, .f32⟩
  | 9 => ⟨S_, .f32⟩
  | 10 => ⟨S2048x1, .f32⟩
  | 11 => ⟨S2048x1, .f32⟩
  | 12 => ⟨S2048x128, .f32⟩
  | 13 => ⟨S2048x128, .f32⟩
  | 14 => ⟨S2048x128, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S2048x128, .f32⟩
  | 22 => ⟨S2048x128, .f32⟩
  | 23 => ⟨S_, .f32⟩
  | 24 => ⟨S2048x1, .f32⟩
  | 25 => ⟨S2048x1, .f32⟩
  | 26 => ⟨S2048x1, .f32⟩
  | 27 => ⟨S2048x128, .f32⟩
  | 28 => ⟨S2048x128, .f32⟩
  | 29 => ⟨S1x128, .f32⟩
  | 30 => ⟨S2048x128, .f32⟩
  | 31 => ⟨S2048x128, .f32⟩
  | 32 => ⟨S1x128, .f32⟩
  | 33 => ⟨S2048x128, .f32⟩
  | 34 => ⟨S2048x128, .f32⟩
  | 35 => ⟨S_, .f32⟩
  | 36 => ⟨S2048x128, .f32⟩
  | 37 => ⟨S2048x128, .f32⟩
  | 38 => ⟨S128x64, .f32⟩
  | 39 => ⟨S2048x64, .f32⟩
  | 40 => ⟨S1x64, .f32⟩
  | 41 => ⟨S2048x64, .f32⟩
  | 42 => ⟨S2048x64, .f32⟩
  | 43 => ⟨S8x256x64, .f32⟩
  | _ => ⟨S8x256x128, .f32⟩

abbrev hbmTy (i : Nat) : BufTy := match i / 128 with
  | 0 => hbmTy0_0 i
  | 1 => hbmTy0_1 i
  | 2 => hbmTy0_2 i
  | 3 => hbmTy0_3 i
  | _ => ⟨S8x256x128, .f32⟩

abbrev bufTy : (tb : Table) → Fin (tcTables nBuf tb) → BufTy
  | .hbm, ⟨i, _⟩ => hbmTy i
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_v27 : Ref sig .tc := ⟨.hbm, 53, rfl⟩
abbrev main_c_8 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_9 : Ref sig .tc := ⟨.hbm, 60, rfl⟩
abbrev main_v33 : Ref sig .tc := ⟨.hbm, 61, rfl⟩
abbrev main_c_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_11 : Ref sig .tc := ⟨.hbm, 68, rfl⟩
abbrev main_v39 : Ref sig .tc := ⟨.hbm, 69, rfl⟩
abbrev main_c_12 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_c_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_15 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_c : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_c_0 : Ref sig .tc := ⟨.hbm, 97, rfl⟩
abbrev main_call0_v12 : Ref sig .tc := ⟨.hbm, 98, rfl⟩
abbrev main_call0_v13 : Ref sig .tc := ⟨.hbm, 99, rfl⟩
abbrev main_v50 : Ref sig .tc := ⟨.hbm, 100, rfl⟩
abbrev main_c_16 : Ref sig .tc := ⟨.hbm, 101, rfl⟩
abbrev main_call1_v0 : Ref sig .tc := ⟨.hbm, 102, rfl⟩
abbrev main_call1_c : Ref sig .tc := ⟨.hbm, 103, rfl⟩
abbrev main_call1_v1 : Ref sig .tc := ⟨.hbm, 104, rfl⟩
abbrev main_call1_c_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_c_1 : Ref sig .tc := ⟨.hbm, 109, rfl⟩
abbrev main_call1_v5 : Ref sig .tc := ⟨.hbm, 110, rfl⟩
abbrev main_call1_v6 : Ref sig .tc := ⟨.hbm, 111, rfl⟩
abbrev main_call1_c_2 : Ref sig .tc := ⟨.hbm, 112, rfl⟩
abbrev main_call1_v7 : Ref sig .tc := ⟨.hbm, 113, rfl⟩
abbrev main_call1_v8 : Ref sig .tc := ⟨.hbm, 114, rfl⟩
abbrev main_call1_c_3 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_v12 : Ref sig .tc := ⟨.hbm, 119, rfl⟩
abbrev main_call1_v13 : Ref sig .tc := ⟨.hbm, 120, rfl⟩
abbrev main_call1_v14 : Ref sig .tc := ⟨.hbm, 121, rfl⟩
abbrev main_v51 : Ref sig .tc := ⟨.hbm, 122, rfl⟩
abbrev main_c_17 : Ref sig .tc := ⟨.hbm, 123, rfl⟩
abbrev main_v52 : Ref sig .tc := ⟨.hbm, 124, rfl⟩
abbrev main_v53 : Ref sig .tc := ⟨.hbm, 125, rfl⟩
abbrev main_c_18 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_c : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_0 : Ref sig .tc := ⟨.hbm, 140, rfl⟩
abbrev main_call2_v12 : Ref sig .tc := ⟨.hbm, 141, rfl⟩
abbrev main_call2_v13 : Ref sig .tc := ⟨.hbm, 142, rfl⟩
abbrev main_v54 : Ref sig .tc := ⟨.hbm, 143, rfl⟩
abbrev main_v55 : Ref sig .tc := ⟨.hbm, 144, rfl⟩
abbrev main_c_19 : Ref sig .tc := ⟨.hbm, 145, rfl⟩
abbrev main_v56 : Ref sig .tc := ⟨.hbm, 146, rfl⟩
abbrev main_v57 : Ref sig .tc := ⟨.hbm, 147, rfl⟩
abbrev main_c_20 : Ref sig .tc := ⟨.hbm, 148, rfl⟩
abbrev main_call3_v0 : Ref sig .tc := ⟨.hbm, 149, rfl⟩
abbrev main_call3_c : Ref sig .tc := ⟨.hbm, 150, rfl⟩
abbrev main_call3_v1 : Ref sig .tc := ⟨.hbm, 151, rfl⟩
abbrev main_call3_c_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_c_1 : Ref sig .tc := ⟨.hbm, 156, rfl⟩
abbrev main_call3_v5 : Ref sig .tc := ⟨.hbm, 157, rfl⟩
abbrev main_call3_v6 : Ref sig .tc := ⟨.hbm, 158, rfl⟩
abbrev main_call3_c_2 : Ref sig .tc := ⟨.hbm, 159, rfl⟩
abbrev main_call3_v7 : Ref sig .tc := ⟨.hbm, 160, rfl⟩
abbrev main_call3_v8 : Ref sig .tc := ⟨.hbm, 161, rfl⟩
abbrev main_call3_c_3 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_v12 : Ref sig .tc := ⟨.hbm, 166, rfl⟩
abbrev main_call3_v13 : Ref sig .tc := ⟨.hbm, 167, rfl⟩
abbrev main_call3_v14 : Ref sig .tc := ⟨.hbm, 168, rfl⟩
abbrev main_v58 : Ref sig .tc := ⟨.hbm, 169, rfl⟩
abbrev main_v59 : Ref sig .tc := ⟨.hbm, 170, rfl⟩
abbrev main_c_21 : Ref sig .tc := ⟨.hbm, 171, rfl⟩
abbrev main_v60 : Ref sig .tc := ⟨.hbm, 172, rfl⟩
abbrev main_v61 : Ref sig .tc := ⟨.hbm, 173, rfl⟩
abbrev main_c_22 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_c_23 : Ref sig .tc := ⟨.hbm, 178, rfl⟩
abbrev main_v65 : Ref sig .tc := ⟨.hbm, 179, rfl⟩
abbrev main_v66 : Ref sig .tc := ⟨.hbm, 180, rfl⟩
abbrev main_c_24 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_cst_25 : Ref sig .tc := ⟨.hbm, 189, rfl⟩
abbrev main_v74 : Ref sig .tc := ⟨.hbm, 190, rfl⟩
abbrev main_v75 : Ref sig .tc := ⟨.hbm, 191, rfl⟩
abbrev main_cst_26 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_cst_27 : Ref sig .tc := ⟨.hbm, 199, rfl⟩
abbrev main_v82 : Ref sig .tc := ⟨.hbm, 200, rfl⟩
abbrev main_v83 : Ref sig .tc := ⟨.hbm, 201, rfl⟩
abbrev main_cst_28 : Ref sig .tc := ⟨.hbm, 202, rfl⟩
abbrev main_v84 : Ref sig .tc := ⟨.hbm, 203, rfl⟩
abbrev main_c_29 : Ref sig .tc := ⟨.hbm, 204, rfl⟩
abbrev main_v85 : Ref sig .tc := ⟨.hbm, 205, rfl⟩
abbrev main_v86 : Ref sig .tc := ⟨.hbm, 206, rfl⟩
abbrev main_c_30 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_cst_31 : Ref sig .tc := ⟨.hbm, 213, rfl⟩
abbrev main_v92 : Ref sig .tc := ⟨.hbm, 214, rfl⟩
abbrev main_v93 : Ref sig .tc := ⟨.hbm, 215, rfl⟩
abbrev main_cst_32 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_cst_33 : Ref sig .tc := ⟨.hbm, 220, rfl⟩
abbrev main_call5_v0 : Ref sig .tc := ⟨.hbm, 221, rfl⟩
abbrev main_call5_v1 : Ref sig .tc := ⟨.hbm, 222, rfl⟩
abbrev main_v97 : Ref sig .tc := ⟨.hbm, 223, rfl⟩
abbrev main_c_34 : Ref sig .tc := ⟨.hbm, 224, rfl⟩
abbrev main_v98 : Ref sig .tc := ⟨.hbm, 225, rfl⟩
abbrev main_v99 : Ref sig .tc := ⟨.hbm, 226, rfl⟩
abbrev main_c_35 : Ref sig .tc := ⟨.hbm, 227, rfl⟩
abbrev main_v100 : Ref sig .tc := ⟨.hbm, 228, rfl⟩
abbrev main_v101 : Ref sig .tc := ⟨.hbm, 229, rfl⟩
abbrev main_v102 : Ref sig .tc := ⟨.hbm, 230, rfl⟩
abbrev main_v103 : Ref sig .tc := ⟨.hbm, 231, rfl⟩
abbrev main_v104 : Ref sig .tc := ⟨.hbm, 232, rfl⟩
abbrev main_v105 : Ref sig .tc := ⟨.hbm, 233, rfl⟩
abbrev main_c_36 : Ref sig .tc := ⟨.hbm, 234, rfl⟩
abbrev main_v106 : Ref sig .tc := ⟨.hbm, 235, rfl⟩
abbrev main_v107 : Ref sig .tc := ⟨.hbm, 236, rfl⟩
abbrev main_c_37 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_cst_38 : Ref sig .tc := ⟨.hbm, 246, rfl⟩
abbrev main_v116 : Ref sig .tc := ⟨.hbm, 247, rfl⟩
abbrev main_c_39 : Ref sig .tc := ⟨.hbm, 248, rfl⟩
abbrev main_v117 : Ref sig .tc := ⟨.hbm, 249, rfl⟩
abbrev main_v118 : Ref sig .tc := ⟨.hbm, 250, rfl⟩
abbrev main_c_40 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_v126 : Ref sig .tc := ⟨.hbm, 259, rfl⟩
abbrev main_c_41 : Ref sig .tc := ⟨.hbm, 260, rfl⟩
abbrev main_v127 : Ref sig .tc := ⟨.hbm, 261, rfl⟩
abbrev main_v128 : Ref sig .tc := ⟨.hbm, 262, rfl⟩
abbrev main_c_42 : Ref sig .tc := ⟨.hbm, 263, rfl⟩
abbrev main_v129 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_v134 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_cst_43 : Ref sig .tc := ⟨.hbm, 277, rfl⟩
abbrev main_v142 : Ref sig .tc := ⟨.hbm, 278, rfl⟩
abbrev main_v143 : Ref sig .tc := ⟨.hbm, 279, rfl⟩
abbrev main_cst_44 : Ref sig .tc := ⟨.hbm, 280, rfl⟩
abbrev main_v144 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_v148 : Ref sig .tc := ⟨.hbm, 285, rfl⟩
abbrev main_cst_45 : Ref sig .tc := ⟨.hbm, 286, rfl⟩
abbrev main_v149 : Ref sig .tc := ⟨.hbm, 287, rfl⟩
abbrev main_v150 : Ref sig .tc := ⟨.hbm, 288, rfl⟩
abbrev main_cst_46 : Ref sig .tc := ⟨.hbm, 289, rfl⟩
abbrev main_v151 : Ref sig .tc := ⟨.hbm, 290, rfl⟩
abbrev main_v152 : Ref sig .tc := ⟨.hbm, 291, rfl⟩
abbrev main_v153 : Ref sig .tc := ⟨.hbm, 292, rfl⟩
abbrev main_v154 : Ref sig .tc := ⟨.hbm, 293, rfl⟩
abbrev main_cst_47 : Ref sig .tc := ⟨.hbm, 294, rfl⟩
abbrev main_v155 : Ref sig .tc := ⟨.hbm, 295, rfl⟩
abbrev main_v156 : Ref sig .tc := ⟨.hbm, 296, rfl⟩
abbrev main_v157 : Ref sig .tc := ⟨.hbm, 297, rfl⟩
abbrev main_v158 : Ref sig .tc := ⟨.hbm, 298, rfl⟩
abbrev main_v159 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_v165 : Ref sig .tc := ⟨.hbm, 305, rfl⟩
abbrev main_call6_cst : Ref sig .tc := ⟨.hbm, 306, rfl⟩
abbrev main_call6_v0 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_cst_48 : Ref sig .tc := ⟨.hbm, 312, rfl⟩
abbrev main_v170 : Ref sig .tc := ⟨.hbm, 313, rfl⟩
abbrev main_v171 : Ref sig .tc := ⟨.hbm, 314, rfl⟩
abbrev main_cst_49 : Ref sig .tc := ⟨.hbm, 315, rfl⟩
abbrev main_v172 : Ref sig .tc := ⟨.hbm, 316, rfl⟩
abbrev main_c_50 : Ref sig .tc := ⟨.hbm, 317, rfl⟩
abbrev main_v173 : Ref sig .tc := ⟨.hbm, 318, rfl⟩
abbrev main_v174 : Ref sig .tc := ⟨.hbm, 319, rfl⟩
abbrev main_c_51 : Ref sig .tc := ⟨.hbm, 320, rfl⟩
abbrev main_v175 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_cst_52 : Ref sig .tc := ⟨.hbm, 326, rfl⟩
abbrev main_v180 : Ref sig .tc := ⟨.hbm, 327, rfl⟩
abbrev main_v181 : Ref sig .tc := ⟨.hbm, 328, rfl⟩
abbrev main_cst_53 : Ref sig .tc := ⟨.hbm, 329, rfl⟩
abbrev main_v182 : Ref sig .tc := ⟨.hbm, 330, rfl⟩
abbrev main_v183 : Ref sig .tc := ⟨.hbm, 331, rfl⟩
abbrev main_v184 : Ref sig .tc := ⟨.hbm, 332, rfl⟩
abbrev main_cst_54 : Ref sig .tc := ⟨.hbm, 333, rfl⟩
abbrev main_call7_v0 : Ref sig .tc := ⟨.hbm, 334, rfl⟩
abbrev main_call7_v1 : Ref sig .tc := ⟨.hbm, 335, rfl⟩
abbrev main_v185 : Ref sig .tc := ⟨.hbm, 336, rfl⟩
abbrev main_c_55 : Ref sig .tc := ⟨.hbm, 337, rfl⟩
abbrev main_v186 : Ref sig .tc := ⟨.hbm, 338, rfl⟩
abbrev main_v187 : Ref sig .tc := ⟨.hbm, 339, rfl⟩
abbrev main_c_56 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_v193 : Ref sig .tc := ⟨.hbm, 346, rfl⟩
abbrev main_c_57 : Ref sig .tc := ⟨.hbm, 347, rfl⟩
abbrev main_v194 : Ref sig .tc := ⟨.hbm, 348, rfl⟩
abbrev main_v195 : Ref sig .tc := ⟨.hbm, 349, rfl⟩
abbrev main_c_58 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_v200 : Ref sig .tc := ⟨.hbm, 355, rfl⟩
abbrev main_v201 : Ref sig .tc := ⟨.hbm, 356, rfl⟩
abbrev main_v202 : Ref sig .tc := ⟨.hbm, 357, rfl⟩
abbrev main_v203 : Ref sig .tc := ⟨.hbm, 358, rfl⟩
abbrev main_cst_59 : Ref sig .tc := ⟨.hbm, 359, rfl⟩
abbrev main_v204 : Ref sig .tc := ⟨.hbm, 360, rfl⟩
abbrev main_c_60 : Ref sig .tc := ⟨.hbm, 361, rfl⟩
abbrev main_v205 : Ref sig .tc := ⟨.hbm, 362, rfl⟩
abbrev main_v206 : Ref sig .tc := ⟨.hbm, 363, rfl⟩
abbrev main_c_61 : Ref sig .tc := ⟨.hbm, 364, rfl⟩
abbrev main_v207 : Ref sig .tc := ⟨.hbm, 365, rfl⟩
abbrev main_v208 : Ref sig .tc := ⟨.hbm, 366, rfl⟩
abbrev main_v209 : Ref sig .tc := ⟨.hbm, 367, rfl⟩
abbrev main_v210 : Ref sig .tc := ⟨.hbm, 368, rfl⟩
abbrev main_v211 : Ref sig .tc := ⟨.hbm, 369, rfl⟩
abbrev main_v212 : Ref sig .tc := ⟨.hbm, 370, rfl⟩
abbrev main_v213 : Ref sig .tc := ⟨.hbm, 371, rfl⟩
abbrev main_v214 : Ref sig .tc := ⟨.hbm, 372, rfl⟩
abbrev main_c_62 : Ref sig .tc := ⟨.hbm, 373, rfl⟩
abbrev main_v215 : Ref sig .tc := ⟨.hbm, 374, rfl⟩
abbrev main_v216 : Ref sig .tc := ⟨.hbm, 375, rfl⟩
abbrev main_c_63 : Ref sig .tc := ⟨.hbm, 376, rfl⟩
abbrev main_v217 : Ref sig .tc := ⟨.hbm, 377, rfl⟩
abbrev main_v218 : Ref sig .tc := ⟨.hbm, 378, rfl⟩
abbrev main_v219 : Ref sig .tc := ⟨.hbm, 379, rfl⟩
abbrev main_v220 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_v224 : Ref sig .tc := ⟨.hbm, 384, rfl⟩
abbrev main_v225 : Ref sig .tc := ⟨.hbm, 385, rfl⟩
abbrev main_v226 : Ref sig .tc := ⟨.hbm, 386, rfl⟩
abbrev main_v227 : Ref sig .tc := ⟨.hbm, 387, rfl⟩
abbrev main_v228 : Ref sig .tc := ⟨.hbm, 388, rfl⟩
abbrev main_v229 : Ref sig .tc := ⟨.hbm, 389, rfl⟩
abbrev main_cst_64 : Ref sig .tc := ⟨.hbm, 390, rfl⟩
abbrev main_v230 : Ref sig .tc := ⟨.hbm, 391, rfl⟩
abbrev main_v231 : Ref sig .tc := ⟨.hbm, 392, rfl⟩
abbrev main_cst_65 : Ref sig .tc := ⟨.hbm, 393, rfl⟩
abbrev main_v232 : Ref sig .tc := ⟨.hbm, 394, rfl⟩
abbrev main_v233 : Ref sig .tc := ⟨.hbm, 395, rfl⟩
abbrev main_v234 : Ref sig .tc := ⟨.hbm, 396, rfl⟩
abbrev main_v235 : Ref sig .tc := ⟨.hbm, 397, rfl⟩
abbrev main_v236 : Ref sig .tc := ⟨.hbm, 398, rfl⟩
abbrev main_cst_66 : Ref sig .tc := ⟨.hbm, 399, rfl⟩
abbrev main_v237 : Ref sig .tc := ⟨.hbm, 400, rfl⟩
abbrev main_v238 : Ref sig .tc := ⟨.hbm, 401, rfl⟩
abbrev main_cst_67 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_v242 : Ref sig .tc := ⟨.hbm, 406, rfl⟩
abbrev main_cst_68 : Ref sig .tc := ⟨.hbm, 407, rfl⟩
abbrev main_v243 : Ref sig .tc := ⟨.hbm, 408, rfl⟩
abbrev main_v244 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_v248 : Ref sig .tc := ⟨.hbm, 413, rfl⟩
abbrev main_v249 : Ref sig .tc := ⟨.hbm, 414, rfl⟩
abbrev main_v250 : Ref sig .tc := ⟨.hbm, 415, rfl⟩
abbrev main_v251 : Ref sig .tc := ⟨.hbm, 416, rfl⟩
abbrev main_v252 : Ref sig .tc := ⟨.hbm, 417, rfl⟩
abbrev main_v253 : Ref sig .tc := ⟨.hbm, 418, rfl⟩
abbrev main_call8_cst : Ref sig .tc := ⟨.hbm, 419, rfl⟩
abbrev main_call8_v0 : Ref sig .tc := ⟨.hbm, 420, rfl⟩
abbrev main_v254 : Ref sig .tc := ⟨.hbm, 421, rfl⟩
abbrev main_v255 : Ref sig .tc := ⟨.hbm, 422, rfl⟩
abbrev main_v256 : Ref sig .tc := ⟨.hbm, 423, rfl⟩
abbrev main_v257 : Ref sig .tc := ⟨.hbm, 424, rfl⟩
abbrev main_v258 : Ref sig .tc := ⟨.hbm, 425, rfl⟩
abbrev main_v259 : Ref sig .tc := ⟨.hbm, 426, rfl⟩
abbrev main_v260 : Ref sig .tc := ⟨.hbm, 427, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  slices_S8x256x256_S1x256x256_0_0_0 : S8x256x256.Slices ![0, 0, 0] S1x256x256
  shapeCasts_S1x256x256_S256x256 : S1x256x256.ShapeCasts S256x256
  bcast_S_S1 : S_.BroadcastsInDim S1 (![] : Fin 0 → Fin S1.rank)
  concatenates_S1_S1_S2_d0 : Shape.Concatenates [S1, S1] S2 0
  slices_S8x256x256_S1x256x256_1_0_0 : S8x256x256.Slices ![1, 0, 0] S1x256x256
  slices_S8x256x256_S1x256x256_2_0_0 : S8x256x256.Slices ![2, 0, 0] S1x256x256
  slices_S8x256x256_S1x256x256_3_0_0 : S8x256x256.Slices ![3, 0, 0] S1x256x256
  slices_S8x256x256_S1x256x256_4_0_0 : S8x256x256.Slices ![4, 0, 0] S1x256x256
  slices_S8x256x256_S1x256x256_5_0_0 : S8x256x256.Slices ![5, 0, 0] S1x256x256
  slices_S8x256x256_S1x256x256_6_0_0 : S8x256x256.Slices ![6, 0, 0] S1x256x256
  slices_S8x256x256_S1x256x256_7_0_0 : S8x256x256.Slices ![7, 0, 0] S1x256x256
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  shapeCasts_S8x256x128_S2048x128 : S8x256x128.ShapeCasts S2048x128
  concatenates_S524288_S2048_S526336_d0 : Shape.Concatenates [S524288, S2048] S526336 0
  bcast_S_S2048 : S_.BroadcastsInDim S2048 (![] : Fin 0 → Fin S2048.rank)
  bcast_S_S526336 : S_.BroadcastsInDim S526336 (![] : Fin 0 → Fin S526336.rank)
  bcast_S526336_S526336x1_0 : S526336.BroadcastsInDim S526336x1 (![0] : Fin 1 → Fin S526336x1.rank)
  transposes_S128x128_S128x128_1_0 : S128x128.Transposes [1, 0] S128x128
  bcast_S_S2048x128 : S_.BroadcastsInDim S2048x128 (![] : Fin 0 → Fin S2048x128.rank)
  bcast_S526336x1_S526336x128_0_1 : S526336x1.BroadcastsInDim S526336x128 (![0, 1] : Fin 2 → Fin S526336x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  transposes_S64x128_S128x64_1_0 : S64x128.Transposes [1, 0] S128x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  shapeCasts_S2048x64_S8x256x64 : S2048x64.ShapeCasts S8x256x64
  scatter_S2048x2048_S2_S256x256_01_n_01_0_wf : ScatterDims.WF S2048x2048 S2 S256x256 [0, 1] [] [0, 1] 0
  gather_S2048x2048_S524288x2_S524288_n_01_n_n_01_1_11_wf : GatherDims.WF S2048x2048 S524288x2 S524288 [] [0, 1] [] [0, 1] [] 1 ![1, 1]
  scatter_S2048_S526336x1_S526336_n_0_0_1_wf : ScatterDims.WF S2048 S526336x1 S526336 [] [0] [0] 1
  gather_S2048_S526336x1_S526336_n_0_n_n_0_1_1_wf : GatherDims.WF S2048 S526336x1 S526336 [] [0] [] [0] [] 1 ![1]
  dot_S2048x128_S128x128_S2048x128_1_0_0_1_n_n_wf : DotDims.WF S2048x128 S128x128 S2048x128 [1] [0] [0] [1] [] []
  gather_S2048x128_S526336x1_S526336x128_1_0_n_n_0_1_1128_wf : GatherDims.WF S2048x128 S526336x1 S526336x128 [1] [0] [] [0] [] 1 ![1, 128]
  scatter_S2048x128_S526336x1_S526336x128_1_0_0_1_wf : ScatterDims.WF S2048x128 S526336x1 S526336x128 [1] [0] [0] 1
  dot_S2048x128_S128x64_S2048x64_1_0_0_1_n_n_wf : DotDims.WF S2048x128 S128x64 S2048x64 [1] [0] [0] [1] [] []

variable [Facts₀]

def scatter_S2048x2048_S2_S256x256_01_n_01_0 : ScatterDims S2048x2048 S2 S256x256 where
  updateWindowDims := [0, 1]
  insertedWindowDims := []
  scatterDimsToOperandDims := [0, 1]
  indexVectorDim := 0
  wf := scatter_S2048x2048_S2_S256x256_01_n_01_0_wf
def gather_S2048x2048_S524288x2_S524288_n_01_n_n_01_1_11 : GatherDims S2048x2048 S524288x2 S524288 where
  offsetDims := []
  collapsedSliceDims := [0, 1]
  operandBatchingDims := []
  startIndicesBatchingDims := []
  startIndexMap := [0, 1]
  indexVectorDim := 1
  sliceSizes := ![1, 1]
  wf := gather_S2048x2048_S524288x2_S524288_n_01_n_n_01_1_11_wf
def scatter_S2048_S526336x1_S526336_n_0_0_1 : ScatterDims S2048 S526336x1 S526336 where
  updateWindowDims := []
  insertedWindowDims := [0]
  scatterDimsToOperandDims := [0]
  indexVectorDim := 1
  wf := scatter_S2048_S526336x1_S526336_n_0_0_1_wf
def gather_S2048_S526336x1_S526336_n_0_n_n_0_1_1 : GatherDims S2048 S526336x1 S526336 where
  offsetDims := []
  collapsedSliceDims := [0]
  operandBatchingDims := []
  startIndicesBatchingDims := []
  startIndexMap := [0]
  indexVectorDim := 1
  sliceSizes := ![1]
  wf := gather_S2048_S526336x1_S526336_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S526336x1_S526336x128_1_0_n_n_0_1_1128 : GatherDims S2048x128 S526336x1 S526336x128 where
  offsetDims := [1]
  collapsedSliceDims := [0]
  operandBatchingDims := []
  startIndicesBatchingDims := []
  startIndexMap := [0]
  indexVectorDim := 1
  sliceSizes := ![1, 128]
  wf := gather_S2048x128_S526336x1_S526336x128_1_0_n_n_0_1_1128_wf
def scatter_S2048x128_S526336x1_S526336x128_1_0_0_1 : ScatterDims S2048x128 S526336x1 S526336x128 where
  updateWindowDims := [1]
  insertedWindowDims := [0]
  scatterDimsToOperandDims := [0]
  indexVectorDim := 1
  wf := scatter_S2048x128_S526336x1_S526336x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

class Facts : Prop extends Facts₀ where

variable [Facts]
-- ==== Proof.LibHostLine.lean ====
/-
  Two small facts about straight-line host programs, used by every window of the reference:
  an operation that writes exactly one buffer writes inside any list that names that buffer, and
  a list of operations none of which allocates has no operation that allocates.
-/
import Idealize.ShloMosaic.Lib.StableHlo.Run

namespace Idealize.ShloMosaic.StableHlo

variable {τ : Topo} {sig : RefSig}

/-- The one-buffer set `{y}` lies inside the set of the buffers a list names, when the list names `y`. -/
theorem singleton_sub_written {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Writing inside `W₁` is writing inside `W₁ ++ W₂`, and inside `W₀ ++ W₁`. -/
theorem written_mono_left {Val : EltTy → Type} {W₁ W₂ : List (Ref sig .tc)} {ops : List (HloOp τ sig Val)}
    (h : ops.Forall fun op => op.writes ⊆ (W₁.map (Proc.devRef (τ := τ) .tc)).toFinset) :
    ops.Forall fun op => op.writes ⊆ ((W₁ ++ W₂).map (Proc.devRef (τ := τ) .tc)).toFinset :=
  List.forall_iff_forall_mem.mpr fun op hop => (List.forall_iff_forall_mem.mp h op hop).trans (by
    intro x hx
    rw [List.mem_toFinset, List.map_append, List.mem_append]
    exact Or.inl (List.mem_toFinset.mp hx))

theorem written_mono_right {Val : EltTy → Type} {W₀ W₁ : List (Ref sig .tc)} {ops : List (HloOp τ sig Val)}
    (h : ops.Forall fun op => op.writes ⊆ (W₁.map (Proc.devRef (τ := τ) .tc)).toFinset) :
    ops.Forall fun op => op.writes ⊆ ((W₀ ++ W₁).map (Proc.devRef (τ := τ) .tc)).toFinset :=
  List.forall_iff_forall_mem.mpr fun op hop => (List.forall_iff_forall_mem.mp h op hop).trans (by
    intro x hx
    rw [List.mem_toFinset, List.map_append, List.mem_append]
    exact Or.inr (List.mem_toFinset.mp hx))

end Idealize.ShloMosaic.StableHlo
-- ==== Proof.HostWindow0.lean ====
/-
  Window 0 of the reference's host program, read as a list of operations: the zero 2048×2048 array and the first seven graphs' adjacency blocks written on its diagonal.
  Every line of the window is one host operation writing one buffer of its own; a helper function
  (the floored quotient, the remainder, a selection, the rectifier) is its body's operations written
  at the place of the call, over the buffers that call owns.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 0, in program order. -/
abbrev ops0 : List (HloOp τ sig (Elt F)) :=
  [ StableHlo.nullary main_cst (constant S_ .f32 0x00000000#32),
    StableHlo.unary main_cst main_v0 (broadcastInDim S2048x2048 ![] bcast_S_S2048x2048 : (⟨S_, .f32⟩ : BufTy).Contents (Elt F) → (⟨S2048x2048, .f32⟩ : BufTy).Contents (Elt F)),
    StableHlo.unary main_arg1 main_v1 ((extractStridedSlice S1x256x256 ![0, 0, 0] · slices_S8x256x256_S1x256x256_0_0_0) : (⟨S8x256x256, .f32⟩ : BufTy).Contents (Elt F) → (⟨S1x256x256, .f32⟩ : BufTy).Contents (Elt F)),
    StableHlo.reshape main_v1 main_v2 rfl shapeCasts_S1x256x256_S256x256,
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 0#32),
    StableHlo.unary main_c_0 main_v4 (broadcastInDim S1 ![] bcast_S_S1 : (⟨S_, .i32⟩ : BufTy).Contents (Elt F) → (⟨S1, .i32⟩ : BufTy).Contents (Elt F)),
    StableHlo.binary main_v3 main_v4 main_v5 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v0 main_v5 main_v2 main_v6 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v7 ((extractStridedSlice S1x256x256 ![1, 0, 0] · slices_S8x256x256_S1x256x256_1_0_0) : (⟨S8x256x256, .f32⟩ : BufTy).Contents (Elt F) → (⟨S1x256x256, .f32⟩ : BufTy).Contents (Elt F)),
    StableHlo.reshape main_v7 main_v8 rfl shapeCasts_S1x256x256_S256x256,
    StableHlo.nullary main_c_1 (constantI S_ 32 256#32),
    StableHlo.unary main_c_1 main_v9 (broadcastInDim S1 ![] bcast_S_S1 : (⟨S_, .i32⟩ : BufTy).Contents (Elt F) → (⟨S1, .i32⟩ : BufTy).Contents (Elt F)),
    StableHlo.nullary main_c_2 (constantI S_ 32 256#32),
    StableHlo.unary main_c_2 main_v10 (broadcastInDim S1 ![] bcast_S_S1 : (⟨S_, .i32⟩ : BufTy).Contents (Elt F) → (⟨S1, .i32⟩ : BufTy).Contents (Elt F)),
    StableHlo.binary main_v9 main_v10 main_v11 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v6 main_v11 main_v8 main_v12 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v13 ((extractStridedSlice S1x256x256 ![2, 0, 0] · slices_S8x256x256_S1x256x256_2_0_0) : (⟨S8x256x256, .f32⟩ : BufTy).Contents (Elt F) → (⟨S1x256x256, .f32⟩ : BufTy).Contents (Elt F)),
    StableHlo.reshape main_v13 main_v14 rfl shapeCasts_S1x256x256_S256x256,
    StableHlo.nullary main_c_3 (constantI S_ 32 512#32),
    StableHlo.unary main_c_3 main_v15 (broadcastInDim S1 ![] bcast_S_S1 : (⟨S_, .i32⟩ : BufTy).Contents (Elt F) → (⟨S1, .i32⟩ : BufTy).Contents (Elt F)),
    StableHlo.nullary main_c_4 (constantI S_ 32 512#32),
    StableHlo.unary main_c_4 main_v16 (broadcastInDim S1 ![] bcast_S_S1 : (⟨S_, .i32⟩ : BufTy).Contents (Elt F) → (⟨S1, .i32⟩ : BufTy).Contents (Elt F)),
    StableHlo.binary main_v15 main_v16 main_v17 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v12 main_v17 main_v14 main_v18 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v19 ((extractStridedSlice S1x256x256 ![3, 0, 0] · slices_S8x256x256_S1x256x256_3_0_0) : (⟨S8x256x256, .f32⟩ : BufTy).Contents (Elt F) → (⟨S1x256x256, .f32⟩ : BufTy).Contents (Elt F)),
    StableHlo.reshape main_v19 main_v20 rfl shapeCasts_S1x256x256_S256x256,
    StableHlo.nullary main_c_5 (constantI S_ 32 768#32),
    StableHlo.unary main_c_5 main_v21 (broadcastInDim S1 ![] bcast_S_S1 : (⟨S_, .i32⟩ : BufTy).Contents (Elt F) → (⟨S1, .i32⟩ : BufTy).Contents (Elt F)),
    StableHlo.nullary main_c_6 (constantI S_ 32 768#32),
    StableHlo.unary main_c_6 main_v22 (broadcastInDim S1 ![] bcast_S_S1 : (⟨S_, .i32⟩ : BufTy).Contents (Elt F) → (⟨S1, .i32⟩ : BufTy).Contents (Elt F)),
    StableHlo.binary main_v21 main_v22 main_v23 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v18 main_v23 main_v20 main_v24 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v25 ((extractStridedSlice S1x256x256 ![4, 0, 0] · slices_S8x256x256_S1x256x256_4_0_0) : (⟨S8x256x256, .f32⟩ : BufTy).Contents (Elt F) → (⟨S1x256x256, .f32⟩ : BufTy).Contents (Elt F)),
    StableHlo.reshape main_v25 main_v26 rfl shapeCasts_S1x256x256_S256x256,
    StableHlo.nullary main_c_7 (constantI S_ 32 1024#32),
    StableHlo.unary main_c_7 main_v27 (broadcastInDim S1 ![] bcast_S_S1 : (⟨S_, .i32⟩ : BufTy).Contents (Elt F) → (⟨S1, .i32⟩ : BufTy).Contents (Elt F)),
    StableHlo.nullary main_c_8 (constantI S_ 32 1024#32),
    StableHlo.unary main_c_8 main_v28 (broadcastInDim S1 ![] bcast_S_S1 : (⟨S_, .i32⟩ : BufTy).Contents (Elt F) → (⟨S1, .i32⟩ : BufTy).Contents (Elt F)),
    StableHlo.binary main_v27 main_v28 main_v29 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v24 main_v29 main_v26 main_v30 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v31 ((extractStridedSlice S1x256x256 ![5, 0, 0] · slices_S8x256x256_S1x256x256_5_0_0) : (⟨S8x256x256, .f32⟩ : BufTy).Contents (Elt F) → (⟨S1x256x256, .f32⟩ : BufTy).Contents (Elt F)),
    StableHlo.reshape main_v31 main_v32 rfl shapeCasts_S1x256x256_S256x256,
    StableHlo.nullary main_c_9 (constantI S_ 32 1280#32),
    StableHlo.unary main_c_9 main_v33 (broadcastInDim S1 ![] bcast_S_S1 : (⟨S_, .i32⟩ : BufTy).Contents (Elt F) → (⟨S1, .i32⟩ : BufTy).Contents (Elt F)),
    StableHlo.nullary main_c_10 (constantI S_ 32 1280#32),
    StableHlo.unary main_c_10 main_v34 (broadcastInDim S1 ![] bcast_S_S1 : (⟨S_, .i32⟩ : BufTy).Contents (Elt F) → (⟨S1, .i32⟩ : BufTy).Contents (Elt F)),
    StableHlo.binary main_v33 main_v34 main_v35 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v30 main_v35 main_v32 main_v36 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v37 ((extractStridedSlice S1x256x256 ![6, 0, 0] · slices_S8x256x256_S1x256x256_6_0_0) : (⟨S8x256x256, .f32⟩ : BufTy).Contents (Elt F) → (⟨S1x256x256, .f32⟩ : BufTy).Contents (Elt F)),
    StableHlo.reshape main_v37 main_v38 rfl shapeCasts_S1x256x256_S256x256,
    StableHlo.nullary main_c_11 (constantI S_ 32 1536#32),
    StableHlo.unary main_c_11 main_v39 (broadcastInDim S1 ![] bcast_S_S1 : (⟨S_, .i32⟩ : BufTy).Contents (Elt F) → (⟨S1, .i32⟩ : BufTy).Contents (Elt F)),
    StableHlo.nullary main_c_12 (constantI S_ 32 1536#32),
    StableHlo.unary main_c_12 main_v40 (broadcastInDim S1 ![] bcast_S_S1 : (⟨S_, .i32⟩ : BufTy).Contents (Elt F) → (⟨S1, .i32⟩ : BufTy).Contents (Elt F)),
    StableHlo.binary main_v39 main_v40 main_v41 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v36 main_v41 main_v38 main_v42 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v43 ((extractStridedSlice S1x256x256 ![7, 0, 0] · slices_S8x256x256_S1x256x256_7_0_0) : (⟨S8x256x256, .f32⟩ : BufTy).Contents (Elt F) → (⟨S1x256x256, .f32⟩ : BufTy).Contents (Elt F)),
    StableHlo.reshape main_v43 main_v44 rfl shapeCasts_S1x256x256_S256x256 ]

set_option maxRecDepth 16384 in
set_option maxHeartbeats 4000000 in
/-- The window is that straight line: helper functions opened at their calls, sequencing re-associated. -/
theorem part_eq0 (c : Dev nD) : main_part0 (F := F) c = seq ops0 := by
  simp only [main_part0, fn_where.body, fn_floor_divide.body, fn_where_0.body, fn_remainder.body, fn_where_1.body, fn_where_2.body, fn_relu.body, seq, bind_assoc, pure_bind] <;> rfl

/-- Every operation of the window touches TensorCore buffers only. -/
theorem ops0_sub : (ops0 : List (HloOp τ sig (Elt F))).Forall fun op => op.bufs ⊆ tcRefs τ sig :=
  ⟨nullary_bufs_sub .., unary_bufs_sub .., unary_bufs_sub .., reshape_bufs_sub .., nullary_bufs_sub .., unary_bufs_sub ..,
    nullary_bufs_sub .., unary_bufs_sub .., binary_bufs_sub .., ternary_bufs_sub .., unary_bufs_sub .., reshape_bufs_sub ..,
    nullary_bufs_sub .., unary_bufs_sub .., nullary_bufs_sub .., unary_bufs_sub .., binary_bufs_sub .., ternary_bufs_sub ..,
    unary_bufs_sub .., reshape_bufs_sub .., nullary_bufs_sub .., unary_bufs_sub .., nullary_bufs_sub .., unary_bufs_sub ..,
    binary_bufs_sub .., ternary_bufs_sub .., unary_bufs_sub .., reshape_bufs_sub .., nullary_bufs_sub .., unary_bufs_sub ..,
    nullary_bufs_sub .., unary_bufs_sub .., binary_bufs_sub .., ternary_bufs_sub .., unary_bufs_sub .., reshape_bufs_sub ..,
    nullary_bufs_sub .., unary_bufs_sub .., nullary_bufs_sub .., unary_bufs_sub .., binary_bufs_sub .., ternary_bufs_sub ..,
    unary_bufs_sub .., reshape_bufs_sub .., nullary_bufs_sub .., unary_bufs_sub .., nullary_bufs_sub .., unary_bufs_sub ..,
    binary_bufs_sub .., ternary_bufs_sub .., unary_bufs_sub .., reshape_bufs_sub .., nullary_bufs_sub .., unary_bufs_sub ..,
    nullary_bufs_sub .., unary_bufs_sub .., binary_bufs_sub .., ternary_bufs_sub .., unary_bufs_sub .., reshape_bufs_sub ..⟩

/-- No operation of the window allocates: each determines the buffer it writes. -/
theorem ops0_fresh : (ops0 : List (HloOp τ sig (Elt F))).Forall fun op => op.fresh = ∅ := by
  simp only [List.Forall]; repeat' constructor

/-- The buffers the window writes, one per operation, in order. -/
abbrev written0 : List (Ref sig .tc) :=
  [ main_cst, main_v0, main_v1, main_v2, main_c, main_v3, main_c_0, main_v4,
    main_v5, main_v6, main_v7, main_v8, main_c_1, main_v9, main_c_2, main_v10,
    main_v11, main_v12, main_v13, main_v14, main_c_3, main_v15, main_c_4, main_v16,
    main_v17, main_v18, main_v19, main_v20, main_c_5, main_v21, main_c_6, main_v22,
    main_v23, main_v24, main_v25, main_v26, main_c_7, main_v27, main_c_8, main_v28,
    main_v29, main_v30, main_v31, main_v32, main_c_9, main_v33, main_c_10, main_v34,
    main_v35, main_v36, main_v37, main_v38, main_c_11, main_v39, main_c_12, main_v40,
    main_v41, main_v42, main_v43, main_v44 ]

/-- Each operation writes the buffer listed for it and no other. -/
theorem ops0_writes : (ops0 : List (HloOp τ sig (Elt F))).Forall fun op =>
    op.writes ⊆ (written0.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide)⟩

/-- A buffer the window does not write keeps its contents through it. -/
theorem ops0_keep (V : Valuation τ sig (Elt F)) {r : Ref sig .tc} (hr : r ∉ written0) :
    after ops0 V (Proc.devRef .tc r) = V (Proc.devRef .tc r) :=
  after_of_writes_sub ops0 V ops0_writes hr

end Cert.ReferenceIdeal.HostRun

end
-- ==== Proof.HostWindow1.lean ====
/-
  Window 1 of the reference's host program, read as a list of operations: the eighth diagonal block; the edge numbering 0 … 524287 split into graph, row and column (the floored quotients and remainders by 65536 and by 256) and the start of the source and target node numbers.
  Every line of the window is one host operation writing one buffer of its own; a helper function
  (the floored quotient, the remainder, a selection, the rectifier) is its body's operations written
  at the place of the call, over the buffers that call owns.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 132 operations of window 1, in program order. -/
abbrev ops1 : List (HloOp τ sig (Elt F)) :=
  [ StableHlo.nullary main_c_13 (constantI S_ 32 1792#32),
    StableHlo.unary main_c_13 main_v45 (broadcastInDim S1 ![] bcast_S_S1 : (⟨S_, .i32⟩ : BufTy).Contents (Elt F) → (⟨S1, .i32⟩ : BufTy).Contents (Elt F)),
    StableHlo.nullary main_c_14 (constantI S_ 32 1792#32),
    StableHlo.unary main_c_14 main_v46 (broadcastInDim S1 ![] bcast_S_S1 : (⟨S_, .i32⟩ : BufTy).Contents (Elt F) → (⟨S1, .i32⟩ : BufTy).Contents (Elt F)),
    StableHlo.binary main_v45 main_v46 main_v47 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v42 main_v47 main_v44 main_v48 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.nullary main_v49 (iotaInDim S524288 32 0),
    StableHlo.nullary main_c_15 (constantI S_ 32 65536#32),
    StableHlo.TRef.unary (.of main_c_15) main_call0.v0 id,
    StableHlo.TRef.unary main_call0.v0 main_call0.v1 (broadcastInDim S524288 ![] bcast_S_S524288),
    StableHlo.TRef.binary (.of main_v49) main_call0.v1 main_call0.v2 Host.divsi,
    StableHlo.TRef.unary (.of main_v49) main_call0.v3 signi,
    StableHlo.TRef.unary main_call0.v0 main_call0.v4 signi,
    StableHlo.TRef.unary main_call0.v4 main_call0.v5 (broadcastInDim S524288 ![] bcast_S_S524288),
    StableHlo.TRef.binary main_call0.v3 main_call0.v5 main_call0.v6 (cmpi .ne),
    StableHlo.TRef.unary main_call0.v0 main_call0.v7 (broadcastInDim S524288 ![] bcast_S_S524288),
    StableHlo.TRef.binary (.of main_v49) main_call0.v7 main_call0.v8 Host.remsi,
    StableHlo.TRef.nullary main_call0.c (constantI S_ 32 0#32),
    StableHlo.TRef.unary main_call0.c main_call0.v9 (broadcastInDim S524288 ![] bcast_S_S524288),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S524288 ![] bcast_S_S524288),
    StableHlo.TRef.binary main_call0.v2 main_call0.v12 main_call0.v13 subi,
    StableHlo.TRef.ternary main_call0.v11 main_call0.v13 main_call0.v2 main_call0.call0.v0 select,
    StableHlo.nullary main_c_16 (constantI S_ 32 65536#32),
    StableHlo.TRef.unary (.of main_c_16) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S524288 ![] bcast_S_S524288),
    StableHlo.TRef.binary (.of main_v49) main_call1.v3 main_call1.v4 Host.remsi,
    StableHlo.TRef.nullary main_call1.c_1 (constantI S_ 32 0#32),
    StableHlo.TRef.unary main_call1.c_1 main_call1.v5 (broadcastInDim S524288 ![] bcast_S_S524288),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S524288 ![] bcast_S_S524288),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S524288 ![] bcast_S_S524288),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S524288 ![] bcast_S_S524288),
    StableHlo.TRef.binary main_call1.v4 main_call1.v13 main_call1.v14 addi,
    StableHlo.TRef.ternary main_call1.v12 main_call1.v14 main_call1.v4 main_call1.v15 select,
    StableHlo.nullary main_c_17 (constantI S_ 32 256#32),
    StableHlo.unary main_c_17 main_v52 (broadcastInDim S524288 ![] bcast_S_S524288 : (⟨S_, .i32⟩ : BufTy).Contents (Elt F) → (⟨S524288, .i32⟩ : BufTy).Contents (Elt F)),
    StableHlo.binary main_v50 main_v52 main_v53 (muli : (⟨S524288, .i32⟩ : BufTy).Contents (Elt F) → (⟨S524288, .i32⟩ : BufTy).Contents (Elt F) → (⟨S524288, .i32⟩ : BufTy).Contents (Elt F)),
    StableHlo.nullary main_c_18 (constantI S_ 32 256#32),
    StableHlo.TRef.unary (.of main_c_18) main_call2.v0 id,
    StableHlo.TRef.unary main_call2.v0 main_call2.v1 (broadcastInDim S524288 ![] bcast_S_S524288),
    StableHlo.TRef.binary (.of main_v51) main_call2.v1 main_call2.v2 Host.divsi,
    StableHlo.TRef.unary (.of main_v51) main_call2.v3 signi,
    StableHlo.TRef.unary main_call2.v0 main_call2.v4 signi,
    StableHlo.TRef.unary main_call2.v4 main_call2.v5 (broadcastInDim S524288 ![] bcast_S_S524288),
    StableHlo.TRef.binary main_call2.v3 main_call2.v5 main_call2.v6 (cmpi .ne),
    StableHlo.TRef.unary main_call2.v0 main_call2.v7 (broadcastInDim S524288 ![] bcast_S_S524288),
    StableHlo.TRef.binary (.of main_v51) main_call2.v7 main_call2.v8 Host.remsi,
    StableHlo.TRef.nullary main_call2.c (constantI S_ 32 0#32),
    StableHlo.TRef.unary main_call2.c main_call2.v9 (broadcastInDim S524288 ![] bcast_S_S524288),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S524288 ![] bcast_S_S524288),
    StableHlo.TRef.binary main_call2.v2 main_call2.v12 main_call2.v13 subi,
    StableHlo.TRef.ternary main_call2.v11 main_call2.v13 main_call2.v2 main_call2.call0.v0 select,
    StableHlo.binary main_v53 main_v54 main_v55 (addi : (⟨S524288, .i32⟩ : BufTy).Contents (Elt F) → (⟨S524288, .i32⟩ : BufTy).Contents (Elt F) → (⟨S524288, .i32⟩ : BufTy).Contents (Elt F)),
    StableHlo.nullary main_c_19 (constantI S_ 32 256#32),
    StableHlo.unary main_c_19 main_v56 (broadcastInDim S524288 ![] bcast_S_S524288 : (⟨S_, .i32⟩ : BufTy).Contents (Elt F) → (⟨S524288, .i32⟩ : BufTy).Contents (Elt F)),
    StableHlo.binary main_v50 main_v56 main_v57 (muli : (⟨S524288, .i32⟩ : BufTy).Contents (Elt F) → (⟨S524288, .i32⟩ : BufTy).Contents (Elt F) → (⟨S524288, .i32⟩ : BufTy).Contents (Elt F)),
    StableHlo.nullary main_c_20 (constantI S_ 32 256#32),
    StableHlo.TRef.unary (.of main_c_20) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S524288 ![] bcast_S_S524288),
    StableHlo.TRef.binary (.of main_v51) main_call3.v3 main_call3.v4 Host.remsi,
    StableHlo.TRef.nullary main_call3.c_1 (constantI S_ 32 0#32),
    StableHlo.TRef.unary main_call3.c_1 main_call3.v5 (broadcastInDim S524288 ![] bcast_S_S524288),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S524288 ![] bcast_S_S524288),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S524288 ![] bcast_S_S524288),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S524288 ![] bcast_S_S524288),
    StableHlo.TRef.binary main_call3.v4 main_call3.v13 main_call3.v14 addi,
    StableHlo.TRef.ternary main_call3.v12 main_call3.v14 main_call3.v4 main_call3.v15 select,
    StableHlo.binary main_v57 main_v58 main_v59 (addi : (⟨S524288, .i32⟩ : BufTy).Contents (Elt F) → (⟨S524288, .i32⟩ : BufTy).Contents (Elt F) → (⟨S524288, .i32⟩ : BufTy).Contents (Elt F)),
    StableHlo.nullary main_c_21 (constantI S_ 32 0#32),
    StableHlo.unary main_c_21 main_v60 (broadcastInDim S524288 ![] bcast_S_S524288 : (⟨S_, .i32⟩ : BufTy).Contents (Elt F) → (⟨S524288, .i32⟩ : BufTy).Contents (Elt F)),
    StableHlo.binary main_v55 main_v60 main_v61 (cmpi .slt : (⟨S524288, .i32⟩ : BufTy).Contents (Elt F) → (⟨S524288, .i32⟩ : BufTy).Contents (Elt F) → (⟨S524288, .i1⟩ : BufTy).Contents (Elt F)),
    StableHlo.nullary main_c_22 (constantI S_ 32 2048#32),
    StableHlo.unary main_c_22 main_v62 (broadcastInDim S524288 ![] bcast_S_S524288 : (⟨S_, .i32⟩ : BufTy).Contents (Elt F) → (⟨S524288, .i32⟩ : BufTy).Contents (Elt F)),
    StableHlo.binary main_v55 main_v62 main_v63 (addi : (⟨S524288, .i32⟩ : BufTy).Contents (Elt F) → (⟨S524288, .i32⟩ : BufTy).Contents (Elt F) → (⟨S524288, .i32⟩ : BufTy).Contents (Elt F)),
    StableHlo.ternary main_v61 main_v63 main_v55 main_v64 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_23 (constantI S_ 32 0#32),
    StableHlo.unary main_c_23 main_v65 (broadcastInDim S524288 ![] bcast_S_S524288 : (⟨S_, .i32⟩ : BufTy).Contents (Elt F) → (⟨S524288, .i32⟩ : BufTy).Contents (Elt F)),
    StableHlo.binary main_v59 main_v65 main_v66 (cmpi .slt : (⟨S524288, .i32⟩ : BufTy).Contents (Elt F) → (⟨S524288, .i32⟩ : BufTy).Contents (Elt F) → (⟨S524288, .i1⟩ : BufTy).Contents (Elt F)),
    StableHlo.nullary main_c_24 (constantI S_ 32 2048#32),
    StableHlo.unary main_c_24 main_v67 (broadcastInDim S524288 ![] bcast_S_S524288 : (⟨S_, .i32⟩ : BufTy).Contents (Elt F) → (⟨S524288, .i32⟩ : BufTy).Contents (Elt F)),
    StableHlo.binary main_v59 main_v67 main_v68 (addi : (⟨S524288, .i32⟩ : BufTy).Contents (Elt F) → (⟨S524288, .i32⟩ : BufTy).Contents (Elt F) → (⟨S524288, .i32⟩ : BufTy).Contents (Elt F)),
    StableHlo.ternary main_v66 main_v68 main_v59 main_v69 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v64 main_v70 (broadcastInDim S524288x1 ![0] bcast_S524288_S524288x1_0 : (⟨S524288, .i32⟩ : BufTy).Contents (Elt F) → (⟨S524288x1, .i32⟩ : BufTy).Contents (Elt F)),
    StableHlo.unary main_v69 main_v71 (broadcastInDim S524288x1 ![0] bcast_S524288_S524288x1_0 : (⟨S524288, .i32⟩ : BufTy).Contents (Elt F) → (⟨S524288x1, .i32⟩ : BufTy).Contents (Elt F)),
    StableHlo.binary main_v70 main_v71 main_v72 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_v48 main_v72 main_v73 ((fun x i => Host.gather gather_S2048x2048_S524288x2_S524288_n_01_n_n_01_1_11 x i) : (⟨S2048x2048, .f32⟩ : BufTy).Contents (Elt F) → (⟨S524288x2, .i32⟩ : BufTy).Contents (Elt F) → (⟨S524288, .f32⟩ : BufTy).Contents (Elt F)),
    StableHlo.nullary main_cst_25 (constant S_ .f32 0x00000000#32),
    StableHlo.unary main_cst_25 main_v74 (broadcastInDim S524288 ![] bcast_S_S524288 : (⟨S_, .f32⟩ : BufTy).Contents (Elt F) → (⟨S524288, .f32⟩ : BufTy).Contents (Elt F)),
    StableHlo.binary main_v73 main_v74 main_v75 (cmpf .ogt : (⟨S524288, .f32⟩ : BufTy).Contents (Elt F) → (⟨S524288, .f32⟩ : BufTy).Contents (Elt F) → (⟨S524288, .i1⟩ : BufTy).Contents (Elt F)),
    StableHlo.nullary main_cst_26 (constant S_ .f32 0x00000000#32),
    StableHlo.unary main_cst_26 main_v76 (broadcastInDim S524288 ![] bcast_S_S524288 : (⟨S_, .f32⟩ : BufTy).Contents (Elt F) → (⟨S524288, .f32⟩ : BufTy).Contents (Elt F)),
    StableHlo.TRef.ternary (.of main_v75) (.of main_v73) (.of main_v76) main_call4.v0 select,
    StableHlo.reshape main_arg0 main_v78 rfl shapeCasts_S8x256x128_S2048x128,
    StableHlo.nullary main_v79 (iotaInDim S2048 32 0),
    StableHlo.binary main_v55 main_v79 main_v80 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.binary main_v59 main_v79 main_v81 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.nullary main_cst_27 (constant S_ .f32 0x3F800000#32),
    StableHlo.unary main_cst_27 main_v82 (broadcastInDim S2048 ![] bcast_S_S2048 : (⟨S_, .f32⟩ : BufTy).Contents (Elt F) → (⟨S2048, .f32⟩ : BufTy).Contents (Elt F)),
    StableHlo.binary main_v77 main_v82 main_v83 ((fun a b => concatenate S526336 0 [⟨S524288, a⟩, ⟨S2048, b⟩] concatenates_S524288_S2048_S526336_d0) : (⟨S524288, .f32⟩ : BufTy).Contents (Elt F) → (⟨S2048, .f32⟩ : BufTy).Contents (Elt F) → (⟨S526336, .f32⟩ : BufTy).Contents (Elt F)),
    StableHlo.nullary main_cst_28 (constant S_ .f32 0x00000000#32),
    StableHlo.unary main_cst_28 main_v84 (broadcastInDim S2048 ![] bcast_S_S2048 : (⟨S_, .f32⟩ : BufTy).Contents (Elt F) → (⟨S2048, .f32⟩ : BufTy).Contents (Elt F)),
    StableHlo.nullary main_c_29 (constantI S_ 32 0#32),
    StableHlo.unary main_c_29 main_v85 (broadcastInDim S526336 ![] bcast_S_S526336 : (⟨S_, .i32⟩ : BufTy).Contents (Elt F) → (⟨S526336, .i32⟩ : BufTy).Contents (Elt F)),
    StableHlo.binary main_v81 main_v85 main_v86 (cmpi .slt : (⟨S526336, .i32⟩ : BufTy).Contents (Elt F) → (⟨S526336, .i32⟩ : BufTy).Contents (Elt F) → (⟨S526336, .i1⟩ : BufTy).Contents (Elt F)),
    StableHlo.nullary main_c_30 (constantI S_ 32 2048#32) ]

set_option maxRecDepth 16384 in
set_option maxHeartbeats 4000000 in
/-- The window is that straight line: helper functions opened at their calls, sequencing re-associated. -/
theorem part_eq1 (c : Dev nD) : main_part1 (F := F) c = seq ops1 := by
  simp only [main_part1, fn_where.body, fn_floor_divide.body, fn_where_0.body, fn_remainder.body, fn_where_1.body, fn_where_2.body, fn_relu.body, seq, bind_assoc, pure_bind] <;> rfl

/-- Every operation of the window touches TensorCore buffers only. -/
theorem ops1_sub : (ops1 : List (HloOp τ sig (Elt F))).Forall fun op => op.bufs ⊆ tcRefs τ sig :=
  ⟨nullary_bufs_sub .., unary_bufs_sub .., nullary_bufs_sub .., unary_bufs_sub .., binary_bufs_sub .., ternary_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., binary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., binary_bufs_sub .., nullary_bufs_sub .., unary_bufs_sub .., ternary_bufs_sub .., reshape_bufs_sub ..,
    nullary_bufs_sub .., binary_bufs_sub .., binary_bufs_sub .., nullary_bufs_sub .., unary_bufs_sub .., binary_bufs_sub ..,
    nullary_bufs_sub .., unary_bufs_sub .., nullary_bufs_sub .., unary_bufs_sub .., binary_bufs_sub .., nullary_bufs_sub ..⟩

/-- No operation of the window allocates: each determines the buffer it writes. -/
theorem ops1_fresh : (ops1 : List (HloOp τ sig (Elt F))).Forall fun op => op.fresh = ∅ := by
  simp only [List.Forall]; repeat' constructor

/-- The buffers the window writes, one per operation, in order. -/
abbrev written1 : List (Ref sig .tc) :=
  [ main_c_13, main_v45, main_c_14, main_v46, main_v47, main_v48, main_v49, main_c_15,
    (main_call0.v0).ref, (main_call0.v1).ref, (main_call0.v2).ref, (main_call0.v3).ref, (main_call0.v4).ref, (main_call0.v5).ref, (main_call0.v6).ref, (main_call0.v7).ref,
    (main_call0.v8).ref, (main_call0.c).ref, (main_call0.v9).ref, (main_call0.v10).ref, (main_call0.v11).ref, (main_call0.c_0).ref, (main_call0.v12).ref, (main_call0.v13).ref,
    (main_call0.call0.v0).ref, main_c_16, (main_call1.v0).ref, (main_call1.c).ref, (main_call1.v1).ref, (main_call1.c_0).ref, (main_call1.call0.v0).ref, (main_call1.v3).ref,
    (main_call1.v4).ref, (main_call1.c_1).ref, (main_call1.v5).ref, (main_call1.v6).ref, (main_call1.c_2).ref, (main_call1.v7).ref, (main_call1.v8).ref, (main_call1.c_3).ref,
    (main_call1.v9).ref, (main_call1.v10).ref, (main_call1.v11).ref, (main_call1.v12).ref, (main_call1.v13).ref, (main_call1.v14).ref, (main_call1.v15).ref, main_c_17,
    main_v52, main_v53, main_c_18, (main_call2.v0).ref, (main_call2.v1).ref, (main_call2.v2).ref, (main_call2.v3).ref, (main_call2.v4).ref,
    (main_call2.v5).ref, (main_call2.v6).ref, (main_call2.v7).ref, (main_call2.v8).ref, (main_call2.c).ref, (main_call2.v9).ref, (main_call2.v10).ref, (main_call2.v11).ref,
    (main_call2.c_0).ref, (main_call2.v12).ref, (main_call2.v13).ref, (main_call2.call0.v0).ref, main_v55, main_c_19, main_v56, main_v57,
    main_c_20, (main_call3.v0).ref, (main_call3.c).ref, (main_call3.v1).ref, (main_call3.c_0).ref, (main_call3.call0.v0).ref, (main_call3.v3).ref, (main_call3.v4).ref,
    (main_call3.c_1).ref, (main_call3.v5).ref, (main_call3.v6).ref, (main_call3.c_2).ref, (main_call3.v7).ref, (main_call3.v8).ref, (main_call3.c_3).ref, (main_call3.v9).ref,
    (main_call3.v10).ref, (main_call3.v11).ref, (main_call3.v12).ref, (main_call3.v13).ref, (main_call3.v14).ref, (main_call3.v15).ref, main_v59, main_c_21,
    main_v60, main_v61, main_c_22, main_v62, main_v63, main_v64, main_c_23, main_v65,
    main_v66, main_c_24, main_v67, main_v68, main_v69, main_v70, main_v71, main_v72,
    main_v73, main_cst_25, main_v74, main_v75, main_cst_26, main_v76, (main_call4.v0).ref, main_v78,
    main_v79, main_v80, main_v81, main_cst_27, main_v82, main_v83, main_cst_28, main_v84,
    main_c_29, main_v85, main_v86, main_c_30 ]

/-- Each operation writes the buffer listed for it and no other. -/
theorem ops1_writes : (ops1 : List (HloOp τ sig (Elt F))).Forall fun op =>
    op.writes ⊆ (written1.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide)⟩

/-- A buffer the window does not write keeps its contents through it. -/
theorem ops1_keep (V : Valuation τ sig (Elt F)) {r : Ref sig .tc} (hr : r ∉ written1) :
    after ops1 V (Proc.devRef .tc r) = V (Proc.devRef .tc r) :=
  after_of_writes_sub ops1 V ops1_writes hr

end Cert.ReferenceIdeal.HostRun

end
-- ==== Proof.HostWindow2.lean ====
/-
  Window 2 of the reference's host program, read as a list of operations: the gather of the block-diagonal array at (source, target), its positive part as the edge weights, the self loops appended, and the first layer's degrees, their inverse square roots and the edge coefficients.
  Every line of the window is one host operation writing one buffer of its own; a helper function
  (the floored quotient, the remainder, a selection, the rectifier) is its body's operations written
  at the place of the call, over the buffers that call owns.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of window 2, in program order. -/
abbrev ops2 : List (HloOp τ sig (Elt F)) :=
  [ StableHlo.unary main_c_30 main_v87 (broadcastInDim S526336 ![] bcast_S_S526336 : (⟨S_, .i32⟩ : BufTy).Contents (Elt F) → (⟨S526336, .i32⟩ : BufTy).Contents (Elt F)),
    StableHlo.binary main_v81 main_v87 main_v88 (addi : (⟨S526336, .i32⟩ : BufTy).Contents (Elt F) → (⟨S526336, .i32⟩ : BufTy).Contents (Elt F) → (⟨S526336, .i32⟩ : BufTy).Contents (Elt F)),
    StableHlo.ternary main_v86 main_v88 main_v81 main_v89 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v89 main_v90 (broadcastInDim S526336x1 ![0] bcast_S526336_S526336x1_0 : (⟨S526336, .i32⟩ : BufTy).Contents (Elt F) → (⟨S526336x1, .i32⟩ : BufTy).Contents (Elt F)),
    StableHlo.ternary main_v84 main_v90 main_v83 main_v91 ((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)),
    StableHlo.nullary main_cst_31 (constant S_ .f32 0x00000000#32),
    StableHlo.unary main_cst_31 main_v92 (broadcastInDim S2048 ![] bcast_S_S2048 : (⟨S_, .f32⟩ : BufTy).Contents (Elt F) → (⟨S2048, .f32⟩ : BufTy).Contents (Elt F)),
    StableHlo.binary main_v91 main_v92 main_v93 (cmpf .ogt : (⟨S2048, .f32⟩ : BufTy).Contents (Elt F) → (⟨S2048, .f32⟩ : BufTy).Contents (Elt F) → (⟨S2048, .i1⟩ : BufTy).Contents (Elt F)),
    StableHlo.nullary main_cst_32 (constant S_ .f32 0x2B8CBCCC#32),
    StableHlo.unary main_cst_32 main_v94 (broadcastInDim S2048 ![] bcast_S_S2048 : (⟨S_, .f32⟩ : BufTy).Contents (Elt F) → (⟨S2048, .f32⟩ : BufTy).Contents (Elt F)),
    StableHlo.binary main_v91 main_v94 main_v95 (maximumf : (⟨S2048, .f32⟩ : BufTy).Contents (Elt F) → (⟨S2048, .f32⟩ : BufTy).Contents (Elt F) → (⟨S2048, .f32⟩ : BufTy).Contents (Elt F)),
    StableHlo.unary main_v95 main_v96 (Host.rsqrt : (⟨S2048, .f32⟩ : BufTy).Contents (Elt F) → (⟨S2048, .f32⟩ : BufTy).Contents (Elt F)),
    StableHlo.nullary main_cst_33 (constant S_ .f32 0x00000000#32),
    StableHlo.TRef.unary (.of main_cst_33) main_call5.v0 id,
    StableHlo.TRef.unary main_call5.v0 main_call5.v1 (broadcastInDim S2048 ![] bcast_S_S2048),
    StableHlo.TRef.ternary (.of main_v93) (.of main_v96) main_call5.v1 main_call5.v2 select,
    StableHlo.nullary main_c_34 (constantI S_ 32 0#32),
    StableHlo.unary main_c_34 main_v98 (broadcastInDim S526336 ![] bcast_S_S526336 : (⟨S_, .i32⟩ : BufTy).Contents (Elt F) → (⟨S526336, .i32⟩ : BufTy).Contents (Elt F)),
    StableHlo.binary main_v80 main_v98 main_v99 (cmpi .slt : (⟨S526336, .i32⟩ : BufTy).Contents (Elt F) → (⟨S526336, .i32⟩ : BufTy).Contents (Elt F) → (⟨S526336, .i1⟩ : BufTy).Contents (Elt F)),
    StableHlo.nullary main_c_35 (constantI S_ 32 2048#32),
    StableHlo.unary main_c_35 main_v100 (broadcastInDim S526336 ![] bcast_S_S526336 : (⟨S_, .i32⟩ : BufTy).Contents (Elt F) → (⟨S526336, .i32⟩ : BufTy).Contents (Elt F)),
    StableHlo.binary main_v80 main_v100 main_v101 (addi : (⟨S526336, .i32⟩ : BufTy).Contents (Elt F) → (⟨S526336, .i32⟩ : BufTy).Contents (Elt F) → (⟨S526336, .i32⟩ : BufTy).Contents (Elt F)),
    StableHlo.ternary main_v99 main_v101 main_v80 main_v102 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v102 main_v103 (broadcastInDim S526336x1 ![0] bcast_S526336_S526336x1_0 : (⟨S526336, .i32⟩ : BufTy).Contents (Elt F) → (⟨S526336x1, .i32⟩ : BufTy).Contents (Elt F)),
    StableHlo.binary main_v97 main_v103 main_v104 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v104 main_v83 main_v105 (mulf : (⟨S526336, .f32⟩ : BufTy).Contents (Elt F) → (⟨S526336, .f32⟩ : BufTy).Contents (Elt F) → (⟨S526336, .f32⟩ : BufTy).Contents (Elt F)),
    StableHlo.nullary main_c_36 (constantI S_ 32 0#32),
    StableHlo.unary main_c_36 main_v106 (broadcastInDim S526336 ![] bcast_S_S526336 : (⟨S_, .i32⟩ : BufTy).Contents (Elt F) → (⟨S526336, .i32⟩ : BufTy).Contents (Elt F)),
    StableHlo.binary main_v81 main_v106 main_v107 (cmpi .slt : (⟨S526336, .i32⟩ : BufTy).Contents (Elt F) → (⟨S526336, .i32⟩ : BufTy).Contents (Elt F) → (⟨S526336, .i1⟩ : BufTy).Contents (Elt F)),
    StableHlo.nullary main_c_37 (constantI S_ 32 2048#32),
    StableHlo.unary main_c_37 main_v108 (broadcastInDim S526336 ![] bcast_S_S526336 : (⟨S_, .i32⟩ : BufTy).Contents (Elt F) → (⟨S526336, .i32⟩ : BufTy).Contents (Elt F)),
    StableHlo.binary main_v81 main_v108 main_v109 (addi : (⟨S526336, .i32⟩ : BufTy).Contents (Elt F) → (⟨S526336, .i32⟩ : BufTy).Contents (Elt F) → (⟨S526336, .i32⟩ : BufTy).Contents (Elt F)),
    StableHlo.ternary main_v107 main_v109 main_v81 main_v110 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v110 main_v111 (broadcastInDim S526336x1 ![0] bcast_S526336_S526336x1_0 : (⟨S526336, .i32⟩ : BufTy).Contents (Elt F) → (⟨S526336x1, .i32⟩ : BufTy).Contents (Elt F)),
    StableHlo.binary main_v97 main_v111 main_v112 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v105 main_v112 main_v113 (mulf : (⟨S526336, .f32⟩ : BufTy).Contents (Elt F) → (⟨S526336, .f32⟩ : BufTy).Contents (Elt F) → (⟨S526336, .f32⟩ : BufTy).Contents (Elt F)),
    StableHlo.unary main_arg2 main_v114 ((transpose S128x128 [1, 0] · transposes_S128x128_S128x128_1_0) : (⟨S128x128, .f32⟩ : BufTy).Contents (Elt F) → (⟨S128x128, .f32⟩ : BufTy).Contents (Elt F)),
    StableHlo.binary main_v78 main_v114 main_v115 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.nullary main_cst_38 (constant S_ .f32 0x00000000#32),
    StableHlo.unary main_cst_38 main_v116 (broadcastInDim S2048x128 ![] bcast_S_S2048x128 : (⟨S_, .f32⟩ : BufTy).Contents (Elt F) → (⟨S2048x128, .f32⟩ : BufTy).Contents (Elt F)),
    StableHlo.nullary main_c_39 (constantI S_ 32 0#32),
    StableHlo.unary main_c_39 main_v117 (broadcastInDim S526336 ![] bcast_S_S526336 : (⟨S_, .i32⟩ : BufTy).Contents (Elt F) → (⟨S526336, .i32⟩ : BufTy).Contents (Elt F)),
    StableHlo.binary main_v80 main_v117 main_v118 (cmpi .slt : (⟨S526336, .i32⟩ : BufTy).Contents (Elt F) → (⟨S526336, .i32⟩ : BufTy).Contents (Elt F) → (⟨S526336, .i1⟩ : BufTy).Contents (Elt F)),
    StableHlo.nullary main_c_40 (constantI S_ 32 2048#32),
    StableHlo.unary main_c_40 main_v119 (broadcastInDim S526336 ![] bcast_S_S526336 : (⟨S_, .i32⟩ : BufTy).Contents (Elt F) → (⟨S526336, .i32⟩ : BufTy).Contents (Elt F)),
    StableHlo.binary main_v80 main_v119 main_v120 (addi : (⟨S526336, .i32⟩ : BufTy).Contents (Elt F) → (⟨S526336, .i32⟩ : BufTy).Contents (Elt F) → (⟨S526336, .i32⟩ : BufTy).Contents (Elt F)),
    StableHlo.ternary main_v118 main_v120 main_v80 main_v121 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v121 main_v122 (broadcastInDim S526336x1 ![0] bcast_S526336_S526336x1_0 : (⟨S526336, .i32⟩ : BufTy).Contents (Elt F) → (⟨S526336x1, .i32⟩ : BufTy).Contents (Elt F)),
    StableHlo.binary main_v115 main_v122 main_v123 ((fun x i => Host.gather gather_S2048x128_S526336x1_S526336x128_1_0_n_n_0_1_1128 x i) : (⟨S2048x128, .f32⟩ : BufTy).Contents (Elt F) → (⟨S526336x1, .i32⟩ : BufTy).Contents (Elt F) → (⟨S526336x128, .f32⟩ : BufTy).Contents (Elt F)),
    StableHlo.unary main_v113 main_v124 (broadcastInDim S526336x1 ![0] bcast_S526336_S526336x1_0 : (⟨S526336, .f32⟩ : BufTy).Contents (Elt F) → (⟨S526336x1, .f32⟩ : BufTy).Contents (Elt F)),
    StableHlo.unary main_v124 main_v125 (broadcastInDim S526336x128 ![0, 1] bcast_S526336x1_S526336x128_0_1 : (⟨S526336x1, .f32⟩ : BufTy).Contents (Elt F) → (⟨S526336x128, .f32⟩ : BufTy).Contents (Elt F)),
    StableHlo.binary main_v123 main_v125 main_v126 (mulf : (⟨S526336x128, .f32⟩ : BufTy).Contents (Elt F) → (⟨S526336x128, .f32⟩ : BufTy).Contents (Elt F) → (⟨S526336x128, .f32⟩ : BufTy).Contents (Elt F)),
    StableHlo.nullary main_c_41 (constantI S_ 32 0#32),
    StableHlo.unary main_c_41 main_v127 (broadcastInDim S526336 ![] bcast_S_S526336 : (⟨S_, .i32⟩ : BufTy).Contents (Elt F) → (⟨S526336, .i32⟩ : BufTy).Contents (Elt F)),
    StableHlo.binary main_v81 main_v127 main_v128 (cmpi .slt : (⟨S526336, .i32⟩ : BufTy).Contents (Elt F) → (⟨S526336, .i32⟩ : BufTy).Contents (Elt F) → (⟨S526336, .i1⟩ : BufTy).Contents (Elt F)),
    StableHlo.nullary main_c_42 (constantI S_ 32 2048#32),
    StableHlo.unary main_c_42 main_v129 (broadcastInDim S526336 ![] bcast_S_S526336 : (⟨S_, .i32⟩ : BufTy).Contents (Elt F) → (⟨S526336, .i32⟩ : BufTy).Contents (Elt F)),
    StableHlo.binary main_v81 main_v129 main_v130 (addi : (⟨S526336, .i32⟩ : BufTy).Contents (Elt F) → (⟨S526336, .i32⟩ : BufTy).Contents (Elt F) → (⟨S526336, .i32⟩ : BufTy).Contents (Elt F)),
    StableHlo.ternary main_v128 main_v130 main_v81 main_v131 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v131 main_v132 (broadcastInDim S526336x1 ![0] bcast_S526336_S526336x1_0 : (⟨S526336, .i32⟩ : BufTy).Contents (Elt F) → (⟨S526336x1, .i32⟩ : BufTy).Contents (Elt F)),
    StableHlo.ternary main_v116 main_v132 main_v126 main_v133 ((fun x i u => Host.scatterAdd scatter_S2048x128_S526336x1_S526336x128_1_0_0_1 x i u) : (⟨S2048x128, .f32⟩ : BufTy).Contents (Elt F) → (⟨S526336x1, .i32⟩ : BufTy).Contents (Elt F) → (⟨S526336x128, .f32⟩ : BufTy).Contents (Elt F) → (⟨S2048x128, .f32⟩ : BufTy).Contents (Elt F)),
    StableHlo.unary main_arg3 main_v134 (broadcastInDim S1x128 ![1] bcast_S128_S1x128_1 : (⟨S128, .f32⟩ : BufTy).Contents (Elt F) → (⟨S1x128, .f32⟩ : BufTy).Contents (Elt F)) ]

set_option maxRecDepth 16384 in
set_option maxHeartbeats 4000000 in
/-- The window is that straight line: helper functions opened at their calls, sequencing re-associated. -/
theorem part_eq2 (c : Dev nD) : main_part2 (F := F) c = seq ops2 := by
  simp only [main_part2, fn_where.body, fn_floor_divide.body, fn_where_0.body, fn_remainder.body, fn_where_1.body, fn_where_2.body, fn_relu.body, seq, bind_assoc, pure_bind] <;> rfl

/-- Every operation of the window touches TensorCore buffers only. -/
theorem ops2_sub : (ops2 : List (HloOp τ sig (Elt F))).Forall fun op => op.bufs ⊆ tcRefs τ sig :=
  ⟨unary_bufs_sub .., binary_bufs_sub .., ternary_bufs_sub .., unary_bufs_sub .., ternary_bufs_sub .., nullary_bufs_sub ..,
    unary_bufs_sub .., binary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., binary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    ternary_bufs_sub .., unary_bufs_sub ..⟩

/-- No operation of the window allocates: each determines the buffer it writes. -/
theorem ops2_fresh : (ops2 : List (HloOp τ sig (Elt F))).Forall fun op => op.fresh = ∅ := by
  simp only [List.Forall]; repeat' constructor

/-- The buffers the window writes, one per operation, in order. -/
abbrev written2 : List (Ref sig .tc) :=
  [ main_v87, main_v88, main_v89, main_v90, main_v91, main_cst_31, main_v92, main_v93,
    main_cst_32, main_v94, main_v95, main_v96, main_cst_33, (main_call5.v0).ref, (main_call5.v1).ref, (main_call5.v2).ref,
    main_c_34, main_v98, main_v99, main_c_35, main_v100, main_v101, main_v102, main_v103,
    main_v104, main_v105, main_c_36, main_v106, main_v107, main_c_37, main_v108, main_v109,
    main_v110, main_v111, main_v112, main_v113, main_v114, main_v115, main_cst_38, main_v116,
    main_c_39, main_v117, main_v118, main_c_40, main_v119, main_v120, main_v121, main_v122,
    main_v123, main_v124, main_v125, main_v126, main_c_41, main_v127, main_v128, main_c_42,
    main_v129, main_v130, main_v131, main_v132, main_v133, main_v134 ]

/-- Each operation writes the buffer listed for it and no other. -/
theorem ops2_writes : (ops2 : List (HloOp τ sig (Elt F))).Forall fun op =>
    op.writes ⊆ (written2.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the window does not write keeps its contents through it. -/
theorem ops2_keep (V : Valuation τ sig (Elt F)) {r : Ref sig .tc} (hr : r ∉ written2) :
    after ops2 V (Proc.devRef .tc r) = V (Proc.devRef .tc r) :=
  after_of_writes_sub ops2 V ops2_writes hr

end Cert.ReferenceIdeal.HostRun

end
-- ==== Proof.HostWindow3.lean ====
/-
  Window 3 of the reference's host program, read as a list of operations: the first layer's scatter-added messages, bias, dense map and the start of its layer normalisation.
  Every line of the window is one host operation writing one buffer of its own; a helper function
  (the floored quotient, the remainder, a selection, the rectifier) is its body's operations written
  at the place of the call, over the buffers that call owns.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of window 3, in program order. -/
abbrev ops3 : List (HloOp τ sig (Elt F)) :=
  [ StableHlo.unary main_v134 main_v135 (broadcastInDim S2048x128 ![0, 1] bcast_S1x128_S2048x128_0_1 : (⟨S1x128, .f32⟩ : BufTy).Contents (Elt F) → (⟨S2048x128, .f32⟩ : BufTy).Contents (Elt F)),
    StableHlo.binary main_v133 main_v135 main_v136 (addf : (⟨S2048x128, .f32⟩ : BufTy).Contents (Elt F) → (⟨S2048x128, .f32⟩ : BufTy).Contents (Elt F) → (⟨S2048x128, .f32⟩ : BufTy).Contents (Elt F)),
    StableHlo.unary main_arg4 main_v137 ((transpose S128x128 [1, 0] · transposes_S128x128_S128x128_1_0) : (⟨S128x128, .f32⟩ : BufTy).Contents (Elt F) → (⟨S128x128, .f32⟩ : BufTy).Contents (Elt F)),
    StableHlo.binary main_v136 main_v137 main_v138 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg5 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S2048x128 ![0, 1] bcast_S1x128_S2048x128_0_1 : (⟨S1x128, .f32⟩ : BufTy).Contents (Elt F) → (⟨S2048x128, .f32⟩ : BufTy).Contents (Elt F)),
    StableHlo.binary main_v138 main_v140 main_v141 (addf : (⟨S2048x128, .f32⟩ : BufTy).Contents (Elt F) → (⟨S2048x128, .f32⟩ : BufTy).Contents (Elt F) → (⟨S2048x128, .f32⟩ : BufTy).Contents (Elt F)),
    StableHlo.nullary main_cst_43 (constant S_ .f32 0x00000000#32),
    StableHlo.binary main_v141 main_cst_43 main_v142 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v142 main_v143 (broadcastInDim S2048x1 ![0] bcast_S2048_S2048x1_0 : (⟨S2048, .f32⟩ : BufTy).Contents (Elt F) → (⟨S2048x1, .f32⟩ : BufTy).Contents (Elt F)),
    StableHlo.nullary main_cst_44 (constant S_ .f32 0x43000000#32),
    StableHlo.unary main_cst_44 main_v144 (broadcastInDim S2048x1 ![] bcast_S_S2048x1 : (⟨S_, .f32⟩ : BufTy).Contents (Elt F) → (⟨S2048x1, .f32⟩ : BufTy).Contents (Elt F)),
    StableHlo.binary main_v143 main_v144 main_v145 (Host.divf : (⟨S2048x1, .f32⟩ : BufTy).Contents (Elt F) → (⟨S2048x1, .f32⟩ : BufTy).Contents (Elt F) → (⟨S2048x1, .f32⟩ : BufTy).Contents (Elt F)),
    StableHlo.unary main_v145 main_v146 (broadcastInDim S2048x128 ![0, 1] bcast_S2048x1_S2048x128_0_1 : (⟨S2048x1, .f32⟩ : BufTy).Contents (Elt F) → (⟨S2048x128, .f32⟩ : BufTy).Contents (Elt F)),
    StableHlo.binary main_v141 main_v146 main_v147 (subf : (⟨S2048x128, .f32⟩ : BufTy).Contents (Elt F) → (⟨S2048x128, .f32⟩ : BufTy).Contents (Elt F) → (⟨S2048x128, .f32⟩ : BufTy).Contents (Elt F)),
    StableHlo.binary main_v147 main_v147 main_v148 (mulf : (⟨S2048x128, .f32⟩ : BufTy).Contents (Elt F) → (⟨S2048x128, .f32⟩ : BufTy).Contents (Elt F) → (⟨S2048x128, .f32⟩ : BufTy).Contents (Elt F)),
    StableHlo.nullary main_cst_45 (constant S_ .f32 0x00000000#32),
    StableHlo.binary main_v148 main_cst_45 main_v149 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v149 main_v150 (broadcastInDim S2048x1 ![0] bcast_S2048_S2048x1_0 : (⟨S2048, .f32⟩ : BufTy).Contents (Elt F) → (⟨S2048x1, .f32⟩ : BufTy).Contents (Elt F)),
    StableHlo.nullary main_cst_46 (constant S_ .f32 0x43000000#32),
    StableHlo.unary main_cst_46 main_v151 (broadcastInDim S2048x1 ![] bcast_S_S2048x1 : (⟨S_, .f32⟩ : BufTy).Contents (Elt F) → (⟨S2048x1, .f32⟩ : BufTy).Contents (Elt F)),
    StableHlo.binary main_v150 main_v151 main_v152 (Host.divf : (⟨S2048x1, .f32⟩ : BufTy).Contents (Elt F) → (⟨S2048x1, .f32⟩ : BufTy).Contents (Elt F) → (⟨S2048x1, .f32⟩ : BufTy).Contents (Elt F)),
    StableHlo.unary main_v145 main_v153 (broadcastInDim S2048x128 ![0, 1] bcast_S2048x1_S2048x128_0_1 : (⟨S2048x1, .f32⟩ : BufTy).Contents (Elt F) → (⟨S2048x128, .f32⟩ : BufTy).Contents (Elt F)),
    StableHlo.binary main_v141 main_v153 main_v154 (subf : (⟨S2048x128, .f32⟩ : BufTy).Contents (Elt F) → (⟨S2048x128, .f32⟩ : BufTy).Contents (Elt F) → (⟨S2048x128, .f32⟩ : BufTy).Contents (Elt F)),
    StableHlo.nullary main_cst_47 (constant S_ .f32 0x3727C5AC#32),
    StableHlo.unary main_cst_47 main_v155 (broadcastInDim S2048x1 ![] bcast_S_S2048x1 : (⟨S_, .f32⟩ : BufTy).Contents (Elt F) → (⟨S2048x1, .f32⟩ : BufTy).Contents (Elt F)),
    StableHlo.binary main_v152 main_v155 main_v156 (addf : (⟨S2048x1, .f32⟩ : BufTy).Contents (Elt F) → (⟨S2048x1, .f32⟩ : BufTy).Contents (Elt F) → (⟨S2048x1, .f32⟩ : BufTy).Contents (Elt F)),
    StableHlo.unary main_v156 main_v157 (Host.sqrt : (⟨S2048x1, .f32⟩ : BufTy).Contents (Elt F) → (⟨S2048x1, .f32⟩ : BufTy).Contents (Elt F)),
    StableHlo.unary main_v157 main_v158 (broadcastInDim S2048x128 ![0, 1] bcast_S2048x1_S2048x128_0_1 : (⟨S2048x1, .f32⟩ : BufTy).Contents (Elt F) → (⟨S2048x128, .f32⟩ : BufTy).Contents (Elt F)),
    StableHlo.binary main_v154 main_v158 main_v159 (Host.divf : (⟨S2048x128, .f32⟩ : BufTy).Contents (Elt F) → (⟨S2048x128, .f32⟩ : BufTy).Contents (Elt F) → (⟨S2048x128, .f32⟩ : BufTy).Contents (Elt F)),
    StableHlo.unary main_arg6 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S2048x128 ![0, 1] bcast_S1x128_S2048x128_0_1 : (⟨S1x128, .f32⟩ : BufTy).Contents (Elt F) → (⟨S2048x128, .f32⟩ : BufTy).Contents (Elt F)),
    StableHlo.binary main_v159 main_v161 main_v162 (mulf : (⟨S2048x128, .f32⟩ : BufTy).Contents (Elt F) → (⟨S2048x128, .f32⟩ : BufTy).Contents (Elt F) → (⟨S2048x128, .f32⟩ : BufTy).Contents (Elt F)),
    StableHlo.unary main_arg7 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S2048x128 ![0, 1] bcast_S1x128_S2048x128_0_1 : (⟨S1x128, .f32⟩ : BufTy).Contents (Elt F) → (⟨S2048x128, .f32⟩ : BufTy).Contents (Elt F)),
    StableHlo.binary main_v162 main_v164 main_v165 (addf : (⟨S2048x128, .f32⟩ : BufTy).Contents (Elt F) → (⟨S2048x128, .f32⟩ : BufTy).Contents (Elt F) → (⟨S2048x128, .f32⟩ : BufTy).Contents (Elt F)),
    StableHlo.TRef.nullary main_call6.cst (constant S_ .f32 0x00000000#32),
    StableHlo.TRef.unary main_call6.cst main_call6.v0 (broadcastInDim S2048x128 ![] bcast_S_S2048x128),
    StableHlo.TRef.binary (.of main_v165) main_call6.v0 main_call6.v1 maximumf,
    StableHlo.nullary main_v167 (iotaInDim S2048 32 0),
    StableHlo.binary main_v55 main_v167 main_v168 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.binary main_v59 main_v167 main_v169 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.nullary main_cst_48 (constant S_ .f32 0x3F800000#32),
    StableHlo.unary main_cst_48 main_v170 (broadcastInDim S2048 ![] bcast_S_S2048 : (⟨S_, .f32⟩ : BufTy).Contents (Elt F) → (⟨S2048, .f32⟩ : BufTy).Contents (Elt F)),
    StableHlo.binary main_v77 main_v170 main_v171 ((fun a b => concatenate S526336 0 [⟨S524288, a⟩, ⟨S2048, b⟩] concatenates_S524288_S2048_S526336_d0) : (⟨S524288, .f32⟩ : BufTy).Contents (Elt F) → (⟨S2048, .f32⟩ : BufTy).Contents (Elt F) → (⟨S526336, .f32⟩ : BufTy).Contents (Elt F)),
    StableHlo.nullary main_cst_49 (constant S_ .f32 0x00000000#32),
    StableHlo.unary main_cst_49 main_v172 (broadcastInDim S2048 ![] bcast_S_S2048 : (⟨S_, .f32⟩ : BufTy).Contents (Elt F) → (⟨S2048, .f32⟩ : BufTy).Contents (Elt F)),
    StableHlo.nullary main_c_50 (constantI S_ 32 0#32),
    StableHlo.unary main_c_50 main_v173 (broadcastInDim S526336 ![] bcast_S_S526336 : (⟨S_, .i32⟩ : BufTy).Contents (Elt F) → (⟨S526336, .i32⟩ : BufTy).Contents (Elt F)),
    StableHlo.binary main_v169 main_v173 main_v174 (cmpi .slt : (⟨S526336, .i32⟩ : BufTy).Contents (Elt F) → (⟨S526336, .i32⟩ : BufTy).Contents (Elt F) → (⟨S526336, .i1⟩ : BufTy).Contents (Elt F)),
    StableHlo.nullary main_c_51 (constantI S_ 32 2048#32),
    StableHlo.unary main_c_51 main_v175 (broadcastInDim S526336 ![] bcast_S_S526336 : (⟨S_, .i32⟩ : BufTy).Contents (Elt F) → (⟨S526336, .i32⟩ : BufTy).Contents (Elt F)),
    StableHlo.binary main_v169 main_v175 main_v176 (addi : (⟨S526336, .i32⟩ : BufTy).Contents (Elt F) → (⟨S526336, .i32⟩ : BufTy).Contents (Elt F) → (⟨S526336, .i32⟩ : BufTy).Contents (Elt F)),
    StableHlo.ternary main_v174 main_v176 main_v169 main_v177 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v177 main_v178 (broadcastInDim S526336x1 ![0] bcast_S526336_S526336x1_0 : (⟨S526336, .i32⟩ : BufTy).Contents (Elt F) → (⟨S526336x1, .i32⟩ : BufTy).Contents (Elt F)),
    StableHlo.ternary main_v172 main_v178 main_v171 main_v179 ((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)),
    StableHlo.nullary main_cst_52 (constant S_ .f32 0x00000000#32),
    StableHlo.unary main_cst_52 main_v180 (broadcastInDim S2048 ![] bcast_S_S2048 : (⟨S_, .f32⟩ : BufTy).Contents (Elt F) → (⟨S2048, .f32⟩ : BufTy).Contents (Elt F)),
    StableHlo.binary main_v179 main_v180 main_v181 (cmpf .ogt : (⟨S2048, .f32⟩ : BufTy).Contents (Elt F) → (⟨S2048, .f32⟩ : BufTy).Contents (Elt F) → (⟨S2048, .i1⟩ : BufTy).Contents (Elt F)),
    StableHlo.nullary main_cst_53 (constant S_ .f32 0x2B8CBCCC#32),
    StableHlo.unary main_cst_53 main_v182 (broadcastInDim S2048 ![] bcast_S_S2048 : (⟨S_, .f32⟩ : BufTy).Contents (Elt F) → (⟨S2048, .f32⟩ : BufTy).Contents (Elt F)),
    StableHlo.binary main_v179 main_v182 main_v183 (maximumf : (⟨S2048, .f32⟩ : BufTy).Contents (Elt F) → (⟨S2048, .f32⟩ : BufTy).Contents (Elt F) → (⟨S2048, .f32⟩ : BufTy).Contents (Elt F)) ]

set_option maxRecDepth 16384 in
set_option maxHeartbeats 4000000 in
/-- The window is that straight line: helper functions opened at their calls, sequencing re-associated. -/
theorem part_eq3 (c : Dev nD) : main_part3 (F := F) c = seq ops3 := by
  simp only [main_part3, fn_where.body, fn_floor_divide.body, fn_where_0.body, fn_remainder.body, fn_where_1.body, fn_where_2.body, fn_relu.body, seq, bind_assoc, pure_bind] <;> rfl

/-- Every operation of the window touches TensorCore buffers only. -/
theorem ops3_sub : (ops3 : List (HloOp τ sig (Elt F))).Forall fun op => op.bufs ⊆ tcRefs τ sig :=
  ⟨unary_bufs_sub .., binary_bufs_sub .., unary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., binary_bufs_sub .., binary_bufs_sub ..,
    nullary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub ..⟩

/-- No operation of the window allocates: each determines the buffer it writes. -/
theorem ops3_fresh : (ops3 : List (HloOp τ sig (Elt F))).Forall fun op => op.fresh = ∅ := by
  simp only [List.Forall]; repeat' constructor

/-- The buffers the window writes, one per operation, in order. -/
abbrev written3 : List (Ref sig .tc) :=
  [ main_v135, main_v136, main_v137, main_v138, main_v139, main_v140, main_v141, main_cst_43,
    main_v142, main_v143, main_cst_44, main_v144, main_v145, main_v146, main_v147, main_v148,
    main_cst_45, main_v149, main_v150, main_cst_46, main_v151, main_v152, main_v153, main_v154,
    main_cst_47, main_v155, main_v156, main_v157, main_v158, main_v159, main_v160, main_v161,
    main_v162, main_v163, main_v164, main_v165, (main_call6.cst).ref, (main_call6.v0).ref, (main_call6.v1).ref, main_v167,
    main_v168, main_v169, main_cst_48, main_v170, main_v171, main_cst_49, main_v172, main_c_50,
    main_v173, main_v174, main_c_51, main_v175, main_v176, main_v177, main_v178, main_v179,
    main_cst_52, main_v180, main_v181, main_cst_53, main_v182, main_v183 ]

/-- Each operation writes the buffer listed for it and no other. -/
theorem ops3_writes : (ops3 : List (HloOp τ sig (Elt F))).Forall fun op =>
    op.writes ⊆ (written3.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the window does not write keeps its contents through it. -/
theorem ops3_keep (V : Valuation τ sig (Elt F)) {r : Ref sig .tc} (hr : r ∉ written3) :
    after ops3 V (Proc.devRef .tc r) = V (Proc.devRef .tc r) :=
  after_of_writes_sub ops3 V ops3_writes hr

end Cert.ReferenceIdeal.HostRun

end
-- ==== Proof.HostWindow4.lean ====
/-
  Window 4 of the reference's host program, read as a list of operations: the first layer's normalisation and rectifier, then the second layer's degrees, coefficients and messages.
  Every line of the window is one host operation writing one buffer of its own; a helper function
  (the floored quotient, the remainder, a selection, the rectifier) is its body's operations written
  at the place of the call, over the buffers that call owns.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of window 4, in program order. -/
abbrev ops4 : List (HloOp τ sig (Elt F)) :=
  [ StableHlo.unary main_v183 main_v184 (Host.rsqrt : (⟨S2048, .f32⟩ : BufTy).Contents (Elt F) → (⟨S2048, .f32⟩ : BufTy).Contents (Elt F)),
    StableHlo.nullary main_cst_54 (constant S_ .f32 0x00000000#32),
    StableHlo.TRef.unary (.of main_cst_54) main_call7.v0 id,
    StableHlo.TRef.unary main_call7.v0 main_call7.v1 (broadcastInDim S2048 ![] bcast_S_S2048),
    StableHlo.TRef.ternary (.of main_v181) (.of main_v184) main_call7.v1 main_call7.v2 select,
    StableHlo.nullary main_c_55 (constantI S_ 32 0#32),
    StableHlo.unary main_c_55 main_v186 (broadcastInDim S526336 ![] bcast_S_S526336 : (⟨S_, .i32⟩ : BufTy).Contents (Elt F) → (⟨S526336, .i32⟩ : BufTy).Contents (Elt F)),
    StableHlo.binary main_v168 main_v186 main_v187 (cmpi .slt : (⟨S526336, .i32⟩ : BufTy).Contents (Elt F) → (⟨S526336, .i32⟩ : BufTy).Contents (Elt F) → (⟨S526336, .i1⟩ : BufTy).Contents (Elt F)),
    StableHlo.nullary main_c_56 (constantI S_ 32 2048#32),
    StableHlo.unary main_c_56 main_v188 (broadcastInDim S526336 ![] bcast_S_S526336 : (⟨S_, .i32⟩ : BufTy).Contents (Elt F) → (⟨S526336, .i32⟩ : BufTy).Contents (Elt F)),
    StableHlo.binary main_v168 main_v188 main_v189 (addi : (⟨S526336, .i32⟩ : BufTy).Contents (Elt F) → (⟨S526336, .i32⟩ : BufTy).Contents (Elt F) → (⟨S526336, .i32⟩ : BufTy).Contents (Elt F)),
    StableHlo.ternary main_v187 main_v189 main_v168 main_v190 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v190 main_v191 (broadcastInDim S526336x1 ![0] bcast_S526336_S526336x1_0 : (⟨S526336, .i32⟩ : BufTy).Contents (Elt F) → (⟨S526336x1, .i32⟩ : BufTy).Contents (Elt F)),
    StableHlo.binary main_v185 main_v191 main_v192 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v192 main_v171 main_v193 (mulf : (⟨S526336, .f32⟩ : BufTy).Contents (Elt F) → (⟨S526336, .f32⟩ : BufTy).Contents (Elt F) → (⟨S526336, .f32⟩ : BufTy).Contents (Elt F)),
    StableHlo.nullary main_c_57 (constantI S_ 32 0#32),
    StableHlo.unary main_c_57 main_v194 (broadcastInDim S526336 ![] bcast_S_S526336 : (⟨S_, .i32⟩ : BufTy).Contents (Elt F) → (⟨S526336, .i32⟩ : BufTy).Contents (Elt F)),
    StableHlo.binary main_v169 main_v194 main_v195 (cmpi .slt : (⟨S526336, .i32⟩ : BufTy).Contents (Elt F) → (⟨S526336, .i32⟩ : BufTy).Contents (Elt F) → (⟨S526336, .i1⟩ : BufTy).Contents (Elt F)),
    StableHlo.nullary main_c_58 (constantI S_ 32 2048#32),
    StableHlo.unary main_c_58 main_v196 (broadcastInDim S526336 ![] bcast_S_S526336 : (⟨S_, .i32⟩ : BufTy).Contents (Elt F) → (⟨S526336, .i32⟩ : BufTy).Contents (Elt F)),
    StableHlo.binary main_v169 main_v196 main_v197 (addi : (⟨S526336, .i32⟩ : BufTy).Contents (Elt F) → (⟨S526336, .i32⟩ : BufTy).Contents (Elt F) → (⟨S526336, .i32⟩ : BufTy).Contents (Elt F)),
    StableHlo.ternary main_v195 main_v197 main_v169 main_v198 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v198 main_v199 (broadcastInDim S526336x1 ![0] bcast_S526336_S526336x1_0 : (⟨S526336, .i32⟩ : BufTy).Contents (Elt F) → (⟨S526336x1, .i32⟩ : BufTy).Contents (Elt F)),
    StableHlo.binary main_v185 main_v199 main_v200 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v193 main_v200 main_v201 (mulf : (⟨S526336, .f32⟩ : BufTy).Contents (Elt F) → (⟨S526336, .f32⟩ : BufTy).Contents (Elt F) → (⟨S526336, .f32⟩ : BufTy).Contents (Elt F)),
    StableHlo.unary main_arg8 main_v202 ((transpose S128x128 [1, 0] · transposes_S128x128_S128x128_1_0) : (⟨S128x128, .f32⟩ : BufTy).Contents (Elt F) → (⟨S128x128, .f32⟩ : BufTy).Contents (Elt F)),
    StableHlo.binary main_v166 main_v202 main_v203 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.nullary main_cst_59 (constant S_ .f32 0x00000000#32),
    StableHlo.unary main_cst_59 main_v204 (broadcastInDim S2048x128 ![] bcast_S_S2048x128 : (⟨S_, .f32⟩ : BufTy).Contents (Elt F) → (⟨S2048x128, .f32⟩ : BufTy).Contents (Elt F)),
    StableHlo.nullary main_c_60 (constantI S_ 32 0#32),
    StableHlo.unary main_c_60 main_v205 (broadcastInDim S526336 ![] bcast_S_S526336 : (⟨S_, .i32⟩ : BufTy).Contents (Elt F) → (⟨S526336, .i32⟩ : BufTy).Contents (Elt F)),
    StableHlo.binary main_v168 main_v205 main_v206 (cmpi .slt : (⟨S526336, .i32⟩ : BufTy).Contents (Elt F) → (⟨S526336, .i32⟩ : BufTy).Contents (Elt F) → (⟨S526336, .i1⟩ : BufTy).Contents (Elt F)),
    StableHlo.nullary main_c_61 (constantI S_ 32 2048#32),
    StableHlo.unary main_c_61 main_v207 (broadcastInDim S526336 ![] bcast_S_S526336 : (⟨S_, .i32⟩ : BufTy).Contents (Elt F) → (⟨S526336, .i32⟩ : BufTy).Contents (Elt F)),
    StableHlo.binary main_v168 main_v207 main_v208 (addi : (⟨S526336, .i32⟩ : BufTy).Contents (Elt F) → (⟨S526336, .i32⟩ : BufTy).Contents (Elt F) → (⟨S526336, .i32⟩ : BufTy).Contents (Elt F)),
    StableHlo.ternary main_v206 main_v208 main_v168 main_v209 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v209 main_v210 (broadcastInDim S526336x1 ![0] bcast_S526336_S526336x1_0 : (⟨S526336, .i32⟩ : BufTy).Contents (Elt F) → (⟨S526336x1, .i32⟩ : BufTy).Contents (Elt F)),
    StableHlo.binary main_v203 main_v210 main_v211 ((fun x i => Host.gather gather_S2048x128_S526336x1_S526336x128_1_0_n_n_0_1_1128 x i) : (⟨S2048x128, .f32⟩ : BufTy).Contents (Elt F) → (⟨S526336x1, .i32⟩ : BufTy).Contents (Elt F) → (⟨S526336x128, .f32⟩ : BufTy).Contents (Elt F)),
    StableHlo.unary main_v201 main_v212 (broadcastInDim S526336x1 ![0] bcast_S526336_S526336x1_0 : (⟨S526336, .f32⟩ : BufTy).Contents (Elt F) → (⟨S526336x1, .f32⟩ : BufTy).Contents (Elt F)),
    StableHlo.unary main_v212 main_v213 (broadcastInDim S526336x128 ![0, 1] bcast_S526336x1_S526336x128_0_1 : (⟨S526336x1, .f32⟩ : BufTy).Contents (Elt F) → (⟨S526336x128, .f32⟩ : BufTy).Contents (Elt F)),
    StableHlo.binary main_v211 main_v213 main_v214 (mulf : (⟨S526336x128, .f32⟩ : BufTy).Contents (Elt F) → (⟨S526336x128, .f32⟩ : BufTy).Contents (Elt F) → (⟨S526336x128, .f32⟩ : BufTy).Contents (Elt F)),
    StableHlo.nullary main_c_62 (constantI S_ 32 0#32),
    StableHlo.unary main_c_62 main_v215 (broadcastInDim S526336 ![] bcast_S_S526336 : (⟨S_, .i32⟩ : BufTy).Contents (Elt F) → (⟨S526336, .i32⟩ : BufTy).Contents (Elt F)),
    StableHlo.binary main_v169 main_v215 main_v216 (cmpi .slt : (⟨S526336, .i32⟩ : BufTy).Contents (Elt F) → (⟨S526336, .i32⟩ : BufTy).Contents (Elt F) → (⟨S526336, .i1⟩ : BufTy).Contents (Elt F)),
    StableHlo.nullary main_c_63 (constantI S_ 32 2048#32),
    StableHlo.unary main_c_63 main_v217 (broadcastInDim S526336 ![] bcast_S_S526336 : (⟨S_, .i32⟩ : BufTy).Contents (Elt F) → (⟨S526336, .i32⟩ : BufTy).Contents (Elt F)),
    StableHlo.binary main_v169 main_v217 main_v218 (addi : (⟨S526336, .i32⟩ : BufTy).Contents (Elt F) → (⟨S526336, .i32⟩ : BufTy).Contents (Elt F) → (⟨S526336, .i32⟩ : BufTy).Contents (Elt F)),
    StableHlo.ternary main_v216 main_v218 main_v169 main_v219 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v219 main_v220 (broadcastInDim S526336x1 ![0] bcast_S526336_S526336x1_0 : (⟨S526336, .i32⟩ : BufTy).Contents (Elt F) → (⟨S526336x1, .i32⟩ : BufTy).Contents (Elt F)),
    StableHlo.ternary main_v204 main_v220 main_v214 main_v221 ((fun x i u => Host.scatterAdd scatter_S2048x128_S526336x1_S526336x128_1_0_0_1 x i u) : (⟨S2048x128, .f32⟩ : BufTy).Contents (Elt F) → (⟨S526336x1, .i32⟩ : BufTy).Contents (Elt F) → (⟨S526336x128, .f32⟩ : BufTy).Contents (Elt F) → (⟨S2048x128, .f32⟩ : BufTy).Contents (Elt F)),
    StableHlo.unary main_arg9 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S2048x128 ![0, 1] bcast_S1x128_S2048x128_0_1 : (⟨S1x128, .f32⟩ : BufTy).Contents (Elt F) → (⟨S2048x128, .f32⟩ : BufTy).Contents (Elt F)),
    StableHlo.binary main_v221 main_v223 main_v224 (addf : (⟨S2048x128, .f32⟩ : BufTy).Contents (Elt F) → (⟨S2048x128, .f32⟩ : BufTy).Contents (Elt F) → (⟨S2048x128, .f32⟩ : BufTy).Contents (Elt F)),
    StableHlo.unary main_arg10 main_v225 ((transpose S128x128 [1, 0] · transposes_S128x128_S128x128_1_0) : (⟨S128x128, .f32⟩ : BufTy).Contents (Elt F) → (⟨S128x128, .f32⟩ : BufTy).Contents (Elt F)),
    StableHlo.binary main_v224 main_v225 main_v226 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg11 main_v227 (broadcastInDim S1x128 ![1] bcast_S128_S1x128_1 : (⟨S128, .f32⟩ : BufTy).Contents (Elt F) → (⟨S1x128, .f32⟩ : BufTy).Contents (Elt F)),
    StableHlo.unary main_v227 main_v228 (broadcastInDim S2048x128 ![0, 1] bcast_S1x128_S2048x128_0_1 : (⟨S1x128, .f32⟩ : BufTy).Contents (Elt F) → (⟨S2048x128, .f32⟩ : BufTy).Contents (Elt F)),
    StableHlo.binary main_v226 main_v228 main_v229 (addf : (⟨S2048x128, .f32⟩ : BufTy).Contents (Elt F) → (⟨S2048x128, .f32⟩ : BufTy).Contents (Elt F) → (⟨S2048x128, .f32⟩ : BufTy).Contents (Elt F)),
    StableHlo.nullary main_cst_64 (constant S_ .f32 0x00000000#32),
    StableHlo.binary main_v229 main_cst_64 main_v230 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v230 main_v231 (broadcastInDim S2048x1 ![0] bcast_S2048_S2048x1_0 : (⟨S2048, .f32⟩ : BufTy).Contents (Elt F) → (⟨S2048x1, .f32⟩ : BufTy).Contents (Elt F)),
    StableHlo.nullary main_cst_65 (constant S_ .f32 0x43000000#32) ]

set_option maxRecDepth 16384 in
set_option maxHeartbeats 4000000 in
/-- The window is that straight line: helper functions opened at their calls, sequencing re-associated. -/
theorem part_eq4 (c : Dev nD) : main_part4 (F := F) c = seq ops4 := by
  simp only [main_part4, fn_where.body, fn_floor_divide.body, fn_where_0.body, fn_remainder.body, fn_where_1.body, fn_where_2.body, fn_relu.body, seq, bind_assoc, pure_bind] <;> rfl

/-- Every operation of the window touches TensorCore buffers only. -/
theorem ops4_sub : (ops4 : List (HloOp τ sig (Elt F))).Forall fun op => op.bufs ⊆ tcRefs τ sig :=
  ⟨unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub .., unary_bufs_sub .., unary_bufs_sub .., binary_bufs_sub .., unary_bufs_sub ..,
    binary_bufs_sub .., unary_bufs_sub .., unary_bufs_sub .., binary_bufs_sub .., nullary_bufs_sub .., binary_bufs_sub ..,
    unary_bufs_sub .., nullary_bufs_sub ..⟩

/-- No operation of the window allocates: each determines the buffer it writes. -/
theorem ops4_fresh : (ops4 : List (HloOp τ sig (Elt F))).Forall fun op => op.fresh = ∅ := by
  simp only [List.Forall]; repeat' constructor

/-- The buffers the window writes, one per operation, in order. -/
abbrev written4 : List (Ref sig .tc) :=
  [ main_v184, main_cst_54, (main_call7.v0).ref, (main_call7.v1).ref, (main_call7.v2).ref, main_c_55, main_v186, main_v187,
    main_c_56, main_v188, main_v189, main_v190, main_v191, main_v192, main_v193, main_c_57,
    main_v194, main_v195, main_c_58, main_v196, main_v197, main_v198, main_v199, main_v200,
    main_v201, main_v202, main_v203, main_cst_59, main_v204, main_c_60, main_v205, main_v206,
    main_c_61, main_v207, main_v208, main_v209, main_v210, main_v211, main_v212, main_v213,
    main_v214, main_c_62, main_v215, main_v216, main_c_63, main_v217, main_v218, main_v219,
    main_v220, main_v221, main_v222, main_v223, main_v224, main_v225, main_v226, main_v227,
    main_v228, main_v229, main_cst_64, main_v230, main_v231, main_cst_65 ]

/-- Each operation writes the buffer listed for it and no other. -/
theorem ops4_writes : (ops4 : List (HloOp τ sig (Elt F))).Forall fun op =>
    op.writes ⊆ (written4.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the window does not write keeps its contents through it. -/
theorem ops4_keep (V : Valuation τ sig (Elt F)) {r : Ref sig .tc} (hr : r ∉ written4) :
    after ops4 V (Proc.devRef .tc r) = V (Proc.devRef .tc r) :=
  after_of_writes_sub ops4 V ops4_writes hr

end Cert.ReferenceIdeal.HostRun

end
-- ==== Proof.HostWindow5.lean ====
/-
  Window 5 of the reference's host program, read as a list of operations: the second layer's dense map, normalisation and rectifier, and the output projection reshaped to 8×256×64.
  Every line of the window is one host operation writing one buffer of its own; a helper function
  (the floored quotient, the remainder, a selection, the rectifier) is its body's operations written
  at the place of the call, over the buffers that call owns.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 34 operations of window 5, in program order. -/
abbrev ops5 : List (HloOp τ sig (Elt F)) :=
  [ StableHlo.unary main_cst_65 main_v232 (broadcastInDim S2048x1 ![] bcast_S_S2048x1 : (⟨S_, .f32⟩ : BufTy).Contents (Elt F) → (⟨S2048x1, .f32⟩ : BufTy).Contents (Elt F)),
    StableHlo.binary main_v231 main_v232 main_v233 (Host.divf : (⟨S2048x1, .f32⟩ : BufTy).Contents (Elt F) → (⟨S2048x1, .f32⟩ : BufTy).Contents (Elt F) → (⟨S2048x1, .f32⟩ : BufTy).Contents (Elt F)),
    StableHlo.unary main_v233 main_v234 (broadcastInDim S2048x128 ![0, 1] bcast_S2048x1_S2048x128_0_1 : (⟨S2048x1, .f32⟩ : BufTy).Contents (Elt F) → (⟨S2048x128, .f32⟩ : BufTy).Contents (Elt F)),
    StableHlo.binary main_v229 main_v234 main_v235 (subf : (⟨S2048x128, .f32⟩ : BufTy).Contents (Elt F) → (⟨S2048x128, .f32⟩ : BufTy).Contents (Elt F) → (⟨S2048x128, .f32⟩ : BufTy).Contents (Elt F)),
    StableHlo.binary main_v235 main_v235 main_v236 (mulf : (⟨S2048x128, .f32⟩ : BufTy).Contents (Elt F) → (⟨S2048x128, .f32⟩ : BufTy).Contents (Elt F) → (⟨S2048x128, .f32⟩ : BufTy).Contents (Elt F)),
    StableHlo.nullary main_cst_66 (constant S_ .f32 0x00000000#32),
    StableHlo.binary main_v236 main_cst_66 main_v237 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v237 main_v238 (broadcastInDim S2048x1 ![0] bcast_S2048_S2048x1_0 : (⟨S2048, .f32⟩ : BufTy).Contents (Elt F) → (⟨S2048x1, .f32⟩ : BufTy).Contents (Elt F)),
    StableHlo.nullary main_cst_67 (constant S_ .f32 0x43000000#32),
    StableHlo.unary main_cst_67 main_v239 (broadcastInDim S2048x1 ![] bcast_S_S2048x1 : (⟨S_, .f32⟩ : BufTy).Contents (Elt F) → (⟨S2048x1, .f32⟩ : BufTy).Contents (Elt F)),
    StableHlo.binary main_v238 main_v239 main_v240 (Host.divf : (⟨S2048x1, .f32⟩ : BufTy).Contents (Elt F) → (⟨S2048x1, .f32⟩ : BufTy).Contents (Elt F) → (⟨S2048x1, .f32⟩ : BufTy).Contents (Elt F)),
    StableHlo.unary main_v233 main_v241 (broadcastInDim S2048x128 ![0, 1] bcast_S2048x1_S2048x128_0_1 : (⟨S2048x1, .f32⟩ : BufTy).Contents (Elt F) → (⟨S2048x128, .f32⟩ : BufTy).Contents (Elt F)),
    StableHlo.binary main_v229 main_v241 main_v242 (subf : (⟨S2048x128, .f32⟩ : BufTy).Contents (Elt F) → (⟨S2048x128, .f32⟩ : BufTy).Contents (Elt F) → (⟨S2048x128, .f32⟩ : BufTy).Contents (Elt F)),
    StableHlo.nullary main_cst_68 (constant S_ .f32 0x3727C5AC#32),
    StableHlo.unary main_cst_68 main_v243 (broadcastInDim S2048x1 ![] bcast_S_S2048x1 : (⟨S_, .f32⟩ : BufTy).Contents (Elt F) → (⟨S2048x1, .f32⟩ : BufTy).Contents (Elt F)),
    StableHlo.binary main_v240 main_v243 main_v244 (addf : (⟨S2048x1, .f32⟩ : BufTy).Contents (Elt F) → (⟨S2048x1, .f32⟩ : BufTy).Contents (Elt F) → (⟨S2048x1, .f32⟩ : BufTy).Contents (Elt F)),
    StableHlo.unary main_v244 main_v245 (Host.sqrt : (⟨S2048x1, .f32⟩ : BufTy).Contents (Elt F) → (⟨S2048x1, .f32⟩ : BufTy).Contents (Elt F)),
    StableHlo.unary main_v245 main_v246 (broadcastInDim S2048x128 ![0, 1] bcast_S2048x1_S2048x128_0_1 : (⟨S2048x1, .f32⟩ : BufTy).Contents (Elt F) → (⟨S2048x128, .f32⟩ : BufTy).Contents (Elt F)),
    StableHlo.binary main_v242 main_v246 main_v247 (Host.divf : (⟨S2048x128, .f32⟩ : BufTy).Contents (Elt F) → (⟨S2048x128, .f32⟩ : BufTy).Contents (Elt F) → (⟨S2048x128, .f32⟩ : BufTy).Contents (Elt F)),
    StableHlo.unary main_arg12 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S2048x128 ![0, 1] bcast_S1x128_S2048x128_0_1 : (⟨S1x128, .f32⟩ : BufTy).Contents (Elt F) → (⟨S2048x128, .f32⟩ : BufTy).Contents (Elt F)),
    StableHlo.binary main_v247 main_v249 main_v250 (mulf : (⟨S2048x128, .f32⟩ : BufTy).Contents (Elt F) → (⟨S2048x128, .f32⟩ : BufTy).Contents (Elt F) → (⟨S2048x128, .f32⟩ : BufTy).Contents (Elt F)),
    StableHlo.unary main_arg13 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S2048x128 ![0, 1] bcast_S1x128_S2048x128_0_1 : (⟨S1x128, .f32⟩ : BufTy).Contents (Elt F) → (⟨S2048x128, .f32⟩ : BufTy).Contents (Elt F)),
    StableHlo.binary main_v250 main_v252 main_v253 (addf : (⟨S2048x128, .f32⟩ : BufTy).Contents (Elt F) → (⟨S2048x128, .f32⟩ : BufTy).Contents (Elt F) → (⟨S2048x128, .f32⟩ : BufTy).Contents (Elt F)),
    StableHlo.TRef.nullary main_call8.cst (constant S_ .f32 0x00000000#32),
    StableHlo.TRef.unary main_call8.cst main_call8.v0 (broadcastInDim S2048x128 ![] bcast_S_S2048x128),
    StableHlo.TRef.binary (.of main_v253) main_call8.v0 main_call8.v1 maximumf,
    StableHlo.unary main_arg14 main_v255 ((transpose S128x64 [1, 0] · transposes_S64x128_S128x64_1_0) : (⟨S64x128, .f32⟩ : BufTy).Contents (Elt F) → (⟨S128x64, .f32⟩ : BufTy).Contents (Elt F)),
    StableHlo.binary main_v254 main_v255 main_v256 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg15 main_v257 (broadcastInDim S1x64 ![1] bcast_S64_S1x64_1 : (⟨S64, .f32⟩ : BufTy).Contents (Elt F) → (⟨S1x64, .f32⟩ : BufTy).Contents (Elt F)),
    StableHlo.unary main_v257 main_v258 (broadcastInDim S2048x64 ![0, 1] bcast_S1x64_S2048x64_0_1 : (⟨S1x64, .f32⟩ : BufTy).Contents (Elt F) → (⟨S2048x64, .f32⟩ : BufTy).Contents (Elt F)),
    StableHlo.binary main_v256 main_v258 main_v259 (addf : (⟨S2048x64, .f32⟩ : BufTy).Contents (Elt F) → (⟨S2048x64, .f32⟩ : BufTy).Contents (Elt F) → (⟨S2048x64, .f32⟩ : BufTy).Contents (Elt F)),
    StableHlo.reshape main_v259 main_v260 rfl shapeCasts_S2048x64_S8x256x64 ]

set_option maxRecDepth 16384 in
set_option maxHeartbeats 4000000 in
/-- The window is that straight line: helper functions opened at their calls, sequencing re-associated. -/
theorem part_eq5 (c : Dev nD) : main_part5 (F := F) c = seq ops5 := by
  simp only [main_part5, fn_where.body, fn_floor_divide.body, fn_where_0.body, fn_remainder.body, fn_where_1.body, fn_where_2.body, fn_relu.body, seq, bind_assoc, pure_bind] <;> rfl

/-- Every operation of the window touches TensorCore buffers only. -/
theorem ops5_sub : (ops5 : List (HloOp τ sig (Elt F))).Forall fun op => op.bufs ⊆ tcRefs τ sig :=
  ⟨unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., reshape_bufs_sub ..⟩

/-- No operation of the window allocates: each determines the buffer it writes. -/
theorem ops5_fresh : (ops5 : List (HloOp τ sig (Elt F))).Forall fun op => op.fresh = ∅ := by
  simp only [List.Forall]; repeat' constructor

/-- The buffers the window writes, one per operation, in order. -/
abbrev written5 : List (Ref sig .tc) :=
  [ main_v232, main_v233, main_v234, main_v235, main_v236, main_cst_66, main_v237, main_v238,
    main_cst_67, main_v239, main_v240, main_v241, main_v242, main_cst_68, main_v243, main_v244,
    main_v245, main_v246, main_v247, main_v248, main_v249, main_v250, main_v251, main_v252,
    main_v253, (main_call8.cst).ref, (main_call8.v0).ref, (main_call8.v1).ref, main_v255, main_v256, main_v257, main_v258,
    main_v259, main_v260 ]

/-- Each operation writes the buffer listed for it and no other. -/
theorem ops5_writes : (ops5 : List (HloOp τ sig (Elt F))).Forall fun op =>
    op.writes ⊆ (written5.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the window does not write keeps its contents through it. -/
theorem ops5_keep (V : Valuation τ sig (Elt F)) {r : Ref sig .tc} (hr : r ∉ written5) :
    after ops5 V (Proc.devRef .tc r) = V (Proc.devRef .tc r) :=
  after_of_writes_sub ops5 V ops5_writes hr

end Cert.ReferenceIdeal.HostRun

end
-- ==== Proof.HostRun.lean ====
/-
  The reference's host program as ONE straight line of 412 operations (its six windows, in order), and
  its run: every weakly fair execution terminates without a fault, each buffer ending at the fold of
  the operations over the launch contents. No operation writes an argument, so the sixteen arguments
  end as launched.
-/
import proofs.«151161_g38689065402409_fold_wed_m_144_3_alg».proof.Proof.HostWindow0
import proofs.«151161_g38689065402409_fold_wed_m_144_3_alg».proof.Proof.HostWindow1
import proofs.«151161_g38689065402409_fold_wed_m_144_3_alg».proof.Proof.HostWindow2
import proofs.«151161_g38689065402409_fold_wed_m_144_3_alg».proof.Proof.HostWindow3
import proofs.«151161_g38689065402409_fold_wed_m_144_3_alg».proof.Proof.HostWindow4
import proofs.«151161_g38689065402409_fold_wed_m_144_3_alg».proof.Proof.HostWindow5
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the windows' lists, one after the other. -/
abbrev ops : List (HloOp τ sig (Elt F)) := ops0 ++ (ops1 ++ (ops2 ++ (ops3 ++ (ops4 ++ ops5))))

/-- The program is that line: each window is its list, and lists run in sequence concatenate. -/
theorem main_eq (c : Dev nD) : main (F := F) c = seq ops := by
  simp only [main, part_eq0, part_eq1, part_eq2, part_eq3, part_eq4, part_eq5, ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops0_sub, ops1_sub, ops2_sub, ops3_sub, ops4_sub, ops5_sub⟩

theorem ops_fresh : (ops : List (HloOp τ sig (Elt F))).Forall fun op => op.fresh = ∅ := by
  simp only [ops, List.forall_append]
  exact ⟨ops0_fresh, ops1_fresh, ops2_fresh, ops3_fresh, ops4_fresh, ops5_fresh⟩

/-- The contents after the whole line are the windows' folds, composed in order. -/
theorem after_ops (V : Valuation τ sig (Elt F)) :
    after ops V = after ops5 (after ops4 (after ops3 (after ops2 (after ops1 (after ops0 V))))) := by
  simp only [ops, after_append]

/-- A buffer no window writes keeps its contents through the whole line. -/
theorem ops_keep (V : Valuation τ sig (Elt F)) {r : Ref sig .tc} (h0 : r ∉ written0) (h1 : r ∉ written1)
    (h2 : r ∉ written2) (h3 : r ∉ written3) (h4 : r ∉ written4) (h5 : r ∉ written5) :
    after ops V (Proc.devRef .tc r) = V (Proc.devRef .tc r) := by
  rw [after_ops, ops5_keep _ h5, ops4_keep _ h4, ops3_keep _ h3, ops2_keep _ h2, ops1_keep _ h1, ops0_keep _ h0]

/-- Every weakly fair execution of the reference terminates, nothing faulting, with every TensorCore buffer
    at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- The same run with the sixteen arguments read back: they end as launched. -/
theorem run_kept (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v260) = after ops (launchContents m c) (Proc.devRef .tc main_v260)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨h c main_v260,
      (h c main_arg0).trans (ops_keep _ (by decide) (by decide) (by decide) (by decide) (by decide) (by decide)),
      (h c main_arg1).trans (ops_keep _ (by decide) (by decide) (by decide) (by decide) (by decide) (by decide)),
      (h c main_arg2).trans (ops_keep _ (by decide) (by decide) (by decide) (by decide) (by decide) (by decide)),
      (h c main_arg3).trans (ops_keep _ (by decide) (by decide) (by decide) (by decide) (by decide) (by decide)),
      (h c main_arg4).trans (ops_keep _ (by decide) (by decide) (by decide) (by decide) (by decide) (by decide)),
      (h c main_arg5).trans (ops_keep _ (by decide) (by decide) (by decide) (by decide) (by decide) (by decide)),
      (h c main_arg6).trans (ops_keep _ (by decide) (by decide) (by decide) (by decide) (by decide) (by decide)),
      (h c main_arg7).trans (ops_keep _ (by decide) (by decide) (by decide) (by decide) (by decide) (by decide)),
      (h c main_arg8).trans (ops_keep _ (by decide) (by decide) (by decide) (by decide) (by decide) (by decide)),
      (h c main_arg9).trans (ops_keep _ (by decide) (by decide) (by decide) (by decide) (by decide) (by decide)),
      (h c main_arg10).trans (ops_keep _ (by decide) (by decide) (by decide) (by decide) (by decide) (by decide)),
      (h c main_arg11).trans (ops_keep _ (by decide) (by decide) (by decide) (by decide) (by decide) (by decide)),
      (h c main_arg12).trans (ops_keep _ (by decide) (by decide) (by decide) (by decide) (by decide) (by decide)),
      (h c main_arg13).trans (ops_keep _ (by decide) (by decide) (by decide) (by decide) (by decide) (by decide)),
      (h c main_arg14).trans (ops_keep _ (by decide) (by decide) (by decide) (by decide) (by decide) (by decide)),
      (h c main_arg15).trans (ops_keep _ (by decide) (by decide) (by decide) (by decide) (by decide) (by decide))⟩)
    (run m ρ)

end Cert.ReferenceIdeal.HostRun

end
-- ==== Proof.GcnSpec.lean ====
/-
  The decoder as plain mathematics over the extended reals, one graph at a time.

  A graph has 256 nodes with 128 features. From its adjacency A the kernel takes the positive part
  P = max(A, 0), the degrees  deg c = (∑ r, P r c) + 1  and  d c = deg c ^ (-1/2).  One layer maps the
  node features x to

      conv c f = ((∑ r, P r c · ((x r · Wc f) · d r)) + (x c · Wc f) · d c) · d c + bc f
      y c      = conv c · Wmᵀ + bm
      out c    = max((y c − mean) · (var + ε)^(-1/2) · γ + β, 0)

  and the decoder is two layers followed by a projection to 64 outputs. Float constants stay the
  extended reals their bit patterns denote; the same words appear on both sides of the certificate.
-/
import Idealize.ShloMosaic.PureOps.Ideal

noncomputable section

namespace Gcn

open Idealize.ShloMosaic
open scoped BigOperators

/-- The four float constants of the program, as the extended reals their words denote. -/
abbrev zero : EReal := Ideal.ofBits .f32 0x00000000#32
abbrev one : EReal := Ideal.ofBits .f32 0x3F800000#32
abbrev n128 : EReal := Ideal.ofBits .f32 0x43000000#32
abbrev eps : EReal := Ideal.ofBits .f32 0x3727C5AC#32

/-- The positive part. -/
def pos (x : EReal) : EReal := max x zero

/-- A node's degree: the column sum of the positive part of the adjacency, plus the self loop. -/
def deg (A : Fin 256 → Fin 256 → EReal) (c : Fin 256) : EReal := (∑ r : Fin 256, pos (A r c)) + one

/-- Its inverse square root. -/
def dis (A : Fin 256 → Fin 256 → EReal) (c : Fin 256) : EReal := Ideal.rsqrt (deg A c)

/-- A row times the transpose of a weight matrix: output feature `f` is `∑ k, x k · W f k`. -/
def lin {n : ℕ} (W : Fin n → Fin 128 → EReal) (x : Fin 128 → EReal) (f : Fin n) : EReal := ∑ k : Fin 128, x k * W f k

/-- The normalised neighbourhood sum, over a given positive part `P` and scaling `d`. -/
def convRaw (P : Fin 256 → Fin 256 → EReal) (d : Fin 256 → EReal) (Wc : Fin 128 → Fin 128 → EReal) (bc : Fin 128 → EReal)
    (x : Fin 256 → Fin 128 → EReal) (c : Fin 256) (f : Fin 128) : EReal :=
  ((∑ r : Fin 256, P r c * (lin Wc (x r) f * d r)) + lin Wc (x c) f * d c) * d c + bc f

/-- A row's mean: its sum divided by 128. -/
def mean (y : Fin 128 → EReal) : EReal := Ideal.div (∑ k : Fin 128, y k) n128

/-- Layer normalisation of a row followed by the rectifier. -/
def lnrelu (g b : Fin 128 → EReal) (y : Fin 128 → EReal) (f : Fin 128) : EReal :=
  max ((y f - mean y) * Ideal.rsqrt (mean (fun k => (y k - mean y) * (y k - mean y)) + eps) * g f + b f) zero

/-- A layer up to its normalisation: the convolution followed by the dense map. -/
def preRaw (P : Fin 256 → Fin 256 → EReal) (d : Fin 256 → EReal) (Wc : Fin 128 → Fin 128 → EReal) (bc : Fin 128 → EReal)
    (Wm : Fin 128 → Fin 128 → EReal) (bm : Fin 128 → EReal) (x : Fin 256 → Fin 128 → EReal) (c : Fin 256) (f : Fin 128) : EReal :=
  lin Wm (convRaw P d Wc bc x c) f + bm f

/-- One whole layer. -/
def layerRaw (P : Fin 256 → Fin 256 → EReal) (d : Fin 256 → EReal) (Wc : Fin 128 → Fin 128 → EReal) (bc : Fin 128 → EReal)
    (Wm : Fin 128 → Fin 128 → EReal) (bm g b : Fin 128 → EReal) (x : Fin 256 → Fin 128 → EReal) (c : Fin 256) : Fin 128 → EReal :=
  lnrelu g b (preRaw P d Wc bc Wm bm x c)

/-- The decoder of one graph: two layers and the output projection. -/
def decode (A : Fin 256 → Fin 256 → EReal) (x : Fin 256 → Fin 128 → EReal)
    (Wc0 : Fin 128 → Fin 128 → EReal) (bc0 : Fin 128 → EReal) (Wm0 : Fin 128 → Fin 128 → EReal) (bm0 g0 b0 : Fin 128 → EReal)
    (Wc1 : Fin 128 → Fin 128 → EReal) (bc1 : Fin 128 → EReal) (Wm1 : Fin 128 → Fin 128 → EReal) (bm1 g1 b1 : Fin 128 → EReal)
    (Wl : Fin 64 → Fin 128 → EReal) (bl : Fin 64 → EReal) (r : Fin 256) (o : Fin 64) : EReal :=
  lin Wl (layerRaw (fun r c => pos (A r c)) (dis A) Wc1 bc1 Wm1 bm1 g1 b1
    (layerRaw (fun r c => pos (A r c)) (dis A) Wc0 bc0 Wm0 bm0 g0 b0 x) r) o + bl o

end Gcn

end
-- ==== Proof.KernelBody.lean ====
/-
  The kernel's body read at an index. Each non-pointwise operation of the body is read once as a plain
  sum or a re-indexing — the three matrix products (features by weightsᵀ, adjacencyᵀ by features, the
  projection), the two reductions (along a row; down a column), the keep-dims casts and broadcasts —
  and each of the body's three computed values is then a formula of the specification.
-/
import proofs.«151161_g38689065402409_fold_wed_m_144_3_alg».proof.Proof.Gen.KernelIdeal.Skeleton
import proofs.«151161_g38689065402409_fold_wed_m_144_3_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The matrix products as sums -/

/-- Features times weightsᵀ: entry `(r, f)` is `∑ k, x[r, k] · W[f, k]`. -/
theorem dense_apply (x : FVec Ideal S256x128 .f32) (W : FVec Ideal S128x128 .f32) (r : Fin 256) (f : Fin 128) :
    matmul dot_S256x128_S128x128_S256x128_1_1_0_0_n_n none x W (constant S256x128 .f32 0x00000000#32) (ix2 r f)
      = ∑ k : Fin 128, x (ix2 r k) * W (ix2 f k) := by
  refine (Ideal.matmul_constant_zero_apply _ _ _ _ _).trans ?_
  rw [← Equiv.sum_comp (contrEquiv1 dot_S256x128_S128x128_S256x128_1_1_0_0_n_n 128 rfl rfl).symm]
  refine Finset.sum_congr rfl fun k _ => ?_
  have hk := contrEquiv1_symm_val dot_S256x128_S128x128_S256x128_1_1_0_0_n_n 128 rfl rfl k
  congr 2
  · funext a
    refine Fin.ext ?_
    match a with
    | ⟨0, _⟩ => rfl
    | ⟨1, _⟩ => exact (DotDims.lhsIdx_val_of_single _ rfl _ _).trans hk
  · funext a
    refine Fin.ext ?_
    match a with
    | ⟨0, _⟩ => rfl
    | ⟨1, _⟩ => exact (DotDims.rhsIdx_val_of_single _ rfl _ _).trans hk

/-- The projection: entry `(r, o)` is `∑ k, x[r, k] · W[o, k]`. -/
theorem proj_apply (x : FVec Ideal S256x128 .f32) (W : FVec Ideal S64x128 .f32) (r : Fin 256) (o : Fin 64) :
    matmul dot_S256x128_S64x128_S256x64_1_1_0_0_n_n none x W (constant S256x64 .f32 0x00000000#32) (ix2 r o)
      = ∑ k : Fin 128, x (ix2 r k) * W (ix2 o k) := by
  refine (Ideal.matmul_constant_zero_apply _ _ _ _ _).trans ?_
  rw [← Equiv.sum_comp (contrEquiv1 dot_S256x128_S64x128_S256x64_1_1_0_0_n_n 128 rfl rfl).symm]
  refine Finset.sum_congr rfl fun k _ => ?_
  have hk := contrEquiv1_symm_val dot_S256x128_S64x128_S256x64_1_1_0_0_n_n 128 rfl rfl k
  congr 2
  · funext a
    refine Fin.ext ?_
    match a with
    | ⟨0, _⟩ => rfl
    | ⟨1, _⟩ => exact (DotDims.lhsIdx_val_of_single _ rfl _ _).trans hk
  · funext a
    refine Fin.ext ?_
    match a with
    | ⟨0, _⟩ => rfl
    | ⟨1, _⟩ => exact (DotDims.rhsIdx_val_of_single _ rfl _ _).trans hk

/-- Adjacencyᵀ times features, with no transpose taken: entry `(c, f)` is `∑ r, P[r, c] · h[r, f]`. -/
theorem agg_apply (P : FVec Ideal S256x256 .f32) (h : FVec Ideal S256x128 .f32) (c : Fin 256) (f : Fin 128) :
    matmul dot_S256x256_S256x128_S256x128_0_0_1_1_n_n none P h (constant S256x128 .f32 0x00000000#32) (ix2 c f)
      = ∑ r : Fin 256, P (ix2 r c) * h (ix2 r f) := by
  refine (Ideal.matmul_constant_zero_apply _ _ _ _ _).trans ?_
  rw [← Equiv.sum_comp (contrEquiv1 dot_S256x256_S256x128_S256x128_0_0_1_1_n_n 256 rfl rfl).symm]
  refine Finset.sum_congr rfl fun k _ => ?_
  have hk := contrEquiv1_symm_val dot_S256x256_S256x128_S256x128_0_0_1_1_n_n 256 rfl rfl k
  congr 2
  · funext a
    refine Fin.ext ?_
    match a with
    | ⟨0, _⟩ => exact (DotDims.lhsIdx_val_of_single _ rfl _ _).trans hk
    | ⟨1, _⟩ => rfl
  · funext a
    refine Fin.ext ?_
    match a with
    | ⟨0, _⟩ => exact (DotDims.rhsIdx_val_of_single _ rfl _ _).trans hk
    | ⟨1, _⟩ => rfl

/-! ## The reductions as sums -/

/-- The sum along a row of a 256×128 block. -/
theorem rowsum_apply (v : FVec Ideal S256x128 .f32) (r : Fin 256) :
    multiReduction .add [1] S256 v 0x00000000#32 reduces_S256x128_S256 (.inl rfl) rfl (ix1 r) = ∑ k : Fin 128, v (ix2 r k) := by
  refine (Ideal.multiReduction_add_single v 0x00000000#32 reduces_S256x128_S256 (.inl rfl) rfl (ix1 r)).trans ?_
  refine Finset.sum_congr rfl fun k _ => congrArg v ?_
  funext a
  refine Fin.ext ?_
  match a with
  | ⟨0, _⟩ => rfl
  | ⟨1, _⟩ => rfl

/-- The sum down a column of a 256×256 block. -/
theorem colsum_apply (v : FVec Ideal S256x256 .f32) (c : Fin 256) :
    multiReduction .add [0] S256 v 0x00000000#32 reduces_S256x256_S256 (.inl rfl) rfl (ix1 c) = ∑ r : Fin 256, v (ix2 r c) := by
  refine (Ideal.multiReduction_add_single v 0x00000000#32 reduces_S256x256_S256 (.inl rfl) rfl (ix1 c)).trans ?_
  refine Finset.sum_congr rfl fun k _ => congrArg v ?_
  funext a
  refine Fin.ext ?_
  match a with
  | ⟨0, _⟩ => rfl
  | ⟨1, _⟩ => rfl

/-! ## Keep-dims casts and broadcasts -/

/-- A vector of 256 entries cast to a column reads, at `(r, 0)`, entry `r`. -/
theorem col_cast_apply {α : Type} (d : S256.Idx → α) (r : Fin 256) (z : Fin 1) :
    shapeCast S256x1 d shapeCasts_S256_S256x1 (ix2 r z) = d (ix1 r) :=
  shapeCast_apply d _ _ _ (by
    have hz : z.val = 0 := by omega
    rw [Shape.rowMajor_val_two, Shape.rowMajor_val_one]
    show r.val = r.val * 1 + z.val
    rw [hz, Nat.mul_one, Nat.add_zero])

/-- A column broadcast along the rows' features reads, at `(r, f)`, the column's entry `r`. -/
theorem col_bcast_apply {α : Type} (v : S256x1.Idx → α) (r : Fin 256) (f : Fin 128) :
    broadcastTo S256x128 v broadcasts_S256x1_S256x128 (ix2 r f) = v (ix2 r (0 : Fin 1)) := by
  refine broadcastTo_apply v _ (ix2 r f) (ix2 r (0 : Fin 1)) fun ax => ?_
  match ax with
  | ⟨0, _⟩ => rfl
  | ⟨1, _⟩ => rfl

/-- A row vector broadcast down the 256 rows reads, at `(r, f)`, its entry `f`. -/
theorem row_bcast_apply {α : Type} (v : S1x128.Idx → α) (r : Fin 256) (f : Fin 128) :
    broadcastTo S256x128 v broadcasts_S1x128_S256x128 (ix2 r f) = v (ix2 (0 : Fin 1) f) :=
  broadcastTo_1b_ab_apply v _ r f

/-- The same for the 64 outputs. -/
theorem row_bcast64_apply {α : Type} (v : S1x64.Idx → α) (r : Fin 256) (o : Fin 64) :
    broadcastTo S256x64 v broadcasts_S1x64_S256x64 (ix2 r o) = v (ix2 (0 : Fin 1) o) :=
  broadcastTo_1b_ab_apply v _ r o

/-! ## The body's blocks, each read at an index -/

/-- A 256-vector as a column broadcast over the 128 features. -/
abbrev bcol (d : FVec Ideal S256 .f32) : FVec Ideal S256x128 .f32 :=
  broadcastTo S256x128 (shapeCast S256x1 d shapeCasts_S256_S256x1) broadcasts_S256x1_S256x128

theorem bcol_apply (d : FVec Ideal S256 .f32) (r : Fin 256) (f : Fin 128) : bcol d (ix2 r f) = d (ix1 r) :=
  (col_bcast_apply _ r f).trans (col_cast_apply d r 0)

theorem rsqrt_apply {s : Shape} (v : FVec Ideal s .f32) (i : s.Idx) : rsqrt v i = Ideal.rsqrt (v i) := rfl

/-- The positive part of the adjacency block. -/
theorem pay2_apply (v0 : Vec Ideal S1x256x256 .f32) (r c : Fin 256) :
    k0_pay2 v0 (ix2 r c) = Gcn.pos (v0 (ix3 (0 : Fin 1) r c)) := by
  unfold k0_pay2 Gcn.pos
  refine congrArg (fun t => max t _) ?_
  exact shapeCast_1ab_ab_apply v0 _ r c

/-- The inverse square roots of the degrees. -/
theorem pay3_apply (v0 : Vec Ideal S1x256x256 .f32) (c : Fin 256) :
    k0_pay3 v0 (ix1 c) = Gcn.dis (fun r c => v0 (ix3 (0 : Fin 1) r c)) c := by
  unfold k0_pay3 Gcn.dis Gcn.deg
  refine congrArg Ideal.rsqrt ?_
  refine congrArg (fun t => t + _) ?_
  refine (colsum_apply (k0_pay2 v0) c).trans ?_
  exact Finset.sum_congr rfl fun r _ => pay2_apply v0 r c

/-- The convolution block: features by weightsᵀ, scaled, summed over the neighbours, scaled again, plus bias. -/
def convV (P : FVec Ideal S256x256 .f32) (d : FVec Ideal S256 .f32) (x : FVec Ideal S256x128 .f32)
    (W : FVec Ideal S128x128 .f32) (b : FVec Ideal S1x128 .f32) : FVec Ideal S256x128 .f32 :=
  addf (mulf (addf (matmul dot_S256x256_S256x128_S256x128_0_0_1_1_n_n none P
          (mulf (matmul dot_S256x128_S128x128_S256x128_1_1_0_0_n_n none x W (constant S256x128 .f32 0x00000000#32)) (bcol d))
          (constant S256x128 .f32 0x00000000#32))
        (mulf (matmul dot_S256x128_S128x128_S256x128_1_1_0_0_n_n none x W (constant S256x128 .f32 0x00000000#32)) (bcol d)))
      (bcol d))
    (broadcastTo S256x128 (shapeCast S1x128 b shapeCasts_S1x128_S1x128) broadcasts_S1x128_S256x128)

theorem convV_apply (P : FVec Ideal S256x256 .f32) (d : FVec Ideal S256 .f32) (x : FVec Ideal S256x128 .f32)
    (W : FVec Ideal S128x128 .f32) (b : FVec Ideal S1x128 .f32) (c : Fin 256) (f : Fin 128) :
    convV P d x W b (ix2 c f)
      = Gcn.convRaw (fun r c => P (ix2 r c)) (fun r => d (ix1 r)) (fun f k => W (ix2 f k)) (fun f => b (ix2 (0 : Fin 1) f))
          (fun r k => x (ix2 r k)) c f := by
  unfold convV Gcn.convRaw Gcn.lin
  simp only [addf_apply, mulf_apply, bcol_apply, row_bcast_apply, shapeCast_self, agg_apply, dense_apply]

/-- The dense block: rows by weightsᵀ plus bias. -/
def denseV (x : FVec Ideal S256x128 .f32) (W : FVec Ideal S128x128 .f32) (b : FVec Ideal S1x128 .f32) : FVec Ideal S256x128 .f32 :=
  addf (matmul dot_S256x128_S128x128_S256x128_1_1_0_0_n_n none x W (constant S256x128 .f32 0x00000000#32))
    (broadcastTo S256x128 (shapeCast S1x128 b shapeCasts_S1x128_S1x128) broadcasts_S1x128_S256x128)

theorem denseV_apply (x : FVec Ideal S256x128 .f32) (W : FVec Ideal S128x128 .f32) (b : FVec Ideal S1x128 .f32) (r : Fin 256) (f : Fin 128) :
    denseV x W b (ix2 r f) = Gcn.lin (fun f k => W (ix2 f k)) (fun k => x (ix2 r k)) f + b (ix2 (0 : Fin 1) f) := by
  unfold denseV Gcn.lin
  simp only [addf_apply, row_bcast_apply, shapeCast_self, dense_apply]

/-- Each row's mean, kept as a column. -/
def rowmean (v : FVec Ideal S256x128 .f32) : FVec Ideal S256x1 .f32 :=
  divf (shapeCast S256x1 (multiReduction .add [1] S256 v 0x00000000#32 reduces_S256x128_S256 (.inl rfl) rfl) shapeCasts_S256_S256x1)
    (broadcast S256x1 (Scalar.ofBits .f32 0x43000000#32))

theorem rowmean_apply (v : FVec Ideal S256x128 .f32) (r : Fin 256) (z : Fin 1) :
    rowmean v (ix2 r z) = Gcn.mean (fun k => v (ix2 r k)) := by
  unfold rowmean Gcn.mean
  rw [divf_apply, col_cast_apply, rowsum_apply]
  rfl

/-- The rows centred on their means. -/
def centered (y : FVec Ideal S256x128 .f32) : FVec Ideal S256x128 .f32 :=
  subf y (broadcastTo S256x128 (rowmean y) broadcasts_S256x1_S256x128)

theorem centered_apply (y : FVec Ideal S256x128 .f32) (r : Fin 256) (f : Fin 128) :
    centered y (ix2 r f) = y (ix2 r f) - Gcn.mean (fun k => y (ix2 r k)) := by
  unfold centered
  rw [subf_apply, col_bcast_apply, rowmean_apply]

/-- Layer normalisation and rectifier of every row. -/
def lnreluV (y : FVec Ideal S256x128 .f32) (g b : FVec Ideal S1x128 .f32) : FVec Ideal S256x128 .f32 :=
  maximumf (addf (mulf (mulf (centered y)
        (broadcastTo S256x128 (rsqrt (addf (rowmean (mulf (centered y) (centered y))) (broadcast S256x1 (Scalar.ofBits .f32 0x3727C5AC#32))))
          broadcasts_S256x1_S256x128))
      (broadcastTo S256x128 g broadcasts_S1x128_S256x128))
    (broadcastTo S256x128 b broadcasts_S1x128_S256x128))
    (broadcast S256x128 (Scalar.ofBits .f32 0x00000000#32))

theorem lnreluV_apply (y : FVec Ideal S256x128 .f32) (g b : FVec Ideal S1x128 .f32) (r : Fin 256) (f : Fin 128) :
    lnreluV y g b (ix2 r f) = Gcn.lnrelu (fun f => g (ix2 (0 : Fin 1) f)) (fun f => b (ix2 (0 : Fin 1) f)) (fun k => y (ix2 r k)) f := by
  unfold lnreluV Gcn.lnrelu
  simp only [maximumf_apply, addf_apply, mulf_apply, row_bcast_apply, col_bcast_apply, rsqrt_apply, rowmean_apply, centered_apply,
    broadcast_apply]
  rfl

/-- The output projection: rows by the 64×128 weightsᵀ plus bias. -/
def projV (x : FVec Ideal S256x128 .f32) (W : FVec Ideal S64x128 .f32) (b : FVec Ideal S1x64 .f32) : FVec Ideal S256x64 .f32 :=
  addf (matmul dot_S256x128_S64x128_S256x64_1_1_0_0_n_n none x W (constant S256x64 .f32 0x00000000#32))
    (broadcastTo S256x64 (shapeCast S1x64 b shapeCasts_S1x64_S1x64) broadcasts_S1x64_S256x64)

theorem projV_apply (x : FVec Ideal S256x128 .f32) (W : FVec Ideal S64x128 .f32) (b : FVec Ideal S1x64 .f32) (r : Fin 256) (o : Fin 64) :
    projV x W b (ix2 r o) = Gcn.lin (fun o k => W (ix2 o k)) (fun k => x (ix2 r k)) o + b (ix2 (0 : Fin 1) o) := by
  unfold projV Gcn.lin
  simp only [addf_apply, row_bcast64_apply, shapeCast_self, proj_apply]

/-! ## The three computed values of the body -/

theorem pay4_eq (v0 : Vec Ideal S1x256x256 .f32) (v8 : Vec Ideal S1x256x128 .f32) (v10 : Vec Ideal S128x128 .f32) (v20 : Vec Ideal S1x128 .f32)
    (v24 : Vec Ideal S128x128 .f32) (v26 : Vec Ideal S1x128 .f32) :
    k0_pay4 v0 v8 v10 v20 v24 v26
      = denseV (convV (k0_pay2 v0) (k0_pay3 v0) (shapeCast S256x128 v8 shapeCasts_S1x256x128_S256x128) v10 v20) v24 v26 := rfl

theorem pay7_eq (v3 : FVec Ideal S256x256 .f32) (v7 : FVec Ideal S256 .f32) (v29 : FVec Ideal S256x128 .f32) (v31 v33 : FVec Ideal S1x128 .f32)
    (v56 : Vec Ideal S128x128 .f32) (v66 : Vec Ideal S1x128 .f32) (v70 : Vec Ideal S128x128 .f32) (v72 : Vec Ideal S1x128 .f32) :
    k0_pay7 v3 v7 v29 v31 v33 v56 v66 v70 v72 = denseV (convV v3 v7 (lnreluV v29 v31 v33) v56 v66) v70 v72 := rfl

theorem pay1_eq (v75 : FVec Ideal S256x128 .f32) (v76 v78 : Vec Ideal S1x128 .f32) (v102 : Vec Ideal S64x128 .f32) (v104 : Vec Ideal S1x64 .f32) :
    k0_pay1 v75 v76 v78 v102 v104
      = shapeCast S1x256x64
          (projV (lnreluV v75 (shapeCast S1x128 v76 shapeCasts_S1x128_S1x128) (shapeCast S1x128 v78 shapeCasts_S1x128_S1x128)) v102 v104)
          shapeCasts_S256x64_S1x256x64 := rfl

/-! ## The whole body -/

/-- THE BODY AT AN INDEX: what a grid point stores at `(0, r, o)` is the specification's decoder of the point's
    blocks — the adjacency block, the feature block and the fourteen weight blocks — at node `r`, output `o`. -/
theorem body_apply (x0 : Vec Ideal S1x256x128 .f32) (x1 : Vec Ideal S1x256x256 .f32) (x2 : Vec Ideal S128x128 .f32) (x3 : Vec Ideal S1x128 .f32)
    (x4 : Vec Ideal S128x128 .f32) (x5 x6 x7 : Vec Ideal S1x128 .f32) (x8 : Vec Ideal S128x128 .f32) (x9 : Vec Ideal S1x128 .f32)
    (x10 : Vec Ideal S128x128 .f32) (x11 x12 x13 : Vec Ideal S1x128 .f32) (x14 : Vec Ideal S64x128 .f32) (x15 : Vec Ideal S1x64 .f32)
    (r : Fin 256) (o : Fin 64) :
    k0_pay1 (k0_pay7 (k0_pay2 x1) (k0_pay3 x1) (k0_pay4 x1 x0 x2 x3 x4 x5) (k0_pay5 x6) (k0_pay6 x7) x8 x9 x10 x11) x12 x13 x14 x15
        (ix3 (0 : Fin 1) r o)
      = Gcn.decode (fun r c => x1 (ix3 (0 : Fin 1) r c)) (fun r k => x0 (ix3 (0 : Fin 1) r k))
          (fun f k => x2 (ix2 f k)) (fun f => x3 (ix2 (0 : Fin 1) f)) (fun f k => x4 (ix2 f k)) (fun f => x5 (ix2 (0 : Fin 1) f))
          (fun f => x6 (ix2 (0 : Fin 1) f)) (fun f => x7 (ix2 (0 : Fin 1) f))
          (fun f k => x8 (ix2 f k)) (fun f => x9 (ix2 (0 : Fin 1) f)) (fun f k => x10 (ix2 f k)) (fun f => x11 (ix2 (0 : Fin 1) f))
          (fun f => x12 (ix2 (0 : Fin 1) f)) (fun f => x13 (ix2 (0 : Fin 1) f))
          (fun o k => x14 (ix2 o k)) (fun o => x15 (ix2 (0 : Fin 1) o)) r o := by
  rw [pay1_eq, pay7_eq, pay4_eq]
  unfold k0_pay5 k0_pay6 Gcn.decode Gcn.layerRaw Gcn.preRaw
  rw [shapeCast_ab_1ab_apply]
  simp only [projV_apply, lnreluV_apply, denseV_apply, convV_apply, pay2_apply, pay3_apply, shapeCast_1ab_ab_apply, shapeCast_self]

end Cert.KernelIdeal.Body

end
-- ==== Proof.GcnArray.lean ====
/-
  The decoder over whole arrays: output entry (g, r, o) of the 8×256×64 result is the one-graph decoder of
  graph g's adjacency and feature slices and the shared weights, at node r and output o.
-/
import proofs.«151161_g38689065402409_fold_wed_m_144_3_alg».proof.Proof.GcnSpec
import Idealize.ShloMosaic.Lib.ValueIdx

noncomputable section

namespace Gcn

open Idealize.ShloMosaic Idealize.ShloMosaic.ValueIdx

/-- The whole result from the sixteen argument arrays, in the order the programs take them: node features, adjacency,
    then per layer (Wc, bc, Wm, bm, γ, β), then the projection's weights and bias. -/
def arrayDecode (a0 : (⟨3, ![8, 256, 128]⟩ : Shape).Idx → EReal) (a1 : (⟨3, ![8, 256, 256]⟩ : Shape).Idx → EReal)
    (a2 : (⟨2, ![128, 128]⟩ : Shape).Idx → EReal) (a3 : (⟨1, ![128]⟩ : Shape).Idx → EReal)
    (a4 : (⟨2, ![128, 128]⟩ : Shape).Idx → EReal) (a5 a6 a7 : (⟨1, ![128]⟩ : Shape).Idx → EReal)
    (a8 : (⟨2, ![128, 128]⟩ : Shape).Idx → EReal) (a9 : (⟨1, ![128]⟩ : Shape).Idx → EReal)
    (a10 : (⟨2, ![128, 128]⟩ : Shape).Idx → EReal) (a11 a12 a13 : (⟨1, ![128]⟩ : Shape).Idx → EReal)
    (a14 : (⟨2, ![64, 128]⟩ : Shape).Idx → EReal) (a15 : (⟨1, ![64]⟩ : Shape).Idx → EReal)
    (g : Fin 8) (r : Fin 256) (o : Fin 64) : EReal :=
  decode (fun r c => a1 (ix3 g r c)) (fun r k => a0 (ix3 g r k))
    (fun f k => a2 (ix2 f k)) (fun f => a3 (ix1 f)) (fun f k => a4 (ix2 f k)) (fun f => a5 (ix1 f)) (fun f => a6 (ix1 f)) (fun f => a7 (ix1 f))
    (fun f k => a8 (ix2 f k)) (fun f => a9 (ix1 f)) (fun f k => a10 (ix2 f k)) (fun f => a11 (ix1 f)) (fun f => a12 (ix1 f)) (fun f => a13 (ix1 f))
    (fun o k => a14 (ix2 o k)) (fun o => a15 (ix1 o)) r o

/-- The same as an array: read at an index through its three coordinates. -/
def arrayOut (a0 : (⟨3, ![8, 256, 128]⟩ : Shape).Idx → EReal) (a1 : (⟨3, ![8, 256, 256]⟩ : Shape).Idx → EReal)
    (a2 : (⟨2, ![128, 128]⟩ : Shape).Idx → EReal) (a3 : (⟨1, ![128]⟩ : Shape).Idx → EReal)
    (a4 : (⟨2, ![128, 128]⟩ : Shape).Idx → EReal) (a5 a6 a7 : (⟨1, ![128]⟩ : Shape).Idx → EReal)
    (a8 : (⟨2, ![128, 128]⟩ : Shape).Idx → EReal) (a9 : (⟨1, ![128]⟩ : Shape).Idx → EReal)
    (a10 : (⟨2, ![128, 128]⟩ : Shape).Idx → EReal) (a11 a12 a13 : (⟨1, ![128]⟩ : Shape).Idx → EReal)
    (a14 : (⟨2, ![64, 128]⟩ : Shape).Idx → EReal) (a15 : (⟨1, ![64]⟩ : Shape).Idx → EReal) :
    (⟨3, ![8, 256, 64]⟩ : Shape).Idx → EReal :=
  fun i => arrayDecode a0 a1 a2 a3 a4 a5 a6 a7 a8 a9 a10 a11 a12 a13 a14 a15
    (⟨(i 0).val, (i 0).isLt⟩ : Fin 8) (⟨(i 1).val, (i 1).isLt⟩ : Fin 256) (⟨(i 2).val, (i 2).isLt⟩ : Fin 64)

theorem arrayOut_ix3 (a0 : (⟨3, ![8, 256, 128]⟩ : Shape).Idx → EReal) (a1 : (⟨3, ![8, 256, 256]⟩ : Shape).Idx → EReal)
    (a2 : (⟨2, ![128, 128]⟩ : Shape).Idx → EReal) (a3 : (⟨1, ![128]⟩ : Shape).Idx → EReal)
    (a4 : (⟨2, ![128, 128]⟩ : Shape).Idx → EReal) (a5 a6 a7 : (⟨1, ![128]⟩ : Shape).Idx → EReal)
    (a8 : (⟨2, ![128, 128]⟩ : Shape).Idx → EReal) (a9 : (⟨1, ![128]⟩ : Shape).Idx → EReal)
    (a10 : (⟨2, ![128, 128]⟩ : Shape).Idx → EReal) (a11 a12 a13 : (⟨1, ![128]⟩ : Shape).Idx → EReal)
    (a14 : (⟨2, ![64, 128]⟩ : Shape).Idx → EReal) (a15 : (⟨1, ![64]⟩ : Shape).Idx → EReal) (g : Fin 8) (r : Fin 256) (o : Fin 64) :
    arrayOut a0 a1 a2 a3 a4 a5 a6 a7 a8 a9 a10 a11 a12 a13 a14 a15 (ix3 g r o)
      = arrayDecode a0 a1 a2 a3 a4 a5 a6 a7 a8 a9 a10 a11 a12 a13 a14 a15 g r o := rfl

end Gcn

end
-- ==== Proof.KernelValue.lean ====
/-
  From blocks to the array. Grid point t stages graph t's feature and adjacency blocks and the whole of every
  weight array (the bias and scale vectors as the 1×n rows the host reshaped them to), so what point t writes
  back is graph t's slice of the decoder of the argument arrays; the eight blocks tile the 8×256×64 result.
-/
import proofs.«151161_g38689065402409_fold_wed_m_144_3_alg».proof.Proof.Gen.KernelIdeal.Value
import proofs.«151161_g38689065402409_fold_wed_m_144_3_alg».proof.Proof.KernelBody
import proofs.«151161_g38689065402409_fold_wed_m_144_3_alg».proof.Proof.GcnArray
import Idealize.ShloMosaic.Lib.Pipeline.Value
import Idealize.ShloMosaic.Lib.StableHlo.Run

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grid has eight points. -/
theorem tlt (t : Fin cfg0.N) : t.val < 8 := by have := t.isLt; have h : cfg0.N = 8 := Gen.N_0; omega

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided over the grid: the per-graph windows sit at block (t, 0, 0), every weight window at block 0 -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

/-! ## The staged blocks read at an index -/

/-- Graph t's feature block. -/
theorem blk0_apply (c : Dev nD) (t : Fin cfg0.N) (r : Fin 256) (k : Fin 128) :
    iblk m c 0 t (ix3 (0 : Fin 1) r k) = (m ((c : Thread nD τ).loc main_arg0)) (ix3 (⟨t.val, tlt t⟩ : Fin 8) r k) := by
  obtain ⟨e0, e1, e2⟩ := idx0 t
  show V m c main_arg0 (((cfg0.win 0).blk t).view.emb (ix3 (0 : Fin 1) r k)) = _
  rw [V_main_arg0]
  refine congrArg _ ?_
  funext a; apply Fin.ext
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 128 + 1 * k.val = k.val; omega

/-- Graph t's adjacency block. -/
theorem blk1_apply (c : Dev nD) (t : Fin cfg0.N) (r q : Fin 256) :
    iblk m c 1 t (ix3 (0 : Fin 1) r q) = (m ((c : Thread nD τ).loc main_arg1)) (ix3 (⟨t.val, tlt t⟩ : Fin 8) r q) := by
  obtain ⟨e0, e1, e2⟩ := idx1 t
  show V m c main_arg1 (((cfg0.win 1).blk t).view.emb (ix3 (0 : Fin 1) r q)) = _
  rw [V_main_arg1]
  refine congrArg _ ?_
  funext a; apply Fin.ext
  match a with
  | ⟨0, _⟩ => show win0_1.index t (0 : Fin 3) * 1 + 1 * 0 = t.val; omega
  | ⟨1, _⟩ => show win0_1.index t (1 : Fin 3) * 256 + 1 * r.val = r.val; omega
  | ⟨2, _⟩ => show win0_1.index t (2 : Fin 3) * 256 + 1 * q.val = q.val; omega

/-- A whole weight matrix. -/
theorem blk2_apply (c : Dev nD) (t : Fin cfg0.N) (f : Fin 128) (k : Fin 128) :
    iblk m c 2 t (ix2 f k) = (m ((c : Thread nD τ).loc main_arg2)) (ix2 f k) := by
  obtain ⟨e0, e1⟩ := idx2 t
  show V m c main_arg2 (((cfg0.win 2).blk t).view.emb (ix2 f k)) = _
  rw [V_main_arg2]
  refine congrArg _ ?_
  funext a; apply Fin.ext
  match a with
  | ⟨0, _⟩ => show win0_2.index t (0 : Fin 2) * 128 + 1 * f.val = f.val; omega
  | ⟨1, _⟩ => show win0_2.index t (1 : Fin 2) * 128 + 1 * k.val = k.val; omega

/-- A whole weight matrix. -/
theorem blk4_apply (c : Dev nD) (t : Fin cfg0.N) (f : Fin 128) (k : Fin 128) :
    iblk m c 4 t (ix2 f k) = (m ((c : Thread nD τ).loc main_arg4)) (ix2 f k) := by
  obtain ⟨e0, e1⟩ := idx4 t
  show V m c main_arg4 (((cfg0.win 4).blk t).view.emb (ix2 f k)) = _
  rw [V_main_arg4]
  refine congrArg _ ?_
  funext a; apply Fin.ext
  match a with
  | ⟨0, _⟩ => show win0_4.index t (0 : Fin 2) * 128 + 1 * f.val = f.val; omega
  | ⟨1, _⟩ => show win0_4.index t (1 : Fin 2) * 128 + 1 * k.val = k.val; omega

/-- A whole weight matrix. -/
theorem blk8_apply (c : Dev nD) (t : Fin cfg0.N) (f : Fin 128) (k : Fin 128) :
    iblk m c 8 t (ix2 f k) = (m ((c : Thread nD τ).loc main_arg8)) (ix2 f k) := by
  obtain ⟨e0, e1⟩ := idx8 t
  show V m c main_arg8 (((cfg0.win 8).blk t).view.emb (ix2 f k)) = _
  rw [V_main_arg8]
  refine congrArg _ ?_
  funext a; apply Fin.ext
  match a with
  | ⟨0, _⟩ => show win0_8.index t (0 : Fin 2) * 128 + 1 * f.val = f.val; omega
  | ⟨1, _⟩ => show win0_8.index t (1 : Fin 2) * 128 + 1 * k.val = k.val; omega

/-- A whole weight matrix. -/
theorem blk10_apply (c : Dev nD) (t : Fin cfg0.N) (f : Fin 128) (k : Fin 128) :
    iblk m c 10 t (ix2 f k) = (m ((c : Thread nD τ).loc main_arg10)) (ix2 f k) := by
  obtain ⟨e0, e1⟩ := idx10 t
  show V m c main_arg10 (((cfg0.win 10).blk t).view.emb (ix2 f k)) = _
  rw [V_main_arg10]
  refine congrArg _ ?_
  funext a; apply Fin.ext
  match a with
  | ⟨0, _⟩ => show win0_10.index t (0 : Fin 2) * 128 + 1 * f.val = f.val; omega
  | ⟨1, _⟩ => show win0_10.index t (1 : Fin 2) * 128 + 1 * k.val = k.val; omega

/-- A whole weight matrix. -/
theorem blk14_apply (c : Dev nD) (t : Fin cfg0.N) (f : Fin 64) (k : Fin 128) :
    iblk m c 14 t (ix2 f k) = (m ((c : Thread nD τ).loc main_arg14)) (ix2 f k) := by
  obtain ⟨e0, e1⟩ := idx14 t
  show V m c main_arg14 (((cfg0.win 14).blk t).view.emb (ix2 f k)) = _
  rw [V_main_arg14]
  refine congrArg _ ?_
  funext a; apply Fin.ext
  match a with
  | ⟨0, _⟩ => show win0_14.index t (0 : Fin 2) * 64 + 1 * f.val = f.val; omega
  | ⟨1, _⟩ => show win0_14.index t (1 : Fin 2) * 128 + 1 * k.val = k.val; omega

/-- The host reshaped this vector to one row before the call. -/
theorem V_main_v0 (c : Dev nD) : (V m c main_v0 : S1x128.Idx → EReal) = shapeCast S1x128 (m ((c : Thread nD τ).loc main_arg3)) shapeCasts_S128_S1x128 := by
  dsimp only [Gen.V, Gen.hostOps0]; after_results; rfl

theorem blk3_apply (c : Dev nD) (t : Fin cfg0.N) (f : Fin 128) :
    iblk m c 3 t (ix2 (0 : Fin 1) f) = (m ((c : Thread nD τ).loc main_arg3)) (ix1 f) := by
  obtain ⟨e0, e1⟩ := idx3 t
  show V m c main_v0 (((cfg0.win 3).blk t).view.emb (ix2 (0 : Fin 1) f)) = _
  rw [V_main_v0]
  have hE : ((cfg0.win 3).blk t).view.emb (ix2 (0 : Fin 1) f) = ix2 (0 : Fin 1) f := by
    funext a; apply Fin.ext
    match a with
    | ⟨0, _⟩ => show win0_3.index t (0 : Fin 2) * 1 + 1 * 0 = 0; omega
    | ⟨1, _⟩ => show win0_3.index t (1 : Fin 2) * 128 + 1 * f.val = f.val; omega
  rw [hE]
  exact shapeCast_a_1a_apply _ _ 0 f

/-- The host reshaped this vector to one row before the call. -/
theorem V_main_v1 (c : Dev nD) : (V m c main_v1 : S1x128.Idx → EReal) = shapeCast S1x128 (m ((c : Thread nD τ).loc main_arg5)) shapeCasts_S128_S1x128 := by
  dsimp only [Gen.V, Gen.hostOps0]; after_results; rfl

theorem blk5_apply (c : Dev nD) (t : Fin cfg0.N) (f : Fin 128) :
    iblk m c 5 t (ix2 (0 : Fin 1) f) = (m ((c : Thread nD τ).loc main_arg5)) (ix1 f) := by
  obtain ⟨e0, e1⟩ := idx5 t
  show V m c main_v1 (((cfg0.win 5).blk t).view.emb (ix2 (0 : Fin 1) f)) = _
  rw [V_main_v1]
  have hE : ((cfg0.win 5).blk t).view.emb (ix2 (0 : Fin 1) f) = ix2 (0 : Fin 1) f := by
    funext a; apply Fin.ext
    match a with
    | ⟨0, _⟩ => show win0_5.index t (0 : Fin 2) * 1 + 1 * 0 = 0; omega
    | ⟨1, _⟩ => show win0_5.index t (1 : Fin 2) * 128 + 1 * f.val = f.val; omega
  rw [hE]
  exact shapeCast_a_1a_apply _ _ 0 f

/-- The host reshaped this vector to one row before the call. -/
theorem V_main_v2 (c : Dev nD) : (V m c main_v2 : S1x128.Idx → EReal) = shapeCast S1x128 (m ((c : Thread nD τ).loc main_arg6)) shapeCasts_S128_S1x128 := by
  dsimp only [Gen.V, Gen.hostOps0]; after_results; rfl

theorem blk6_apply (c : Dev nD) (t : Fin cfg0.N) (f : Fin 128) :
    iblk m c 6 t (ix2 (0 : Fin 1) f) = (m ((c : Thread nD τ).loc main_arg6)) (ix1 f) := by
  obtain ⟨e0, e1⟩ := idx6 t
  show V m c main_v2 (((cfg0.win 6).blk t).view.emb (ix2 (0 : Fin 1) f)) = _
  rw [V_main_v2]
  have hE : ((cfg0.win 6).blk t).view.emb (ix2 (0 : Fin 1) f) = ix2 (0 : Fin 1) f := by
    funext a; apply Fin.ext
    match a with
    | ⟨0, _⟩ => show win0_6.index t (0 : Fin 2) * 1 + 1 * 0 = 0; omega
    | ⟨1, _⟩ => show win0_6.index t (1 : Fin 2) * 128 + 1 * f.val = f.val; omega
  rw [hE]
  exact shapeCast_a_1a_apply _ _ 0 f

/-- The host reshaped this vector to one row before the call. -/
theorem V_main_v3 (c : Dev nD) : (V m c main_v3 : S1x128.Idx → EReal) = shapeCast S1x128 (m ((c : Thread nD τ).loc main_arg7)) shapeCasts_S128_S1x128 := by
  dsimp only [Gen.V, Gen.hostOps0]; after_results; rfl

theorem blk7_apply (c : Dev nD) (t : Fin cfg0.N) (f : Fin 128) :
    iblk m c 7 t (ix2 (0 : Fin 1) f) = (m ((c : Thread nD τ).loc main_arg7)) (ix1 f) := by
  obtain ⟨e0, e1⟩ := idx7 t
  show V m c main_v3 (((cfg0.win 7).blk t).view.emb (ix2 (0 : Fin 1) f)) = _
  rw [V_main_v3]
  have hE : ((cfg0.win 7).blk t).view.emb (ix2 (0 : Fin 1) f) = ix2 (0 : Fin 1) f := by
    funext a; apply Fin.ext
    match a with
    | ⟨0, _⟩ => show win0_7.index t (0 : Fin 2) * 1 + 1 * 0 = 0; omega
    | ⟨1, _⟩ => show win0_7.index t (1 : Fin 2) * 128 + 1 * f.val = f.val; omega
  rw [hE]
  exact shapeCast_a_1a_apply _ _ 0 f

/-- The host reshaped this vector to one row before the call. -/
theorem V_main_v4 (c : Dev nD) : (V m c main_v4 : S1x128.Idx → EReal) = shapeCast S1x128 (m ((c : Thread nD τ).loc main_arg9)) shapeCasts_S128_S1x128 := by
  dsimp only [Gen.V, Gen.hostOps0]; after_results; rfl

theorem blk9_apply (c : Dev nD) (t : Fin cfg0.N) (f : Fin 128) :
    iblk m c 9 t (ix2 (0 : Fin 1) f) = (m ((c : Thread nD τ).loc main_arg9)) (ix1 f) := by
  obtain ⟨e0, e1⟩ := idx9 t
  show V m c main_v4 (((cfg0.win 9).blk t).view.emb (ix2 (0 : Fin 1) f)) = _
  rw [V_main_v4]
  have hE : ((cfg0.win 9).blk t).view.emb (ix2 (0 : Fin 1) f) = ix2 (0 : Fin 1) f := by
    funext a; apply Fin.ext
    match a with
    | ⟨0, _⟩ => show win0_9.index t (0 : Fin 2) * 1 + 1 * 0 = 0; omega
    | ⟨1, _⟩ => show win0_9.index t (1 : Fin 2) * 128 + 1 * f.val = f.val; omega
  rw [hE]
  exact shapeCast_a_1a_apply _ _ 0 f

/-- The host reshaped this vector to one row before the call. -/
theorem V_main_v5 (c : Dev nD) : (V m c main_v5 : S1x128.Idx → EReal) = shapeCast S1x128 (m ((c : Thread nD τ).loc main_arg11)) shapeCasts_S128_S1x128 := by
  dsimp only [Gen.V, Gen.hostOps0]; after_results; rfl

theorem blk11_apply (c : Dev nD) (t : Fin cfg0.N) (f : Fin 128) :
    iblk m c 11 t (ix2 (0 : Fin 1) f) = (m ((c : Thread nD τ).loc main_arg11)) (ix1 f) := by
  obtain ⟨e0, e1⟩ := idx11 t
  show V m c main_v5 (((cfg0.win 11).blk t).view.emb (ix2 (0 : Fin 1) f)) = _
  rw [V_main_v5]
  have hE : ((cfg0.win 11).blk t).view.emb (ix2 (0 : Fin 1) f) = ix2 (0 : Fin 1) f := by
    funext a; apply Fin.ext
    match a with
    | ⟨0, _⟩ => show win0_11.index t (0 : Fin 2) * 1 + 1 * 0 = 0; omega
    | ⟨1, _⟩ => show win0_11.index t (1 : Fin 2) * 128 + 1 * f.val = f.val; omega
  rw [hE]
  exact shapeCast_a_1a_apply _ _ 0 f

/-- The host reshaped this vector to one row before the call. -/
theorem V_main_v6 (c : Dev nD) : (V m c main_v6 : S1x128.Idx → EReal) = shapeCast S1x128 (m ((c : Thread nD τ).loc main_arg12)) shapeCasts_S128_S1x128 := by
  dsimp only [Gen.V, Gen.hostOps0]; after_results; rfl

theorem blk12_apply (c : Dev nD) (t : Fin cfg0.N) (f : Fin 128) :
    iblk m c 12 t (ix2 (0 : Fin 1) f) = (m ((c : Thread nD τ).loc main_arg12)) (ix1 f) := by
  obtain ⟨e0, e1⟩ := idx12 t
  show V m c main_v6 (((cfg0.win 12).blk t).view.emb (ix2 (0 : Fin 1) f)) = _
  rw [V_main_v6]
  have hE : ((cfg0.win 12).blk t).view.emb (ix2 (0 : Fin 1) f) = ix2 (0 : Fin 1) f := by
    funext a; apply Fin.ext
    match a with
    | ⟨0, _⟩ => show win0_12.index t (0 : Fin 2) * 1 + 1 * 0 = 0; omega
    | ⟨1, _⟩ => show win0_12.index t (1 : Fin 2) * 128 + 1 * f.val = f.val; omega
  rw [hE]
  exact shapeCast_a_1a_apply _ _ 0 f

/-- The host reshaped this vector to one row before the call. -/
theorem V_main_v7 (c : Dev nD) : (V m c main_v7 : S1x128.Idx → EReal) = shapeCast S1x128 (m ((c : Thread nD τ).loc main_arg13)) shapeCasts_S128_S1x128 := by
  dsimp only [Gen.V, Gen.hostOps0]; after_results; rfl

theorem blk13_apply (c : Dev nD) (t : Fin cfg0.N) (f : Fin 128) :
    iblk m c 13 t (ix2 (0 : Fin 1) f) = (m ((c : Thread nD τ).loc main_arg13)) (ix1 f) := by
  obtain ⟨e0, e1⟩ := idx13 t
  show V m c main_v7 (((cfg0.win 13).blk t).view.emb (ix2 (0 : Fin 1) f)) = _
  rw [V_main_v7]
  have hE : ((cfg0.win 13).blk t).view.emb (ix2 (0 : Fin 1) f) = ix2 (0 : Fin 1) f := by
    funext a; apply Fin.ext
    match a with
    | ⟨0, _⟩ => show win0_13.index t (0 : Fin 2) * 1 + 1 * 0 = 0; omega
    | ⟨1, _⟩ => show win0_13.index t (1 : Fin 2) * 128 + 1 * f.val = f.val; omega
  rw [hE]
  exact shapeCast_a_1a_apply _ _ 0 f

/-- The host reshaped this vector to one row before the call. -/
theorem V_main_v8 (c : Dev nD) : (V m c main_v8 : S1x64.Idx → EReal) = shapeCast S1x64 (m ((c : Thread nD τ).loc main_arg15)) shapeCasts_S64_S1x64 := by
  dsimp only [Gen.V, Gen.hostOps0]; after_results; rfl

theorem blk15_apply (c : Dev nD) (t : Fin cfg0.N) (f : Fin 64) :
    iblk m c 15 t (ix2 (0 : Fin 1) f) = (m ((c : Thread nD τ).loc main_arg15)) (ix1 f) := by
  obtain ⟨e0, e1⟩ := idx15 t
  show V m c main_v8 (((cfg0.win 15).blk t).view.emb (ix2 (0 : Fin 1) f)) = _
  rw [V_main_v8]
  have hE : ((cfg0.win 15).blk t).view.emb (ix2 (0 : Fin 1) f) = ix2 (0 : Fin 1) f := by
    funext a; apply Fin.ext
    match a with
    | ⟨0, _⟩ => show win0_15.index t (0 : Fin 2) * 1 + 1 * 0 = 0; omega
    | ⟨1, _⟩ => show win0_15.index t (1 : Fin 2) * 64 + 1 * f.val = f.val; omega
  rw [hE]
  exact shapeCast_a_1a_apply _ _ 0 f

/-! ## What a point writes back, the cover, and the array -/

/-- Point t's output block sits at rows (t, ·, ·) of the result. -/
theorem emb16 (t : Fin cfg0.N) (r : Fin 256) (o : Fin 64) :
    ((cfg0.win 16).blk t).view.emb (ix3 (0 : Fin 1) r o) = ix3 (⟨t.val, tlt t⟩ : Fin 8) r o := by
  obtain ⟨e0, e1, e2⟩ := idx16 t
  funext a; apply Fin.ext
  match a with
  | ⟨0, _⟩ => show win0_16.index t (0 : Fin 3) * 1 + 1 * 0 = t.val; omega
  | ⟨1, _⟩ => show win0_16.index t (1 : Fin 3) * 256 + 1 * r.val = r.val; omega
  | ⟨2, _⟩ => show win0_16.index t (2 : Fin 3) * 64 + 1 * o.val = o.val; omega

/-- WHAT POINT t WRITES BACK is block t of the decoder of the argument arrays. -/
theorem flushed_eq (c : Dev nD) (t : Fin cfg0.N) :
    (dats m 0 c).flushed 16 t = ((cfg0.win 16).blk t).view.read (Elt Ideal) (Gcn.arrayOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [Cert.KernelIdeal.Value.flushed16]
  unfold out0_16
  rw [View.canon_unit_zero hz3]
  simp only [View.ld_unit_zero (S := S1x256x128) hz3, View.ld_unit_zero (S := S1x256x256) hz3, View.ld_unit_zero (S := S128x128) hz2,
    View.ld_unit_zero (S := S1x128) hz2, View.ld_unit_zero (S := S64x128) hz2, View.ld_unit_zero (S := S1x64) hz2]
  funext y
  obtain ⟨u, r, o, rfl⟩ : ∃ (u : Fin 1) (r : Fin 256) (o : Fin 64), y = ix3 u r o := ⟨y 0, y 1, y 2, eq_ix3 y⟩
  obtain rfl : u = 0 := Subsingleton.elim _ _
  refine (Cert.KernelIdeal.Body.body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r o).trans ?_
  show _ = Gcn.arrayOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (((cfg0.win 16).blk t).view.emb (ix3 (0 : Fin 1) r o))
  rw [emb16, Gcn.arrayOut_ix3]
  simp only [blk0_apply, blk1_apply, blk2_apply, blk3_apply, blk4_apply, blk5_apply, blk6_apply, blk7_apply, blk8_apply, blk9_apply,
    blk10_apply, blk11_apply, blk12_apply, blk13_apply, blk14_apply, blk15_apply]
  rfl

/-- An index of the result is in point t's block iff each coordinate is in the block's range on its axis. -/
theorem mem_blk16 (t : Fin cfg0.N) (i : S8x256x64.Idx) :
    i ∈ ((cfg0.win 16).blk t).view.set ↔ ∀ a : Fin 3, win0_16.index t a * S1x256x64.size a ≤ (i a).val ∧ (i a).val < win0_16.index t a * S1x256x64.size a + S1x256x64.size a := by
  show i ∈ ((View.whole main_v9).slice (win0_16.rect t)).set ↔ _
  rw [View.set_slice_whole, Rect.mem_set_unit]
  exact Iff.rfl

/-- Every index of the result is in the block of the point its first coordinate names. -/
theorem cover16 (i : S8x256x64.Idx) : ∃ t : Fin cfg0.N, (cfg0.win 16).flush t = true ∧ i ∈ ((cfg0.win 16).blk t).view.set := by
  have hi0 : (i 0).val < 8 := (i 0).isLt
  have hi1 : (i 1).val < 256 := (i 1).isLt
  have hi2 : (i 2).val < 64 := (i 2).isLt
  have hN : cfg0.N = 8 := Gen.N_0
  obtain ⟨t, ht⟩ : ∃ t : Fin cfg0.N, t.val = (i 0).val := ⟨⟨(i 0).val, by omega⟩, rfl⟩
  refine ⟨t, flush0_16 t, ?_⟩
  obtain ⟨e0, e1, e2⟩ := idx16 t
  rw [mem_blk16]
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 256 ≤ (i 1).val ∧ (i 1).val < win0_16.index t (1 : Fin 3) * 256 + 256; omega
  | ⟨2, _⟩ => show win0_16.index t (2 : Fin 3) * 64 ≤ (i 2).val ∧ (i 2).val < win0_16.index t (2 : Fin 3) * 64 + 64; omega

/-- THE RESULT ARRAY after the run is the decoder of the argument arrays. -/
theorem final (c : Dev nD) : (dats m 0 c).arrAt 16 cfg0.N = Gcn.arrayOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (dats m 0 c).arrAt_eq_of_cover 16 _ (fun t _ => flushed_eq m c t) cover16

/-- The kernel's run with its result named: the decoder of the arguments; the arguments unchanged. -/
theorem run : θ_run defs (onTc (τ := τ) (main (F := Ideal))) ⟨m, fun _ => 0, ρ⟩ fun r => ∀ c : Dev nD,
      r.2.mem ((c : Thread nD τ).loc main_v9) = Gcn.arrayOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end Cert.KernelIdeal.Final

end
-- ==== Proof.RefStage1.lean ====
/-
  Stage 1 of the reference's host program (operations 0 … 65 of its straight line): the 2048×2048 block-diagonal adjacency, the eight graphs' 256×256 blocks written on the diagonal of a zero array.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s1 : List (HloOp τ sig (Elt F)) :=
  [ StableHlo.nullary main_cst (constant S_ .f32 0x00000000#32),
    StableHlo.unary main_cst main_v0 (broadcastInDim S2048x2048 ![] bcast_S_S2048x2048 : (⟨S_, .f32⟩ : BufTy).Contents (Elt F) → (⟨S2048x2048, .f32⟩ : BufTy).Contents (Elt F)),
    StableHlo.unary main_arg1 main_v1 ((extractStridedSlice S1x256x256 ![0, 0, 0] · slices_S8x256x256_S1x256x256_0_0_0) : (⟨S8x256x256, .f32⟩ : BufTy).Contents (Elt F) → (⟨S1x256x256, .f32⟩ : BufTy).Contents (Elt F)),
    StableHlo.reshape main_v1 main_v2 rfl shapeCasts_S1x256x256_S256x256,
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 0#32),
    StableHlo.unary main_c_0 main_v4 (broadcastInDim S1 ![] bcast_S_S1 : (⟨S_, .i32⟩ : BufTy).Contents (Elt F) → (⟨S1, .i32⟩ : BufTy).Contents (Elt F)),
    StableHlo.binary main_v3 main_v4 main_v5 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v0 main_v5 main_v2 main_v6 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v7 ((extractStridedSlice S1x256x256 ![1, 0, 0] · slices_S8x256x256_S1x256x256_1_0_0) : (⟨S8x256x256, .f32⟩ : BufTy).Contents (Elt F) → (⟨S1x256x256, .f32⟩ : BufTy).Contents (Elt F)),
    StableHlo.reshape main_v7 main_v8 rfl shapeCasts_S1x256x256_S256x256,
    StableHlo.nullary main_c_1 (constantI S_ 32 256#32),
    StableHlo.unary main_c_1 main_v9 (broadcastInDim S1 ![] bcast_S_S1 : (⟨S_, .i32⟩ : BufTy).Contents (Elt F) → (⟨S1, .i32⟩ : BufTy).Contents (Elt F)),
    StableHlo.nullary main_c_2 (constantI S_ 32 256#32),
    StableHlo.unary main_c_2 main_v10 (broadcastInDim S1 ![] bcast_S_S1 : (⟨S_, .i32⟩ : BufTy).Contents (Elt F) → (⟨S1, .i32⟩ : BufTy).Contents (Elt F)),
    StableHlo.binary main_v9 main_v10 main_v11 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v6 main_v11 main_v8 main_v12 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v13 ((extractStridedSlice S1x256x256 ![2, 0, 0] · slices_S8x256x256_S1x256x256_2_0_0) : (⟨S8x256x256, .f32⟩ : BufTy).Contents (Elt F) → (⟨S1x256x256, .f32⟩ : BufTy).Contents (Elt F)),
    StableHlo.reshape main_v13 main_v14 rfl shapeCasts_S1x256x256_S256x256,
    StableHlo.nullary main_c_3 (constantI S_ 32 512#32),
    StableHlo.unary main_c_3 main_v15 (broadcastInDim S1 ![] bcast_S_S1 : (⟨S_, .i32⟩ : BufTy).Contents (Elt F) → (⟨S1, .i32⟩ : BufTy).Contents (Elt F)),
    StableHlo.nullary main_c_4 (constantI S_ 32 512#32),
    StableHlo.unary main_c_4 main_v16 (broadcastInDim S1 ![] bcast_S_S1 : (⟨S_, .i32⟩ : BufTy).Contents (Elt F) → (⟨S1, .i32⟩ : BufTy).Contents (Elt F)),
    StableHlo.binary main_v15 main_v16 main_v17 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v12 main_v17 main_v14 main_v18 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v19 ((extractStridedSlice S1x256x256 ![3, 0, 0] · slices_S8x256x256_S1x256x256_3_0_0) : (⟨S8x256x256, .f32⟩ : BufTy).Contents (Elt F) → (⟨S1x256x256, .f32⟩ : BufTy).Contents (Elt F)),
    StableHlo.reshape main_v19 main_v20 rfl shapeCasts_S1x256x256_S256x256,
    StableHlo.nullary main_c_5 (constantI S_ 32 768#32),
    StableHlo.unary main_c_5 main_v21 (broadcastInDim S1 ![] bcast_S_S1 : (⟨S_, .i32⟩ : BufTy).Contents (Elt F) → (⟨S1, .i32⟩ : BufTy).Contents (Elt F)),
    StableHlo.nullary main_c_6 (constantI S_ 32 768#32),
    StableHlo.unary main_c_6 main_v22 (broadcastInDim S1 ![] bcast_S_S1 : (⟨S_, .i32⟩ : BufTy).Contents (Elt F) → (⟨S1, .i32⟩ : BufTy).Contents (Elt F)),
    StableHlo.binary main_v21 main_v22 main_v23 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v18 main_v23 main_v20 main_v24 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v25 ((extractStridedSlice S1x256x256 ![4, 0, 0] · slices_S8x256x256_S1x256x256_4_0_0) : (⟨S8x256x256, .f32⟩ : BufTy).Contents (Elt F) → (⟨S1x256x256, .f32⟩ : BufTy).Contents (Elt F)),
    StableHlo.reshape main_v25 main_v26 rfl shapeCasts_S1x256x256_S256x256,
    StableHlo.nullary main_c_7 (constantI S_ 32 1024#32),
    StableHlo.unary main_c_7 main_v27 (broadcastInDim S1 ![] bcast_S_S1 : (⟨S_, .i32⟩ : BufTy).Contents (Elt F) → (⟨S1, .i32⟩ : BufTy).Contents (Elt F)),
    StableHlo.nullary main_c_8 (constantI S_ 32 1024#32),
    StableHlo.unary main_c_8 main_v28 (broadcastInDim S1 ![] bcast_S_S1 : (⟨S_, .i32⟩ : BufTy).Contents (Elt F) → (⟨S1, .i32⟩ : BufTy).Contents (Elt F)),
    StableHlo.binary main_v27 main_v28 main_v29 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v24 main_v29 main_v26 main_v30 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v31 ((extractStridedSlice S1x256x256 ![5, 0, 0] · slices_S8x256x256_S1x256x256_5_0_0) : (⟨S8x256x256, .f32⟩ : BufTy).Contents (Elt F) → (⟨S1x256x256, .f32⟩ : BufTy).Contents (Elt F)),
    StableHlo.reshape main_v31 main_v32 rfl shapeCasts_S1x256x256_S256x256,
    StableHlo.nullary main_c_9 (constantI S_ 32 1280#32),
    StableHlo.unary main_c_9 main_v33 (broadcastInDim S1 ![] bcast_S_S1 : (⟨S_, .i32⟩ : BufTy).Contents (Elt F) → (⟨S1, .i32⟩ : BufTy).Contents (Elt F)),
    StableHlo.nullary main_c_10 (constantI S_ 32 1280#32),
    StableHlo.unary main_c_10 main_v34 (broadcastInDim S1 ![] bcast_S_S1 : (⟨S_, .i32⟩ : BufTy).Contents (Elt F) → (⟨S1, .i32⟩ : BufTy).Contents (Elt F)),
    StableHlo.binary main_v33 main_v34 main_v35 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v30 main_v35 main_v32 main_v36 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v37 ((extractStridedSlice S1x256x256 ![6, 0, 0] · slices_S8x256x256_S1x256x256_6_0_0) : (⟨S8x256x256, .f32⟩ : BufTy).Contents (Elt F) → (⟨S1x256x256, .f32⟩ : BufTy).Contents (Elt F)),
    StableHlo.reshape main_v37 main_v38 rfl shapeCasts_S1x256x256_S256x256,
    StableHlo.nullary main_c_11 (constantI S_ 32 1536#32),
    StableHlo.unary main_c_11 main_v39 (broadcastInDim S1 ![] bcast_S_S1 : (⟨S_, .i32⟩ : BufTy).Contents (Elt F) → (⟨S1, .i32⟩ : BufTy).Contents (Elt F)),
    StableHlo.nullary main_c_12 (constantI S_ 32 1536#32),
    StableHlo.unary main_c_12 main_v40 (broadcastInDim S1 ![] bcast_S_S1 : (⟨S_, .i32⟩ : BufTy).Contents (Elt F) → (⟨S1, .i32⟩ : BufTy).Contents (Elt F)),
    StableHlo.binary main_v39 main_v40 main_v41 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v36 main_v41 main_v38 main_v42 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)),
    StableHlo.unary main_arg1 main_v43 ((extractStridedSlice S1x256x256 ![7, 0, 0] · slices_S8x256x256_S1x256x256_7_0_0) : (⟨S8x256x256, .f32⟩ : BufTy).Contents (Elt F) → (⟨S1x256x256, .f32⟩ : BufTy).Contents (Elt F)),
    StableHlo.reshape main_v43 main_v44 rfl shapeCasts_S1x256x256_S256x256,
    StableHlo.nullary main_c_13 (constantI S_ 32 1792#32),
    StableHlo.unary main_c_13 main_v45 (broadcastInDim S1 ![] bcast_S_S1 : (⟨S_, .i32⟩ : BufTy).Contents (Elt F) → (⟨S1, .i32⟩ : BufTy).Contents (Elt F)),
    StableHlo.nullary main_c_14 (constantI S_ 32 1792#32),
    StableHlo.unary main_c_14 main_v46 (broadcastInDim S1 ![] bcast_S_S1 : (⟨S_, .i32⟩ : BufTy).Contents (Elt F) → (⟨S1, .i32⟩ : BufTy).Contents (Elt F)),
    StableHlo.binary main_v45 main_v46 main_v47 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v42 main_v47 main_v44 main_v48 ((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) ]

/-- The buffers the stage writes. -/
abbrev w1 : List (Ref sig .tc) :=
  [ main_cst, main_v0, main_v1, main_v2, main_c, main_v3, main_c_0, main_v4,
    main_v5, main_v6, main_v7, main_v8, main_c_1, main_v9, main_c_2, main_v10,
    main_v11, main_v12, main_v13, main_v14, main_c_3, main_v15, main_c_4, main_v16,
    main_v17, main_v18, main_v19, main_v20, main_c_5, main_v21, main_c_6, main_v22,
    main_v23, main_v24, main_v25, main_v26, main_c_7, main_v27, main_c_8, main_v28,
    main_v29, main_v30, main_v31, main_v32, main_c_9, main_v33, main_c_10, main_v34,
    main_v35, main_v36, main_v37, main_v38, main_c_11, main_v39, main_c_12, main_v40,
    main_v41, main_v42, main_v43, main_v44, main_c_13, main_v45, main_c_14, main_v46,
    main_v47, main_v48 ]

theorem s1_writes : (s1 : List (HloOp τ sig (Elt F))).Forall fun op =>
    op.writes ⊆ (w1.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the stage does not write keeps its contents through it. -/
theorem s1_keep (W : Valuation τ sig (Elt F)) {r : Ref sig .tc} (hr : r ∉ w1) :
    after s1 W (Proc.devRef .tc r) = W (Proc.devRef .tc r) :=
  after_of_writes_sub s1 W s1_writes hr

/-- The stage's value at `main_v48`, as one function of the inputs it reads. -/
def f1_v48 (x_arg1 : (Proc.devRef (τ := τ) .tc main_arg1 : DevRef τ sig).ty.Contents (Elt F)) : (Proc.devRef (τ := τ) .tc main_v48 : DevRef τ sig).ty.Contents (Elt F) :=
  (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) (((fun x i u => Host.scatter scatter_S2048x2048_S2_S256x256_01_n_01_0 (fun _ b => b) x i u) : (⟨S2048x2048, .f32⟩ : BufTy).Contents (Elt F) → (⟨S2, .i32⟩ : BufTy).Contents (Elt F) → (⟨S256x256, .f32⟩ : BufTy).Contents (Elt F) → (⟨S2048x2048, .f32⟩ : BufTy).Contents (Elt F)) ((broadcastInDim S2048x2048 ![] bcast_S_S2048x2048 : (⟨S_, .f32⟩ : BufTy).Contents (Elt F) → (⟨S2048x2048, .f32⟩ : BufTy).Contents (Elt F)) ((constant S_ .f32 0x00000000#32))) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 0#32))) ((broadcastInDim S1 ![] bcast_S_S1 : (⟨S_, .i32⟩ : BufTy).Contents (Elt F) → (⟨S1, .i32⟩ : BufTy).Contents (Elt F)) ((constantI S_ 32 0#32)))) (shapeCast S256x256 (((extractStridedSlice S1x256x256 ![0, 0, 0] · slices_S8x256x256_S1x256x256_0_0_0) : (⟨S8x256x256, .f32⟩ : BufTy).Contents (Elt F) → (⟨S1x256x256, .f32⟩ : BufTy).Contents (Elt F)) x_arg1) shapeCasts_S1x256x256_S256x256)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 256#32))) ((broadcastInDim S1 ![] bcast_S_S1 : (⟨S_, .i32⟩ : BufTy).Contents (Elt F) → (⟨S1, .i32⟩ : BufTy).Contents (Elt F)) ((constantI S_ 32 256#32)))) (shapeCast S256x256 (((extractStridedSlice S1x256x256 ![1, 0, 0] · slices_S8x256x256_S1x256x256_1_0_0) : (⟨S8x256x256, .f32⟩ : BufTy).Contents (Elt F) → (⟨S1x256x256, .f32⟩ : BufTy).Contents (Elt F)) x_arg1) shapeCasts_S1x256x256_S256x256)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 512#32))) ((broadcastInDim S1 ![] bcast_S_S1 : (⟨S_, .i32⟩ : BufTy).Contents (Elt F) → (⟨S1, .i32⟩ : BufTy).Contents (Elt F)) ((constantI S_ 32 512#32)))) (shapeCast S256x256 (((extractStridedSlice S1x256x256 ![2, 0, 0] · slices_S8x256x256_S1x256x256_2_0_0) : (⟨S8x256x256, .f32⟩ : BufTy).Contents (Elt F) → (⟨S1x256x256, .f32⟩ : BufTy).Contents (Elt F)) x_arg1) shapeCasts_S1x256x256_S256x256)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 768#32))) ((broadcastInDim S1 ![] bcast_S_S1 : (⟨S_, .i32⟩ : BufTy).Contents (Elt F) → (⟨S1, .i32⟩ : BufTy).Contents (Elt F)) ((constantI S_ 32 768#32)))) (shapeCast S256x256 (((extractStridedSlice S1x256x256 ![3, 0, 0] · slices_S8x256x256_S1x256x256_3_0_0) : (⟨S8x256x256, .f32⟩ : BufTy).Contents (Elt F) → (⟨S1x256x256, .f32⟩ : BufTy).Contents (Elt F)) x_arg1) shapeCasts_S1x256x256_S256x256)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 1024#32))) ((broadcastInDim S1 ![] bcast_S_S1 : (⟨S_, .i32⟩ : BufTy).Contents (Elt F) → (⟨S1, .i32⟩ : BufTy).Contents (Elt F)) ((constantI S_ 32 1024#32)))) (shapeCast S256x256 (((extractStridedSlice S1x256x256 ![4, 0, 0] · slices_S8x256x256_S1x256x256_4_0_0) : (⟨S8x256x256, .f32⟩ : BufTy).Contents (Elt F) → (⟨S1x256x256, .f32⟩ : BufTy).Contents (Elt F)) x_arg1) shapeCasts_S1x256x256_S256x256)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 1280#32))) ((broadcastInDim S1 ![] bcast_S_S1 : (⟨S_, .i32⟩ : BufTy).Contents (Elt F) → (⟨S1, .i32⟩ : BufTy).Contents (Elt F)) ((constantI S_ 32 1280#32)))) (shapeCast S256x256 (((extractStridedSlice S1x256x256 ![5, 0, 0] · slices_S8x256x256_S1x256x256_5_0_0) : (⟨S8x256x256, .f32⟩ : BufTy).Contents (Elt F) → (⟨S1x256x256, .f32⟩ : BufTy).Contents (Elt F)) x_arg1) shapeCasts_S1x256x256_S256x256)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 1536#32))) ((broadcastInDim S1 ![] bcast_S_S1 : (⟨S_, .i32⟩ : BufTy).Contents (Elt F) → (⟨S1, .i32⟩ : BufTy).Contents (Elt F)) ((constantI S_ 32 1536#32)))) (shapeCast S256x256 (((extractStridedSlice S1x256x256 ![6, 0, 0] · slices_S8x256x256_S1x256x256_6_0_0) : (⟨S8x256x256, .f32⟩ : BufTy).Contents (Elt F) → (⟨S1x256x256, .f32⟩ : BufTy).Contents (Elt F)) x_arg1) shapeCasts_S1x256x256_S256x256)) (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ((broadcastInDim S1 ![] bcast_S_S1 : (⟨S_, .i32⟩ : BufTy).Contents (Elt F) → (⟨S1, .i32⟩ : BufTy).Contents (Elt F)) ((constantI S_ 32 1792#32))) ((broadcastInDim S1 ![] bcast_S_S1 : (⟨S_, .i32⟩ : BufTy).Contents (Elt F) → (⟨S1, .i32⟩ : BufTy).Contents (Elt F)) ((constantI S_ 32 1792#32)))) (shapeCast S256x256 (((extractStridedSlice S1x256x256 ![7, 0, 0] · slices_S8x256x256_S1x256x256_7_0_0) : (⟨S8x256x256, .f32⟩ : BufTy).Contents (Elt F) → (⟨S1x256x256, .f32⟩ : BufTy).Contents (Elt F)) x_arg1) shapeCasts_S1x256x256_S256x256))

set_option maxHeartbeats 1000000 in
/-- The fold over the stage's operations computes it. -/
theorem s1_v48 (W : Valuation τ sig (Elt F)) :
    after s1 W (Proc.devRef .tc main_v48) = f1_v48 (W (Proc.devRef .tc main_arg1)) := by
  after_results_simp
  try rfl

end Cert.ReferenceIdeal.Stages

end
-- ==== Proof.RefStage2.lean ====
/-
  Stage 2 of the reference's host program (operations 66 … 84 of its straight line): the edge numbering 0 … 524287 and its floored quotient by 65536: the graph of each edge.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s2 : List (HloOp τ sig (Elt F)) :=
  [ StableHlo.nullary main_v49 (iotaInDim S524288 32 0),
    StableHlo.nullary main_c_15 (constantI S_ 32 65536#32),
    StableHlo.TRef.unary (.of main_c_15) main_call0.v0 id,
    StableHlo.TRef.unary main_call0.v0 main_call0.v1 (broadcastInDim S524288 ![] bcast_S_S524288),
    StableHlo.TRef.binary (.of main_v49) main_call0.v1 main_call0.v2 Host.divsi,
    StableHlo.TRef.unary (.of main_v49) main_call0.v3 signi,
    StableHlo.TRef.unary main_call0.v0 main_call0.v4 signi,
    StableHlo.TRef.unary main_call0.v4 main_call0.v5 (broadcastInDim S524288 ![] bcast_S_S524288),
    StableHlo.TRef.binary main_call0.v3 main_call0.v5 main_call0.v6 (cmpi .ne),
    StableHlo.TRef.unary main_call0.v0 main_call0.v7 (broadcastInDim S524288 ![] bcast_S_S524288),
    StableHlo.TRef.binary (.of main_v49) main_call0.v7 main_call0.v8 Host.remsi,
    StableHlo.TRef.nullary main_call0.c (constantI S_ 32 0#32),
    StableHlo.TRef.unary main_call0.c main_call0.v9 (broadcastInDim S524288 ![] bcast_S_S524288),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S524288 ![] bcast_S_S524288),
    StableHlo.TRef.binary main_call0.v2 main_call0.v12 main_call0.v13 subi,
    StableHlo.TRef.ternary main_call0.v11 main_call0.v13 main_call0.v2 main_call0.call0.v0 select ]

/-- The buffers the stage writes. -/
abbrev w2 : List (Ref sig .tc) :=
  [ main_v49, main_c_15, (main_call0.v0).ref, (main_call0.v1).ref, (main_call0.v2).ref, (main_call0.v3).ref, (main_call0.v4).ref, (main_call0.v5).ref,
    (main_call0.v6).ref, (main_call0.v7).ref, (main_call0.v8).ref, (main_call0.c).ref, (main_call0.v9).ref, (main_call0.v10).ref, (main_call0.v11).ref, (main_call0.c_0).ref,
    (main_call0.v12).ref, (main_call0.v13).ref, (main_call0.call0.v0).ref ]

theorem s2_writes : (s2 : List (HloOp τ sig (Elt F))).Forall fun op =>
    op.writes ⊆ (w2.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide)⟩

/-- A buffer the stage does not write keeps its contents through it. -/
theorem s2_keep (W : Valuation τ sig (Elt F)) {r : Ref sig .tc} (hr : r ∉ w2) :
    after s2 W (Proc.devRef .tc r) = W (Proc.devRef .tc r) :=
  after_of_writes_sub s2 W s2_writes hr

/-- The stage's value at `main_v49`, as one function of the inputs it reads. -/
def f2_v49  : (Proc.devRef (τ := τ) .tc main_v49 : DevRef τ sig).ty.Contents (Elt F) :=
  ((iotaInDim S524288 32 0))

set_option maxHeartbeats 1000000 in
/-- The fold over the stage's operations computes it. -/
theorem s2_v49 (W : Valuation τ sig (Elt F)) :
    after s2 W (Proc.devRef .tc main_v49) = f2_v49  := by
  after_results_simp
  try rfl

/-- The stage's value at `main_v50`, as one function of the inputs it reads. -/
def f2_v50  : (Proc.devRef (τ := τ) .tc main_v50 : DevRef τ sig).ty.Contents (Elt F) :=
  (select (andi ((cmpi .ne) (signi ((iotaInDim S524288 32 0))) ((broadcastInDim S524288 ![] bcast_S_S524288) (signi (id ((constantI S_ 32 65536#32)))))) ((cmpi .ne) (Host.remsi ((iotaInDim S524288 32 0)) ((broadcastInDim S524288 ![] bcast_S_S524288) (id ((constantI S_ 32 65536#32))))) ((broadcastInDim S524288 ![] bcast_S_S524288) ((constantI S_ 32 0#32))))) (subi (Host.divsi ((iotaInDim S524288 32 0)) ((broadcastInDim S524288 ![] bcast_S_S524288) (id ((constantI S_ 32 65536#32))))) ((broadcastInDim S524288 ![] bcast_S_S524288) ((constantI S_ 32 1#32)))) (Host.divsi ((iotaInDim S524288 32 0)) ((broadcastInDim S524288 ![] bcast_S_S524288) (id ((constantI S_ 32 65536#32))))))

set_option maxHeartbeats 1000000 in
/-- The fold over the stage's operations computes it. -/
theorem s2_v50 (W : Valuation τ sig (Elt F)) :
    after s2 W (Proc.devRef .tc main_v50) = f2_v50  := by
  after_results_simp
  try rfl

end Cert.ReferenceIdeal.Stages

end
-- ==== Proof.RefStage3.lean ====
/-
  Stage 3 of the reference's host program (operations 85 … 106 of its straight line): the edge numbering's remainder modulo 65536: the position of each edge inside its graph's block.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s3 : List (HloOp τ sig (Elt F)) :=
  [ StableHlo.nullary main_c_16 (constantI S_ 32 65536#32),
    StableHlo.TRef.unary (.of main_c_16) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S524288 ![] bcast_S_S524288),
    StableHlo.TRef.binary (.of main_v49) main_call1.v3 main_call1.v4 Host.remsi,
    StableHlo.TRef.nullary main_call1.c_1 (constantI S_ 32 0#32),
    StableHlo.TRef.unary main_call1.c_1 main_call1.v5 (broadcastInDim S524288 ![] bcast_S_S524288),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S524288 ![] bcast_S_S524288),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S524288 ![] bcast_S_S524288),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S524288 ![] bcast_S_S524288),
    StableHlo.TRef.binary main_call1.v4 main_call1.v13 main_call1.v14 addi,
    StableHlo.TRef.ternary main_call1.v12 main_call1.v14 main_call1.v4 main_call1.v15 select ]

/-- The buffers the stage writes. -/
abbrev w3 : List (Ref sig .tc) :=
  [ main_c_16, (main_call1.v0).ref, (main_call1.c).ref, (main_call1.v1).ref, (main_call1.c_0).ref, (main_call1.call0.v0).ref, (main_call1.v3).ref, (main_call1.v4).ref,
    (main_call1.c_1).ref, (main_call1.v5).ref, (main_call1.v6).ref, (main_call1.c_2).ref, (main_call1.v7).ref, (main_call1.v8).ref, (main_call1.c_3).ref, (main_call1.v9).ref,
    (main_call1.v10).ref, (main_call1.v11).ref, (main_call1.v12).ref, (main_call1.v13).ref, (main_call1.v14).ref, (main_call1.v15).ref ]

theorem s3_writes : (s3 : List (HloOp τ sig (Elt F))).Forall fun op =>
    op.writes ⊆ (w3.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the stage does not write keeps its contents through it. -/
theorem s3_keep (W : Valuation τ sig (Elt F)) {r : Ref sig .tc} (hr : r ∉ w3) :
    after s3 W (Proc.devRef .tc r) = W (Proc.devRef .tc r) :=
  after_of_writes_sub s3 W s3_writes hr

/-- The stage's value at `main_v51`, as one function of the inputs it reads. -/
def f3_v51 (x_v49 : (Proc.devRef (τ := τ) .tc main_v49 : DevRef τ sig).ty.Contents (Elt F)) : (Proc.devRef (τ := τ) .tc main_v51 : DevRef τ sig).ty.Contents (Elt F) :=
  (select (andi ((cmpi .ne) ((cmpi .slt) (Host.remsi x_v49 ((broadcastInDim S524288 ![] bcast_S_S524288) (select ((cmpi .eq) (id ((constantI S_ 32 65536#32))) ((constantI S_ 32 0#32))) ((constantI S_ 32 1#32)) (id ((constantI S_ 32 65536#32)))))) ((broadcastInDim S524288 ![] bcast_S_S524288) ((constantI S_ 32 0#32)))) ((broadcastInDim S524288 ![] bcast_S_S524288) ((cmpi .slt) (select ((cmpi .eq) (id ((constantI S_ 32 65536#32))) ((constantI S_ 32 0#32))) ((constantI S_ 32 1#32)) (id ((constantI S_ 32 65536#32)))) ((constantI S_ 32 0#32))))) ((cmpi .ne) (Host.remsi x_v49 ((broadcastInDim S524288 ![] bcast_S_S524288) (select ((cmpi .eq) (id ((constantI S_ 32 65536#32))) ((constantI S_ 32 0#32))) ((constantI S_ 32 1#32)) (id ((constantI S_ 32 65536#32)))))) ((broadcastInDim S524288 ![] bcast_S_S524288) ((constantI S_ 32 0#32))))) (addi (Host.remsi x_v49 ((broadcastInDim S524288 ![] bcast_S_S524288) (select ((cmpi .eq) (id ((constantI S_ 32 65536#32))) ((constantI S_ 32 0#32))) ((constantI S_ 32 1#32)) (id ((constantI S_ 32 65536#32)))))) ((broadcastInDim S524288 ![] bcast_S_S524288) (select ((cmpi .eq) (id ((constantI S_ 32 65536#32))) ((constantI S_ 32 0#32))) ((constantI S_ 32 1#32)) (id ((constantI S_ 32 65536#32)))))) (Host.remsi x_v49 ((broadcastInDim S524288 ![] bcast_S_S524288) (select ((cmpi .eq) (id ((constantI S_ 32 65536#32))) ((constantI S_ 32 0#32))) ((constantI S_ 32 1#32)) (id ((constantI S_ 32 65536#32)))))))

set_option maxHeartbeats 1000000 in
/-- The fold over the stage's operations computes it. -/
theorem s3_v51 (W : Valuation τ sig (Elt F)) :
    after s3 W (Proc.devRef .tc main_v51) = f3_v51 (W (Proc.devRef .tc main_v49)) := by
  after_results_simp
  try rfl

end Cert.ReferenceIdeal.Stages

end
-- ==== Proof.RefStage4.lean ====
/-
  Stage 4 of the reference's host program (operations 107 … 128 of its straight line): the source node of each edge: 256 times its graph plus the floored quotient of its position by 256.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s4 : List (HloOp τ sig (Elt F)) :=
  [ StableHlo.nullary main_c_17 (constantI S_ 32 256#32),
    StableHlo.unary main_c_17 main_v52 (broadcastInDim S524288 ![] bcast_S_S524288 : (⟨S_, .i32⟩ : BufTy).Contents (Elt F) → (⟨S524288, .i32⟩ : BufTy).Contents (Elt F)),
    StableHlo.binary main_v50 main_v52 main_v53 (muli : (⟨S524288, .i32⟩ : BufTy).Contents (Elt F) → (⟨S524288, .i32⟩ : BufTy).Contents (Elt F) → (⟨S524288, .i32⟩ : BufTy).Contents (Elt F)),
    StableHlo.nullary main_c_18 (constantI S_ 32 256#32),
    StableHlo.TRef.unary (.of main_c_18) main_call2.v0 id,
    StableHlo.TRef.unary main_call2.v0 main_call2.v1 (broadcastInDim S524288 ![] bcast_S_S524288),
    StableHlo.TRef.binary (.of main_v51) main_call2.v1 main_call2.v2 Host.divsi,
    StableHlo.TRef.unary (.of main_v51) main_call2.v3 signi,
    StableHlo.TRef.unary main_call2.v0 main_call2.v4 signi,
    StableHlo.TRef.unary main_call2.v4 main_call2.v5 (broadcastInDim S524288 ![] bcast_S_S524288),
    StableHlo.TRef.binary main_call2.v3 main_call2.v5 main_call2.v6 (cmpi .ne),
    StableHlo.TRef.unary main_call2.v0 main_call2.v7 (broadcastInDim S524288 ![] bcast_S_S524288),
    StableHlo.TRef.binary (.of main_v51) main_call2.v7 main_call2.v8 Host.remsi,
    StableHlo.TRef.nullary main_call2.c (constantI S_ 32 0#32),
    StableHlo.TRef.unary main_call2.c main_call2.v9 (broadcastInDim S524288 ![] bcast_S_S524288),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S524288 ![] bcast_S_S524288),
    StableHlo.TRef.binary main_call2.v2 main_call2.v12 main_call2.v13 subi,
    StableHlo.TRef.ternary main_call2.v11 main_call2.v13 main_call2.v2 main_call2.call0.v0 select,
    StableHlo.binary main_v53 main_v54 main_v55 (addi : (⟨S524288, .i32⟩ : BufTy).Contents (Elt F) → (⟨S524288, .i32⟩ : BufTy).Contents (Elt F) → (⟨S524288, .i32⟩ : BufTy).Contents (Elt F)) ]

/-- The buffers the stage writes. -/
abbrev w4 : List (Ref sig .tc) :=
  [ main_c_17, main_v52, main_v53, main_c_18, (main_call2.v0).ref, (main_call2.v1).ref, (main_call2.v2).ref, (main_call2.v3).ref,
    (main_call2.v4).ref, (main_call2.v5).ref, (main_call2.v6).ref, (main_call2.v7).ref, (main_call2.v8).ref, (main_call2.c).ref, (main_call2.v9).ref, (main_call2.v10).ref,
    (main_call2.v11).ref, (main_call2.c_0).ref, (main_call2.v12).ref, (main_call2.v13).ref, (main_call2.call0.v0).ref, main_v55 ]

theorem s4_writes : (s4 : List (HloOp τ sig (Elt F))).Forall fun op =>
    op.writes ⊆ (w4.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the stage does not write keeps its contents through it. -/
theorem s4_keep (W : Valuation τ sig (Elt F)) {r : Ref sig .tc} (hr : r ∉ w4) :
    after s4 W (Proc.devRef .tc r) = W (Proc.devRef .tc r) :=
  after_of_writes_sub s4 W s4_writes hr

/-- The stage's value at `main_v55`, as one function of the inputs it reads. -/
def f4_v55 (x_v50 : (Proc.devRef (τ := τ) .tc main_v50 : DevRef τ sig).ty.Contents (Elt F)) (x_v51 : (Proc.devRef (τ := τ) .tc main_v51 : DevRef τ sig).ty.Contents (Elt F)) : (Proc.devRef (τ := τ) .tc main_v55 : DevRef τ sig).ty.Contents (Elt F) :=
  ((addi : (⟨S524288, .i32⟩ : BufTy).Contents (Elt F) → (⟨S524288, .i32⟩ : BufTy).Contents (Elt F) → (⟨S524288, .i32⟩ : BufTy).Contents (Elt F)) ((muli : (⟨S524288, .i32⟩ : BufTy).Contents (Elt F) → (⟨S524288, .i32⟩ : BufTy).Contents (Elt F) → (⟨S524288, .i32⟩ : BufTy).Contents (Elt F)) x_v50 ((broadcastInDim S524288 ![] bcast_S_S524288 : (⟨S_, .i32⟩ : BufTy).Contents (Elt F) → (⟨S524288, .i32⟩ : BufTy).Contents (Elt F)) ((constantI S_ 32 256#32)))) (select (andi ((cmpi .ne) (signi x_v51) ((broadcastInDim S524288 ![] bcast_S_S524288) (signi (id ((constantI S_ 32 256#32)))))) ((cmpi .ne) (Host.remsi x_v51 ((broadcastInDim S524288 ![] bcast_S_S524288) (id ((constantI S_ 32 256#32))))) ((broadcastInDim S524288 ![] bcast_S_S524288) ((constantI S_ 32 0#32))))) (subi (Host.divsi x_v51 ((broadcastInDim S524288 ![] bcast_S_S524288) (id ((constantI S_ 32 256#32))))) ((broadcastInDim S524288 ![] bcast_S_S524288) ((constantI S_ 32 1#32)))) (Host.divsi x_v51 ((broadcastInDim S524288 ![] bcast_S_S524288) (id ((constantI S_ 32 256#32)))))))

set_option maxHeartbeats 1000000 in
/-- The fold over the stage's operations computes it. -/
theorem s4_v55 (W : Valuation τ sig (Elt F)) :
    after s4 W (Proc.devRef .tc main_v55) = f4_v55 (W (Proc.devRef .tc main_v50)) (W (Proc.devRef .tc main_v51)) := by
  after_results_simp
  try rfl

end Cert.ReferenceIdeal.Stages

end
-- ==== Proof.RefStage5.lean ====
/-
  Stage 5 of the reference's host program (operations 129 … 154 of its straight line): the target node of each edge: 256 times its graph plus the remainder of its position modulo 256.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s5 : List (HloOp τ sig (Elt F)) :=
  [ StableHlo.nullary main_c_19 (constantI S_ 32 256#32),
    StableHlo.unary main_c_19 main_v56 (broadcastInDim S524288 ![] bcast_S_S524288 : (⟨S_, .i32⟩ : BufTy).Contents (Elt F) → (⟨S524288, .i32⟩ : BufTy).Contents (Elt F)),
    StableHlo.binary main_v50 main_v56 main_v57 (muli : (⟨S524288, .i32⟩ : BufTy).Contents (Elt F) → (⟨S524288, .i32⟩ : BufTy).Contents (Elt F) → (⟨S524288, .i32⟩ : BufTy).Contents (Elt F)),
    StableHlo.nullary main_c_20 (constantI S_ 32 256#32),
    StableHlo.TRef.unary (.of main_c_20) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S524288 ![] bcast_S_S524288),
    StableHlo.TRef.binary (.of main_v51) main_call3.v3 main_call3.v4 Host.remsi,
    StableHlo.TRef.nullary main_call3.c_1 (constantI S_ 32 0#32),
    StableHlo.TRef.unary main_call3.c_1 main_call3.v5 (broadcastInDim S524288 ![] bcast_S_S524288),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S524288 ![] bcast_S_S524288),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S524288 ![] bcast_S_S524288),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S524288 ![] bcast_S_S524288),
    StableHlo.TRef.binary main_call3.v4 main_call3.v13 main_call3.v14 addi,
    StableHlo.TRef.ternary main_call3.v12 main_call3.v14 main_call3.v4 main_call3.v15 select,
    StableHlo.binary main_v57 main_v58 main_v59 (addi : (⟨S524288, .i32⟩ : BufTy).Contents (Elt F) → (⟨S524288, .i32⟩ : BufTy).Contents (Elt F) → (⟨S524288, .i32⟩ : BufTy).Contents (Elt F)) ]

/-- The buffers the stage writes. -/
abbrev w5 : List (Ref sig .tc) :=
  [ main_c_19, main_v56, main_v57, main_c_20, (main_call3.v0).ref, (main_call3.c).ref, (main_call3.v1).ref, (main_call3.c_0).ref,
    (main_call3.call0.v0).ref, (main_call3.v3).ref, (main_call3.v4).ref, (main_call3.c_1).ref, (main_call3.v5).ref, (main_call3.v6).ref, (main_call3.c_2).ref, (main_call3.v7).ref,
    (main_call3.v8).ref, (main_call3.c_3).ref, (main_call3.v9).ref, (main_call3.v10).ref, (main_call3.v11).ref, (main_call3.v12).ref, (main_call3.v13).ref, (main_call3.v14).ref,
    (main_call3.v15).ref, main_v59 ]

theorem s5_writes : (s5 : List (HloOp τ sig (Elt F))).Forall fun op =>
    op.writes ⊆ (w5.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the stage does not write keeps its contents through it. -/
theorem s5_keep (W : Valuation τ sig (Elt F)) {r : Ref sig .tc} (hr : r ∉ w5) :
    after s5 W (Proc.devRef .tc r) = W (Proc.devRef .tc r) :=
  after_of_writes_sub s5 W s5_writes hr

/-- The stage's value at `main_v59`, as one function of the inputs it reads. -/
def f5_v59 (x_v50 : (Proc.devRef (τ := τ) .tc main_v50 : DevRef τ sig).ty.Contents (Elt F)) (x_v51 : (Proc.devRef (τ := τ) .tc main_v51 : DevRef τ sig).ty.Contents (Elt F)) : (Proc.devRef (τ := τ) .tc main_v59 : DevRef τ sig).ty.Contents (Elt F) :=
  ((addi : (⟨S524288, .i32⟩ : BufTy).Contents (Elt F) → (⟨S524288, .i32⟩ : BufTy).Contents (Elt F) → (⟨S524288, .i32⟩ : BufTy).Contents (Elt F)) ((muli : (⟨S524288, .i32⟩ : BufTy).Contents (Elt F) → (⟨S524288, .i32⟩ : BufTy).Contents (Elt F) → (⟨S524288, .i32⟩ : BufTy).Contents (Elt F)) x_v50 ((broadcastInDim S524288 ![] bcast_S_S524288 : (⟨S_, .i32⟩ : BufTy).Contents (Elt F) → (⟨S524288, .i32⟩ : BufTy).Contents (Elt F)) ((constantI S_ 32 256#32)))) (select (andi ((cmpi .ne) ((cmpi .slt) (Host.remsi x_v51 ((broadcastInDim S524288 ![] bcast_S_S524288) (select ((cmpi .eq) (id ((constantI S_ 32 256#32))) ((constantI S_ 32 0#32))) ((constantI S_ 32 1#32)) (id ((constantI S_ 32 256#32)))))) ((broadcastInDim S524288 ![] bcast_S_S524288) ((constantI S_ 32 0#32)))) ((broadcastInDim S524288 ![] bcast_S_S524288) ((cmpi .slt) (select ((cmpi .eq) (id ((constantI S_ 32 256#32))) ((constantI S_ 32 0#32))) ((constantI S_ 32 1#32)) (id ((constantI S_ 32 256#32)))) ((constantI S_ 32 0#32))))) ((cmpi .ne) (Host.remsi x_v51 ((broadcastInDim S524288 ![] bcast_S_S524288) (select ((cmpi .eq) (id ((constantI S_ 32 256#32))) ((constantI S_ 32 0#32))) ((constantI S_ 32 1#32)) (id ((constantI S_ 32 256#32)))))) ((broadcastInDim S524288 ![] bcast_S_S524288) ((constantI S_ 32 0#32))))) (addi (Host.remsi x_v51 ((broadcastInDim S524288 ![] bcast_S_S524288) (select ((cmpi .eq) (id ((constantI S_ 32 256#32))) ((constantI S_ 32 0#32))) ((constantI S_ 32 1#32)) (id ((constantI S_ 32 256#32)))))) ((broadcastInDim S524288 ![] bcast_S_S524288) (select ((cmpi .eq) (id ((constantI S_ 32 256#32))) ((constantI S_ 32 0#32))) ((constantI S_ 32 1#32)) (id ((constantI S_ 32 256#32)))))) (Host.remsi x_v51 ((broadcastInDim S524288 ![] bcast_S_S524288) (select ((cmpi .eq) (id ((constantI S_ 32 256#32))) ((constantI S_ 32 0#32))) ((constantI S_ 32 1#32)) (id ((constantI S_ 32 256#32))))))))

set_option maxHeartbeats 1000000 in
/-- The fold over the stage's operations computes it. -/
theorem s5_v59 (W : Valuation τ sig (Elt F)) :
    after s5 W (Proc.devRef .tc main_v59) = f5_v59 (W (Proc.devRef .tc main_v50)) (W (Proc.devRef .tc main_v51)) := by
  after_results_simp
  try rfl

end Cert.ReferenceIdeal.Stages

end
-- ==== Proof.RefStage6.lean ====
/-
  Stage 6 of the reference's host program (operations 155 … 178 of its straight line): the block-diagonal array gathered at every edge's (source, target) and its positive part: the edge weights.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s6 : List (HloOp τ sig (Elt F)) :=
  [ StableHlo.nullary main_c_21 (constantI S_ 32 0#32),
    StableHlo.unary main_c_21 main_v60 (broadcastInDim S524288 ![] bcast_S_S524288 : (⟨S_, .i32⟩ : BufTy).Contents (Elt F) → (⟨S524288, .i32⟩ : BufTy).Contents (Elt F)),
    StableHlo.binary main_v55 main_v60 main_v61 (cmpi .slt : (⟨S524288, .i32⟩ : BufTy).Contents (Elt F) → (⟨S524288, .i32⟩ : BufTy).Contents (Elt F) → (⟨S524288, .i1⟩ : BufTy).Contents (Elt F)),
    StableHlo.nullary main_c_22 (constantI S_ 32 2048#32),
    StableHlo.unary main_c_22 main_v62 (broadcastInDim S524288 ![] bcast_S_S524288 : (⟨S_, .i32⟩ : BufTy).Contents (Elt F) → (⟨S524288, .i32⟩ : BufTy).Contents (Elt F)),
    StableHlo.binary main_v55 main_v62 main_v63 (addi : (⟨S524288, .i32⟩ : BufTy).Contents (Elt F) → (⟨S524288, .i32⟩ : BufTy).Contents (Elt F) → (⟨S524288, .i32⟩ : BufTy).Contents (Elt F)),
    StableHlo.ternary main_v61 main_v63 main_v55 main_v64 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_23 (constantI S_ 32 0#32),
    StableHlo.unary main_c_23 main_v65 (broadcastInDim S524288 ![] bcast_S_S524288 : (⟨S_, .i32⟩ : BufTy).Contents (Elt F) → (⟨S524288, .i32⟩ : BufTy).Contents (Elt F)),
    StableHlo.binary main_v59 main_v65 main_v66 (cmpi .slt : (⟨S524288, .i32⟩ : BufTy).Contents (Elt F) → (⟨S524288, .i32⟩ : BufTy).Contents (Elt F) → (⟨S524288, .i1⟩ : BufTy).Contents (Elt F)),
    StableHlo.nullary main_c_24 (constantI S_ 32 2048#32),
    StableHlo.unary main_c_24 main_v67 (broadcastInDim S524288 ![] bcast_S_S524288 : (⟨S_, .i32⟩ : BufTy).Contents (Elt F) → (⟨S524288, .i32⟩ : BufTy).Contents (Elt F)),
    StableHlo.binary main_v59 main_v67 main_v68 (addi : (⟨S524288, .i32⟩ : BufTy).Contents (Elt F) → (⟨S524288, .i32⟩ : BufTy).Contents (Elt F) → (⟨S524288, .i32⟩ : BufTy).Contents (Elt F)),
    StableHlo.ternary main_v66 main_v68 main_v59 main_v69 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v64 main_v70 (broadcastInDim S524288x1 ![0] bcast_S524288_S524288x1_0 : (⟨S524288, .i32⟩ : BufTy).Contents (Elt F) → (⟨S524288x1, .i32⟩ : BufTy).Contents (Elt F)),
    StableHlo.unary main_v69 main_v71 (broadcastInDim S524288x1 ![0] bcast_S524288_S524288x1_0 : (⟨S524288, .i32⟩ : BufTy).Contents (Elt F) → (⟨S524288x1, .i32⟩ : BufTy).Contents (Elt F)),
    StableHlo.binary main_v70 main_v71 main_v72 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_v48 main_v72 main_v73 ((fun x i => Host.gather gather_S2048x2048_S524288x2_S524288_n_01_n_n_01_1_11 x i) : (⟨S2048x2048, .f32⟩ : BufTy).Contents (Elt F) → (⟨S524288x2, .i32⟩ : BufTy).Contents (Elt F) → (⟨S524288, .f32⟩ : BufTy).Contents (Elt F)),
    StableHlo.nullary main_cst_25 (constant S_ .f32 0x00000000#32),
    StableHlo.unary main_cst_25 main_v74 (broadcastInDim S524288 ![] bcast_S_S524288 : (⟨S_, .f32⟩ : BufTy).Contents (Elt F) → (⟨S524288, .f32⟩ : BufTy).Contents (Elt F)),
    StableHlo.binary main_v73 main_v74 main_v75 (cmpf .ogt : (⟨S524288, .f32⟩ : BufTy).Contents (Elt F) → (⟨S524288, .f32⟩ : BufTy).Contents (Elt F) → (⟨S524288, .i1⟩ : BufTy).Contents (Elt F)),
    StableHlo.nullary main_cst_26 (constant S_ .f32 0x00000000#32),
    StableHlo.unary main_cst_26 main_v76 (broadcastInDim S524288 ![] bcast_S_S524288 : (⟨S_, .f32⟩ : BufTy).Contents (Elt F) → (⟨S524288, .f32⟩ : BufTy).Contents (Elt F)),
    StableHlo.TRef.ternary (.of main_v75) (.of main_v73) (.of main_v76) main_call4.v0 select ]

/-- The buffers the stage writes. -/
abbrev w6 : List (Ref sig .tc) :=
  [ main_c_21, main_v60, main_v61, main_c_22, main_v62, main_v63, main_v64, main_c_23,
    main_v65, main_v66, main_c_24, main_v67, main_v68, main_v69, main_v70, main_v71,
    main_v72, main_v73, main_cst_25, main_v74, main_v75, main_cst_26, main_v76, (main_call4.v0).ref ]

theorem s6_writes : (s6 : List (HloOp τ sig (Elt F))).Forall fun op =>
    op.writes ⊆ (w6.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide)⟩

/-- A buffer the stage does not write keeps its contents through it. -/
theorem s6_keep (W : Valuation τ sig (Elt F)) {r : Ref sig .tc} (hr : r ∉ w6) :
    after s6 W (Proc.devRef .tc r) = W (Proc.devRef .tc r) :=
  after_of_writes_sub s6 W s6_writes hr

/-- The stage's value at `main_v77`, as one function of the inputs it reads. -/
def f6_v77 (x_v55 : (Proc.devRef (τ := τ) .tc main_v55 : DevRef τ sig).ty.Contents (Elt F)) (x_v59 : (Proc.devRef (τ := τ) .tc main_v59 : DevRef τ sig).ty.Contents (Elt F)) (x_v48 : (Proc.devRef (τ := τ) .tc main_v48 : DevRef τ sig).ty.Contents (Elt F)) : (Proc.devRef (τ := τ) .tc main_v77 : DevRef τ sig).ty.Contents (Elt F) :=
  (select ((cmpf .ogt : (⟨S524288, .f32⟩ : BufTy).Contents (Elt F) → (⟨S524288, .f32⟩ : BufTy).Contents (Elt F) → (⟨S524288, .i1⟩ : BufTy).Contents (Elt F)) (((fun x i => Host.gather gather_S2048x2048_S524288x2_S524288_n_01_n_n_01_1_11 x i) : (⟨S2048x2048, .f32⟩ : BufTy).Contents (Elt F) → (⟨S524288x2, .i32⟩ : BufTy).Contents (Elt F) → (⟨S524288, .f32⟩ : BufTy).Contents (Elt F)) x_v48 (((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)) ((broadcastInDim S524288x1 ![0] bcast_S524288_S524288x1_0 : (⟨S524288, .i32⟩ : BufTy).Contents (Elt F) → (⟨S524288x1, .i32⟩ : BufTy).Contents (Elt F)) ((select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ((cmpi .slt : (⟨S524288, .i32⟩ : BufTy).Contents (Elt F) → (⟨S524288, .i32⟩ : BufTy).Contents (Elt F) → (⟨S524288, .i1⟩ : BufTy).Contents (Elt F)) x_v55 ((broadcastInDim S524288 ![] bcast_S_S524288 : (⟨S_, .i32⟩ : BufTy).Contents (Elt F) → (⟨S524288, .i32⟩ : BufTy).Contents (Elt F)) ((constantI S_ 32 0#32)))) ((addi : (⟨S524288, .i32⟩ : BufTy).Contents (Elt F) → (⟨S524288, .i32⟩ : BufTy).Contents (Elt F) → (⟨S524288, .i32⟩ : BufTy).Contents (Elt F)) x_v55 ((broadcastInDim S524288 ![] bcast_S_S524288 : (⟨S_, .i32⟩ : BufTy).Contents (Elt F) → (⟨S524288, .i32⟩ : BufTy).Contents (Elt F)) ((constantI S_ 32 2048#32)))) x_v55)) ((broadcastInDim S524288x1 ![0] bcast_S524288_S524288x1_0 : (⟨S524288, .i32⟩ : BufTy).Contents (Elt F) → (⟨S524288x1, .i32⟩ : BufTy).Contents (Elt F)) ((select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ((cmpi .slt : (⟨S524288, .i32⟩ : BufTy).Contents (Elt F) → (⟨S524288, .i32⟩ : BufTy).Contents (Elt F) → (⟨S524288, .i1⟩ : BufTy).Contents (Elt F)) x_v59 ((broadcastInDim S524288 ![] bcast_S_S524288 : (⟨S_, .i32⟩ : BufTy).Contents (Elt F) → (⟨S524288, .i32⟩ : BufTy).Contents (Elt F)) ((constantI S_ 32 0#32)))) ((addi : (⟨S524288, .i32⟩ : BufTy).Contents (Elt F) → (⟨S524288, .i32⟩ : BufTy).Contents (Elt F) → (⟨S524288, .i32⟩ : BufTy).Contents (Elt F)) x_v59 ((broadcastInDim S524288 ![] bcast_S_S524288 : (⟨S_, .i32⟩ : BufTy).Contents (Elt F) → (⟨S524288, .i32⟩ : BufTy).Contents (Elt F)) ((constantI S_ 32 2048#32)))) x_v59)))) ((broadcastInDim S524288 ![] bcast_S_S524288 : (⟨S_, .f32⟩ : BufTy).Contents (Elt F) → (⟨S524288, .f32⟩ : BufTy).Contents (Elt F)) ((constant S_ .f32 0x00000000#32)))) (((fun x i => Host.gather gather_S2048x2048_S524288x2_S524288_n_01_n_n_01_1_11 x i) : (⟨S2048x2048, .f32⟩ : BufTy).Contents (Elt F) → (⟨S524288x2, .i32⟩ : BufTy).Contents (Elt F) → (⟨S524288, .f32⟩ : BufTy).Contents (Elt F)) x_v48 (((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)) ((broadcastInDim S524288x1 ![0] bcast_S524288_S524288x1_0 : (⟨S524288, .i32⟩ : BufTy).Contents (Elt F) → (⟨S524288x1, .i32⟩ : BufTy).Contents (Elt F)) ((select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ((cmpi .slt : (⟨S524288, .i32⟩ : BufTy).Contents (Elt F) → (⟨S524288, .i32⟩ : BufTy).Contents (Elt F) → (⟨S524288, .i1⟩ : BufTy).Contents (Elt F)) x_v55 ((broadcastInDim S524288 ![] bcast_S_S524288 : (⟨S_, .i32⟩ : BufTy).Contents (Elt F) → (⟨S524288, .i32⟩ : BufTy).Contents (Elt F)) ((constantI S_ 32 0#32)))) ((addi : (⟨S524288, .i32⟩ : BufTy).Contents (Elt F) → (⟨S524288, .i32⟩ : BufTy).Contents (Elt F) → (⟨S524288, .i32⟩ : BufTy).Contents (Elt F)) x_v55 ((broadcastInDim S524288 ![] bcast_S_S524288 : (⟨S_, .i32⟩ : BufTy).Contents (Elt F) → (⟨S524288, .i32⟩ : BufTy).Contents (Elt F)) ((constantI S_ 32 2048#32)))) x_v55)) ((broadcastInDim S524288x1 ![0] bcast_S524288_S524288x1_0 : (⟨S524288, .i32⟩ : BufTy).Contents (Elt F) → (⟨S524288x1, .i32⟩ : BufTy).Contents (Elt F)) ((select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ((cmpi .slt : (⟨S524288, .i32⟩ : BufTy).Contents (Elt F) → (⟨S524288, .i32⟩ : BufTy).Contents (Elt F) → (⟨S524288, .i1⟩ : BufTy).Contents (Elt F)) x_v59 ((broadcastInDim S524288 ![] bcast_S_S524288 : (⟨S_, .i32⟩ : BufTy).Contents (Elt F) → (⟨S524288, .i32⟩ : BufTy).Contents (Elt F)) ((constantI S_ 32 0#32)))) ((addi : (⟨S524288, .i32⟩ : BufTy).Contents (Elt F) → (⟨S524288, .i32⟩ : BufTy).Contents (Elt F) → (⟨S524288, .i32⟩ : BufTy).Contents (Elt F)) x_v59 ((broadcastInDim S524288 ![] bcast_S_S524288 : (⟨S_, .i32⟩ : BufTy).Contents (Elt F) → (⟨S524288, .i32⟩ : BufTy).Contents (Elt F)) ((constantI S_ 32 2048#32)))) x_v59)))) ((broadcastInDim S524288 ![] bcast_S_S524288 : (⟨S_, .f32⟩ : BufTy).Contents (Elt F) → (⟨S524288, .f32⟩ : BufTy).Contents (Elt F)) ((constant S_ .f32 0x00000000#32))))

set_option maxHeartbeats 1000000 in
/-- The fold over the stage's operations computes it. -/
theorem s6_v77 (W : Valuation τ sig (Elt F)) :
    after s6 W (Proc.devRef .tc main_v77) = f6_v77 (W (Proc.devRef .tc main_v55)) (W (Proc.devRef .tc main_v59)) (W (Proc.devRef .tc main_v48)) := by
  after_results_simp
  try rfl

end Cert.ReferenceIdeal.Stages

end
-- ==== Proof.RefStage7.lean ====
/-
  Stage 7 of the reference's host program (operations 179 … 185 of its straight line): the node features flattened to 2048 rows, and the first layer's edge lists with the 2048 self loops appended.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s7 : List (HloOp τ sig (Elt F)) :=
  [ StableHlo.reshape main_arg0 main_v78 rfl shapeCasts_S8x256x128_S2048x128,
    StableHlo.nullary main_v79 (iotaInDim S2048 32 0),
    StableHlo.binary main_v55 main_v79 main_v80 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.binary main_v59 main_v79 main_v81 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.nullary main_cst_27 (constant S_ .f32 0x3F800000#32),
    StableHlo.unary main_cst_27 main_v82 (broadcastInDim S2048 ![] bcast_S_S2048 : (⟨S_, .f32⟩ : BufTy).Contents (Elt F) → (⟨S2048, .f32⟩ : BufTy).Contents (Elt F)),
    StableHlo.binary main_v77 main_v82 main_v83 ((fun a b => concatenate S526336 0 [⟨S524288, a⟩, ⟨S2048, b⟩] concatenates_S524288_S2048_S526336_d0) : (⟨S524288, .f32⟩ : BufTy).Contents (Elt F) → (⟨S2048, .f32⟩ : BufTy).Contents (Elt F) → (⟨S526336, .f32⟩ : BufTy).Contents (Elt F)) ]

/-- The buffers the stage writes. -/
abbrev w7 : List (Ref sig .tc) :=
  [ main_v78, main_v79, main_v80, main_v81, main_cst_27, main_v82, main_v83 ]

theorem s7_writes : (s7 : List (HloOp τ sig (Elt F))).Forall fun op =>
    op.writes ⊆ (w7.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide)⟩

/-- A buffer the stage does not write keeps its contents through it. -/
theorem s7_keep (W : Valuation τ sig (Elt F)) {r : Ref sig .tc} (hr : r ∉ w7) :
    after s7 W (Proc.devRef .tc r) = W (Proc.devRef .tc r) :=
  after_of_writes_sub s7 W s7_writes hr

/-- The stage's value at `main_v78`, as one function of the inputs it reads. -/
def f7_v78 (x_arg0 : (Proc.devRef (τ := τ) .tc main_arg0 : DevRef τ sig).ty.Contents (Elt F)) : (Proc.devRef (τ := τ) .tc main_v78 : DevRef τ sig).ty.Contents (Elt F) :=
  (shapeCast S2048x128 x_arg0 shapeCasts_S8x256x128_S2048x128)

set_option maxHeartbeats 1000000 in
/-- The fold over the stage's operations computes it. -/
theorem s7_v78 (W : Valuation τ sig (Elt F)) :
    after s7 W (Proc.devRef .tc main_v78) = f7_v78 (W (Proc.devRef .tc main_arg0)) := by
  after_results_simp
  try rfl

/-- The stage's value at `main_v80`, as one function of the inputs it reads. -/
def f7_v80 (x_v55 : (Proc.devRef (τ := τ) .tc main_v55 : DevRef τ sig).ty.Contents (Elt F)) : (Proc.devRef (τ := τ) .tc main_v80 : DevRef τ sig).ty.Contents (Elt F) :=
  (((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)) x_v55 ((iotaInDim S2048 32 0)))

set_option maxHeartbeats 1000000 in
/-- The fold over the stage's operations computes it. -/
theorem s7_v80 (W : Valuation τ sig (Elt F)) :
    after s7 W (Proc.devRef .tc main_v80) = f7_v80 (W (Proc.devRef .tc main_v55)) := by
  after_results_simp
  try rfl

/-- The stage's value at `main_v81`, as one function of the inputs it reads. -/
def f7_v81 (x_v59 : (Proc.devRef (τ := τ) .tc main_v59 : DevRef τ sig).ty.Contents (Elt F)) : (Proc.devRef (τ := τ) .tc main_v81 : DevRef τ sig).ty.Contents (Elt F) :=
  (((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)) x_v59 ((iotaInDim S2048 32 0)))

set_option maxHeartbeats 1000000 in
/-- The fold over the stage's operations computes it. -/
theorem s7_v81 (W : Valuation τ sig (Elt F)) :
    after s7 W (Proc.devRef .tc main_v81) = f7_v81 (W (Proc.devRef .tc main_v59)) := by
  after_results_simp
  try rfl

/-- The stage's value at `main_v83`, as one function of the inputs it reads. -/
def f7_v83 (x_v77 : (Proc.devRef (τ := τ) .tc main_v77 : DevRef τ sig).ty.Contents (Elt F)) : (Proc.devRef (τ := τ) .tc main_v83 : DevRef τ sig).ty.Contents (Elt F) :=
  (((fun a b => concatenate S526336 0 [⟨S524288, a⟩, ⟨S2048, b⟩] concatenates_S524288_S2048_S526336_d0) : (⟨S524288, .f32⟩ : BufTy).Contents (Elt F) → (⟨S2048, .f32⟩ : BufTy).Contents (Elt F) → (⟨S526336, .f32⟩ : BufTy).Contents (Elt F)) x_v77 ((broadcastInDim S2048 ![] bcast_S_S2048 : (⟨S_, .f32⟩ : BufTy).Contents (Elt F) → (⟨S2048, .f32⟩ : BufTy).Contents (Elt F)) ((constant S_ .f32 0x3F800000#32))))

set_option maxHeartbeats 1000000 in
/-- The fold over the stage's operations computes it. -/
theorem s7_v83 (W : Valuation τ sig (Elt F)) :
    after s7 W (Proc.devRef .tc main_v83) = f7_v83 (W (Proc.devRef .tc main_v77)) := by
  after_results_simp
  try rfl

end Cert.ReferenceIdeal.Stages

end
-- ==== Proof.RefStage8.lean ====
/-
  Stage 8 of the reference's host program (operations 186 … 227 of its straight line): the first layer's degrees (a scatter-add of the weights over the targets), their inverse square roots and the edge coefficients.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s8 : List (HloOp τ sig (Elt F)) :=
  [ StableHlo.nullary main_cst_28 (constant S_ .f32 0x00000000#32),
    StableHlo.unary main_cst_28 main_v84 (broadcastInDim S2048 ![] bcast_S_S2048 : (⟨S_, .f32⟩ : BufTy).Contents (Elt F) → (⟨S2048, .f32⟩ : BufTy).Contents (Elt F)),
    StableHlo.nullary main_c_29 (constantI S_ 32 0#32),
    StableHlo.unary main_c_29 main_v85 (broadcastInDim S526336 ![] bcast_S_S526336 : (⟨S_, .i32⟩ : BufTy).Contents (Elt F) → (⟨S526336, .i32⟩ : BufTy).Contents (Elt F)),
    StableHlo.binary main_v81 main_v85 main_v86 (cmpi .slt : (⟨S526336, .i32⟩ : BufTy).Contents (Elt F) → (⟨S526336, .i32⟩ : BufTy).Contents (Elt F) → (⟨S526336, .i1⟩ : BufTy).Contents (Elt F)),
    StableHlo.nullary main_c_30 (constantI S_ 32 2048#32),
    StableHlo.unary main_c_30 main_v87 (broadcastInDim S526336 ![] bcast_S_S526336 : (⟨S_, .i32⟩ : BufTy).Contents (Elt F) → (⟨S526336, .i32⟩ : BufTy).Contents (Elt F)),
    StableHlo.binary main_v81 main_v87 main_v88 (addi : (⟨S526336, .i32⟩ : BufTy).Contents (Elt F) → (⟨S526336, .i32⟩ : BufTy).Contents (Elt F) → (⟨S526336, .i32⟩ : BufTy).Contents (Elt F)),
    StableHlo.ternary main_v86 main_v88 main_v81 main_v89 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v89 main_v90 (broadcastInDim S526336x1 ![0] bcast_S526336_S526336x1_0 : (⟨S526336, .i32⟩ : BufTy).Contents (Elt F) → (⟨S526336x1, .i32⟩ : BufTy).Contents (Elt F)),
    StableHlo.ternary main_v84 main_v90 main_v83 main_v91 ((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)),
    StableHlo.nullary main_cst_31 (constant S_ .f32 0x00000000#32),
    StableHlo.unary main_cst_31 main_v92 (broadcastInDim S2048 ![] bcast_S_S2048 : (⟨S_, .f32⟩ : BufTy).Contents (Elt F) → (⟨S2048, .f32⟩ : BufTy).Contents (Elt F)),
    StableHlo.binary main_v91 main_v92 main_v93 (cmpf .ogt : (⟨S2048, .f32⟩ : BufTy).Contents (Elt F) → (⟨S2048, .f32⟩ : BufTy).Contents (Elt F) → (⟨S2048, .i1⟩ : BufTy).Contents (Elt F)),
    StableHlo.nullary main_cst_32 (constant S_ .f32 0x2B8CBCCC#32),
    StableHlo.unary main_cst_32 main_v94 (broadcastInDim S2048 ![] bcast_S_S2048 : (⟨S_, .f32⟩ : BufTy).Contents (Elt F) → (⟨S2048, .f32⟩ : BufTy).Contents (Elt F)),
    StableHlo.binary main_v91 main_v94 main_v95 (maximumf : (⟨S2048, .f32⟩ : BufTy).Contents (Elt F) → (⟨S2048, .f32⟩ : BufTy).Contents (Elt F) → (⟨S2048, .f32⟩ : BufTy).Contents (Elt F)),
    StableHlo.unary main_v95 main_v96 (Host.rsqrt : (⟨S2048, .f32⟩ : BufTy).Contents (Elt F) → (⟨S2048, .f32⟩ : BufTy).Contents (Elt F)),
    StableHlo.nullary main_cst_33 (constant S_ .f32 0x00000000#32),
    StableHlo.TRef.unary (.of main_cst_33) main_call5.v0 id,
    StableHlo.TRef.unary main_call5.v0 main_call5.v1 (broadcastInDim S2048 ![] bcast_S_S2048),
    StableHlo.TRef.ternary (.of main_v93) (.of main_v96) main_call5.v1 main_call5.v2 select,
    StableHlo.nullary main_c_34 (constantI S_ 32 0#32),
    StableHlo.unary main_c_34 main_v98 (broadcastInDim S526336 ![] bcast_S_S526336 : (⟨S_, .i32⟩ : BufTy).Contents (Elt F) → (⟨S526336, .i32⟩ : BufTy).Contents (Elt F)),
    StableHlo.binary main_v80 main_v98 main_v99 (cmpi .slt : (⟨S526336, .i32⟩ : BufTy).Contents (Elt F) → (⟨S526336, .i32⟩ : BufTy).Contents (Elt F) → (⟨S526336, .i1⟩ : BufTy).Contents (Elt F)),
    StableHlo.nullary main_c_35 (constantI S_ 32 2048#32),
    StableHlo.unary main_c_35 main_v100 (broadcastInDim S526336 ![] bcast_S_S526336 : (⟨S_, .i32⟩ : BufTy).Contents (Elt F) → (⟨S526336, .i32⟩ : BufTy).Contents (Elt F)),
    StableHlo.binary main_v80 main_v100 main_v101 (addi : (⟨S526336, .i32⟩ : BufTy).Contents (Elt F) → (⟨S526336, .i32⟩ : BufTy).Contents (Elt F) → (⟨S526336, .i32⟩ : BufTy).Contents (Elt F)),
    StableHlo.ternary main_v99 main_v101 main_v80 main_v102 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v102 main_v103 (broadcastInDim S526336x1 ![0] bcast_S526336_S526336x1_0 : (⟨S526336, .i32⟩ : BufTy).Contents (Elt F) → (⟨S526336x1, .i32⟩ : BufTy).Contents (Elt F)),
    StableHlo.binary main_v97 main_v103 main_v104 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v104 main_v83 main_v105 (mulf : (⟨S526336, .f32⟩ : BufTy).Contents (Elt F) → (⟨S526336, .f32⟩ : BufTy).Contents (Elt F) → (⟨S526336, .f32⟩ : BufTy).Contents (Elt F)),
    StableHlo.nullary main_c_36 (constantI S_ 32 0#32),
    StableHlo.unary main_c_36 main_v106 (broadcastInDim S526336 ![] bcast_S_S526336 : (⟨S_, .i32⟩ : BufTy).Contents (Elt F) → (⟨S526336, .i32⟩ : BufTy).Contents (Elt F)),
    StableHlo.binary main_v81 main_v106 main_v107 (cmpi .slt : (⟨S526336, .i32⟩ : BufTy).Contents (Elt F) → (⟨S526336, .i32⟩ : BufTy).Contents (Elt F) → (⟨S526336, .i1⟩ : BufTy).Contents (Elt F)),
    StableHlo.nullary main_c_37 (constantI S_ 32 2048#32),
    StableHlo.unary main_c_37 main_v108 (broadcastInDim S526336 ![] bcast_S_S526336 : (⟨S_, .i32⟩ : BufTy).Contents (Elt F) → (⟨S526336, .i32⟩ : BufTy).Contents (Elt F)),
    StableHlo.binary main_v81 main_v108 main_v109 (addi : (⟨S526336, .i32⟩ : BufTy).Contents (Elt F) → (⟨S526336, .i32⟩ : BufTy).Contents (Elt F) → (⟨S526336, .i32⟩ : BufTy).Contents (Elt F)),
    StableHlo.ternary main_v107 main_v109 main_v81 main_v110 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v110 main_v111 (broadcastInDim S526336x1 ![0] bcast_S526336_S526336x1_0 : (⟨S526336, .i32⟩ : BufTy).Contents (Elt F) → (⟨S526336x1, .i32⟩ : BufTy).Contents (Elt F)),
    StableHlo.binary main_v97 main_v111 main_v112 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v105 main_v112 main_v113 (mulf : (⟨S526336, .f32⟩ : BufTy).Contents (Elt F) → (⟨S526336, .f32⟩ : BufTy).Contents (Elt F) → (⟨S526336, .f32⟩ : BufTy).Contents (Elt F)) ]

/-- The buffers the stage writes. -/
abbrev w8 : List (Ref sig .tc) :=
  [ main_cst_28, main_v84, main_c_29, main_v85, main_v86, main_c_30, main_v87, main_v88,
    main_v89, main_v90, main_v91, main_cst_31, main_v92, main_v93, main_cst_32, main_v94,
    main_v95, main_v96, main_cst_33, (main_call5.v0).ref, (main_call5.v1).ref, (main_call5.v2).ref, main_c_34, main_v98,
    main_v99, main_c_35, main_v100, main_v101, main_v102, main_v103, main_v104, main_v105,
    main_c_36, main_v106, main_v107, main_c_37, main_v108, main_v109, main_v110, main_v111,
    main_v112, main_v113 ]

theorem s8_writes : (s8 : List (HloOp τ sig (Elt F))).Forall fun op =>
    op.writes ⊆ (w8.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the stage does not write keeps its contents through it. -/
theorem s8_keep (W : Valuation τ sig (Elt F)) {r : Ref sig .tc} (hr : r ∉ w8) :
    after s8 W (Proc.devRef .tc r) = W (Proc.devRef .tc r) :=
  after_of_writes_sub s8 W s8_writes hr

/-- The stage's value at `main_v113`, as one function of the inputs it reads. -/
def f8_v113 (x_v81 : (Proc.devRef (τ := τ) .tc main_v81 : DevRef τ sig).ty.Contents (Elt F)) (x_v83 : (Proc.devRef (τ := τ) .tc main_v83 : DevRef τ sig).ty.Contents (Elt F)) (x_v80 : (Proc.devRef (τ := τ) .tc main_v80 : DevRef τ sig).ty.Contents (Elt F)) : (Proc.devRef (τ := τ) .tc main_v113 : DevRef τ sig).ty.Contents (Elt F) :=
  ((mulf : (⟨S526336, .f32⟩ : BufTy).Contents (Elt F) → (⟨S526336, .f32⟩ : BufTy).Contents (Elt F) → (⟨S526336, .f32⟩ : BufTy).Contents (Elt F)) ((mulf : (⟨S526336, .f32⟩ : BufTy).Contents (Elt F) → (⟨S526336, .f32⟩ : BufTy).Contents (Elt F) → (⟨S526336, .f32⟩ : BufTy).Contents (Elt F)) (((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)) (select ((cmpf .ogt : (⟨S2048, .f32⟩ : BufTy).Contents (Elt F) → (⟨S2048, .f32⟩ : BufTy).Contents (Elt F) → (⟨S2048, .i1⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v81 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v81 ((broadcastInDim S526336 ![] bcast_S_S526336 : (⟨S_, .i32⟩ : BufTy).Contents (Elt F) → (⟨S526336, .i32⟩ : BufTy).Contents (Elt F)) ((constantI S_ 32 2048#32)))) x_v81)) x_v83) ((broadcastInDim S2048 ![] bcast_S_S2048 : (⟨S_, .f32⟩ : BufTy).Contents (Elt F) → (⟨S2048, .f32⟩ : BufTy).Contents (Elt F)) ((constant S_ .f32 0x00000000#32)))) ((Host.rsqrt : (⟨S2048, .f32⟩ : BufTy).Contents (Elt F) → (⟨S2048, .f32⟩ : BufTy).Contents (Elt F)) ((maximumf : (⟨S2048, .f32⟩ : BufTy).Contents (Elt F) → (⟨S2048, .f32⟩ : BufTy).Contents (Elt F) → (⟨S2048, .f32⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v81 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v81 ((broadcastInDim S526336 ![] bcast_S_S526336 : (⟨S_, .i32⟩ : BufTy).Contents (Elt F) → (⟨S526336, .i32⟩ : BufTy).Contents (Elt F)) ((constantI S_ 32 2048#32)))) x_v81)) x_v83) ((broadcastInDim S2048 ![] bcast_S_S2048 : (⟨S_, .f32⟩ : BufTy).Contents (Elt F) → (⟨S2048, .f32⟩ : BufTy).Contents (Elt F)) ((constant S_ .f32 0x2B8CBCCC#32))))) ((broadcastInDim S2048 ![] bcast_S_S2048) (id ((constant S_ .f32 0x00000000#32))))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v80 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v80 ((broadcastInDim S526336 ![] bcast_S_S526336 : (⟨S_, .i32⟩ : BufTy).Contents (Elt F) → (⟨S526336, .i32⟩ : BufTy).Contents (Elt F)) ((constantI S_ 32 2048#32)))) x_v80))) x_v83) (((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)) (select ((cmpf .ogt : (⟨S2048, .f32⟩ : BufTy).Contents (Elt F) → (⟨S2048, .f32⟩ : BufTy).Contents (Elt F) → (⟨S2048, .i1⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v81 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v81 ((broadcastInDim S526336 ![] bcast_S_S526336 : (⟨S_, .i32⟩ : BufTy).Contents (Elt F) → (⟨S526336, .i32⟩ : BufTy).Contents (Elt F)) ((constantI S_ 32 2048#32)))) x_v81)) x_v83) ((broadcastInDim S2048 ![] bcast_S_S2048 : (⟨S_, .f32⟩ : BufTy).Contents (Elt F) → (⟨S2048, .f32⟩ : BufTy).Contents (Elt F)) ((constant S_ .f32 0x00000000#32)))) ((Host.rsqrt : (⟨S2048, .f32⟩ : BufTy).Contents (Elt F) → (⟨S2048, .f32⟩ : BufTy).Contents (Elt F)) ((maximumf : (⟨S2048, .f32⟩ : BufTy).Contents (Elt F) → (⟨S2048, .f32⟩ : BufTy).Contents (Elt F) → (⟨S2048, .f32⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v81 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v81 ((broadcastInDim S526336 ![] bcast_S_S526336 : (⟨S_, .i32⟩ : BufTy).Contents (Elt F) → (⟨S526336, .i32⟩ : BufTy).Contents (Elt F)) ((constantI S_ 32 2048#32)))) x_v81)) x_v83) ((broadcastInDim S2048 ![] bcast_S_S2048 : (⟨S_, .f32⟩ : BufTy).Contents (Elt F) → (⟨S2048, .f32⟩ : BufTy).Contents (Elt F)) ((constant S_ .f32 0x2B8CBCCC#32))))) ((broadcastInDim S2048 ![] bcast_S_S2048) (id ((constant S_ .f32 0x00000000#32))))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v81 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v81 ((broadcastInDim S526336 ![] bcast_S_S526336 : (⟨S_, .i32⟩ : BufTy).Contents (Elt F) → (⟨S526336, .i32⟩ : BufTy).Contents (Elt F)) ((constantI S_ 32 2048#32)))) x_v81))))

set_option maxHeartbeats 1000000 in
/-- The fold over the stage's operations computes it. -/
theorem s8_v113 (W : Valuation τ sig (Elt F)) :
    after s8 W (Proc.devRef .tc main_v113) = f8_v113 (W (Proc.devRef .tc main_v81)) (W (Proc.devRef .tc main_v83)) (W (Proc.devRef .tc main_v80)) := by
  after_results_simp
  try rfl

end Cert.ReferenceIdeal.Stages

end
-- ==== Proof.RefStage9.lean ====
/-
  Stage 9 of the reference's host program (operations 228 … 255 of its straight line): the first layer's messages: features by weightsᵀ gathered at the sources, scaled by the coefficients, scatter-added over the targets, plus bias.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s9 : List (HloOp τ sig (Elt F)) :=
  [ StableHlo.unary main_arg2 main_v114 ((transpose S128x128 [1, 0] · transposes_S128x128_S128x128_1_0) : (⟨S128x128, .f32⟩ : BufTy).Contents (Elt F) → (⟨S128x128, .f32⟩ : BufTy).Contents (Elt F)),
    StableHlo.binary main_v78 main_v114 main_v115 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.nullary main_cst_38 (constant S_ .f32 0x00000000#32),
    StableHlo.unary main_cst_38 main_v116 (broadcastInDim S2048x128 ![] bcast_S_S2048x128 : (⟨S_, .f32⟩ : BufTy).Contents (Elt F) → (⟨S2048x128, .f32⟩ : BufTy).Contents (Elt F)),
    StableHlo.nullary main_c_39 (constantI S_ 32 0#32),
    StableHlo.unary main_c_39 main_v117 (broadcastInDim S526336 ![] bcast_S_S526336 : (⟨S_, .i32⟩ : BufTy).Contents (Elt F) → (⟨S526336, .i32⟩ : BufTy).Contents (Elt F)),
    StableHlo.binary main_v80 main_v117 main_v118 (cmpi .slt : (⟨S526336, .i32⟩ : BufTy).Contents (Elt F) → (⟨S526336, .i32⟩ : BufTy).Contents (Elt F) → (⟨S526336, .i1⟩ : BufTy).Contents (Elt F)),
    StableHlo.nullary main_c_40 (constantI S_ 32 2048#32),
    StableHlo.unary main_c_40 main_v119 (broadcastInDim S526336 ![] bcast_S_S526336 : (⟨S_, .i32⟩ : BufTy).Contents (Elt F) → (⟨S526336, .i32⟩ : BufTy).Contents (Elt F)),
    StableHlo.binary main_v80 main_v119 main_v120 (addi : (⟨S526336, .i32⟩ : BufTy).Contents (Elt F) → (⟨S526336, .i32⟩ : BufTy).Contents (Elt F) → (⟨S526336, .i32⟩ : BufTy).Contents (Elt F)),
    StableHlo.ternary main_v118 main_v120 main_v80 main_v121 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v121 main_v122 (broadcastInDim S526336x1 ![0] bcast_S526336_S526336x1_0 : (⟨S526336, .i32⟩ : BufTy).Contents (Elt F) → (⟨S526336x1, .i32⟩ : BufTy).Contents (Elt F)),
    StableHlo.binary main_v115 main_v122 main_v123 ((fun x i => Host.gather gather_S2048x128_S526336x1_S526336x128_1_0_n_n_0_1_1128 x i) : (⟨S2048x128, .f32⟩ : BufTy).Contents (Elt F) → (⟨S526336x1, .i32⟩ : BufTy).Contents (Elt F) → (⟨S526336x128, .f32⟩ : BufTy).Contents (Elt F)),
    StableHlo.unary main_v113 main_v124 (broadcastInDim S526336x1 ![0] bcast_S526336_S526336x1_0 : (⟨S526336, .f32⟩ : BufTy).Contents (Elt F) → (⟨S526336x1, .f32⟩ : BufTy).Contents (Elt F)),
    StableHlo.unary main_v124 main_v125 (broadcastInDim S526336x128 ![0, 1] bcast_S526336x1_S526336x128_0_1 : (⟨S526336x1, .f32⟩ : BufTy).Contents (Elt F) → (⟨S526336x128, .f32⟩ : BufTy).Contents (Elt F)),
    StableHlo.binary main_v123 main_v125 main_v126 (mulf : (⟨S526336x128, .f32⟩ : BufTy).Contents (Elt F) → (⟨S526336x128, .f32⟩ : BufTy).Contents (Elt F) → (⟨S526336x128, .f32⟩ : BufTy).Contents (Elt F)),
    StableHlo.nullary main_c_41 (constantI S_ 32 0#32),
    StableHlo.unary main_c_41 main_v127 (broadcastInDim S526336 ![] bcast_S_S526336 : (⟨S_, .i32⟩ : BufTy).Contents (Elt F) → (⟨S526336, .i32⟩ : BufTy).Contents (Elt F)),
    StableHlo.binary main_v81 main_v127 main_v128 (cmpi .slt : (⟨S526336, .i32⟩ : BufTy).Contents (Elt F) → (⟨S526336, .i32⟩ : BufTy).Contents (Elt F) → (⟨S526336, .i1⟩ : BufTy).Contents (Elt F)),
    StableHlo.nullary main_c_42 (constantI S_ 32 2048#32),
    StableHlo.unary main_c_42 main_v129 (broadcastInDim S526336 ![] bcast_S_S526336 : (⟨S_, .i32⟩ : BufTy).Contents (Elt F) → (⟨S526336, .i32⟩ : BufTy).Contents (Elt F)),
    StableHlo.binary main_v81 main_v129 main_v130 (addi : (⟨S526336, .i32⟩ : BufTy).Contents (Elt F) → (⟨S526336, .i32⟩ : BufTy).Contents (Elt F) → (⟨S526336, .i32⟩ : BufTy).Contents (Elt F)),
    StableHlo.ternary main_v128 main_v130 main_v81 main_v131 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v131 main_v132 (broadcastInDim S526336x1 ![0] bcast_S526336_S526336x1_0 : (⟨S526336, .i32⟩ : BufTy).Contents (Elt F) → (⟨S526336x1, .i32⟩ : BufTy).Contents (Elt F)),
    StableHlo.ternary main_v116 main_v132 main_v126 main_v133 ((fun x i u => Host.scatterAdd scatter_S2048x128_S526336x1_S526336x128_1_0_0_1 x i u) : (⟨S2048x128, .f32⟩ : BufTy).Contents (Elt F) → (⟨S526336x1, .i32⟩ : BufTy).Contents (Elt F) → (⟨S526336x128, .f32⟩ : BufTy).Contents (Elt F) → (⟨S2048x128, .f32⟩ : BufTy).Contents (Elt F)),
    StableHlo.unary main_arg3 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S2048x128 ![0, 1] bcast_S1x128_S2048x128_0_1 : (⟨S1x128, .f32⟩ : BufTy).Contents (Elt F) → (⟨S2048x128, .f32⟩ : BufTy).Contents (Elt F)),
    StableHlo.binary main_v133 main_v135 main_v136 (addf : (⟨S2048x128, .f32⟩ : BufTy).Contents (Elt F) → (⟨S2048x128, .f32⟩ : BufTy).Contents (Elt F) → (⟨S2048x128, .f32⟩ : BufTy).Contents (Elt F)) ]

/-- The buffers the stage writes. -/
abbrev w9 : List (Ref sig .tc) :=
  [ main_v114, main_v115, main_cst_38, main_v116, main_c_39, main_v117, main_v118, main_c_40,
    main_v119, main_v120, main_v121, main_v122, main_v123, main_v124, main_v125, main_v126,
    main_c_41, main_v127, main_v128, main_c_42, main_v129, main_v130, main_v131, main_v132,
    main_v133, main_v134, main_v135, main_v136 ]

theorem s9_writes : (s9 : List (HloOp τ sig (Elt F))).Forall fun op =>
    op.writes ⊆ (w9.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide)⟩

/-- A buffer the stage does not write keeps its contents through it. -/
theorem s9_keep (W : Valuation τ sig (Elt F)) {r : Ref sig .tc} (hr : r ∉ w9) :
    after s9 W (Proc.devRef .tc r) = W (Proc.devRef .tc r) :=
  after_of_writes_sub s9 W s9_writes hr

/-- The stage's value at `main_v136`, as one function of the inputs it reads. -/
def f9_v136 (x_arg2 : (Proc.devRef (τ := τ) .tc main_arg2 : DevRef τ sig).ty.Contents (Elt F)) (x_v78 : (Proc.devRef (τ := τ) .tc main_v78 : DevRef τ sig).ty.Contents (Elt F)) (x_v80 : (Proc.devRef (τ := τ) .tc main_v80 : DevRef τ sig).ty.Contents (Elt F)) (x_v113 : (Proc.devRef (τ := τ) .tc main_v113 : DevRef τ sig).ty.Contents (Elt F)) (x_v81 : (Proc.devRef (τ := τ) .tc main_v81 : DevRef τ sig).ty.Contents (Elt F)) (x_arg3 : (Proc.devRef (τ := τ) .tc main_arg3 : DevRef τ sig).ty.Contents (Elt F)) : (Proc.devRef (τ := τ) .tc main_v136 : DevRef τ sig).ty.Contents (Elt F) :=
  ((addf : (⟨S2048x128, .f32⟩ : BufTy).Contents (Elt F) → (⟨S2048x128, .f32⟩ : BufTy).Contents (Elt F) → (⟨S2048x128, .f32⟩ : BufTy).Contents (Elt F)) (((fun x i u => Host.scatterAdd scatter_S2048x128_S526336x1_S526336x128_1_0_0_1 x i u) : (⟨S2048x128, .f32⟩ : BufTy).Contents (Elt F) → (⟨S526336x1, .i32⟩ : BufTy).Contents (Elt F) → (⟨S526336x128, .f32⟩ : BufTy).Contents (Elt F) → (⟨S2048x128, .f32⟩ : BufTy).Contents (Elt F)) ((broadcastInDim S2048x128 ![] bcast_S_S2048x128 : (⟨S_, .f32⟩ : BufTy).Contents (Elt F) → (⟨S2048x128, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v81 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v81 ((broadcastInDim S526336 ![] bcast_S_S526336 : (⟨S_, .i32⟩ : BufTy).Contents (Elt F) → (⟨S526336, .i32⟩ : BufTy).Contents (Elt F)) ((constantI S_ 32 2048#32)))) x_v81)) ((mulf : (⟨S526336x128, .f32⟩ : BufTy).Contents (Elt F) → (⟨S526336x128, .f32⟩ : BufTy).Contents (Elt F) → (⟨S526336x128, .f32⟩ : BufTy).Contents (Elt F)) (((fun x i => Host.gather gather_S2048x128_S526336x1_S526336x128_1_0_n_n_0_1_1128 x i) : (⟨S2048x128, .f32⟩ : BufTy).Contents (Elt F) → (⟨S526336x1, .i32⟩ : BufTy).Contents (Elt F) → (⟨S526336x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v78 (((transpose S128x128 [1, 0] · transposes_S128x128_S128x128_1_0) : (⟨S128x128, .f32⟩ : BufTy).Contents (Elt F) → (⟨S128x128, .f32⟩ : BufTy).Contents (Elt F)) x_arg2)) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v80 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v80 ((broadcastInDim S526336 ![] bcast_S_S526336 : (⟨S_, .i32⟩ : BufTy).Contents (Elt F) → (⟨S526336, .i32⟩ : BufTy).Contents (Elt F)) ((constantI S_ 32 2048#32)))) x_v80))) ((broadcastInDim S526336x128 ![0, 1] bcast_S526336x1_S526336x128_0_1 : (⟨S526336x1, .f32⟩ : BufTy).Contents (Elt F) → (⟨S526336x128, .f32⟩ : BufTy).Contents (Elt F)) ((broadcastInDim S526336x1 ![0] bcast_S526336_S526336x1_0 : (⟨S526336, .f32⟩ : BufTy).Contents (Elt F) → (⟨S526336x1, .f32⟩ : BufTy).Contents (Elt F)) x_v113)))) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg3)))

set_option maxHeartbeats 1000000 in
/-- The fold over the stage's operations computes it. -/
theorem s9_v136 (W : Valuation τ sig (Elt F)) :
    after s9 W (Proc.devRef .tc main_v136) = f9_v136 (W (Proc.devRef .tc main_arg2)) (W (Proc.devRef .tc main_v78)) (W (Proc.devRef .tc main_v80)) (W (Proc.devRef .tc main_v113)) (W (Proc.devRef .tc main_v81)) (W (Proc.devRef .tc main_arg3)) := by
  after_results_simp
  try rfl

end Cert.ReferenceIdeal.Stages

end
-- ==== Proof.RefStage10.lean ====
/-
  Stage 10 of the reference's host program (operations 256 … 292 of its straight line): the first layer's dense map, layer normalisation and rectifier.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s10 : List (HloOp τ sig (Elt F)) :=
  [ StableHlo.unary main_arg4 main_v137 ((transpose S128x128 [1, 0] · transposes_S128x128_S128x128_1_0) : (⟨S128x128, .f32⟩ : BufTy).Contents (Elt F) → (⟨S128x128, .f32⟩ : BufTy).Contents (Elt F)),
    StableHlo.binary main_v136 main_v137 main_v138 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg5 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S2048x128 ![0, 1] bcast_S1x128_S2048x128_0_1 : (⟨S1x128, .f32⟩ : BufTy).Contents (Elt F) → (⟨S2048x128, .f32⟩ : BufTy).Contents (Elt F)),
    StableHlo.binary main_v138 main_v140 main_v141 (addf : (⟨S2048x128, .f32⟩ : BufTy).Contents (Elt F) → (⟨S2048x128, .f32⟩ : BufTy).Contents (Elt F) → (⟨S2048x128, .f32⟩ : BufTy).Contents (Elt F)),
    StableHlo.nullary main_cst_43 (constant S_ .f32 0x00000000#32),
    StableHlo.binary main_v141 main_cst_43 main_v142 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v142 main_v143 (broadcastInDim S2048x1 ![0] bcast_S2048_S2048x1_0 : (⟨S2048, .f32⟩ : BufTy).Contents (Elt F) → (⟨S2048x1, .f32⟩ : BufTy).Contents (Elt F)),
    StableHlo.nullary main_cst_44 (constant S_ .f32 0x43000000#32),
    StableHlo.unary main_cst_44 main_v144 (broadcastInDim S2048x1 ![] bcast_S_S2048x1 : (⟨S_, .f32⟩ : BufTy).Contents (Elt F) → (⟨S2048x1, .f32⟩ : BufTy).Contents (Elt F)),
    StableHlo.binary main_v143 main_v144 main_v145 (Host.divf : (⟨S2048x1, .f32⟩ : BufTy).Contents (Elt F) → (⟨S2048x1, .f32⟩ : BufTy).Contents (Elt F) → (⟨S2048x1, .f32⟩ : BufTy).Contents (Elt F)),
    StableHlo.unary main_v145 main_v146 (broadcastInDim S2048x128 ![0, 1] bcast_S2048x1_S2048x128_0_1 : (⟨S2048x1, .f32⟩ : BufTy).Contents (Elt F) → (⟨S2048x128, .f32⟩ : BufTy).Contents (Elt F)),
    StableHlo.binary main_v141 main_v146 main_v147 (subf : (⟨S2048x128, .f32⟩ : BufTy).Contents (Elt F) → (⟨S2048x128, .f32⟩ : BufTy).Contents (Elt F) → (⟨S2048x128, .f32⟩ : BufTy).Contents (Elt F)),
    StableHlo.binary main_v147 main_v147 main_v148 (mulf : (⟨S2048x128, .f32⟩ : BufTy).Contents (Elt F) → (⟨S2048x128, .f32⟩ : BufTy).Contents (Elt F) → (⟨S2048x128, .f32⟩ : BufTy).Contents (Elt F)),
    StableHlo.nullary main_cst_45 (constant S_ .f32 0x00000000#32),
    StableHlo.binary main_v148 main_cst_45 main_v149 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v149 main_v150 (broadcastInDim S2048x1 ![0] bcast_S2048_S2048x1_0 : (⟨S2048, .f32⟩ : BufTy).Contents (Elt F) → (⟨S2048x1, .f32⟩ : BufTy).Contents (Elt F)),
    StableHlo.nullary main_cst_46 (constant S_ .f32 0x43000000#32),
    StableHlo.unary main_cst_46 main_v151 (broadcastInDim S2048x1 ![] bcast_S_S2048x1 : (⟨S_, .f32⟩ : BufTy).Contents (Elt F) → (⟨S2048x1, .f32⟩ : BufTy).Contents (Elt F)),
    StableHlo.binary main_v150 main_v151 main_v152 (Host.divf : (⟨S2048x1, .f32⟩ : BufTy).Contents (Elt F) → (⟨S2048x1, .f32⟩ : BufTy).Contents (Elt F) → (⟨S2048x1, .f32⟩ : BufTy).Contents (Elt F)),
    StableHlo.unary main_v145 main_v153 (broadcastInDim S2048x128 ![0, 1] bcast_S2048x1_S2048x128_0_1 : (⟨S2048x1, .f32⟩ : BufTy).Contents (Elt F) → (⟨S2048x128, .f32⟩ : BufTy).Contents (Elt F)),
    StableHlo.binary main_v141 main_v153 main_v154 (subf : (⟨S2048x128, .f32⟩ : BufTy).Contents (Elt F) → (⟨S2048x128, .f32⟩ : BufTy).Contents (Elt F) → (⟨S2048x128, .f32⟩ : BufTy).Contents (Elt F)),
    StableHlo.nullary main_cst_47 (constant S_ .f32 0x3727C5AC#32),
    StableHlo.unary main_cst_47 main_v155 (broadcastInDim S2048x1 ![] bcast_S_S2048x1 : (⟨S_, .f32⟩ : BufTy).Contents (Elt F) → (⟨S2048x1, .f32⟩ : BufTy).Contents (Elt F)),
    StableHlo.binary main_v152 main_v155 main_v156 (addf : (⟨S2048x1, .f32⟩ : BufTy).Contents (Elt F) → (⟨S2048x1, .f32⟩ : BufTy).Contents (Elt F) → (⟨S2048x1, .f32⟩ : BufTy).Contents (Elt F)),
    StableHlo.unary main_v156 main_v157 (Host.sqrt : (⟨S2048x1, .f32⟩ : BufTy).Contents (Elt F) → (⟨S2048x1, .f32⟩ : BufTy).Contents (Elt F)),
    StableHlo.unary main_v157 main_v158 (broadcastInDim S2048x128 ![0, 1] bcast_S2048x1_S2048x128_0_1 : (⟨S2048x1, .f32⟩ : BufTy).Contents (Elt F) → (⟨S2048x128, .f32⟩ : BufTy).Contents (Elt F)),
    StableHlo.binary main_v154 main_v158 main_v159 (Host.divf : (⟨S2048x128, .f32⟩ : BufTy).Contents (Elt F) → (⟨S2048x128, .f32⟩ : BufTy).Contents (Elt F) → (⟨S2048x128, .f32⟩ : BufTy).Contents (Elt F)),
    StableHlo.unary main_arg6 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S2048x128 ![0, 1] bcast_S1x128_S2048x128_0_1 : (⟨S1x128, .f32⟩ : BufTy).Contents (Elt F) → (⟨S2048x128, .f32⟩ : BufTy).Contents (Elt F)),
    StableHlo.binary main_v159 main_v161 main_v162 (mulf : (⟨S2048x128, .f32⟩ : BufTy).Contents (Elt F) → (⟨S2048x128, .f32⟩ : BufTy).Contents (Elt F) → (⟨S2048x128, .f32⟩ : BufTy).Contents (Elt F)),
    StableHlo.unary main_arg7 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S2048x128 ![0, 1] bcast_S1x128_S2048x128_0_1 : (⟨S1x128, .f32⟩ : BufTy).Contents (Elt F) → (⟨S2048x128, .f32⟩ : BufTy).Contents (Elt F)),
    StableHlo.binary main_v162 main_v164 main_v165 (addf : (⟨S2048x128, .f32⟩ : BufTy).Contents (Elt F) → (⟨S2048x128, .f32⟩ : BufTy).Contents (Elt F) → (⟨S2048x128, .f32⟩ : BufTy).Contents (Elt F)),
    StableHlo.TRef.nullary main_call6.cst (constant S_ .f32 0x00000000#32),
    StableHlo.TRef.unary main_call6.cst main_call6.v0 (broadcastInDim S2048x128 ![] bcast_S_S2048x128),
    StableHlo.TRef.binary (.of main_v165) main_call6.v0 main_call6.v1 maximumf ]

/-- The buffers the stage writes. -/
abbrev w10 : List (Ref sig .tc) :=
  [ main_v137, main_v138, main_v139, main_v140, main_v141, main_cst_43, main_v142, main_v143,
    main_cst_44, main_v144, main_v145, main_v146, main_v147, main_v148, main_cst_45, main_v149,
    main_v150, main_cst_46, main_v151, main_v152, main_v153, main_v154, main_cst_47, main_v155,
    main_v156, main_v157, main_v158, main_v159, main_v160, main_v161, main_v162, main_v163,
    main_v164, main_v165, (main_call6.cst).ref, (main_call6.v0).ref, (main_call6.v1).ref ]

theorem s10_writes : (s10 : List (HloOp τ sig (Elt F))).Forall fun op =>
    op.writes ⊆ (w10.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide)⟩

/-- A buffer the stage does not write keeps its contents through it. -/
theorem s10_keep (W : Valuation τ sig (Elt F)) {r : Ref sig .tc} (hr : r ∉ w10) :
    after s10 W (Proc.devRef .tc r) = W (Proc.devRef .tc r) :=
  after_of_writes_sub s10 W s10_writes hr

/-- The stage's value at `main_v166`, as one function of the inputs it reads. -/
def f10_v166 (x_arg4 : (Proc.devRef (τ := τ) .tc main_arg4 : DevRef τ sig).ty.Contents (Elt F)) (x_v136 : (Proc.devRef (τ := τ) .tc main_v136 : DevRef τ sig).ty.Contents (Elt F)) (x_arg5 : (Proc.devRef (τ := τ) .tc main_arg5 : DevRef τ sig).ty.Contents (Elt F)) (x_arg6 : (Proc.devRef (τ := τ) .tc main_arg6 : DevRef τ sig).ty.Contents (Elt F)) (x_arg7 : (Proc.devRef (τ := τ) .tc main_arg7 : DevRef τ sig).ty.Contents (Elt F)) : (Proc.devRef (τ := τ) .tc main_v166 : DevRef τ sig).ty.Contents (Elt F) :=
  (maximumf ((addf : (⟨S2048x128, .f32⟩ : BufTy).Contents (Elt F) → (⟨S2048x128, .f32⟩ : BufTy).Contents (Elt F) → (⟨S2048x128, .f32⟩ : BufTy).Contents (Elt F)) ((mulf : (⟨S2048x128, .f32⟩ : BufTy).Contents (Elt F) → (⟨S2048x128, .f32⟩ : BufTy).Contents (Elt F) → (⟨S2048x128, .f32⟩ : BufTy).Contents (Elt F)) ((Host.divf : (⟨S2048x128, .f32⟩ : BufTy).Contents (Elt F) → (⟨S2048x128, .f32⟩ : BufTy).Contents (Elt F) → (⟨S2048x128, .f32⟩ : BufTy).Contents (Elt F)) ((subf : (⟨S2048x128, .f32⟩ : BufTy).Contents (Elt F) → (⟨S2048x128, .f32⟩ : BufTy).Contents (Elt F) → (⟨S2048x128, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v136 (((transpose S128x128 [1, 0] · transposes_S128x128_S128x128_1_0) : (⟨S128x128, .f32⟩ : BufTy).Contents (Elt F) → (⟨S128x128, .f32⟩ : BufTy).Contents (Elt F)) x_arg4)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg5))) ((broadcastInDim S2048x128 ![0, 1] bcast_S2048x1_S2048x128_0_1 : (⟨S2048x1, .f32⟩ : BufTy).Contents (Elt F) → (⟨S2048x128, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v136 (((transpose S128x128 [1, 0] · transposes_S128x128_S128x128_1_0) : (⟨S128x128, .f32⟩ : BufTy).Contents (Elt F) → (⟨S128x128, .f32⟩ : BufTy).Contents (Elt F)) x_arg4)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg5))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32)))))) ((broadcastInDim S2048x128 ![0, 1] bcast_S2048x1_S2048x128_0_1 : (⟨S2048x1, .f32⟩ : BufTy).Contents (Elt F) → (⟨S2048x128, .f32⟩ : BufTy).Contents (Elt F)) ((Host.sqrt : (⟨S2048x1, .f32⟩ : BufTy).Contents (Elt F) → (⟨S2048x1, .f32⟩ : BufTy).Contents (Elt F)) ((addf : (⟨S2048x1, .f32⟩ : BufTy).Contents (Elt F) → (⟨S2048x1, .f32⟩ : BufTy).Contents (Elt F) → (⟨S2048x1, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((mulf : (⟨S2048x128, .f32⟩ : BufTy).Contents (Elt F) → (⟨S2048x128, .f32⟩ : BufTy).Contents (Elt F) → (⟨S2048x128, .f32⟩ : BufTy).Contents (Elt F)) ((subf : (⟨S2048x128, .f32⟩ : BufTy).Contents (Elt F) → (⟨S2048x128, .f32⟩ : BufTy).Contents (Elt F) → (⟨S2048x128, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v136 (((transpose S128x128 [1, 0] · transposes_S128x128_S128x128_1_0) : (⟨S128x128, .f32⟩ : BufTy).Contents (Elt F) → (⟨S128x128, .f32⟩ : BufTy).Contents (Elt F)) x_arg4)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg5))) ((broadcastInDim S2048x128 ![0, 1] bcast_S2048x1_S2048x128_0_1 : (⟨S2048x1, .f32⟩ : BufTy).Contents (Elt F) → (⟨S2048x128, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v136 (((transpose S128x128 [1, 0] · transposes_S128x128_S128x128_1_0) : (⟨S128x128, .f32⟩ : BufTy).Contents (Elt F) → (⟨S128x128, .f32⟩ : BufTy).Contents (Elt F)) x_arg4)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg5))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32)))))) ((subf : (⟨S2048x128, .f32⟩ : BufTy).Contents (Elt F) → (⟨S2048x128, .f32⟩ : BufTy).Contents (Elt F) → (⟨S2048x128, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v136 (((transpose S128x128 [1, 0] · transposes_S128x128_S128x128_1_0) : (⟨S128x128, .f32⟩ : BufTy).Contents (Elt F) → (⟨S128x128, .f32⟩ : BufTy).Contents (Elt F)) x_arg4)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg5))) ((broadcastInDim S2048x128 ![0, 1] bcast_S2048x1_S2048x128_0_1 : (⟨S2048x1, .f32⟩ : BufTy).Contents (Elt F) → (⟨S2048x128, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v136 (((transpose S128x128 [1, 0] · transposes_S128x128_S128x128_1_0) : (⟨S128x128, .f32⟩ : BufTy).Contents (Elt F) → (⟨S128x128, .f32⟩ : BufTy).Contents (Elt F)) x_arg4)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg5))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32))))))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32)))) ((broadcastInDim S2048x1 ![] bcast_S_S2048x1 : (⟨S_, .f32⟩ : BufTy).Contents (Elt F) → (⟨S2048x1, .f32⟩ : BufTy).Contents (Elt F)) ((constant S_ .f32 0x3727C5AC#32))))))) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg6))) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg7))) ((broadcastInDim S2048x128 ![] bcast_S_S2048x128) ((constant S_ .f32 0x00000000#32))))

set_option maxHeartbeats 1000000 in
/-- The fold over the stage's operations computes it. -/
theorem s10_v166 (W : Valuation τ sig (Elt F)) :
    after s10 W (Proc.devRef .tc main_v166) = f10_v166 (W (Proc.devRef .tc main_arg4)) (W (Proc.devRef .tc main_v136)) (W (Proc.devRef .tc main_arg5)) (W (Proc.devRef .tc main_arg6)) (W (Proc.devRef .tc main_arg7)) := by
  after_results_simp
  try rfl

end Cert.ReferenceIdeal.Stages

end
-- ==== Proof.RefStage11.lean ====
/-
  Stage 11 of the reference's host program (operations 293 … 298 of its straight line): the second layer's copy of the edge lists.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s11 : List (HloOp τ sig (Elt F)) :=
  [ StableHlo.nullary main_v167 (iotaInDim S2048 32 0),
    StableHlo.binary main_v55 main_v167 main_v168 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.binary main_v59 main_v167 main_v169 ((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)),
    StableHlo.nullary main_cst_48 (constant S_ .f32 0x3F800000#32),
    StableHlo.unary main_cst_48 main_v170 (broadcastInDim S2048 ![] bcast_S_S2048 : (⟨S_, .f32⟩ : BufTy).Contents (Elt F) → (⟨S2048, .f32⟩ : BufTy).Contents (Elt F)),
    StableHlo.binary main_v77 main_v170 main_v171 ((fun a b => concatenate S526336 0 [⟨S524288, a⟩, ⟨S2048, b⟩] concatenates_S524288_S2048_S526336_d0) : (⟨S524288, .f32⟩ : BufTy).Contents (Elt F) → (⟨S2048, .f32⟩ : BufTy).Contents (Elt F) → (⟨S526336, .f32⟩ : BufTy).Contents (Elt F)) ]

/-- The buffers the stage writes. -/
abbrev w11 : List (Ref sig .tc) :=
  [ main_v167, main_v168, main_v169, main_cst_48, main_v170, main_v171 ]

theorem s11_writes : (s11 : List (HloOp τ sig (Elt F))).Forall fun op =>
    op.writes ⊆ (w11.map (Proc.devRef (τ := τ) .tc)).toFinset :=
  ⟨singleton_sub_written (by decide), singleton_sub_written (by decide), singleton_sub_written (by decide), singleton_sub_written (by decide),
    singleton_sub_written (by decide), singleton_sub_written (by decide)⟩

/-- A buffer the stage does not write keeps its contents through it. -/
theorem s11_keep (W : Valuation τ sig (Elt F)) {r : Ref sig .tc} (hr : r ∉ w11) :
    after s11 W (Proc.devRef .tc r) = W (Proc.devRef .tc r) :=
  after_of_writes_sub s11 W s11_writes hr

/-- The stage's value at `main_v168`, as one function of the inputs it reads. -/
def f11_v168 (x_v55 : (Proc.devRef (τ := τ) .tc main_v55 : DevRef τ sig).ty.Contents (Elt F)) : (Proc.devRef (τ := τ) .tc main_v168 : DevRef τ sig).ty.Contents (Elt F) :=
  (((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)) x_v55 ((iotaInDim S2048 32 0)))

set_option maxHeartbeats 1000000 in
/-- The fold over the stage's operations computes it. -/
theorem s11_v168 (W : Valuation τ sig (Elt F)) :
    after s11 W (Proc.devRef .tc main_v168) = f11_v168 (W (Proc.devRef .tc main_v55)) := by
  after_results_simp
  try rfl

/-- The stage's value at `main_v169`, as one function of the inputs it reads. -/
def f11_v169 (x_v59 : (Proc.devRef (τ := τ) .tc main_v59 : DevRef τ sig).ty.Contents (Elt F)) : (Proc.devRef (τ := τ) .tc main_v169 : DevRef τ sig).ty.Contents (Elt F) :=
  (((fun a b => concatenate S526336 0 [⟨S524288, a⟩, ⟨S2048, b⟩] concatenates_S524288_S2048_S526336_d0) : (⟨S524288, .i32⟩ : BufTy).Contents (Elt F) → (⟨S2048, .i32⟩ : BufTy).Contents (Elt F) → (⟨S526336, .i32⟩ : BufTy).Contents (Elt F)) x_v59 ((iotaInDim S2048 32 0)))

set_option maxHeartbeats 1000000 in
/-- The fold over the stage's operations computes it. -/
theorem s11_v169 (W : Valuation τ sig (Elt F)) :
    after s11 W (Proc.devRef .tc main_v169) = f11_v169 (W (Proc.devRef .tc main_v59)) := by
  after_results_simp
  try rfl

/-- The stage's value at `main_v171`, as one function of the inputs it reads. -/
def f11_v171 (x_v77 : (Proc.devRef (τ := τ) .tc main_v77 : DevRef τ sig).ty.Contents (Elt F)) : (Proc.devRef (τ := τ) .tc main_v171 : DevRef τ sig).ty.Contents (Elt F) :=
  (((fun a b => concatenate S526336 0 [⟨S524288, a⟩, ⟨S2048, b⟩] concatenates_S524288_S2048_S526336_d0) : (⟨S524288, .f32⟩ : BufTy).Contents (Elt F) → (⟨S2048, .f32⟩ : BufTy).Contents (Elt F) → (⟨S526336, .f32⟩ : BufTy).Contents (Elt F)) x_v77 ((broadcastInDim S2048 ![] bcast_S_S2048 : (⟨S_, .f32⟩ : BufTy).Contents (Elt F) → (⟨S2048, .f32⟩ : BufTy).Contents (Elt F)) ((constant S_ .f32 0x3F800000#32))))

set_option maxHeartbeats 1000000 in
/-- The fold over the stage's operations computes it. -/
theorem s11_v171 (W : Valuation τ sig (Elt F)) :
    after s11 W (Proc.devRef .tc main_v171) = f11_v171 (W (Proc.devRef .tc main_v77)) := by
  after_results_simp
  try rfl

end Cert.ReferenceIdeal.Stages

end
-- ==== Proof.RefStage12.lean ====
/-
  Stage 12 of the reference's host program (operations 299 … 340 of its straight line): the second layer's degrees, inverse square roots and edge coefficients.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s12 : List (HloOp τ sig (Elt F)) :=
  [ StableHlo.nullary main_cst_49 (constant S_ .f32 0x00000000#32),
    StableHlo.unary main_cst_49 main_v172 (broadcastInDim S2048 ![] bcast_S_S2048 : (⟨S_, .f32⟩ : BufTy).Contents (Elt F) → (⟨S2048, .f32⟩ : BufTy).Contents (Elt F)),
    StableHlo.nullary main_c_50 (constantI S_ 32 0#32),
    StableHlo.unary main_c_50 main_v173 (broadcastInDim S526336 ![] bcast_S_S526336 : (⟨S_, .i32⟩ : BufTy).Contents (Elt F) → (⟨S526336, .i32⟩ : BufTy).Contents (Elt F)),
    StableHlo.binary main_v169 main_v173 main_v174 (cmpi .slt : (⟨S526336, .i32⟩ : BufTy).Contents (Elt F) → (⟨S526336, .i32⟩ : BufTy).Contents (Elt F) → (⟨S526336, .i1⟩ : BufTy).Contents (Elt F)),
    StableHlo.nullary main_c_51 (constantI S_ 32 2048#32),
    StableHlo.unary main_c_51 main_v175 (broadcastInDim S526336 ![] bcast_S_S526336 : (⟨S_, .i32⟩ : BufTy).Contents (Elt F) → (⟨S526336, .i32⟩ : BufTy).Contents (Elt F)),
    StableHlo.binary main_v169 main_v175 main_v176 (addi : (⟨S526336, .i32⟩ : BufTy).Contents (Elt F) → (⟨S526336, .i32⟩ : BufTy).Contents (Elt F) → (⟨S526336, .i32⟩ : BufTy).Contents (Elt F)),
    StableHlo.ternary main_v174 main_v176 main_v169 main_v177 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v177 main_v178 (broadcastInDim S526336x1 ![0] bcast_S526336_S526336x1_0 : (⟨S526336, .i32⟩ : BufTy).Contents (Elt F) → (⟨S526336x1, .i32⟩ : BufTy).Contents (Elt F)),
    StableHlo.ternary main_v172 main_v178 main_v171 main_v179 ((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)),
    StableHlo.nullary main_cst_52 (constant S_ .f32 0x00000000#32),
    StableHlo.unary main_cst_52 main_v180 (broadcastInDim S2048 ![] bcast_S_S2048 : (⟨S_, .f32⟩ : BufTy).Contents (Elt F) → (⟨S2048, .f32⟩ : BufTy).Contents (Elt F)),
    StableHlo.binary main_v179 main_v180 main_v181 (cmpf .ogt : (⟨S2048, .f32⟩ : BufTy).Contents (Elt F) → (⟨S2048, .f32⟩ : BufTy).Contents (Elt F) → (⟨S2048, .i1⟩ : BufTy).Contents (Elt F)),
    StableHlo.nullary main_cst_53 (constant S_ .f32 0x2B8CBCCC#32),
    StableHlo.unary main_cst_53 main_v182 (broadcastInDim S2048 ![] bcast_S_S2048 : (⟨S_, .f32⟩ : BufTy).Contents (Elt F) → (⟨S2048, .f32⟩ : BufTy).Contents (Elt F)),
    StableHlo.binary main_v179 main_v182 main_v183 (maximumf : (⟨S2048, .f32⟩ : BufTy).Contents (Elt F) → (⟨S2048, .f32⟩ : BufTy).Contents (Elt F) → (⟨S2048, .f32⟩ : BufTy).Contents (Elt F)),
    StableHlo.unary main_v183 main_v184 (Host.rsqrt : (⟨S2048, .f32⟩ : BufTy).Contents (Elt F) → (⟨S2048, .f32⟩ : BufTy).Contents (Elt F)),
    StableHlo.nullary main_cst_54 (constant S_ .f32 0x00000000#32),
    StableHlo.TRef.unary (.of main_cst_54) main_call7.v0 id,
    StableHlo.TRef.unary main_call7.v0 main_call7.v1 (broadcastInDim S2048 ![] bcast_S_S2048),
    StableHlo.TRef.ternary (.of main_v181) (.of main_v184) main_call7.v1 main_call7.v2 select,
    StableHlo.nullary main_c_55 (constantI S_ 32 0#32),
    StableHlo.unary main_c_55 main_v186 (broadcastInDim S526336 ![] bcast_S_S526336 : (⟨S_, .i32⟩ : BufTy).Contents (Elt F) → (⟨S526336, .i32⟩ : BufTy).Contents (Elt F)),
    StableHlo.binary main_v168 main_v186 main_v187 (cmpi .slt : (⟨S526336, .i32⟩ : BufTy).Contents (Elt F) → (⟨S526336, .i32⟩ : BufTy).Contents (Elt F) → (⟨S526336, .i1⟩ : BufTy).Contents (Elt F)),
    StableHlo.nullary main_c_56 (constantI S_ 32 2048#32),
    StableHlo.unary main_c_56 main_v188 (broadcastInDim S526336 ![] bcast_S_S526336 : (⟨S_, .i32⟩ : BufTy).Contents (Elt F) → (⟨S526336, .i32⟩ : BufTy).Contents (Elt F)),
    StableHlo.binary main_v168 main_v188 main_v189 (addi : (⟨S526336, .i32⟩ : BufTy).Contents (Elt F) → (⟨S526336, .i32⟩ : BufTy).Contents (Elt F) → (⟨S526336, .i32⟩ : BufTy).Contents (Elt F)),
    StableHlo.ternary main_v187 main_v189 main_v168 main_v190 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v190 main_v191 (broadcastInDim S526336x1 ![0] bcast_S526336_S526336x1_0 : (⟨S526336, .i32⟩ : BufTy).Contents (Elt F) → (⟨S526336x1, .i32⟩ : BufTy).Contents (Elt F)),
    StableHlo.binary main_v185 main_v191 main_v192 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v192 main_v171 main_v193 (mulf : (⟨S526336, .f32⟩ : BufTy).Contents (Elt F) → (⟨S526336, .f32⟩ : BufTy).Contents (Elt F) → (⟨S526336, .f32⟩ : BufTy).Contents (Elt F)),
    StableHlo.nullary main_c_57 (constantI S_ 32 0#32),
    StableHlo.unary main_c_57 main_v194 (broadcastInDim S526336 ![] bcast_S_S526336 : (⟨S_, .i32⟩ : BufTy).Contents (Elt F) → (⟨S526336, .i32⟩ : BufTy).Contents (Elt F)),
    StableHlo.binary main_v169 main_v194 main_v195 (cmpi .slt : (⟨S526336, .i32⟩ : BufTy).Contents (Elt F) → (⟨S526336, .i32⟩ : BufTy).Contents (Elt F) → (⟨S526336, .i1⟩ : BufTy).Contents (Elt F)),
    StableHlo.nullary main_c_58 (constantI S_ 32 2048#32),
    StableHlo.unary main_c_58 main_v196 (broadcastInDim S526336 ![] bcast_S_S526336 : (⟨S_, .i32⟩ : BufTy).Contents (Elt F) → (⟨S526336, .i32⟩ : BufTy).Contents (Elt F)),
    StableHlo.binary main_v169 main_v196 main_v197 (addi : (⟨S526336, .i32⟩ : BufTy).Contents (Elt F) → (⟨S526336, .i32⟩ : BufTy).Contents (Elt F) → (⟨S526336, .i32⟩ : BufTy).Contents (Elt F)),
    StableHlo.ternary main_v195 main_v197 main_v169 main_v198 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v198 main_v199 (broadcastInDim S526336x1 ![0] bcast_S526336_S526336x1_0 : (⟨S526336, .i32⟩ : BufTy).Contents (Elt F) → (⟨S526336x1, .i32⟩ : BufTy).Contents (Elt F)),
    StableHlo.binary main_v185 main_v199 main_v200 ((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)),
    StableHlo.binary main_v193 main_v200 main_v201 (mulf : (⟨S526336, .f32⟩ : BufTy).Contents (Elt F) → (⟨S526336, .f32⟩ : BufTy).Contents (Elt F) → (⟨S526336, .f32⟩ : BufTy).Contents (Elt F)) ]

/-- The buffers the stage writes. -/
abbrev w12 : List (Ref sig .tc) :=
  [ main_cst_49, main_v172, main_c_50, main_v173, main_v174, main_c_51, main_v175, main_v176,
    main_v177, main_v178, main_v179, main_cst_52, main_v180, main_v181, main_cst_53, main_v182,
    main_v183, main_v184, main_cst_54, (main_call7.v0).ref, (main_call7.v1).ref, (main_call7.v2).ref, main_c_55, main_v186,
    main_v187, main_c_56, main_v188, main_v189, main_v190, main_v191, main_v192, main_v193,
    main_c_57, main_v194, main_v195, main_c_58, main_v196, main_v197, main_v198, main_v199,
    main_v200, main_v201 ]

theorem s12_writes : (s12 : List (HloOp τ sig (Elt F))).Forall fun op =>
    op.writes ⊆ (w12.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide)⟩

/-- A buffer the stage does not write keeps its contents through it. -/
theorem s12_keep (W : Valuation τ sig (Elt F)) {r : Ref sig .tc} (hr : r ∉ w12) :
    after s12 W (Proc.devRef .tc r) = W (Proc.devRef .tc r) :=
  after_of_writes_sub s12 W s12_writes hr

/-- The stage's value at `main_v201`, as one function of the inputs it reads. -/
def f12_v201 (x_v169 : (Proc.devRef (τ := τ) .tc main_v169 : DevRef τ sig).ty.Contents (Elt F)) (x_v171 : (Proc.devRef (τ := τ) .tc main_v171 : DevRef τ sig).ty.Contents (Elt F)) (x_v168 : (Proc.devRef (τ := τ) .tc main_v168 : DevRef τ sig).ty.Contents (Elt F)) : (Proc.devRef (τ := τ) .tc main_v201 : DevRef τ sig).ty.Contents (Elt F) :=
  ((mulf : (⟨S526336, .f32⟩ : BufTy).Contents (Elt F) → (⟨S526336, .f32⟩ : BufTy).Contents (Elt F) → (⟨S526336, .f32⟩ : BufTy).Contents (Elt F)) ((mulf : (⟨S526336, .f32⟩ : BufTy).Contents (Elt F) → (⟨S526336, .f32⟩ : BufTy).Contents (Elt F) → (⟨S526336, .f32⟩ : BufTy).Contents (Elt F)) (((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)) (select ((cmpf .ogt : (⟨S2048, .f32⟩ : BufTy).Contents (Elt F) → (⟨S2048, .f32⟩ : BufTy).Contents (Elt F) → (⟨S2048, .i1⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v169 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v169 ((broadcastInDim S526336 ![] bcast_S_S526336 : (⟨S_, .i32⟩ : BufTy).Contents (Elt F) → (⟨S526336, .i32⟩ : BufTy).Contents (Elt F)) ((constantI S_ 32 2048#32)))) x_v169)) x_v171) ((broadcastInDim S2048 ![] bcast_S_S2048 : (⟨S_, .f32⟩ : BufTy).Contents (Elt F) → (⟨S2048, .f32⟩ : BufTy).Contents (Elt F)) ((constant S_ .f32 0x00000000#32)))) ((Host.rsqrt : (⟨S2048, .f32⟩ : BufTy).Contents (Elt F) → (⟨S2048, .f32⟩ : BufTy).Contents (Elt F)) ((maximumf : (⟨S2048, .f32⟩ : BufTy).Contents (Elt F) → (⟨S2048, .f32⟩ : BufTy).Contents (Elt F) → (⟨S2048, .f32⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v169 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v169 ((broadcastInDim S526336 ![] bcast_S_S526336 : (⟨S_, .i32⟩ : BufTy).Contents (Elt F) → (⟨S526336, .i32⟩ : BufTy).Contents (Elt F)) ((constantI S_ 32 2048#32)))) x_v169)) x_v171) ((broadcastInDim S2048 ![] bcast_S_S2048 : (⟨S_, .f32⟩ : BufTy).Contents (Elt F) → (⟨S2048, .f32⟩ : BufTy).Contents (Elt F)) ((constant S_ .f32 0x2B8CBCCC#32))))) ((broadcastInDim S2048 ![] bcast_S_S2048) (id ((constant S_ .f32 0x00000000#32))))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v168 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v168 ((broadcastInDim S526336 ![] bcast_S_S526336 : (⟨S_, .i32⟩ : BufTy).Contents (Elt F) → (⟨S526336, .i32⟩ : BufTy).Contents (Elt F)) ((constantI S_ 32 2048#32)))) x_v168))) x_v171) (((fun x i => Host.gather gather_S2048_S526336x1_S526336_n_0_n_n_0_1_1 x i) : (⟨S2048, .f32⟩ : BufTy).Contents (Elt F) → (⟨S526336x1, .i32⟩ : BufTy).Contents (Elt F) → (⟨S526336, .f32⟩ : BufTy).Contents (Elt F)) (select ((cmpf .ogt : (⟨S2048, .f32⟩ : BufTy).Contents (Elt F) → (⟨S2048, .f32⟩ : BufTy).Contents (Elt F) → (⟨S2048, .i1⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v169 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v169 ((broadcastInDim S526336 ![] bcast_S_S526336 : (⟨S_, .i32⟩ : BufTy).Contents (Elt F) → (⟨S526336, .i32⟩ : BufTy).Contents (Elt F)) ((constantI S_ 32 2048#32)))) x_v169)) x_v171) ((broadcastInDim S2048 ![] bcast_S_S2048 : (⟨S_, .f32⟩ : BufTy).Contents (Elt F) → (⟨S2048, .f32⟩ : BufTy).Contents (Elt F)) ((constant S_ .f32 0x00000000#32)))) ((Host.rsqrt : (⟨S2048, .f32⟩ : BufTy).Contents (Elt F) → (⟨S2048, .f32⟩ : BufTy).Contents (Elt F)) ((maximumf : (⟨S2048, .f32⟩ : BufTy).Contents (Elt F) → (⟨S2048, .f32⟩ : BufTy).Contents (Elt F) → (⟨S2048, .f32⟩ : BufTy).Contents (Elt F)) (((fun x i u => Host.scatterAdd scatter_S2048_S526336x1_S526336_n_0_0_1 x i u) : (⟨S2048, .f32⟩ : BufTy).Contents (Elt F) → (⟨S526336x1, .i32⟩ : BufTy).Contents (Elt F) → (⟨S526336, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v169 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v169 ((broadcastInDim S526336 ![] bcast_S_S526336 : (⟨S_, .i32⟩ : BufTy).Contents (Elt F) → (⟨S526336, .i32⟩ : BufTy).Contents (Elt F)) ((constantI S_ 32 2048#32)))) x_v169)) x_v171) ((broadcastInDim S2048 ![] bcast_S_S2048 : (⟨S_, .f32⟩ : BufTy).Contents (Elt F) → (⟨S2048, .f32⟩ : BufTy).Contents (Elt F)) ((constant S_ .f32 0x2B8CBCCC#32))))) ((broadcastInDim S2048 ![] bcast_S_S2048) (id ((constant S_ .f32 0x00000000#32))))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v169 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v169 ((broadcastInDim S526336 ![] bcast_S_S526336 : (⟨S_, .i32⟩ : BufTy).Contents (Elt F) → (⟨S526336, .i32⟩ : BufTy).Contents (Elt F)) ((constantI S_ 32 2048#32)))) x_v169))))

set_option maxHeartbeats 1000000 in
/-- The fold over the stage's operations computes it. -/
theorem s12_v201 (W : Valuation τ sig (Elt F)) :
    after s12 W (Proc.devRef .tc main_v201) = f12_v201 (W (Proc.devRef .tc main_v169)) (W (Proc.devRef .tc main_v171)) (W (Proc.devRef .tc main_v168)) := by
  after_results_simp
  try rfl

end Cert.ReferenceIdeal.Stages

end
-- ==== Proof.RefStage13.lean ====
/-
  Stage 13 of the reference's host program (operations 341 … 368 of its straight line): the second layer's messages.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s13 : List (HloOp τ sig (Elt F)) :=
  [ StableHlo.unary main_arg8 main_v202 ((transpose S128x128 [1, 0] · transposes_S128x128_S128x128_1_0) : (⟨S128x128, .f32⟩ : BufTy).Contents (Elt F) → (⟨S128x128, .f32⟩ : BufTy).Contents (Elt F)),
    StableHlo.binary main_v166 main_v202 main_v203 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.nullary main_cst_59 (constant S_ .f32 0x00000000#32),
    StableHlo.unary main_cst_59 main_v204 (broadcastInDim S2048x128 ![] bcast_S_S2048x128 : (⟨S_, .f32⟩ : BufTy).Contents (Elt F) → (⟨S2048x128, .f32⟩ : BufTy).Contents (Elt F)),
    StableHlo.nullary main_c_60 (constantI S_ 32 0#32),
    StableHlo.unary main_c_60 main_v205 (broadcastInDim S526336 ![] bcast_S_S526336 : (⟨S_, .i32⟩ : BufTy).Contents (Elt F) → (⟨S526336, .i32⟩ : BufTy).Contents (Elt F)),
    StableHlo.binary main_v168 main_v205 main_v206 (cmpi .slt : (⟨S526336, .i32⟩ : BufTy).Contents (Elt F) → (⟨S526336, .i32⟩ : BufTy).Contents (Elt F) → (⟨S526336, .i1⟩ : BufTy).Contents (Elt F)),
    StableHlo.nullary main_c_61 (constantI S_ 32 2048#32),
    StableHlo.unary main_c_61 main_v207 (broadcastInDim S526336 ![] bcast_S_S526336 : (⟨S_, .i32⟩ : BufTy).Contents (Elt F) → (⟨S526336, .i32⟩ : BufTy).Contents (Elt F)),
    StableHlo.binary main_v168 main_v207 main_v208 (addi : (⟨S526336, .i32⟩ : BufTy).Contents (Elt F) → (⟨S526336, .i32⟩ : BufTy).Contents (Elt F) → (⟨S526336, .i32⟩ : BufTy).Contents (Elt F)),
    StableHlo.ternary main_v206 main_v208 main_v168 main_v209 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v209 main_v210 (broadcastInDim S526336x1 ![0] bcast_S526336_S526336x1_0 : (⟨S526336, .i32⟩ : BufTy).Contents (Elt F) → (⟨S526336x1, .i32⟩ : BufTy).Contents (Elt F)),
    StableHlo.binary main_v203 main_v210 main_v211 ((fun x i => Host.gather gather_S2048x128_S526336x1_S526336x128_1_0_n_n_0_1_1128 x i) : (⟨S2048x128, .f32⟩ : BufTy).Contents (Elt F) → (⟨S526336x1, .i32⟩ : BufTy).Contents (Elt F) → (⟨S526336x128, .f32⟩ : BufTy).Contents (Elt F)),
    StableHlo.unary main_v201 main_v212 (broadcastInDim S526336x1 ![0] bcast_S526336_S526336x1_0 : (⟨S526336, .f32⟩ : BufTy).Contents (Elt F) → (⟨S526336x1, .f32⟩ : BufTy).Contents (Elt F)),
    StableHlo.unary main_v212 main_v213 (broadcastInDim S526336x128 ![0, 1] bcast_S526336x1_S526336x128_0_1 : (⟨S526336x1, .f32⟩ : BufTy).Contents (Elt F) → (⟨S526336x128, .f32⟩ : BufTy).Contents (Elt F)),
    StableHlo.binary main_v211 main_v213 main_v214 (mulf : (⟨S526336x128, .f32⟩ : BufTy).Contents (Elt F) → (⟨S526336x128, .f32⟩ : BufTy).Contents (Elt F) → (⟨S526336x128, .f32⟩ : BufTy).Contents (Elt F)),
    StableHlo.nullary main_c_62 (constantI S_ 32 0#32),
    StableHlo.unary main_c_62 main_v215 (broadcastInDim S526336 ![] bcast_S_S526336 : (⟨S_, .i32⟩ : BufTy).Contents (Elt F) → (⟨S526336, .i32⟩ : BufTy).Contents (Elt F)),
    StableHlo.binary main_v169 main_v215 main_v216 (cmpi .slt : (⟨S526336, .i32⟩ : BufTy).Contents (Elt F) → (⟨S526336, .i32⟩ : BufTy).Contents (Elt F) → (⟨S526336, .i1⟩ : BufTy).Contents (Elt F)),
    StableHlo.nullary main_c_63 (constantI S_ 32 2048#32),
    StableHlo.unary main_c_63 main_v217 (broadcastInDim S526336 ![] bcast_S_S526336 : (⟨S_, .i32⟩ : BufTy).Contents (Elt F) → (⟨S526336, .i32⟩ : BufTy).Contents (Elt F)),
    StableHlo.binary main_v169 main_v217 main_v218 (addi : (⟨S526336, .i32⟩ : BufTy).Contents (Elt F) → (⟨S526336, .i32⟩ : BufTy).Contents (Elt F) → (⟨S526336, .i32⟩ : BufTy).Contents (Elt F)),
    StableHlo.ternary main_v216 main_v218 main_v169 main_v219 (select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)),
    StableHlo.unary main_v219 main_v220 (broadcastInDim S526336x1 ![0] bcast_S526336_S526336x1_0 : (⟨S526336, .i32⟩ : BufTy).Contents (Elt F) → (⟨S526336x1, .i32⟩ : BufTy).Contents (Elt F)),
    StableHlo.ternary main_v204 main_v220 main_v214 main_v221 ((fun x i u => Host.scatterAdd scatter_S2048x128_S526336x1_S526336x128_1_0_0_1 x i u) : (⟨S2048x128, .f32⟩ : BufTy).Contents (Elt F) → (⟨S526336x1, .i32⟩ : BufTy).Contents (Elt F) → (⟨S526336x128, .f32⟩ : BufTy).Contents (Elt F) → (⟨S2048x128, .f32⟩ : BufTy).Contents (Elt F)),
    StableHlo.unary main_arg9 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S2048x128 ![0, 1] bcast_S1x128_S2048x128_0_1 : (⟨S1x128, .f32⟩ : BufTy).Contents (Elt F) → (⟨S2048x128, .f32⟩ : BufTy).Contents (Elt F)),
    StableHlo.binary main_v221 main_v223 main_v224 (addf : (⟨S2048x128, .f32⟩ : BufTy).Contents (Elt F) → (⟨S2048x128, .f32⟩ : BufTy).Contents (Elt F) → (⟨S2048x128, .f32⟩ : BufTy).Contents (Elt F)) ]

/-- The buffers the stage writes. -/
abbrev w13 : List (Ref sig .tc) :=
  [ main_v202, main_v203, main_cst_59, main_v204, main_c_60, main_v205, main_v206, main_c_61,
    main_v207, main_v208, main_v209, main_v210, main_v211, main_v212, main_v213, main_v214,
    main_c_62, main_v215, main_v216, main_c_63, main_v217, main_v218, main_v219, main_v220,
    main_v221, main_v222, main_v223, main_v224 ]

theorem s13_writes : (s13 : List (HloOp τ sig (Elt F))).Forall fun op =>
    op.writes ⊆ (w13.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide)⟩

/-- A buffer the stage does not write keeps its contents through it. -/
theorem s13_keep (W : Valuation τ sig (Elt F)) {r : Ref sig .tc} (hr : r ∉ w13) :
    after s13 W (Proc.devRef .tc r) = W (Proc.devRef .tc r) :=
  after_of_writes_sub s13 W s13_writes hr

/-- The stage's value at `main_v224`, as one function of the inputs it reads. -/
def f13_v224 (x_arg8 : (Proc.devRef (τ := τ) .tc main_arg8 : DevRef τ sig).ty.Contents (Elt F)) (x_v166 : (Proc.devRef (τ := τ) .tc main_v166 : DevRef τ sig).ty.Contents (Elt F)) (x_v168 : (Proc.devRef (τ := τ) .tc main_v168 : DevRef τ sig).ty.Contents (Elt F)) (x_v201 : (Proc.devRef (τ := τ) .tc main_v201 : DevRef τ sig).ty.Contents (Elt F)) (x_v169 : (Proc.devRef (τ := τ) .tc main_v169 : DevRef τ sig).ty.Contents (Elt F)) (x_arg9 : (Proc.devRef (τ := τ) .tc main_arg9 : DevRef τ sig).ty.Contents (Elt F)) : (Proc.devRef (τ := τ) .tc main_v224 : DevRef τ sig).ty.Contents (Elt F) :=
  ((addf : (⟨S2048x128, .f32⟩ : BufTy).Contents (Elt F) → (⟨S2048x128, .f32⟩ : BufTy).Contents (Elt F) → (⟨S2048x128, .f32⟩ : BufTy).Contents (Elt F)) (((fun x i u => Host.scatterAdd scatter_S2048x128_S526336x1_S526336x128_1_0_0_1 x i u) : (⟨S2048x128, .f32⟩ : BufTy).Contents (Elt F) → (⟨S526336x1, .i32⟩ : BufTy).Contents (Elt F) → (⟨S526336x128, .f32⟩ : BufTy).Contents (Elt F) → (⟨S2048x128, .f32⟩ : BufTy).Contents (Elt F)) ((broadcastInDim S2048x128 ![] bcast_S_S2048x128 : (⟨S_, .f32⟩ : BufTy).Contents (Elt F) → (⟨S2048x128, .f32⟩ : BufTy).Contents (Elt F)) ((constant S_ .f32 0x00000000#32))) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v169 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v169 ((broadcastInDim S526336 ![] bcast_S_S526336 : (⟨S_, .i32⟩ : BufTy).Contents (Elt F) → (⟨S526336, .i32⟩ : BufTy).Contents (Elt F)) ((constantI S_ 32 2048#32)))) x_v169)) ((mulf : (⟨S526336x128, .f32⟩ : BufTy).Contents (Elt F) → (⟨S526336x128, .f32⟩ : BufTy).Contents (Elt F) → (⟨S526336x128, .f32⟩ : BufTy).Contents (Elt F)) (((fun x i => Host.gather gather_S2048x128_S526336x1_S526336x128_1_0_n_n_0_1_1128 x i) : (⟨S2048x128, .f32⟩ : BufTy).Contents (Elt F) → (⟨S526336x1, .i32⟩ : BufTy).Contents (Elt F) → (⟨S526336x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v166 (((transpose S128x128 [1, 0] · transposes_S128x128_S128x128_1_0) : (⟨S128x128, .f32⟩ : BufTy).Contents (Elt F) → (⟨S128x128, .f32⟩ : BufTy).Contents (Elt F)) x_arg8)) ((broadcastInDim S526336x1 ![0] bcast_S526336_S526336x1_0 : (⟨S526336, .i32⟩ : BufTy).Contents (Elt F) → (⟨S526336x1, .i32⟩ : BufTy).Contents (Elt F)) ((select : (⟨S526336, .i1⟩ : BufTy).Contents (Elt F) → (⟨S526336, .i32⟩ : BufTy).Contents (Elt F) → (⟨S526336, .i32⟩ : BufTy).Contents (Elt F) → (⟨S526336, .i32⟩ : BufTy).Contents (Elt F)) ((cmpi .slt : (⟨S526336, .i32⟩ : BufTy).Contents (Elt F) → (⟨S526336, .i32⟩ : BufTy).Contents (Elt F) → (⟨S526336, .i1⟩ : BufTy).Contents (Elt F)) x_v168 ((broadcastInDim S526336 ![] bcast_S_S526336 : (⟨S_, .i32⟩ : BufTy).Contents (Elt F) → (⟨S526336, .i32⟩ : BufTy).Contents (Elt F)) ((constantI S_ 32 0#32)))) ((addi : (⟨S526336, .i32⟩ : BufTy).Contents (Elt F) → (⟨S526336, .i32⟩ : BufTy).Contents (Elt F) → (⟨S526336, .i32⟩ : BufTy).Contents (Elt F)) x_v168 ((broadcastInDim S526336 ![] bcast_S_S526336 : (⟨S_, .i32⟩ : BufTy).Contents (Elt F) → (⟨S526336, .i32⟩ : BufTy).Contents (Elt F)) ((constantI S_ 32 2048#32)))) x_v168))) ((broadcastInDim S526336x128 ![0, 1] bcast_S526336x1_S526336x128_0_1 : (⟨S526336x1, .f32⟩ : BufTy).Contents (Elt F) → (⟨S526336x128, .f32⟩ : BufTy).Contents (Elt F)) ((broadcastInDim S526336x1 ![0] bcast_S526336_S526336x1_0 : (⟨S526336, .f32⟩ : BufTy).Contents (Elt F) → (⟨S526336x1, .f32⟩ : BufTy).Contents (Elt F)) x_v201)))) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg9)))

set_option maxHeartbeats 1000000 in
/-- The fold over the stage's operations computes it. -/
theorem s13_v224 (W : Valuation τ sig (Elt F)) :
    after s13 W (Proc.devRef .tc main_v224) = f13_v224 (W (Proc.devRef .tc main_arg8)) (W (Proc.devRef .tc main_v166)) (W (Proc.devRef .tc main_v168)) (W (Proc.devRef .tc main_v201)) (W (Proc.devRef .tc main_v169)) (W (Proc.devRef .tc main_arg9)) := by
  after_results_simp
  try rfl

end Cert.ReferenceIdeal.Stages

end
-- ==== Proof.RefStage14.lean ====
/-
  Stage 14 of the reference's host program (operations 369 … 405 of its straight line): the second layer's dense map, layer normalisation and rectifier.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s14 : List (HloOp τ sig (Elt F)) :=
  [ StableHlo.unary main_arg10 main_v225 ((transpose S128x128 [1, 0] · transposes_S128x128_S128x128_1_0) : (⟨S128x128, .f32⟩ : BufTy).Contents (Elt F) → (⟨S128x128, .f32⟩ : BufTy).Contents (Elt F)),
    StableHlo.binary main_v224 main_v225 main_v226 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg11 main_v227 (broadcastInDim S1x128 ![1] bcast_S128_S1x128_1 : (⟨S128, .f32⟩ : BufTy).Contents (Elt F) → (⟨S1x128, .f32⟩ : BufTy).Contents (Elt F)),
    StableHlo.unary main_v227 main_v228 (broadcastInDim S2048x128 ![0, 1] bcast_S1x128_S2048x128_0_1 : (⟨S1x128, .f32⟩ : BufTy).Contents (Elt F) → (⟨S2048x128, .f32⟩ : BufTy).Contents (Elt F)),
    StableHlo.binary main_v226 main_v228 main_v229 (addf : (⟨S2048x128, .f32⟩ : BufTy).Contents (Elt F) → (⟨S2048x128, .f32⟩ : BufTy).Contents (Elt F) → (⟨S2048x128, .f32⟩ : BufTy).Contents (Elt F)),
    StableHlo.nullary main_cst_64 (constant S_ .f32 0x00000000#32),
    StableHlo.binary main_v229 main_cst_64 main_v230 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v230 main_v231 (broadcastInDim S2048x1 ![0] bcast_S2048_S2048x1_0 : (⟨S2048, .f32⟩ : BufTy).Contents (Elt F) → (⟨S2048x1, .f32⟩ : BufTy).Contents (Elt F)),
    StableHlo.nullary main_cst_65 (constant S_ .f32 0x43000000#32),
    StableHlo.unary main_cst_65 main_v232 (broadcastInDim S2048x1 ![] bcast_S_S2048x1 : (⟨S_, .f32⟩ : BufTy).Contents (Elt F) → (⟨S2048x1, .f32⟩ : BufTy).Contents (Elt F)),
    StableHlo.binary main_v231 main_v232 main_v233 (Host.divf : (⟨S2048x1, .f32⟩ : BufTy).Contents (Elt F) → (⟨S2048x1, .f32⟩ : BufTy).Contents (Elt F) → (⟨S2048x1, .f32⟩ : BufTy).Contents (Elt F)),
    StableHlo.unary main_v233 main_v234 (broadcastInDim S2048x128 ![0, 1] bcast_S2048x1_S2048x128_0_1 : (⟨S2048x1, .f32⟩ : BufTy).Contents (Elt F) → (⟨S2048x128, .f32⟩ : BufTy).Contents (Elt F)),
    StableHlo.binary main_v229 main_v234 main_v235 (subf : (⟨S2048x128, .f32⟩ : BufTy).Contents (Elt F) → (⟨S2048x128, .f32⟩ : BufTy).Contents (Elt F) → (⟨S2048x128, .f32⟩ : BufTy).Contents (Elt F)),
    StableHlo.binary main_v235 main_v235 main_v236 (mulf : (⟨S2048x128, .f32⟩ : BufTy).Contents (Elt F) → (⟨S2048x128, .f32⟩ : BufTy).Contents (Elt F) → (⟨S2048x128, .f32⟩ : BufTy).Contents (Elt F)),
    StableHlo.nullary main_cst_66 (constant S_ .f32 0x00000000#32),
    StableHlo.binary main_v236 main_cst_66 main_v237 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v237 main_v238 (broadcastInDim S2048x1 ![0] bcast_S2048_S2048x1_0 : (⟨S2048, .f32⟩ : BufTy).Contents (Elt F) → (⟨S2048x1, .f32⟩ : BufTy).Contents (Elt F)),
    StableHlo.nullary main_cst_67 (constant S_ .f32 0x43000000#32),
    StableHlo.unary main_cst_67 main_v239 (broadcastInDim S2048x1 ![] bcast_S_S2048x1 : (⟨S_, .f32⟩ : BufTy).Contents (Elt F) → (⟨S2048x1, .f32⟩ : BufTy).Contents (Elt F)),
    StableHlo.binary main_v238 main_v239 main_v240 (Host.divf : (⟨S2048x1, .f32⟩ : BufTy).Contents (Elt F) → (⟨S2048x1, .f32⟩ : BufTy).Contents (Elt F) → (⟨S2048x1, .f32⟩ : BufTy).Contents (Elt F)),
    StableHlo.unary main_v233 main_v241 (broadcastInDim S2048x128 ![0, 1] bcast_S2048x1_S2048x128_0_1 : (⟨S2048x1, .f32⟩ : BufTy).Contents (Elt F) → (⟨S2048x128, .f32⟩ : BufTy).Contents (Elt F)),
    StableHlo.binary main_v229 main_v241 main_v242 (subf : (⟨S2048x128, .f32⟩ : BufTy).Contents (Elt F) → (⟨S2048x128, .f32⟩ : BufTy).Contents (Elt F) → (⟨S2048x128, .f32⟩ : BufTy).Contents (Elt F)),
    StableHlo.nullary main_cst_68 (constant S_ .f32 0x3727C5AC#32),
    StableHlo.unary main_cst_68 main_v243 (broadcastInDim S2048x1 ![] bcast_S_S2048x1 : (⟨S_, .f32⟩ : BufTy).Contents (Elt F) → (⟨S2048x1, .f32⟩ : BufTy).Contents (Elt F)),
    StableHlo.binary main_v240 main_v243 main_v244 (addf : (⟨S2048x1, .f32⟩ : BufTy).Contents (Elt F) → (⟨S2048x1, .f32⟩ : BufTy).Contents (Elt F) → (⟨S2048x1, .f32⟩ : BufTy).Contents (Elt F)),
    StableHlo.unary main_v244 main_v245 (Host.sqrt : (⟨S2048x1, .f32⟩ : BufTy).Contents (Elt F) → (⟨S2048x1, .f32⟩ : BufTy).Contents (Elt F)),
    StableHlo.unary main_v245 main_v246 (broadcastInDim S2048x128 ![0, 1] bcast_S2048x1_S2048x128_0_1 : (⟨S2048x1, .f32⟩ : BufTy).Contents (Elt F) → (⟨S2048x128, .f32⟩ : BufTy).Contents (Elt F)),
    StableHlo.binary main_v242 main_v246 main_v247 (Host.divf : (⟨S2048x128, .f32⟩ : BufTy).Contents (Elt F) → (⟨S2048x128, .f32⟩ : BufTy).Contents (Elt F) → (⟨S2048x128, .f32⟩ : BufTy).Contents (Elt F)),
    StableHlo.unary main_arg12 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S2048x128 ![0, 1] bcast_S1x128_S2048x128_0_1 : (⟨S1x128, .f32⟩ : BufTy).Contents (Elt F) → (⟨S2048x128, .f32⟩ : BufTy).Contents (Elt F)),
    StableHlo.binary main_v247 main_v249 main_v250 (mulf : (⟨S2048x128, .f32⟩ : BufTy).Contents (Elt F) → (⟨S2048x128, .f32⟩ : BufTy).Contents (Elt F) → (⟨S2048x128, .f32⟩ : BufTy).Contents (Elt F)),
    StableHlo.unary main_arg13 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S2048x128 ![0, 1] bcast_S1x128_S2048x128_0_1 : (⟨S1x128, .f32⟩ : BufTy).Contents (Elt F) → (⟨S2048x128, .f32⟩ : BufTy).Contents (Elt F)),
    StableHlo.binary main_v250 main_v252 main_v253 (addf : (⟨S2048x128, .f32⟩ : BufTy).Contents (Elt F) → (⟨S2048x128, .f32⟩ : BufTy).Contents (Elt F) → (⟨S2048x128, .f32⟩ : BufTy).Contents (Elt F)),
    StableHlo.TRef.nullary main_call8.cst (constant S_ .f32 0x00000000#32),
    StableHlo.TRef.unary main_call8.cst main_call8.v0 (broadcastInDim S2048x128 ![] bcast_S_S2048x128),
    StableHlo.TRef.binary (.of main_v253) main_call8.v0 main_call8.v1 maximumf ]

/-- The buffers the stage writes. -/
abbrev w14 : List (Ref sig .tc) :=
  [ main_v225, main_v226, main_v227, main_v228, main_v229, main_cst_64, main_v230, main_v231,
    main_cst_65, main_v232, main_v233, main_v234, main_v235, main_v236, main_cst_66, main_v237,
    main_v238, main_cst_67, main_v239, main_v240, main_v241, main_v242, main_cst_68, main_v243,
    main_v244, main_v245, main_v246, main_v247, main_v248, main_v249, main_v250, main_v251,
    main_v252, main_v253, (main_call8.cst).ref, (main_call8.v0).ref, (main_call8.v1).ref ]

theorem s14_writes : (s14 : List (HloOp τ sig (Elt F))).Forall fun op =>
    op.writes ⊆ (w14.map (Proc.devRef (τ := τ) .tc)).toFinset :=
  ⟨singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide), singleton_sub_written (by decide), singleton_sub_written (by decide), singleton_sub_written (by decide),
    singleton_sub_written (by decide)⟩

/-- A buffer the stage does not write keeps its contents through it. -/
theorem s14_keep (W : Valuation τ sig (Elt F)) {r : Ref sig .tc} (hr : r ∉ w14) :
    after s14 W (Proc.devRef .tc r) = W (Proc.devRef .tc r) :=
  after_of_writes_sub s14 W s14_writes hr

/-- The stage's value at `main_v254`, as one function of the inputs it reads. -/
def f14_v254 (x_arg10 : (Proc.devRef (τ := τ) .tc main_arg10 : DevRef τ sig).ty.Contents (Elt F)) (x_v224 : (Proc.devRef (τ := τ) .tc main_v224 : DevRef τ sig).ty.Contents (Elt F)) (x_arg11 : (Proc.devRef (τ := τ) .tc main_arg11 : DevRef τ sig).ty.Contents (Elt F)) (x_arg12 : (Proc.devRef (τ := τ) .tc main_arg12 : DevRef τ sig).ty.Contents (Elt F)) (x_arg13 : (Proc.devRef (τ := τ) .tc main_arg13 : DevRef τ sig).ty.Contents (Elt F)) : (Proc.devRef (τ := τ) .tc main_v254 : DevRef τ sig).ty.Contents (Elt F) :=
  (maximumf ((addf : (⟨S2048x128, .f32⟩ : BufTy).Contents (Elt F) → (⟨S2048x128, .f32⟩ : BufTy).Contents (Elt F) → (⟨S2048x128, .f32⟩ : BufTy).Contents (Elt F)) ((mulf : (⟨S2048x128, .f32⟩ : BufTy).Contents (Elt F) → (⟨S2048x128, .f32⟩ : BufTy).Contents (Elt F) → (⟨S2048x128, .f32⟩ : BufTy).Contents (Elt F)) ((Host.divf : (⟨S2048x128, .f32⟩ : BufTy).Contents (Elt F) → (⟨S2048x128, .f32⟩ : BufTy).Contents (Elt F) → (⟨S2048x128, .f32⟩ : BufTy).Contents (Elt F)) ((subf : (⟨S2048x128, .f32⟩ : BufTy).Contents (Elt F) → (⟨S2048x128, .f32⟩ : BufTy).Contents (Elt F) → (⟨S2048x128, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v224 (((transpose S128x128 [1, 0] · transposes_S128x128_S128x128_1_0) : (⟨S128x128, .f32⟩ : BufTy).Contents (Elt F) → (⟨S128x128, .f32⟩ : BufTy).Contents (Elt F)) x_arg10)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg11))) ((broadcastInDim S2048x128 ![0, 1] bcast_S2048x1_S2048x128_0_1 : (⟨S2048x1, .f32⟩ : BufTy).Contents (Elt F) → (⟨S2048x128, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v224 (((transpose S128x128 [1, 0] · transposes_S128x128_S128x128_1_0) : (⟨S128x128, .f32⟩ : BufTy).Contents (Elt F) → (⟨S128x128, .f32⟩ : BufTy).Contents (Elt F)) x_arg10)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg11))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32)))))) ((broadcastInDim S2048x128 ![0, 1] bcast_S2048x1_S2048x128_0_1 : (⟨S2048x1, .f32⟩ : BufTy).Contents (Elt F) → (⟨S2048x128, .f32⟩ : BufTy).Contents (Elt F)) ((Host.sqrt : (⟨S2048x1, .f32⟩ : BufTy).Contents (Elt F) → (⟨S2048x1, .f32⟩ : BufTy).Contents (Elt F)) ((addf : (⟨S2048x1, .f32⟩ : BufTy).Contents (Elt F) → (⟨S2048x1, .f32⟩ : BufTy).Contents (Elt F) → (⟨S2048x1, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((mulf : (⟨S2048x128, .f32⟩ : BufTy).Contents (Elt F) → (⟨S2048x128, .f32⟩ : BufTy).Contents (Elt F) → (⟨S2048x128, .f32⟩ : BufTy).Contents (Elt F)) ((subf : (⟨S2048x128, .f32⟩ : BufTy).Contents (Elt F) → (⟨S2048x128, .f32⟩ : BufTy).Contents (Elt F) → (⟨S2048x128, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v224 (((transpose S128x128 [1, 0] · transposes_S128x128_S128x128_1_0) : (⟨S128x128, .f32⟩ : BufTy).Contents (Elt F) → (⟨S128x128, .f32⟩ : BufTy).Contents (Elt F)) x_arg10)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg11))) ((broadcastInDim S2048x128 ![0, 1] bcast_S2048x1_S2048x128_0_1 : (⟨S2048x1, .f32⟩ : BufTy).Contents (Elt F) → (⟨S2048x128, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v224 (((transpose S128x128 [1, 0] · transposes_S128x128_S128x128_1_0) : (⟨S128x128, .f32⟩ : BufTy).Contents (Elt F) → (⟨S128x128, .f32⟩ : BufTy).Contents (Elt F)) x_arg10)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg11))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32)))))) ((subf : (⟨S2048x128, .f32⟩ : BufTy).Contents (Elt F) → (⟨S2048x128, .f32⟩ : BufTy).Contents (Elt F) → (⟨S2048x128, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v224 (((transpose S128x128 [1, 0] · transposes_S128x128_S128x128_1_0) : (⟨S128x128, .f32⟩ : BufTy).Contents (Elt F) → (⟨S128x128, .f32⟩ : BufTy).Contents (Elt F)) x_arg10)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg11))) ((broadcastInDim S2048x128 ![0, 1] bcast_S2048x1_S2048x128_0_1 : (⟨S2048x1, .f32⟩ : BufTy).Contents (Elt F) → (⟨S2048x128, .f32⟩ : BufTy).Contents (Elt F)) ((Host.divf : (⟨S2048x1, .f32⟩ : BufTy).Contents (Elt F) → (⟨S2048x1, .f32⟩ : BufTy).Contents (Elt F) → (⟨S2048x1, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)) ((addf : (⟨S2048x128, .f32⟩ : BufTy).Contents (Elt F) → (⟨S2048x128, .f32⟩ : BufTy).Contents (Elt F) → (⟨S2048x128, .f32⟩ : BufTy).Contents (Elt F)) (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) x_v224 (((transpose S128x128 [1, 0] · transposes_S128x128_S128x128_1_0) : (⟨S128x128, .f32⟩ : BufTy).Contents (Elt F) → (⟨S128x128, .f32⟩ : BufTy).Contents (Elt F)) x_arg10)) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg11))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32))))))) ((constant S_ .f32 0x00000000#32)))) ((broadcastInDim S2048x1 ![] bcast_S_S2048x1 : (⟨S_, .f32⟩ : BufTy).Contents (Elt F) → (⟨S2048x1, .f32⟩ : BufTy).Contents (Elt F)) ((constant S_ .f32 0x43000000#32)))) ((broadcastInDim S2048x1 ![] bcast_S_S2048x1 : (⟨S_, .f32⟩ : BufTy).Contents (Elt F) → (⟨S2048x1, .f32⟩ : BufTy).Contents (Elt F)) ((constant S_ .f32 0x3727C5AC#32))))))) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg12))) ((broadcastInDim S2048x128 ![0, 1] bcast_S1x128_S2048x128_0_1 : (⟨S1x128, .f32⟩ : BufTy).Contents (Elt F) → (⟨S2048x128, .f32⟩ : BufTy).Contents (Elt F)) ((broadcastInDim S1x128 ![1] bcast_S128_S1x128_1 : (⟨S128, .f32⟩ : BufTy).Contents (Elt F) → (⟨S1x128, .f32⟩ : BufTy).Contents (Elt F)) x_arg13))) ((broadcastInDim S2048x128 ![] bcast_S_S2048x128) ((constant S_ .f32 0x00000000#32))))

set_option maxHeartbeats 1000000 in
/-- The fold over the stage's operations computes it. -/
theorem s14_v254 (W : Valuation τ sig (Elt F)) :
    after s14 W (Proc.devRef .tc main_v254) = f14_v254 (W (Proc.devRef .tc main_arg10)) (W (Proc.devRef .tc main_v224)) (W (Proc.devRef .tc main_arg11)) (W (Proc.devRef .tc main_arg12)) (W (Proc.devRef .tc main_arg13)) := by
  after_results_simp
  try rfl

end Cert.ReferenceIdeal.Stages

end
-- ==== Proof.RefStage15.lean ====
/-
  Stage 15 of the reference's host program (operations 406 … 411 of its straight line): the output projection, reshaped to 8×256×64.
-/
import proofs.«151161_g38689065402409_fold_wed_m_144_3_alg».proof.Proof.Gen.ReferenceIdeal
import Idealize.ShloMosaic.Lib.StableHlo.Run
import proofs.«151161_g38689065402409_fold_wed_m_144_3_alg».proof.Proof.LibHostLine

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The stage's operations, in program order. -/
abbrev s15 : List (HloOp τ sig (Elt F)) :=
  [ StableHlo.unary main_arg14 main_v255 ((transpose S128x64 [1, 0] · transposes_S64x128_S128x64_1_0) : (⟨S64x128, .f32⟩ : BufTy).Contents (Elt F) → (⟨S128x64, .f32⟩ : BufTy).Contents (Elt F)),
    StableHlo.binary main_v254 main_v255 main_v256 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg15 main_v257 (broadcastInDim S1x64 ![1] bcast_S64_S1x64_1 : (⟨S64, .f32⟩ : BufTy).Contents (Elt F) → (⟨S1x64, .f32⟩ : BufTy).Contents (Elt F)),
    StableHlo.unary main_v257 main_v258 (broadcastInDim S2048x64 ![0, 1] bcast_S1x64_S2048x64_0_1 : (⟨S1x64, .f32⟩ : BufTy).Contents (Elt F) → (⟨S2048x64, .f32⟩ : BufTy).Contents (Elt F)),
    StableHlo.binary main_v256 main_v258 main_v259 (addf : (⟨S2048x64, .f32⟩ : BufTy).Contents (Elt F) → (⟨S2048x64, .f32⟩ : BufTy).Contents (Elt F) → (⟨S2048x64, .f32⟩ : BufTy).Contents (Elt F)),
    StableHlo.reshape main_v259 main_v260 rfl shapeCasts_S2048x64_S8x256x64 ]

/-- The buffers the stage writes. -/
abbrev w15 : List (Ref sig .tc) :=
  [ main_v255, main_v256, main_v257, main_v258, main_v259, main_v260 ]

theorem s15_writes : (s15 : List (HloOp τ sig (Elt F))).Forall fun op =>
    op.writes ⊆ (w15.map (Proc.devRef (τ := τ) .tc)).toFinset :=
  ⟨singleton_sub_written (by decide), singleton_sub_written (by decide), singleton_sub_written (by decide), singleton_sub_written (by decide),
    singleton_sub_written (by decide), singleton_sub_written (by decide)⟩

/-- A buffer the stage does not write keeps its contents through it. -/
theorem s15_keep (W : Valuation τ sig (Elt F)) {r : Ref sig .tc} (hr : r ∉ w15) :
    after s15 W (Proc.devRef .tc r) = W (Proc.devRef .tc r) :=
  after_of_writes_sub s15 W s15_writes hr

/-- The stage's value at `main_v260`, as one function of the inputs it reads. -/
def f15_v260 (x_arg14 : (Proc.devRef (τ := τ) .tc main_arg14 : DevRef τ sig).ty.Contents (Elt F)) (x_v254 : (Proc.devRef (τ := τ) .tc main_v254 : DevRef τ sig).ty.Contents (Elt F)) (x_arg15 : (Proc.devRef (τ := τ) .tc main_arg15 : DevRef τ sig).ty.Contents (Elt F)) : (Proc.devRef (τ := τ) .tc main_v260 : DevRef τ sig).ty.Contents (Elt F) :=
  (shapeCast S8x256x64 ((addf : (⟨S2048x64, .f32⟩ : BufTy).Contents (Elt F) → (⟨S2048x64, .f32⟩ : BufTy).Contents (Elt F) → (⟨S2048x64, .f32⟩ : BufTy).Contents (Elt F)) (((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)) x_v254 (((transpose S128x64 [1, 0] · transposes_S64x128_S128x64_1_0) : (⟨S64x128, .f32⟩ : BufTy).Contents (Elt F) → (⟨S128x64, .f32⟩ : BufTy).Contents (Elt F)) x_arg14)) ((broadcastInDim S2048x64 ![0, 1] bcast_S1x64_S2048x64_0_1 : (⟨S1x64, .f32⟩ : BufTy).Contents (Elt F) → (⟨S2048x64, .f32⟩ : BufTy).Contents (Elt F)) ((broadcastInDim S1x64 ![1] bcast_S64_S1x64_1 : (⟨S64, .f32⟩ : BufTy).Contents (Elt F) → (⟨S1x64, .f32⟩ : BufTy).Contents (Elt F)) x_arg15))) shapeCasts_S2048x64_S8x256x64)

set_option maxHeartbeats 1000000 in
/-- The fold over the stage's operations computes it. -/
theorem s15_v260 (W : Valuation τ sig (Elt F)) :
    after s15 W (Proc.devRef .tc main_v260) = f15_v260 (W (Proc.devRef .tc main_arg14)) (W (Proc.devRef .tc main_v254)) (W (Proc.devRef .tc main_arg15)) := by
  after_results_simp
  try rfl

end Cert.ReferenceIdeal.Stages

end
-- ==== Proof.RefChain.lean ====
/-
  The reference's result as one function of its sixteen arguments: the fifteen stages composed. Each named
  intermediate array of the program is the stage function that produces it, applied to the intermediate arrays
  and arguments that stage reads; a buffer a stage does not write passes through it unchanged.
-/
import proofs.«151161_g38689065402409_fold_wed_m_144_3_alg».proof.Proof.RefStage1
import proofs.«151161_g38689065402409_fold_wed_m_144_3_alg».proof.Proof.RefStage2
import proofs.«151161_g38689065402409_fold_wed_m_144_3_alg».proof.Proof.RefStage3
import proofs.«151161_g38689065402409_fold_wed_m_144_3_alg».proof.Proof.RefStage4
import proofs.«151161_g38689065402409_fold_wed_m_144_3_alg».proof.Proof.RefStage5
import proofs.«151161_g38689065402409_fold_wed_m_144_3_alg».proof.Proof.RefStage6
import proofs.«151161_g38689065402409_fold_wed_m_144_3_alg».proof.Proof.RefStage7
import proofs.«151161_g38689065402409_fold_wed_m_144_3_alg».proof.Proof.RefStage8
import proofs.«151161_g38689065402409_fold_wed_m_144_3_alg».proof.Proof.RefStage9
import proofs.«151161_g38689065402409_fold_wed_m_144_3_alg».proof.Proof.RefStage10
import proofs.«151161_g38689065402409_fold_wed_m_144_3_alg».proof.Proof.RefStage11
import proofs.«151161_g38689065402409_fold_wed_m_144_3_alg».proof.Proof.RefStage12
import proofs.«151161_g38689065402409_fold_wed_m_144_3_alg».proof.Proof.RefStage13
import proofs.«151161_g38689065402409_fold_wed_m_144_3_alg».proof.Proof.RefStage14
import proofs.«151161_g38689065402409_fold_wed_m_144_3_alg».proof.Proof.RefStage15
import proofs.«151161_g38689065402409_fold_wed_m_144_3_alg».proof.Proof.HostRun
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The straight line is the fifteen stages, one after the other. -/
theorem ops_eq : (HostRun.ops : List (HloOp τ sig (Elt F)))
    = s1 ++ (s2 ++ (s3 ++ (s4 ++ (s5 ++ (s6 ++ (s7 ++ (s8 ++ (s9 ++ (s10 ++ (s11 ++ (s12 ++ (s13 ++ (s14 ++ (s15)))))))))))))) := rfl

/-! ## The program's named arrays as functions of the arguments -/

def r_v48 (a1 : (Proc.devRef (τ := τ) .tc main_arg1 : DevRef τ sig).ty.Contents (Elt F)) : (Proc.devRef (τ := τ) .tc main_v48 : DevRef τ sig).ty.Contents (Elt F) :=
  f1_v48 a1

def r_v49  : (Proc.devRef (τ := τ) .tc main_v49 : DevRef τ sig).ty.Contents (Elt F) :=
  f2_v49

def r_v50  : (Proc.devRef (τ := τ) .tc main_v50 : DevRef τ sig).ty.Contents (Elt F) :=
  f2_v50

def r_v51  : (Proc.devRef (τ := τ) .tc main_v51 : DevRef τ sig).ty.Contents (Elt F) :=
  f3_v51 r_v49

def r_v55  : (Proc.devRef (τ := τ) .tc main_v55 : DevRef τ sig).ty.Contents (Elt F) :=
  f4_v55 r_v50 r_v51

def r_v59  : (Proc.devRef (τ := τ) .tc main_v59 : DevRef τ sig).ty.Contents (Elt F) :=
  f5_v59 r_v50 r_v51

def r_v77 (a1 : (Proc.devRef (τ := τ) .tc main_arg1 : DevRef τ sig).ty.Contents (Elt F)) : (Proc.devRef (τ := τ) .tc main_v77 : DevRef τ sig).ty.Contents (Elt F) :=
  f6_v77 r_v55 r_v59 (r_v48 a1)

def r_v78 (a0 : (Proc.devRef (τ := τ) .tc main_arg0 : DevRef τ sig).ty.Contents (Elt F)) : (Proc.devRef (τ := τ) .tc main_v78 : DevRef τ sig).ty.Contents (Elt F) :=
  f7_v78 a0

def r_v80  : (Proc.devRef (τ := τ) .tc main_v80 : DevRef τ sig).ty.Contents (Elt F) :=
  f7_v80 r_v55

def r_v81  : (Proc.devRef (τ := τ) .tc main_v81 : DevRef τ sig).ty.Contents (Elt F) :=
  f7_v81 r_v59

def r_v83 (a1 : (Proc.devRef (τ := τ) .tc main_arg1 : DevRef τ sig).ty.Contents (Elt F)) : (Proc.devRef (τ := τ) .tc main_v83 : DevRef τ sig).ty.Contents (Elt F) :=
  f7_v83 (r_v77 a1)

def r_v113 (a1 : (Proc.devRef (τ := τ) .tc main_arg1 : DevRef τ sig).ty.Contents (Elt F)) : (Proc.devRef (τ := τ) .tc main_v113 : DevRef τ sig).ty.Contents (Elt F) :=
  f8_v113 r_v81 (r_v83 a1) r_v80

def r_v136 (a0 : (Proc.devRef (τ := τ) .tc main_arg0 : DevRef τ sig).ty.Contents (Elt F)) (a1 : (Proc.devRef (τ := τ) .tc main_arg1 : DevRef τ sig).ty.Contents (Elt F)) (a2 : (Proc.devRef (τ := τ) .tc main_arg2 : DevRef τ sig).ty.Contents (Elt F)) (a3 : (Proc.devRef (τ := τ) .tc main_arg3 : DevRef τ sig).ty.Contents (Elt F)) : (Proc.devRef (τ := τ) .tc main_v136 : DevRef τ sig).ty.Contents (Elt F) :=
  f9_v136 a2 (r_v78 a0) r_v80 (r_v113 a1) r_v81 a3

def r_v166 (a0 : (Proc.devRef (τ := τ) .tc main_arg0 : DevRef τ sig).ty.Contents (Elt F)) (a1 : (Proc.devRef (τ := τ) .tc main_arg1 : DevRef τ sig).ty.Contents (Elt F)) (a2 : (Proc.devRef (τ := τ) .tc main_arg2 : DevRef τ sig).ty.Contents (Elt F)) (a3 : (Proc.devRef (τ := τ) .tc main_arg3 : DevRef τ sig).ty.Contents (Elt F)) (a4 : (Proc.devRef (τ := τ) .tc main_arg4 : DevRef τ sig).ty.Contents (Elt F)) (a5 : (Proc.devRef (τ := τ) .tc main_arg5 : DevRef τ sig).ty.Contents (Elt F)) (a6 : (Proc.devRef (τ := τ) .tc main_arg6 : DevRef τ sig).ty.Contents (Elt F)) (a7 : (Proc.devRef (τ := τ) .tc main_arg7 : DevRef τ sig).ty.Contents (Elt F)) : (Proc.devRef (τ := τ) .tc main_v166 : DevRef τ sig).ty.Contents (Elt F) :=
  f10_v166 a4 (r_v136 a0 a1 a2 a3) a5 a6 a7

def r_v168  : (Proc.devRef (τ := τ) .tc main_v168 : DevRef τ sig).ty.Contents (Elt F) :=
  f11_v168 r_v55

def r_v169  : (Proc.devRef (τ := τ) .tc main_v169 : DevRef τ sig).ty.Contents (Elt F) :=
  f11_v169 r_v59

def r_v171 (a1 : (Proc.devRef (τ := τ) .tc main_arg1 : DevRef τ sig).ty.Contents (Elt F)) : (Proc.devRef (τ := τ) .tc main_v171 : DevRef τ sig).ty.Contents (Elt F) :=
  f11_v171 (r_v77 a1)

def r_v201 (a1 : (Proc.devRef (τ := τ) .tc main_arg1 : DevRef τ sig).ty.Contents (Elt F)) : (Proc.devRef (τ := τ) .tc main_v201 : DevRef τ sig).ty.Contents (Elt F) :=
  f12_v201 r_v169 (r_v171 a1) r_v168

def r_v224 (a0 : (Proc.devRef (τ := τ) .tc main_arg0 : DevRef τ sig).ty.Contents (Elt F)) (a1 : (Proc.devRef (τ := τ) .tc main_arg1 : DevRef τ sig).ty.Contents (Elt F)) (a2 : (Proc.devRef (τ := τ) .tc main_arg2 : DevRef τ sig).ty.Contents (Elt F)) (a3 : (Proc.devRef (τ := τ) .tc main_arg3 : DevRef τ sig).ty.Contents (Elt F)) (a4 : (Proc.devRef (τ := τ) .tc main_arg4 : DevRef τ sig).ty.Contents (Elt F)) (a5 : (Proc.devRef (τ := τ) .tc main_arg5 : DevRef τ sig).ty.Contents (Elt F)) (a6 : (Proc.devRef (τ := τ) .tc main_arg6 : DevRef τ sig).ty.Contents (Elt F)) (a7 : (Proc.devRef (τ := τ) .tc main_arg7 : DevRef τ sig).ty.Contents (Elt F)) (a8 : (Proc.devRef (τ := τ) .tc main_arg8 : DevRef τ sig).ty.Contents (Elt F)) (a9 : (Proc.devRef (τ := τ) .tc main_arg9 : DevRef τ sig).ty.Contents (Elt F)) : (Proc.devRef (τ := τ) .tc main_v224 : DevRef τ sig).ty.Contents (Elt F) :=
  f13_v224 a8 (r_v166 a0 a1 a2 a3 a4 a5 a6 a7) r_v168 (r_v201 a1) r_v169 a9

def r_v254 (a0 : (Proc.devRef (τ := τ) .tc main_arg0 : DevRef τ sig).ty.Contents (Elt F)) (a1 : (Proc.devRef (τ := τ) .tc main_arg1 : DevRef τ sig).ty.Contents (Elt F)) (a2 : (Proc.devRef (τ := τ) .tc main_arg2 : DevRef τ sig).ty.Contents (Elt F)) (a3 : (Proc.devRef (τ := τ) .tc main_arg3 : DevRef τ sig).ty.Contents (Elt F)) (a4 : (Proc.devRef (τ := τ) .tc main_arg4 : DevRef τ sig).ty.Contents (Elt F)) (a5 : (Proc.devRef (τ := τ) .tc main_arg5 : DevRef τ sig).ty.Contents (Elt F)) (a6 : (Proc.devRef (τ := τ) .tc main_arg6 : DevRef τ sig).ty.Contents (Elt F)) (a7 : (Proc.devRef (τ := τ) .tc main_arg7 : DevRef τ sig).ty.Contents (Elt F)) (a8 : (Proc.devRef (τ := τ) .tc main_arg8 : DevRef τ sig).ty.Contents (Elt F)) (a9 : (Proc.devRef (τ := τ) .tc main_arg9 : DevRef τ sig).ty.Contents (Elt F)) (a10 : (Proc.devRef (τ := τ) .tc main_arg10 : DevRef τ sig).ty.Contents (Elt F)) (a11 : (Proc.devRef (τ := τ) .tc main_arg11 : DevRef τ sig).ty.Contents (Elt F)) (a12 : (Proc.devRef (τ := τ) .tc main_arg12 : DevRef τ sig).ty.Contents (Elt F)) (a13 : (Proc.devRef (τ := τ) .tc main_arg13 : DevRef τ sig).ty.Contents (Elt F)) : (Proc.devRef (τ := τ) .tc main_v254 : DevRef τ sig).ty.Contents (Elt F) :=
  f14_v254 a10 (r_v224 a0 a1 a2 a3 a4 a5 a6 a7 a8 a9) a11 a12 a13

def r_v260 (a0 : (Proc.devRef (τ := τ) .tc main_arg0 : DevRef τ sig).ty.Contents (Elt F)) (a1 : (Proc.devRef (τ := τ) .tc main_arg1 : DevRef τ sig).ty.Contents (Elt F)) (a2 : (Proc.devRef (τ := τ) .tc main_arg2 : DevRef τ sig).ty.Contents (Elt F)) (a3 : (Proc.devRef (τ := τ) .tc main_arg3 : DevRef τ sig).ty.Contents (Elt F)) (a4 : (Proc.devRef (τ := τ) .tc main_arg4 : DevRef τ sig).ty.Contents (Elt F)) (a5 : (Proc.devRef (τ := τ) .tc main_arg5 : DevRef τ sig).ty.Contents (Elt F)) (a6 : (Proc.devRef (τ := τ) .tc main_arg6 : DevRef τ sig).ty.Contents (Elt F)) (a7 : (Proc.devRef (τ := τ) .tc main_arg7 : DevRef τ sig).ty.Contents (Elt F)) (a8 : (Proc.devRef (τ := τ) .tc main_arg8 : DevRef τ sig).ty.Contents (Elt F)) (a9 : (Proc.devRef (τ := τ) .tc main_arg9 : DevRef τ sig).ty.Contents (Elt F)) (a10 : (Proc.devRef (τ := τ) .tc main_arg10 : DevRef τ sig).ty.Contents (Elt F)) (a11 : (Proc.devRef (τ := τ) .tc main_arg11 : DevRef τ sig).ty.Contents (Elt F)) (a12 : (Proc.devRef (τ := τ) .tc main_arg12 : DevRef τ sig).ty.Contents (Elt F)) (a13 : (Proc.devRef (τ := τ) .tc main_arg13 : DevRef τ sig).ty.Contents (Elt F)) (a14 : (Proc.devRef (τ := τ) .tc main_arg14 : DevRef τ sig).ty.Contents (Elt F)) (a15 : (Proc.devRef (τ := τ) .tc main_arg15 : DevRef τ sig).ty.Contents (Elt F)) : (Proc.devRef (τ := τ) .tc main_v260 : DevRef τ sig).ty.Contents (Elt F) :=
  f15_v260 a14 (r_v254 a0 a1 a2 a3 a4 a5 a6 a7 a8 a9 a10 a11 a12 a13) a15

/-- THE REFERENCE'S RESULT: after the whole line the result buffer holds the composed stage functions of the
    sixteen arguments as launched. -/
theorem chain (V : Valuation τ sig (Elt F)) :
    after HostRun.ops V (Proc.devRef .tc main_v260) = r_v260 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [ops_eq]
  simp only [after_append]
  rw [s15_v260]
  rw [s14_keep (r := main_arg14) _ (by decide), s14_v254, s14_keep (r := main_arg15) _ (by decide)]
  rw [s13_keep (r := main_arg14) _ (by decide), s13_keep (r := main_arg10) _ (by decide), s13_v224, s13_keep (r := main_arg11) _ (by decide), s13_keep (r := main_arg12) _ (by decide), s13_keep (r := main_arg13) _ (by decide), s13_keep (r := main_arg15) _ (by decide)]
  rw [s12_keep (r := main_arg14) _ (by decide), s12_keep (r := main_arg10) _ (by decide), s12_keep (r := main_arg8) _ (by decide), s12_keep (r := main_v166) _ (by decide), s12_keep (r := main_v168) _ (by decide), s12_v201, s12_keep (r := main_v169) _ (by decide), s12_keep (r := main_arg9) _ (by decide), s12_keep (r := main_arg11) _ (by decide), s12_keep (r := main_arg12) _ (by decide), s12_keep (r := main_arg13) _ (by decide), s12_keep (r := main_arg15) _ (by decide)]
  rw [s11_keep (r := main_arg14) _ (by decide), s11_keep (r := main_arg10) _ (by decide), s11_keep (r := main_arg8) _ (by decide), s11_keep (r := main_v166) _ (by decide), s11_v168, s11_v169, s11_v171, s11_keep (r := main_arg9) _ (by decide), s11_keep (r := main_arg11) _ (by decide), s11_keep (r := main_arg12) _ (by decide), s11_keep (r := main_arg13) _ (by decide), s11_keep (r := main_arg15) _ (by decide)]
  rw [s10_keep (r := main_arg14) _ (by decide), s10_keep (r := main_arg10) _ (by decide), s10_keep (r := main_arg8) _ (by decide), s10_v166, s10_keep (r := main_v55) _ (by decide), s10_keep (r := main_v59) _ (by decide), s10_keep (r := main_v77) _ (by decide), s10_keep (r := main_arg9) _ (by decide), s10_keep (r := main_arg11) _ (by decide), s10_keep (r := main_arg12) _ (by decide), s10_keep (r := main_arg13) _ (by decide), s10_keep (r := main_arg15) _ (by decide)]
  rw [s9_keep (r := main_arg14) _ (by decide), s9_keep (r := main_arg10) _ (by decide), s9_keep (r := main_arg8) _ (by decide), s9_keep (r := main_arg4) _ (by decide), s9_v136, s9_keep (r := main_arg5) _ (by decide), s9_keep (r := main_arg6) _ (by decide), s9_keep (r := main_arg7) _ (by decide), s9_keep (r := main_v55) _ (by decide), s9_keep (r := main_v59) _ (by decide), s9_keep (r := main_v77) _ (by decide), s9_keep (r := main_arg9) _ (by decide), s9_keep (r := main_arg11) _ (by decide), s9_keep (r := main_arg12) _ (by decide), s9_keep (r := main_arg13) _ (by decide), s9_keep (r := main_arg15) _ (by decide)]
  rw [s8_keep (r := main_arg14) _ (by decide), s8_keep (r := main_arg10) _ (by decide), s8_keep (r := main_arg8) _ (by decide), s8_keep (r := main_arg4) _ (by decide), s8_keep (r := main_arg2) _ (by decide), s8_keep (r := main_v78) _ (by decide), s8_keep (r := main_v80) _ (by decide), s8_v113, s8_keep (r := main_v81) _ (by decide), s8_keep (r := main_arg3) _ (by decide), s8_keep (r := main_arg5) _ (by decide), s8_keep (r := main_arg6) _ (by decide), s8_keep (r := main_arg7) _ (by decide), s8_keep (r := main_v55) _ (by decide), s8_keep (r := main_v59) _ (by decide), s8_keep (r := main_v77) _ (by decide), s8_keep (r := main_arg9) _ (by decide), s8_keep (r := main_arg11) _ (by decide), s8_keep (r := main_arg12) _ (by decide), s8_keep (r := main_arg13) _ (by decide), s8_keep (r := main_arg15) _ (by decide)]
  rw [s7_keep (r := main_arg14) _ (by decide), s7_keep (r := main_arg10) _ (by decide), s7_keep (r := main_arg8) _ (by decide), s7_keep (r := main_arg4) _ (by decide), s7_keep (r := main_arg2) _ (by decide), s7_v78, s7_v80, s7_v81, s7_v83, s7_keep (r := main_arg3) _ (by decide), s7_keep (r := main_arg5) _ (by decide), s7_keep (r := main_arg6) _ (by decide), s7_keep (r := main_arg7) _ (by decide), s7_keep (r := main_v55) _ (by decide), s7_keep (r := main_v59) _ (by decide), s7_keep (r := main_v77) _ (by decide), s7_keep (r := main_arg9) _ (by decide), s7_keep (r := main_arg11) _ (by decide), s7_keep (r := main_arg12) _ (by decide), s7_keep (r := main_arg13) _ (by decide), s7_keep (r := main_arg15) _ (by decide)]
  rw [s6_keep (r := main_arg14) _ (by decide), s6_keep (r := main_arg10) _ (by decide), s6_keep (r := main_arg8) _ (by decide), s6_keep (r := main_arg4) _ (by decide), s6_keep (r := main_arg2) _ (by decide), s6_keep (r := main_arg0) _ (by decide), s6_keep (r := main_v55) _ (by decide), s6_keep (r := main_v59) _ (by decide), s6_v77, s6_keep (r := main_arg3) _ (by decide), s6_keep (r := main_arg5) _ (by decide), s6_keep (r := main_arg6) _ (by decide), s6_keep (r := main_arg7) _ (by decide), s6_keep (r := main_arg9) _ (by decide), s6_keep (r := main_arg11) _ (by decide), s6_keep (r := main_arg12) _ (by decide), s6_keep (r := main_arg13) _ (by decide), s6_keep (r := main_arg15) _ (by decide)]
  rw [s5_keep (r := main_arg14) _ (by decide), s5_keep (r := main_arg10) _ (by decide), s5_keep (r := main_arg8) _ (by decide), s5_keep (r := main_arg4) _ (by decide), s5_keep (r := main_arg2) _ (by decide), s5_keep (r := main_arg0) _ (by decide), s5_keep (r := main_v55) _ (by decide), s5_v59, s5_keep (r := main_v48) _ (by decide), s5_keep (r := main_arg3) _ (by decide), s5_keep (r := main_arg5) _ (by decide), s5_keep (r := main_arg6) _ (by decide), s5_keep (r := main_arg7) _ (by decide), s5_keep (r := main_arg9) _ (by decide), s5_keep (r := main_arg11) _ (by decide), s5_keep (r := main_arg12) _ (by decide), s5_keep (r := main_arg13) _ (by decide), s5_keep (r := main_arg15) _ (by decide)]
  rw [s4_keep (r := main_arg14) _ (by decide), s4_keep (r := main_arg10) _ (by decide), s4_keep (r := main_arg8) _ (by decide), s4_keep (r := main_arg4) _ (by decide), s4_keep (r := main_arg2) _ (by decide), s4_keep (r := main_arg0) _ (by decide), s4_v55, s4_keep (r := main_v50) _ (by decide), s4_keep (r := main_v51) _ (by decide), s4_keep (r := main_v48) _ (by decide), s4_keep (r := main_arg3) _ (by decide), s4_keep (r := main_arg5) _ (by decide), s4_keep (r := main_arg6) _ (by decide), s4_keep (r := main_arg7) _ (by decide), s4_keep (r := main_arg9) _ (by decide), s4_keep (r := main_arg11) _ (by decide), s4_keep (r := main_arg12) _ (by decide), s4_keep (r := main_arg13) _ (by decide), s4_keep (r := main_arg15) _ (by decide)]
  rw [s3_keep (r := main_arg14) _ (by decide), s3_keep (r := main_arg10) _ (by decide), s3_keep (r := main_arg8) _ (by decide), s3_keep (r := main_arg4) _ (by decide), s3_keep (r := main_arg2) _ (by decide), s3_keep (r := main_arg0) _ (by decide), s3_keep (r := main_v50) _ (by decide), s3_v51, s3_keep (r := main_v48) _ (by decide), s3_keep (r := main_arg3) _ (by decide), s3_keep (r := main_arg5) _ (by decide), s3_keep (r := main_arg6) _ (by decide), s3_keep (r := main_arg7) _ (by decide), s3_keep (r := main_arg9) _ (by decide), s3_keep (r := main_arg11) _ (by decide), s3_keep (r := main_arg12) _ (by decide), s3_keep (r := main_arg13) _ (by decide), s3_keep (r := main_arg15) _ (by decide)]
  rw [s2_keep (r := main_arg14) _ (by decide), s2_keep (r := main_arg10) _ (by decide), s2_keep (r := main_arg8) _ (by decide), s2_keep (r := main_arg4) _ (by decide), s2_keep (r := main_arg2) _ (by decide), s2_keep (r := main_arg0) _ (by decide), s2_v50, s2_v49, s2_keep (r := main_v48) _ (by decide), s2_keep (r := main_arg3) _ (by decide), s2_keep (r := main_arg5) _ (by decide), s2_keep (r := main_arg6) _ (by decide), s2_keep (r := main_arg7) _ (by decide), s2_keep (r := main_arg9) _ (by decide), s2_keep (r := main_arg11) _ (by decide), s2_keep (r := main_arg12) _ (by decide), s2_keep (r := main_arg13) _ (by decide), s2_keep (r := main_arg15) _ (by decide)]
  rw [s1_keep (r := main_arg14) _ (by decide), s1_keep (r := main_arg10) _ (by decide), s1_keep (r := main_arg8) _ (by decide), s1_keep (r := main_arg4) _ (by decide), s1_keep (r := main_arg2) _ (by decide), s1_keep (r := main_arg0) _ (by decide), s1_v48, s1_keep (r := main_arg3) _ (by decide), s1_keep (r := main_arg5) _ (by decide), s1_keep (r := main_arg6) _ (by decide), s1_keep (r := main_arg7) _ (by decide), s1_keep (r := main_arg9) _ (by decide), s1_keep (r := main_arg11) _ (by decide), s1_keep (r := main_arg12) _ (by decide), s1_keep (r := main_arg13) _ (by decide), s1_keep (r := main_arg15) _ (by decide)]
  rfl

end Cert.ReferenceIdeal.Stages

end
-- ==== Proof.GcnLaw.lean ====
/-
  The algebra that joins the two sides, over the extended reals.
  (1) The program's float constants as numbers.  (2) Dividing by a square root is multiplying by the inverse
  square root, for a positive radicand — so the reference's layer normalisation is the kernel's.
  (3) The edge-list form of the graph convolution is the dense form when the scaling factors are real.
-/
import proofs.«151161_g38689065402409_fold_wed_m_144_3_alg».proof.Proof.GcnSpec
import Idealize.ShloMosaic.PureOps.Ideal.Laws

noncomputable section

namespace Gcn

open Idealize.ShloMosaic
open scoped BigOperators

/-! ## The constants -/

theorem zero_eq : zero = 0 := Ideal.ofBits_zero_f32

theorem one_eq : one = 1 := by
  simp [one, Ideal.ofBits, Ideal.ieee, -EReal.coe_mul]; norm_num

theorem n128_eq : n128 = ((128 : ℝ) : EReal) := by
  simp [n128, Ideal.ofBits, Ideal.ieee, -EReal.coe_mul]; norm_num

theorem eps_pos : 0 < eps := by
  simp [eps, Ideal.ofBits, Ideal.ieee, -EReal.coe_mul]

/-- The reference's floor under the degrees, `f32(1e-12)`, is below one. -/
theorem tiny_eq : Ideal.ofBits .f32 0x2B8CBCCC#32 = ((9223372 / 2 ^ 63 : ℝ) : EReal) := by
  simp [Ideal.ofBits, Ideal.ieee, -EReal.coe_mul]; norm_num

theorem tiny_le_one : Ideal.ofBits .f32 0x2B8CBCCC#32 ≤ 1 := by
  rw [tiny_eq]
  exact_mod_cast (by norm_num : ((9223372 : ℝ) / 2 ^ 63) ≤ 1)

/-! ## Squares, square roots, and layer normalisation -/

theorem mul_self_nonneg (x : EReal) : 0 ≤ x * x := by
  induction x using EReal.rec with
  | bot => simp
  | coe r => exact_mod_cast _root_.mul_self_nonneg r
  | top => simp

/-- Dividing by the square root of a positive quantity is multiplying by its inverse square root, at `⊤` too. -/
theorem div_sqrt (z w : EReal) (hw : 0 < w) : Ideal.div z (Ideal.sqrt w) = z * Ideal.rsqrt w := by
  induction w using EReal.rec with
  | bot => exact absurd hw (by simp)
  | coe r =>
    have hr : 0 < r := by exact_mod_cast hw
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div]
  | top => simp [Ideal.div]

/-- The inverse square root of a quantity at least one lies in `[0, ⊤)`. -/
theorem rsqrt_of_one_le (x : EReal) (hx : 1 ≤ x) : 0 ≤ Ideal.rsqrt x ∧ Ideal.rsqrt x ≠ ⊤ := by
  induction x using EReal.rec with
  | bot => exact (not_le.mpr (by exact_mod_cast EReal.bot_lt_coe (1 : ℝ)) hx).elim
  | coe r =>
    have hr : (1 : ℝ) ≤ r := by exact_mod_cast hx
    rw [Ideal.rsqrt_coe, if_neg (by linarith), if_neg (by linarith)]
    exact ⟨by exact_mod_cast inv_nonneg.mpr (Real.sqrt_nonneg r), EReal.coe_ne_top _⟩
  | top => simp

theorem pos_nonneg (x : EReal) : 0 ≤ pos x := by unfold pos; rw [zero_eq]; exact le_max_right _ _

/-- A degree is at least one: a sum of positive parts plus the self loop. -/
theorem one_le_deg (A : Fin 256 → Fin 256 → EReal) (c : Fin 256) : 1 ≤ deg A c := by
  unfold deg; rw [one_eq]
  exact le_add_of_nonneg_left (Finset.sum_nonneg fun r _ => pos_nonneg _)

theorem dis_nonneg (A : Fin 256 → Fin 256 → EReal) (c : Fin 256) : 0 ≤ dis A c := (rsqrt_of_one_le _ (one_le_deg A c)).1
theorem dis_ne_top (A : Fin 256 → Fin 256 → EReal) (c : Fin 256) : dis A c ≠ ⊤ := (rsqrt_of_one_le _ (one_le_deg A c)).2

/-- The reference's row mean: its sum starts from the zero constant. -/
def meanR (y : Fin 128 → EReal) : EReal := Ideal.div (zero + ∑ k : Fin 128, y k) n128

theorem meanR_eq (y : Fin 128 → EReal) : meanR y = mean y := by unfold meanR mean; rw [zero_eq, zero_add]

/-- The reference's layer normalisation and rectifier of a row: it DIVIDES by the square root. -/
def lnreluR (g b : Fin 128 → EReal) (y : Fin 128 → EReal) (f : Fin 128) : EReal :=
  max (Ideal.div (y f - meanR y) (Ideal.sqrt (meanR (fun k => (y k - meanR y) * (y k - meanR y)) + eps)) * g f + b f) zero

theorem mean_sq_nonneg (d : Fin 128 → EReal) : 0 ≤ mean (fun k => d k * d k) := by
  unfold mean
  rw [n128_eq, Ideal.div_coe (by norm_num)]
  exact EReal.mul_nonneg (Finset.sum_nonneg fun k _ => mul_self_nonneg _) (by exact_mod_cast (by norm_num : (0 : ℝ) ≤ 1 / 128))

/-- The two layer normalisations agree: the variance plus ε is positive. -/
theorem lnreluR_eq (g b : Fin 128 → EReal) (y : Fin 128 → EReal) : lnreluR g b y = lnrelu g b y := by
  funext f
  unfold lnreluR lnrelu
  simp only [meanR_eq]
  rw [div_sqrt _ _ (lt_of_lt_of_le eps_pos (le_add_of_nonneg_left (mean_sq_nonneg fun k => y k - mean y)))]

/-! ## The convolution: edge list against dense -/

theorem sum_mul_right {ι : Type*} (s : Finset ι) (t : ι → EReal) (δ : EReal) (h0 : 0 ≤ δ) (ht : δ ≠ ⊤) :
    (∑ i ∈ s, t i) * δ = ∑ i ∈ s, t i * δ := by
  classical
  induction s using Finset.induction_on with
  | empty => simp
  | insert a s ha ih => rw [Finset.sum_insert ha, Finset.sum_insert ha, EReal.right_distrib_of_nonneg_of_ne_top h0 ht, ih]

/-- THE LAW. A node's message sum in edge-list form — every in-block edge `r → c` carrying `h r · (d r · P r · δ)`, the self
    loop `h c · (δ · 1 · δ)` — is the dense form `((∑ r, P r · (h r · d r)) + h c · δ) · δ`, for a factor `δ` in `[0, ⊤)`. -/
theorem conv_law (P h d : Fin 256 → EReal) (hc δ : EReal) (h0 : 0 ≤ δ) (ht : δ ≠ ⊤) :
    (∑ r : Fin 256, h r * ((d r * P r) * δ)) + hc * ((δ * one) * δ) = ((∑ r : Fin 256, P r * (h r * d r)) + hc * δ) * δ := by
  rw [EReal.right_distrib_of_nonneg_of_ne_top h0 ht, sum_mul_right _ _ _ h0 ht, one_eq, mul_one]
  congr 1
  · exact Finset.sum_congr rfl fun r _ => by ac_rfl
  · ac_rfl

end Gcn

end
-- ==== Proof.GcnEdges.lean ====
/-
  The edge list of the reference, as arithmetic. Entries 0 … 524287 enumerate (graph g, source r, target c) as
  g·65536 + r·256 + c, an edge from node 256·g + r to node 256·g + c; entries 524288 + n are the self loops.
  The entries whose target is a given node are exactly that node's 256 in-block edges and its self loop, so a
  sum over them is a sum over the sources plus the self-loop term.
-/
import Mathlib.Algebra.BigOperators.Group.Finset.Basic
import Mathlib.Data.Fintype.BigOperators
import Mathlib.Tactic

namespace Gcn

open scoped BigOperators

/-- The target node of edge-list entry `j`. -/
def tgt (j : Fin 526336) : ℕ := if j.val < 524288 then (j.val / 65536) * 256 + j.val % 256 else j.val - 524288

/-- The source node of edge-list entry `j`. -/
def src (j : Fin 526336) : ℕ := if j.val < 524288 then j.val / 256 else j.val - 524288

theorem tgt_lt (j : Fin 526336) : tgt j < 2048 := by unfold tgt; have := j.isLt; split <;> omega
theorem src_lt (j : Fin 526336) : src j < 2048 := by unfold src; have := j.isLt; split <;> omega

/-- The entry of the edge from source `r` to target `c` inside graph `g`. -/
def edge (g : Fin 8) (r c : Fin 256) : Fin 526336 :=
  ⟨g.val * 65536 + r.val * 256 + c.val, by have := g.isLt; have := r.isLt; have := c.isLt; omega⟩

/-- The entry of node `n`'s self loop. -/
def selfLoop (n : Fin 2048) : Fin 526336 := ⟨524288 + n.val, by have := n.isLt; omega⟩

theorem edge_lt (g : Fin 8) (r c : Fin 256) : (edge g r c).val < 524288 := by
  show g.val * 65536 + r.val * 256 + c.val < 524288; have := g.isLt; have := r.isLt; have := c.isLt; omega

theorem tgt_edge (g : Fin 8) (r c : Fin 256) : tgt (edge g r c) = g.val * 256 + c.val := by
  unfold tgt; rw [if_pos (edge_lt g r c)]
  show (g.val * 65536 + r.val * 256 + c.val) / 65536 * 256 + (g.val * 65536 + r.val * 256 + c.val) % 256 = _
  have := g.isLt; have := r.isLt; have := c.isLt; omega

theorem src_edge (g : Fin 8) (r c : Fin 256) : src (edge g r c) = g.val * 256 + r.val := by
  unfold src; rw [if_pos (edge_lt g r c)]
  show (g.val * 65536 + r.val * 256 + c.val) / 256 = _
  have := g.isLt; have := r.isLt; have := c.isLt; omega

theorem tgt_self (n : Fin 2048) : tgt (selfLoop n) = n.val := by
  unfold tgt; rw [if_neg (by show ¬ 524288 + n.val < 524288; omega)]; show 524288 + n.val - 524288 = n.val; omega

theorem src_self (n : Fin 2048) : src (selfLoop n) = n.val := by
  unfold src; rw [if_neg (by show ¬ 524288 + n.val < 524288; omega)]; show 524288 + n.val - 524288 = n.val; omega

/-- THE RE-INDEXING: a sum over the edge-list entries that target node 256·g + c is the sum over the 256 sources of
    graph `g` plus the self-loop term. -/
theorem sum_tgt {M : Type*} [AddCommMonoid M] (φ : Fin 526336 → M) (g : Fin 8) (c : Fin 256)
    (n : Fin 2048) (hn : n.val = g.val * 256 + c.val) :
    ∑ j ∈ Finset.univ.filter (fun j => tgt j = n.val), φ j = (∑ r : Fin 256, φ (edge g r c)) + φ (selfLoop n) := by
  classical
  have hg := g.isLt
  have hc := c.isLt
  have hset : Finset.univ.filter (fun j => tgt j = n.val)
      = (Finset.univ.image fun r : Fin 256 => edge g r c) ∪ {selfLoop n} := by
    ext j
    simp only [Finset.mem_filter, Finset.mem_univ, true_and, Finset.mem_union, Finset.mem_image, Finset.mem_singleton]
    constructor
    · intro h
      unfold tgt at h
      have hj := j.isLt
      split at h
      · left
        refine ⟨⟨(j.val / 256) % 256, Nat.mod_lt _ (by norm_num)⟩, Fin.ext ?_⟩
        show g.val * 65536 + ((j.val / 256) % 256) * 256 + c.val = j.val
        omega
      · right
        refine Fin.ext ?_
        show j.val = 524288 + n.val
        omega
    · rintro (⟨r, rfl⟩ | rfl)
      · rw [tgt_edge, hn]
      · exact tgt_self n
  rw [hset, Finset.sum_union, Finset.sum_image, Finset.sum_singleton]
  · intro r _ r' _ h
    have hv := congrArg Fin.val h
    refine Fin.ext ?_
    have : g.val * 65536 + r.val * 256 + c.val = g.val * 65536 + r'.val * 256 + c.val := hv
    omega
  · rw [Finset.disjoint_singleton_right]
    intro h
    obtain ⟨r, -, hr⟩ := Finset.mem_image.mp h
    have hv := congrArg Fin.val hr
    have h1 := edge_lt g r c
    have : (selfLoop n).val = 524288 + n.val := rfl
    omega

end Gcn
-- ==== Proof.LibInt32.lean ====
/-
  The jnp floored quotient and remainder of nonnegative 32-bit values by a positive constant, one word at a
  time: StableHLO's truncating divide and remainder with jnp's sign corrections, none of which fires when both
  operands are nonnegative — the results are the natural-number quotient and remainder.
-/
import Idealize.ShloMosaic.PureOps

namespace Idealize.ShloMosaic.Int32

/-- The sign word of `stablehlo.sign`. -/
def sgnW (x : BitVec 32) : BitVec 32 := if x = 0 then 0 else if x.msb then -1 else 1

/-- jnp's `floor_divide` at one word. -/
def floorDivW (x c : BitVec 32) : BitVec 32 :=
  Scalar.select (IntOp.andi (IntOp.cmpi .ne (sgnW x) (sgnW c)) (IntOp.cmpi .ne (IntOp.remsi .host x c) 0#32))
    (IntOp.subi (IntOp.divsi .host x c) 1#32) (IntOp.divsi .host x c)

/-- jnp's `remainder` at one word (the divisor guarded against zero first). -/
def remW (x c : BitVec 32) : BitVec 32 :=
  Scalar.select
    (IntOp.andi
      (IntOp.cmpi .ne (IntOp.cmpi .slt (IntOp.remsi .host x (Scalar.select (IntOp.cmpi .eq c 0#32) 1#32 c)) 0#32)
        (IntOp.cmpi .slt (Scalar.select (IntOp.cmpi .eq c 0#32) 1#32 c) 0#32))
      (IntOp.cmpi .ne (IntOp.remsi .host x (Scalar.select (IntOp.cmpi .eq c 0#32) 1#32 c)) 0#32))
    (IntOp.addi (IntOp.remsi .host x (Scalar.select (IntOp.cmpi .eq c 0#32) 1#32 c)) (Scalar.select (IntOp.cmpi .eq c 0#32) 1#32 c))
    (IntOp.remsi .host x (Scalar.select (IntOp.cmpi .eq c 0#32) 1#32 c))

/-- The index normalisation of jnp indexing at one word: add the extent to a negative index. -/
def normW (v ext : BitVec 32) : BitVec 32 := Scalar.select (IntOp.cmpi .slt v 0#32) (IntOp.addi v ext) v

theorem toNat_ofNat_small (a : Nat) (h : a < 2147483648) : (BitVec.ofNat 32 a).toNat = a := by
  rw [BitVec.toNat_ofNat]; exact Nat.mod_eq_of_lt (by omega)

theorem msb_ofNat_small (a : Nat) (h : a < 2147483648) : (BitVec.ofNat 32 a).msb = false := by
  rw [BitVec.msb_eq_false_iff_two_mul_lt, toNat_ofNat_small a h]; omega

theorem toInt_ofNat_small (a : Nat) (h : a < 2147483648) : (BitVec.ofNat 32 a).toInt = (a : Int) := by
  rw [BitVec.toInt_eq_toNat_of_msb (msb_ofNat_small a h), toNat_ofNat_small a h]

theorem ofNat_eq_zero_iff (a : Nat) (h : a < 2147483648) : BitVec.ofNat 32 a = 0#32 ↔ a = 0 := by
  constructor
  · intro e
    have := congrArg BitVec.toNat e
    rw [toNat_ofNat_small a h] at this
    simpa using this
  · rintro rfl; rfl

theorem slt_zero_ofNat (a : Nat) (h : a < 2147483648) : IntOp.cmpi .slt (BitVec.ofNat 32 a) 0#32 = 0#1 := by
  show BitVec.ofBool ((BitVec.ofNat 32 a).slt 0#32) = 0#1
  rw [BitVec.slt_eq_decide, toInt_ofNat_small a h, BitVec.toInt_zero, decide_eq_false (by omega : ¬ ((a : Int) < 0))]
  rfl

theorem not_corner (a b : Nat) (hb0 : 0 < b) (hb : b < 2147483648) : ¬ IntOp.SDivCorner (BitVec.ofNat 32 a) (BitVec.ofNat 32 b) := by
  rintro (h | ⟨-, h⟩)
  · exact absurd ((ofNat_eq_zero_iff b hb).mp h) (by omega)
  · have := congrArg BitVec.msb h
    rw [msb_ofNat_small b hb] at this
    exact absurd this (by decide)

theorem divsi_ofNat (a b : Nat) (ha : a < 2147483648) (hb0 : 0 < b) (hb : b < 2147483648) :
    IntOp.divsi .host (BitVec.ofNat 32 a) (BitVec.ofNat 32 b) = BitVec.ofNat 32 (a / b) := by
  unfold IntOp.divsi
  rw [if_neg (not_corner a b hb0 hb), BitVec.sdiv_eq, msb_ofNat_small a ha, msb_ofNat_small b hb]
  apply BitVec.eq_of_toNat_eq
  have hq : a / b < 2147483648 := lt_of_le_of_lt (Nat.div_le_self a b) ha
  show ((BitVec.ofNat 32 a) / (BitVec.ofNat 32 b)).toNat = _
  rw [BitVec.toNat_udiv, toNat_ofNat_small a ha, toNat_ofNat_small b hb, toNat_ofNat_small _ hq]

theorem remsi_ofNat (a b : Nat) (ha : a < 2147483648) (hb0 : 0 < b) (hb : b < 2147483648) :
    IntOp.remsi .host (BitVec.ofNat 32 a) (BitVec.ofNat 32 b) = BitVec.ofNat 32 (a % b) := by
  unfold IntOp.remsi
  rw [if_neg (not_corner a b hb0 hb), BitVec.srem_eq, msb_ofNat_small a ha, msb_ofNat_small b hb]
  apply BitVec.eq_of_toNat_eq
  have hq : a % b < 2147483648 := lt_of_le_of_lt (Nat.mod_le a b) ha
  show ((BitVec.ofNat 32 a) % (BitVec.ofNat 32 b)).toNat = _
  rw [BitVec.toNat_umod, toNat_ofNat_small a ha, toNat_ofNat_small b hb, toNat_ofNat_small _ hq]

theorem sgnW_ofNat (a : Nat) (h : a < 2147483648) : sgnW (BitVec.ofNat 32 a) = if a = 0 then 0#32 else 1#32 := by
  unfold sgnW
  by_cases h0 : a = 0
  · subst h0; simp
  · have hne : ¬ BitVec.ofNat 32 a = 0 := fun e => h0 ((ofNat_eq_zero_iff a h).mp e)
    rw [if_neg hne, msb_ofNat_small a h, if_neg h0]
    simp

/-- THE FLOORED QUOTIENT of a nonnegative word by a positive constant is the natural-number quotient. -/
theorem floorDivW_ofNat (a b : Nat) (ha : a < 2147483648) (hb0 : 0 < b) (hb : b < 2147483648) :
    floorDivW (BitVec.ofNat 32 a) (BitVec.ofNat 32 b) = BitVec.ofNat 32 (a / b) := by
  unfold floorDivW
  rw [divsi_ofNat a b ha hb0 hb, remsi_ofNat a b ha hb0 hb, sgnW_ofNat a ha, sgnW_ofNat b hb, if_neg (by omega : ¬ b = 0)]
  have hc : IntOp.andi (IntOp.cmpi .ne (if a = 0 then 0#32 else 1#32) 1#32) (IntOp.cmpi .ne (BitVec.ofNat 32 (a % b)) 0#32) = 0#1 := by
    by_cases h0 : a = 0
    · subst h0; simp [IntOp.andi, IntOp.cmpi]
    · rw [if_neg h0]; simp [IntOp.andi, IntOp.cmpi]
  rw [hc]
  rfl

/-- THE REMAINDER of a nonnegative word modulo a positive constant is the natural-number remainder. -/
theorem remW_ofNat (a b : Nat) (ha : a < 2147483648) (hb0 : 0 < b) (hb : b < 2147483648) :
    remW (BitVec.ofNat 32 a) (BitVec.ofNat 32 b) = BitVec.ofNat 32 (a % b) := by
  unfold remW
  have hc' : Scalar.select (IntOp.cmpi .eq (BitVec.ofNat 32 b) 0#32) 1#32 (BitVec.ofNat 32 b) = BitVec.ofNat 32 b := by
    have : ¬ BitVec.ofNat 32 b = 0#32 := fun e => absurd ((ofNat_eq_zero_iff b hb).mp e) (by omega)
    have hbeq : (BitVec.ofNat 32 b == 0#32) = false := by simpa using this
    simp [Scalar.select, IntOp.cmpi, hbeq]
  rw [hc', remsi_ofNat a b ha hb0 hb]
  have hq : a % b < 2147483648 := lt_of_le_of_lt (Nat.mod_le a b) ha
  rw [slt_zero_ofNat _ hq, slt_zero_ofNat _ hb]
  have : IntOp.andi (IntOp.cmpi .ne (0#1 : BitVec 1) 0#1) (IntOp.cmpi .ne (BitVec.ofNat 32 (a % b)) 0#32) = 0#1 := by
    simp [IntOp.andi, IntOp.cmpi]
  rw [this]
  rfl

/-- A nonnegative index is left as it is. -/
theorem normW_ofNat (a : Nat) (ha : a < 2147483648) (ext : BitVec 32) : normW (BitVec.ofNat 32 a) ext = BitVec.ofNat 32 a := by
  unfold normW
  rw [slt_zero_ofNat a ha]
  rfl

theorem ofNat_mul256_add (a b : Nat) : IntOp.addi (IntOp.muli (BitVec.ofNat 32 a) 256#32) (BitVec.ofNat 32 b) = BitVec.ofNat 32 (a * 256 + b) := by
  show BitVec.ofNat 32 a * 256#32 + BitVec.ofNat 32 b = _
  apply BitVec.eq_of_toNat_eq
  simp only [BitVec.toNat_add, BitVec.toNat_mul, BitVec.toNat_ofNat]
  omega

end Idealize.ShloMosaic.Int32
-- ==== Proof.RefIndex.lean ====
/-
  The edge numbering read as numbers. Edge e of the 524288 in-block edges has graph e / 65536 and position
  e mod 65536; its source node is 256·(e / 65536) + (e mod 65536) / 256 = e / 256 and its target node
  256·(e / 65536) + e mod 256. The lists the convolutions read append the 2048 self loops n → n.
-/
import proofs.«151161_g38689065402409_fold_wed_m_144_3_alg».proof.Proof.RefChain
import proofs.«151161_g38689065402409_fold_wed_m_144_3_alg».proof.Proof.GcnLaw
import proofs.«151161_g38689065402409_fold_wed_m_144_3_alg».proof.Proof.GcnArray
import proofs.«151161_g38689065402409_fold_wed_m_144_3_alg».proof.Proof.GcnEdges
import proofs.«151161_g38689065402409_fold_wed_m_144_3_alg».proof.Proof.LibInt32
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open scoped BigOperators

open Idealize.ShloMosaic.Int32

theorem v49_apply (e : Fin 524288) : r_v49 (F := Ideal) (ix1 e) = BitVec.ofNat 32 e.val := rfl

/-- The graph of edge `e`. -/
theorem v50_apply (e : Fin 524288) : r_v50 (F := Ideal) (ix1 e) = BitVec.ofNat 32 (e.val / 65536) := by
  have h : r_v50 (F := Ideal) (ix1 e) = floorDivW (BitVec.ofNat 32 e.val) (BitVec.ofNat 32 65536) := rfl
  have := e.isLt
  rw [h, floorDivW_ofNat _ _ (by omega) (by norm_num) (by norm_num)]

/-- The position of edge `e` inside its graph's block. -/
theorem v51_apply (e : Fin 524288) : r_v51 (F := Ideal) (ix1 e) = BitVec.ofNat 32 (e.val % 65536) := by
  have h : r_v51 (F := Ideal) (ix1 e) = remW (BitVec.ofNat 32 e.val) (BitVec.ofNat 32 65536) := rfl
  have := e.isLt
  rw [h, remW_ofNat _ _ (by omega) (by norm_num) (by norm_num)]

/-- The source node of edge `e`. -/
theorem v55_apply (e : Fin 524288) : r_v55 (F := Ideal) (ix1 e) = BitVec.ofNat 32 (e.val / 256) := by
  have h : r_v55 (F := Ideal) (ix1 e)
      = IntOp.addi (IntOp.muli (r_v50 (F := Ideal) (ix1 e)) 256#32) (floorDivW (r_v51 (F := Ideal) (ix1 e)) (BitVec.ofNat 32 256)) := rfl
  have := e.isLt
  have hm : e.val % 65536 < 2147483648 := by omega
  rw [h, v50_apply, v51_apply, floorDivW_ofNat _ _ hm (by norm_num) (by norm_num), ofNat_mul256_add]
  congr 1
  omega

/-- The target node of edge `e`. -/
theorem v59_apply (e : Fin 524288) : r_v59 (F := Ideal) (ix1 e) = BitVec.ofNat 32 (e.val / 65536 * 256 + e.val % 256) := by
  have h : r_v59 (F := Ideal) (ix1 e)
      = IntOp.addi (IntOp.muli (r_v50 (F := Ideal) (ix1 e)) 256#32) (remW (r_v51 (F := Ideal) (ix1 e)) (BitVec.ofNat 32 256)) := rfl
  have := e.isLt
  have hm : e.val % 65536 < 2147483648 := by omega
  rw [h, v50_apply, v51_apply, remW_ofNat _ _ hm (by norm_num) (by norm_num), ofNat_mul256_add]
  congr 1
  omega

end Cert.ReferenceIdeal.Read

end
-- ==== Proof.RefGraph.lean ====
/-
  The reference's graph operations read at an index, at the extended reals: the accumulating scatter of a
  half-million updates is, at each node, the operand there plus the sum of the updates whose index word names
  the node; a gather reads the operand at the (clamped) index word.
-/
import proofs.«151161_g38689065402409_fold_wed_m_144_3_alg».proof.Proof.RefChain
import proofs.«151161_g38689065402409_fold_wed_m_144_3_alg».proof.Proof.GcnLaw
import proofs.«151161_g38689065402409_fold_wed_m_144_3_alg».proof.Proof.GcnArray
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open scoped BigOperators

/-- A rank-one index set is its one coordinate. -/
def idx1Equiv (n : ℕ) : Fin n ≃ (⟨1, ![n]⟩ : Shape).Idx where
  toFun := ix1
  invFun j := j 0
  left_inv _ := rfl
  right_inv j := (eq_ix1 j).symm

/-! ## The scatter-add into a 2048-vector -/

theorem scat1_start (idx : IVec S526336x1 32) (j : S526336.Idx) :
    scatter_S2048_S526336x1_S526336_n_0_0_1.start j idx (0 : Fin 1) = (idx (ix2 (j 0) (0 : Fin 1))).toInt := by
  unfold ScatterDims.start
  rw [dif_pos (show (0 : Fin 1) ∈ scatter_S2048_S526336x1_S526336_n_0_0_1.scatterDimsToOperandDims from List.mem_singleton.mpr rfl)]
  refine congrArg (fun t => (idx t).toInt) ?_
  funext b
  refine Fin.ext ?_
  match b with
  | ⟨0, _⟩ => rfl
  | ⟨1, _⟩ => rfl

theorem scat1_window (j : S526336.Idx) : scatter_S2048_S526336x1_S526336_n_0_0_1.window j (0 : Fin 1) = 0 := rfl

/-- An update lands on node `n` exactly when its index word, read signed, is `n`. -/
theorem scat1_result (idx : IVec S526336x1 32) (j : S526336.Idx) (n : Fin 2048) :
    scatter_S2048_S526336x1_S526336_n_0_0_1.resultIdx? j idx = some (ix1 n) ↔ (idx (ix2 (j 0) (0 : Fin 1))).toInt = (n.val : Int) := by
  unfold ScatterDims.resultIdx?
  constructor
  · intro h
    split at h
    · rename_i hb
      have h0 := congrArg Fin.val (congrFun (Option.some.inj h) (0 : Fin 1))
      have hnn := (hb 0).1
      rw [scat1_start, scat1_window] at hnn
      change (scatter_S2048_S526336x1_S526336_n_0_0_1.start j idx 0 + (scatter_S2048_S526336x1_S526336_n_0_0_1.window j 0 : Int)).toNat = n.val at h0
      rw [scat1_start, scat1_window] at h0
      simp only [Nat.cast_zero, add_zero] at hnn h0
      rw [← h0]
      exact (Int.toNat_of_nonneg hnn).symm
    · exact absurd h (by simp)
  · intro h
    have hb : ∀ a, 0 ≤ scatter_S2048_S526336x1_S526336_n_0_0_1.start j idx a + (scatter_S2048_S526336x1_S526336_n_0_0_1.window j a : Int)
        ∧ scatter_S2048_S526336x1_S526336_n_0_0_1.start j idx a + (scatter_S2048_S526336x1_S526336_n_0_0_1.window j a : Int) < (S2048.size a : Int) := by
      intro a
      obtain rfl : a = 0 := Subsingleton.elim _ _
      rw [scat1_start, scat1_window, h]
      have := n.isLt
      constructor
      · simp
      · show (n.val : Int) + ((0 : Nat) : Int) < ((2048 : Nat) : Int)
        omega
    rw [dif_pos hb]
    refine congrArg some ?_
    funext a
    obtain rfl : a = 0 := Subsingleton.elim _ _
    refine Fin.ext ?_
    show (scatter_S2048_S526336x1_S526336_n_0_0_1.start j idx 0 + (scatter_S2048_S526336x1_S526336_n_0_0_1.window j 0 : Int)).toNat = n.val
    rw [scat1_start, scat1_window, h]
    simp

/-- THE SCATTER-ADD AT A NODE: the operand there plus the sum of the updates whose index word names the node. -/
theorem scatterAdd1_apply (x : FVec Ideal S2048 .f32) (idx : IVec S526336x1 32) (u : FVec Ideal S526336 .f32) (n : Fin 2048) :
    Host.scatterAdd scatter_S2048_S526336x1_S526336_n_0_0_1 x idx u (ix1 n)
      = x (ix1 n) + ∑ j ∈ Finset.univ.filter (fun j : Fin 526336 => (idx (ix2 j (0 : Fin 1))).toInt = (n.val : Int)), u (ix1 j) := by
  show Ideal.hostScatterAdd scatter_S2048_S526336x1_S526336_n_0_0_1 x idx u (ix1 n) = _
  unfold Ideal.hostScatterAdd
  refine congrArg (fun t => x (ix1 n) + t) ?_
  rw [Finset.sum_filter, Finset.sum_filter, ← Equiv.sum_comp (idx1Equiv 526336)]
  refine Finset.sum_congr rfl fun j _ => ?_
  exact if_congr (scat1_result idx (ix1 j) n) rfl rfl

/-! ## The gather out of a 2048-vector -/

/-- Entry `j` reads the operand at its index word, read signed and clamped into the vector. -/
theorem gather1_apply {α : Type} (x : S2048.Idx → α) (idx : IVec S526336x1 32) (j : Fin 526336) :
    Host.gather gather_S2048_S526336x1_S526336_n_0_n_n_0_1_1 x idx (ix1 j)
      = x (ix1 (⟨min (idx (ix2 j (0 : Fin 1))).toInt.toNat 2047, by omega⟩ : Fin 2048)) := by
  unfold Host.gather
  refine congrArg x ?_
  funext a
  obtain rfl : a = 0 := Subsingleton.elim _ _
  refine Fin.ext ?_
  show gather_S2048_S526336x1_S526336_n_0_n_n_0_1_1.start (ix1 j) idx 0
      + gather_S2048_S526336x1_S526336_n_0_n_n_0_1_1.batchCoord (ix1 j) 0
      + gather_S2048_S526336x1_S526336_n_0_n_n_0_1_1.offCoord (ix1 j) 0 = _
  have h1 : gather_S2048_S526336x1_S526336_n_0_n_n_0_1_1.batchCoord (ix1 j) 0 = 0 := rfl
  have h2 : gather_S2048_S526336x1_S526336_n_0_n_n_0_1_1.offCoord (ix1 j) 0 = 0 := rfl
  have h3 : gather_S2048_S526336x1_S526336_n_0_n_n_0_1_1.start (ix1 j) idx 0 = min (idx (ix2 j (0 : Fin 1))).toInt.toNat 2047 := by
    unfold GatherDims.start
    rw [dif_pos (show (0 : Fin 1) ∈ gather_S2048_S526336x1_S526336_n_0_n_n_0_1_1.startIndexMap from List.mem_singleton.mpr rfl)]
    refine congrArg (fun t => min (idx t).toInt.toNat _) ?_
    funext b
    refine Fin.ext ?_
    match b with
    | ⟨0, _⟩ => rfl
    | ⟨1, _⟩ => rfl
  rw [h1, h2, h3]
  rfl

/-! ## The scatter-add into the 2048×128 array, and the gather of its rows -/

theorem scat2_start0 (idx : IVec S526336x1 32) (j : S526336x128.Idx) :
    scatter_S2048x128_S526336x1_S526336x128_1_0_0_1.start j idx (0 : Fin 2) = (idx (ix2 (j 0) (0 : Fin 1))).toInt := by
  unfold ScatterDims.start
  rw [dif_pos (show (0 : Fin 2) ∈ scatter_S2048x128_S526336x1_S526336x128_1_0_0_1.scatterDimsToOperandDims from List.mem_singleton.mpr rfl)]
  refine congrArg (fun t => (idx t).toInt) ?_
  funext b
  refine Fin.ext ?_
  match b with
  | ⟨0, _⟩ => rfl
  | ⟨1, _⟩ => rfl

theorem scat2_start1 (idx : IVec S526336x1 32) (j : S526336x128.Idx) :
    scatter_S2048x128_S526336x1_S526336x128_1_0_0_1.start j idx (1 : Fin 2) = 0 := rfl

theorem scat2_window0 (j : S526336x128.Idx) : scatter_S2048x128_S526336x1_S526336x128_1_0_0_1.window j (0 : Fin 2) = 0 := rfl
theorem scat2_window1 (j : S526336x128.Idx) : scatter_S2048x128_S526336x1_S526336x128_1_0_0_1.window j (1 : Fin 2) = (j 1).val := rfl

/-- An update entry `(e, f')` lands on `(n, f)` exactly when row `e`'s index word is `n` and `f' = f`. -/
theorem scat2_result (idx : IVec S526336x1 32) (e : Fin 526336) (f' : Fin 128) (n : Fin 2048) (f : Fin 128) :
    scatter_S2048x128_S526336x1_S526336x128_1_0_0_1.resultIdx? (ix2 e f') idx = some (ix2 n f)
      ↔ (idx (ix2 e (0 : Fin 1))).toInt = (n.val : Int) ∧ f' = f := by
  unfold ScatterDims.resultIdx?
  constructor
  · intro h
    split at h
    · rename_i hb
      have hnn := (hb 0).1
      rw [scat2_start0, scat2_window0] at hnn
      have h0 := congrArg Fin.val (congrFun (Option.some.inj h) (0 : Fin 2))
      have h1 := congrArg Fin.val (congrFun (Option.some.inj h) (1 : Fin 2))
      change (scatter_S2048x128_S526336x1_S526336x128_1_0_0_1.start (ix2 e f') idx 0 + (scatter_S2048x128_S526336x1_S526336x128_1_0_0_1.window (ix2 e f') 0 : Int)).toNat = n.val at h0
      change (scatter_S2048x128_S526336x1_S526336x128_1_0_0_1.start (ix2 e f') idx 1 + (scatter_S2048x128_S526336x1_S526336x128_1_0_0_1.window (ix2 e f') 1 : Int)).toNat = f.val at h1
      rw [scat2_start0, scat2_window0] at h0
      rw [scat2_start1, scat2_window1] at h1
      simp only [Nat.cast_zero, add_zero, zero_add, Int.toNat_natCast] at hnn h0 h1
      refine ⟨?_, Fin.ext h1⟩
      rw [← h0]
      exact (Int.toNat_of_nonneg hnn).symm
    · exact absurd h (by simp)
  · rintro ⟨h, rfl⟩
    have hn := n.isLt
    have hf := f'.isLt
    have hb : ∀ a, 0 ≤ scatter_S2048x128_S526336x1_S526336x128_1_0_0_1.start (ix2 e f') idx a + (scatter_S2048x128_S526336x1_S526336x128_1_0_0_1.window (ix2 e f') a : Int)
        ∧ scatter_S2048x128_S526336x1_S526336x128_1_0_0_1.start (ix2 e f') idx a + (scatter_S2048x128_S526336x1_S526336x128_1_0_0_1.window (ix2 e f') a : Int) < (S2048x128.size a : Int) := by
      intro a
      match a with
      | ⟨0, _⟩ =>
        show 0 ≤ scatter_S2048x128_S526336x1_S526336x128_1_0_0_1.start (ix2 e f') idx 0 + (scatter_S2048x128_S526336x1_S526336x128_1_0_0_1.window (ix2 e f') 0 : Int)
          ∧ scatter_S2048x128_S526336x1_S526336x128_1_0_0_1.start (ix2 e f') idx 0 + (scatter_S2048x128_S526336x1_S526336x128_1_0_0_1.window (ix2 e f') 0 : Int) < ((2048 : Nat) : Int)
        rw [scat2_start0, scat2_window0, h]
        constructor <;> omega
      | ⟨1, _⟩ =>
        show 0 ≤ scatter_S2048x128_S526336x1_S526336x128_1_0_0_1.start (ix2 e f') idx 1 + (scatter_S2048x128_S526336x1_S526336x128_1_0_0_1.window (ix2 e f') 1 : Int)
          ∧ scatter_S2048x128_S526336x1_S526336x128_1_0_0_1.start (ix2 e f') idx 1 + (scatter_S2048x128_S526336x1_S526336x128_1_0_0_1.window (ix2 e f') 1 : Int) < ((128 : Nat) : Int)
        rw [scat2_start1, scat2_window1]
        show 0 ≤ (0 : Int) + ((f'.val : Nat) : Int) ∧ (0 : Int) + ((f'.val : Nat) : Int) < ((128 : Nat) : Int)
        constructor <;> omega
    rw [dif_pos hb]
    refine congrArg some ?_
    funext a
    refine Fin.ext ?_
    match a with
    | ⟨0, _⟩ =>
      show (scatter_S2048x128_S526336x1_S526336x128_1_0_0_1.start (ix2 e f') idx 0 + (scatter_S2048x128_S526336x1_S526336x128_1_0_0_1.window (ix2 e f') 0 : Int)).toNat = n.val
      rw [scat2_start0, scat2_window0, h]; simp
    | ⟨1, _⟩ =>
      show (scatter_S2048x128_S526336x1_S526336x128_1_0_0_1.start (ix2 e f') idx 1 + (scatter_S2048x128_S526336x1_S526336x128_1_0_0_1.window (ix2 e f') 1 : Int)).toNat = f'.val
      rw [scat2_start1, scat2_window1]
      show ((0 : Int) + ((f'.val : Nat) : Int)).toNat = f'.val
      simp

/-- THE SCATTER-ADD OF ROWS AT (n, f): the operand there plus the sum over the update rows whose index word names
    node `n` of their entry `f`. -/
theorem scatterAdd2_apply (x : FVec Ideal S2048x128 .f32) (idx : IVec S526336x1 32) (u : FVec Ideal S526336x128 .f32) (n : Fin 2048) (f : Fin 128) :
    Host.scatterAdd scatter_S2048x128_S526336x1_S526336x128_1_0_0_1 x idx u (ix2 n f)
      = x (ix2 n f) + ∑ e ∈ Finset.univ.filter (fun e : Fin 526336 => (idx (ix2 e (0 : Fin 1))).toInt = (n.val : Int)), u (ix2 e f) := by
  show Ideal.hostScatterAdd scatter_S2048x128_S526336x1_S526336x128_1_0_0_1 x idx u (ix2 n f) = _
  unfold Ideal.hostScatterAdd
  refine congrArg (fun t => x (ix2 n f) + t) ?_
  rw [Finset.sum_filter, Finset.sum_filter, sum_idx2]
  refine Finset.sum_congr rfl fun e _ => ?_
  by_cases he : (idx (ix2 e (0 : Fin 1))).toInt = (n.val : Int)
  · rw [if_pos he]
    rw [Finset.sum_eq_single f]
    · rw [if_pos ((scat2_result idx e f n f).mpr ⟨he, rfl⟩)]
    · intro f' _ hne
      rw [if_neg fun h => hne ((scat2_result idx e f' n f).mp h).2]
    · intro h; exact absurd (Finset.mem_univ f) h
  · rw [if_neg he]
    refine Finset.sum_eq_zero fun f' _ => ?_
    rw [if_neg fun h => he ((scat2_result idx e f' n f).mp h).1]

/-- Row `e` of the gather reads the operand's row at its index word, read signed and clamped. -/
theorem gatherRows_apply {α : Type} (x : S2048x128.Idx → α) (idx : IVec S526336x1 32) (e : Fin 526336) (f : Fin 128) :
    Host.gather gather_S2048x128_S526336x1_S526336x128_1_0_n_n_0_1_1128 x idx (ix2 e f)
      = x (ix2 (⟨min (idx (ix2 e (0 : Fin 1))).toInt.toNat 2047, by omega⟩ : Fin 2048) f) := by
  unfold Host.gather
  refine congrArg x ?_
  funext a
  refine Fin.ext ?_
  match a with
  | ⟨0, _⟩ =>
    show gather_S2048x128_S526336x1_S526336x128_1_0_n_n_0_1_1128.start (ix2 e f) idx 0
        + gather_S2048x128_S526336x1_S526336x128_1_0_n_n_0_1_1128.batchCoord (ix2 e f) 0
        + gather_S2048x128_S526336x1_S526336x128_1_0_n_n_0_1_1128.offCoord (ix2 e f) 0 = _
    have h1 : gather_S2048x128_S526336x1_S526336x128_1_0_n_n_0_1_1128.batchCoord (ix2 e f) 0 = 0 := rfl
    have h2 : gather_S2048x128_S526336x1_S526336x128_1_0_n_n_0_1_1128.offCoord (ix2 e f) 0 = 0 := rfl
    have h3 : gather_S2048x128_S526336x1_S526336x128_1_0_n_n_0_1_1128.start (ix2 e f) idx 0 = min (idx (ix2 e (0 : Fin 1))).toInt.toNat 2047 := by
      unfold GatherDims.start
      rw [dif_pos (show (0 : Fin 2) ∈ gather_S2048x128_S526336x1_S526336x128_1_0_n_n_0_1_1128.startIndexMap from List.mem_singleton.mpr rfl)]
      refine congrArg (fun t => min (idx t).toInt.toNat _) ?_
      funext b
      refine Fin.ext ?_
      match b with
      | ⟨0, _⟩ => rfl
      | ⟨1, _⟩ => rfl
    rw [h1, h2, h3]
    rfl
  | ⟨1, _⟩ =>
    show gather_S2048x128_S526336x1_S526336x128_1_0_n_n_0_1_1128.start (ix2 e f) idx 1
        + gather_S2048x128_S526336x1_S526336x128_1_0_n_n_0_1_1128.batchCoord (ix2 e f) 1
        + gather_S2048x128_S526336x1_S526336x128_1_0_n_n_0_1_1128.offCoord (ix2 e f) 1 = f.val
    have h1 : gather_S2048x128_S526336x1_S526336x128_1_0_n_n_0_1_1128.batchCoord (ix2 e f) 1 = 0 := rfl
    have h2 : gather_S2048x128_S526336x1_S526336x128_1_0_n_n_0_1_1128.offCoord (ix2 e f) 1 = f.val := rfl
    have h3 : gather_S2048x128_S526336x1_S526336x128_1_0_n_n_0_1_1128.start (ix2 e f) idx 1 = 0 := rfl
    rw [h1, h2, h3]
    omega

end Cert.ReferenceIdeal.Read

end
-- ==== Proof.RefDense.lean ====
/-
  The reference's dense tail of a layer read at an index: rows by weightsᵀ plus bias, then layer normalisation
  (dividing by the square root) and the rectifier; and the output projection. Node (g, r) of the kernel's
  per-graph blocks is row 256·g + r of the reference's flattened 2048-row arrays.
-/
import proofs.«151161_g38689065402409_fold_wed_m_144_3_alg».proof.Proof.RefChain
import proofs.«151161_g38689065402409_fold_wed_m_144_3_alg».proof.Proof.GcnLaw
import proofs.«151161_g38689065402409_fold_wed_m_144_3_alg».proof.Proof.GcnArray
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open scoped BigOperators

/-! ## The operations, one at a time -/

/-- A 128-vector broadcast to every one of the 2048 rows. -/
theorem bias_apply (b : FVec Ideal S128 .f32) (n : Fin 2048) (f : Fin 128) :
    broadcastInDim S2048x128 ![0, 1] bcast_S1x128_S2048x128_0_1 (broadcastInDim S1x128 ![1] bcast_S128_S1x128_1 b) (ix2 n f) = b (ix1 f) := by
  refine (broadcastInDim_apply _ _ _ (ix2 n f) (ix2 (0 : Fin 1) f) fun a => ?_).trans ?_
  · match a with
    | ⟨0, _⟩ => rfl
    | ⟨1, _⟩ => rfl
  · refine broadcastInDim_apply _ _ _ (ix2 (0 : Fin 1) f) (ix1 f) fun a => ?_
    match a with
    | ⟨0, _⟩ => rfl

/-- Rows by the transpose of a 128×128 weight matrix. -/
theorem dotT_apply (X : FVec Ideal S2048x128 .f32) (W : FVec Ideal S128x128 .f32) (n : Fin 2048) (f : Fin 128) :
    Host.dotGeneral dot_S2048x128_S128x128_S2048x128_1_0_0_1_n_n none X (transpose S128x128 [1, 0] W transposes_S128x128_S128x128_1_0) (ix2 n f)
      = ∑ k : Fin 128, X (ix2 n k) * W (ix2 f k) := by
  refine (Ideal.dotGeneral_apply _ _ _ _ _ _).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  congr 1
  · refine congrArg X ?_
    funext a
    refine Fin.ext ?_
    match a with
    | ⟨0, _⟩ => rfl
    | ⟨1, _⟩ => exact (DotDims.lhsIdx_val_of_single _ rfl _ _).trans hk
  · refine transpose_apply _ W _ _ (ix2 f k) fun b => ?_
    match b with
    | ⟨0, _⟩ => exact ((DotDims.rhsIdx_val_of_single _ rfl _ _).trans hk).symm ▸ rfl
    | ⟨1, _⟩ => rfl

/-- The host's row sum: it starts from the zero constant. -/
theorem rowsumR_apply (Y : FVec Ideal S2048x128 .f32) (n : Fin 2048) :
    Host.reduceAdd Y (constant S_ .f32 0x00000000#32) reducesTo_S2048x128_S2048_d1 h_S_ (ix1 n) = Gcn.zero + ∑ k : Fin 128, Y (ix2 n k) := by
  refine (Ideal.hostReduceAdd_single reducesTo_S2048x128_S2048_d1 (by decide) Y _ (ix1 n)).trans ?_
  refine congrArg (fun t => _ + t) ?_
  refine Finset.sum_congr rfl fun k _ => congrArg Y ?_
  funext a
  refine Fin.ext ?_
  match a with
  | ⟨0, _⟩ => rfl
  | ⟨1, _⟩ => rfl

/-- A 2048-vector as a column, and a column broadcast across the 128 features. -/
theorem colR_apply {α : Type} (v : S2048.Idx → α) (n : Fin 2048) (z : Fin 1) :
    broadcastInDim S2048x1 ![0] bcast_S2048_S2048x1_0 v (ix2 n z) = v (ix1 n) := by
  refine broadcastInDim_apply _ _ _ (ix2 n z) (ix1 n) fun a => ?_
  match a with
  | ⟨0, _⟩ => rfl

theorem colbR_apply {α : Type} (v : S2048x1.Idx → α) (n : Fin 2048) (f : Fin 128) :
    broadcastInDim S2048x128 ![0, 1] bcast_S2048x1_S2048x128_0_1 v (ix2 n f) = v (ix2 n (0 : Fin 1)) := by
  refine broadcastInDim_apply _ _ _ (ix2 n f) (ix2 n (0 : Fin 1)) fun a => ?_
  match a with
  | ⟨0, _⟩ => rfl
  | ⟨1, _⟩ => rfl

theorem scalarR_apply {s : Shape} (h : S_.BroadcastsInDim s ![]) (w : BitVec 32) (i : s.Idx) :
    broadcastInDim s ![] h (constant (F := Ideal) S_ .f32 w) i = Ideal.ofBits .f32 w := rfl

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl

/-! ## The blocks -/

/-- Rows by weightsᵀ plus bias. -/
def denseR (X : FVec Ideal S2048x128 .f32) (W : FVec Ideal S128x128 .f32) (b : FVec Ideal S128 .f32) : FVec Ideal S2048x128 .f32 :=
  addf (Host.dotGeneral dot_S2048x128_S128x128_S2048x128_1_0_0_1_n_n none X (transpose S128x128 [1, 0] W transposes_S128x128_S128x128_1_0))
    (broadcastInDim S2048x128 ![0, 1] bcast_S1x128_S2048x128_0_1 (broadcastInDim S1x128 ![1] bcast_S128_S1x128_1 b))

theorem denseR_apply (X : FVec Ideal S2048x128 .f32) (W : FVec Ideal S128x128 .f32) (b : FVec Ideal S128 .f32) (n : Fin 2048) (f : Fin 128) :
    denseR X W b (ix2 n f) = Gcn.lin (fun f k => W (ix2 f k)) (fun k => X (ix2 n k)) f + b (ix1 f) := by
  unfold denseR Gcn.lin
  rw [addf_apply, dotT_apply, bias_apply]

/-- Each row's mean, kept as a column. -/
def meanRV (Y : FVec Ideal S2048x128 .f32) : FVec Ideal S2048x1 .f32 :=
  Host.divf (broadcastInDim S2048x1 ![0] bcast_S2048_S2048x1_0 (Host.reduceAdd Y (constant S_ .f32 0x00000000#32) reducesTo_S2048x128_S2048_d1 h_S_))
    (broadcastInDim S2048x1 ![] bcast_S_S2048x1 (constant S_ .f32 0x43000000#32))

theorem meanRV_apply (Y : FVec Ideal S2048x128 .f32) (n : Fin 2048) (z : Fin 1) :
    meanRV Y (ix2 n z) = Gcn.meanR (fun k => Y (ix2 n k)) := by
  unfold meanRV Gcn.meanR
  show Ideal.div _ _ = _
  rw [colR_apply, rowsumR_apply]
  rfl

/-- The rows centred. -/
def centR (Y : FVec Ideal S2048x128 .f32) : FVec Ideal S2048x128 .f32 :=
  subf Y (broadcastInDim S2048x128 ![0, 1] bcast_S2048x1_S2048x128_0_1 (meanRV Y))

theorem centR_apply (Y : FVec Ideal S2048x128 .f32) (n : Fin 2048) (f : Fin 128) :
    centR Y (ix2 n f) = Y (ix2 n f) - Gcn.meanR (fun k => Y (ix2 n k)) := by
  unfold centR
  rw [subf_apply, colbR_apply, meanRV_apply]

/-- Layer normalisation (dividing by the square root) and rectifier of every row. -/
def lnR (Y : FVec Ideal S2048x128 .f32) (g b : FVec Ideal S128 .f32) : FVec Ideal S2048x128 .f32 :=
  maximumf (addf (mulf (Host.divf (centR Y)
        (broadcastInDim S2048x128 ![0, 1] bcast_S2048x1_S2048x128_0_1
          (Host.sqrt (addf (meanRV (mulf (centR Y) (centR Y))) (broadcastInDim S2048x1 ![] bcast_S_S2048x1 (constant S_ .f32 0x3727C5AC#32))))))
      (broadcastInDim S2048x128 ![0, 1] bcast_S1x128_S2048x128_0_1 (broadcastInDim S1x128 ![1] bcast_S128_S1x128_1 g)))
    (broadcastInDim S2048x128 ![0, 1] bcast_S1x128_S2048x128_0_1 (broadcastInDim S1x128 ![1] bcast_S128_S1x128_1 b)))
    (broadcastInDim S2048x128 ![] bcast_S_S2048x128 (constant S_ .f32 0x00000000#32))

theorem lnR_apply (Y : FVec Ideal S2048x128 .f32) (g b : FVec Ideal S128 .f32) (n : Fin 2048) (f : Fin 128) :
    lnR Y g b (ix2 n f) = Gcn.lnrelu (fun f => g (ix1 f)) (fun f => b (ix1 f)) (fun k => Y (ix2 n k)) f := by
  rw [← Gcn.lnreluR_eq]
  unfold lnR Gcn.lnreluR
  rw [maximumf_apply, addf_apply, mulf_apply, hostDivf_apply, colbR_apply, hostSqrt_apply, addf_apply, bias_apply, bias_apply,
    scalarR_apply, scalarR_apply, centR_apply, meanRV_apply]
  simp only [mulf_apply, centR_apply]

/-- The dense tail of the first layer is these blocks. -/
theorem f10_eq (a4 : FVec Ideal S128x128 .f32) (X : FVec Ideal S2048x128 .f32) (a5 a6 a7 : FVec Ideal S128 .f32) :
    f10_v166 (F := Ideal) a4 X a5 a6 a7 = lnR (denseR X a4 a5) a6 a7 := rfl

theorem f14_eq (a10 : FVec Ideal S128x128 .f32) (X : FVec Ideal S2048x128 .f32) (a11 a12 a13 : FVec Ideal S128 .f32) :
    f14_v254 (F := Ideal) a10 X a11 a12 a13 = lnR (denseR X a10 a11) a12 a13 := rfl

/-! ## The output projection -/

/-- Node `r` of graph `g` as a row of the flattened arrays. -/
def node (g : Fin 8) (r : Fin 256) : Fin 2048 := ⟨g.val * 256 + r.val, by have := g.isLt; have := r.isLt; omega⟩

theorem bias64_apply (b : FVec Ideal S64 .f32) (n : Fin 2048) (o : Fin 64) :
    broadcastInDim S2048x64 ![0, 1] bcast_S1x64_S2048x64_0_1 (broadcastInDim S1x64 ![1] bcast_S64_S1x64_1 b) (ix2 n o) = b (ix1 o) := by
  refine (broadcastInDim_apply _ _ _ (ix2 n o) (ix2 (0 : Fin 1) o) fun a => ?_).trans ?_
  · match a with
    | ⟨0, _⟩ => rfl
    | ⟨1, _⟩ => rfl
  · refine broadcastInDim_apply _ _ _ (ix2 (0 : Fin 1) o) (ix1 o) fun a => ?_
    match a with
    | ⟨0, _⟩ => rfl

theorem dotT64_apply (X : FVec Ideal S2048x128 .f32) (W : FVec Ideal S64x128 .f32) (n : Fin 2048) (o : Fin 64) :
    Host.dotGeneral dot_S2048x128_S128x64_S2048x64_1_0_0_1_n_n none X (transpose S128x64 [1, 0] W transposes_S64x128_S128x64_1_0) (ix2 n o)
      = ∑ k : Fin 128, X (ix2 n k) * W (ix2 o k) := by
  refine (Ideal.dotGeneral_apply _ _ _ _ _ _).trans ?_
  rw [← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  congr 1
  · refine congrArg X ?_
    funext a
    refine Fin.ext ?_
    match a with
    | ⟨0, _⟩ => rfl
    | ⟨1, _⟩ => exact (DotDims.lhsIdx_val_of_single _ rfl _ _).trans hk
  · refine transpose_apply _ W _ _ (ix2 o k) fun b => ?_
    match b with
    | ⟨0, _⟩ => exact ((DotDims.rhsIdx_val_of_single _ rfl _ _).trans hk).symm
    | ⟨1, _⟩ => rfl

/-- The projection of the flattened rows, reshaped to graphs: entry (g, r, o) reads row 256·g + r. -/
theorem f15_apply (a14 : FVec Ideal S64x128 .f32) (X : FVec Ideal S2048x128 .f32) (a15 : FVec Ideal S64 .f32) (g : Fin 8) (r : Fin 256) (o : Fin 64) :
    f15_v260 (F := Ideal) a14 X a15 (ix3 g r o)
      = Gcn.lin (fun o k => a14 (ix2 o k)) (fun k => X (ix2 (node g r) k)) o + a15 (ix1 o) := by
  have e : f15_v260 (F := Ideal) a14 X a15 = shapeCast S8x256x64
      (addf (Host.dotGeneral dot_S2048x128_S128x64_S2048x64_1_0_0_1_n_n none X (transpose S128x64 [1, 0] a14 transposes_S64x128_S128x64_1_0))
        (broadcastInDim S2048x64 ![0, 1] bcast_S1x64_S2048x64_0_1 (broadcastInDim S1x64 ![1] bcast_S64_S1x64_1 a15)))
      shapeCasts_S2048x64_S8x256x64 := rfl
  rw [e]
  unfold Gcn.lin
  refine (shapeCast_apply _ _ (ix3 g r o) (ix2 (node g r) o) ?_).trans ?_
  · rw [Shape.rowMajor_val_two, Shape.rowMajor_val_three]
    rfl
  · rw [addf_apply, dotT64_apply, bias64_apply]

end Cert.ReferenceIdeal.Read

end
-- ==== Proof.RefConv.lean ====
/-
  One graph convolution of the reference read at an index. Given the edge lists as numbers — entry e has source
  src e, target tgt e and weight the positive part of the adjacency (one on a self loop) — the degrees, their
  inverse square roots, the edge coefficients and the scatter-added messages are, at node 256·g + c, the
  specification's dense convolution of graph g at node c.
-/
import proofs.«151161_g38689065402409_fold_wed_m_144_3_alg».proof.Proof.RefChain
import proofs.«151161_g38689065402409_fold_wed_m_144_3_alg».proof.Proof.GcnLaw
import proofs.«151161_g38689065402409_fold_wed_m_144_3_alg».proof.Proof.GcnArray
import proofs.«151161_g38689065402409_fold_wed_m_144_3_alg».proof.Proof.RefGraph
import proofs.«151161_g38689065402409_fold_wed_m_144_3_alg».proof.Proof.RefDense
import proofs.«151161_g38689065402409_fold_wed_m_144_3_alg».proof.Proof.GcnEdges
import proofs.«151161_g38689065402409_fold_wed_m_144_3_alg».proof.Proof.LibInt32
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open scoped BigOperators

open Idealize.ShloMosaic.Int32

/-! ## Index words -/

/-- jnp's normalisation of an index vector (a negative index counts from the end), as the column the scatter and gather read. -/
def normIdxV (v : IVec S526336 32) : IVec S526336x1 32 :=
  broadcastInDim S526336x1 ![0] bcast_S526336_S526336x1_0
    (select (cmpi .slt v (broadcastInDim S526336 ![] bcast_S_S526336 (constantI S_ 32 0#32)))
      (addi v (broadcastInDim S526336 ![] bcast_S_S526336 (constantI S_ 32 2048#32))) v)

theorem normIdxV_apply (v : IVec S526336 32) (e : Fin 526336) (z : Fin 1) :
    normIdxV v (ix2 e z) = normW (v (ix1 e)) 2048#32 := by
  unfold normIdxV
  refine (broadcastInDim_apply _ _ _ (ix2 e z) (ix1 e) fun a => ?_).trans rfl
  match a with
  | ⟨0, _⟩ => rfl

/-- An index vector holding the numbers `x e < 2048` reads, signed, as those numbers. -/
theorem normIdxV_toInt (v : IVec S526336 32) (x : Fin 526336 → ℕ) (hx : ∀ e, x e < 2048) (hv : ∀ e, v (ix1 e) = BitVec.ofNat 32 (x e))
    (e : Fin 526336) : (normIdxV v (ix2 e (0 : Fin 1))).toInt = (x e : Int) := by
  have := hx e
  rw [normIdxV_apply, hv, normW_ofNat _ (by omega), toInt_ofNat_small _ (by omega)]

theorem node_surj (n : Fin 2048) : ∃ (g : Fin 8) (c : Fin 256), n = node g c :=
  ⟨⟨n.val / 256, by have := n.isLt; omega⟩, ⟨n.val % 256, Nat.mod_lt _ (by norm_num)⟩, Fin.ext (by show n.val = n.val / 256 * 256 + n.val % 256; omega)⟩

theorem node_val (g : Fin 8) (c : Fin 256) : (node g c).val = g.val * 256 + c.val := rfl

/-! ## Degrees and their inverse square roots -/

def degV (col2 : IVec S526336 32) (ew2 : FVec Ideal S526336 .f32) : FVec Ideal S2048 .f32 :=
  Host.scatterAdd scatter_S2048_S526336x1_S526336_n_0_0_1 (broadcastInDim S2048 ![] bcast_S_S2048 (constant S_ .f32 0x00000000#32))
    (normIdxV col2) ew2

def disV (col2 : IVec S526336 32) (ew2 : FVec Ideal S526336 .f32) : FVec Ideal S2048 .f32 :=
  select (cmpf .ogt (degV col2 ew2) (broadcastInDim S2048 ![] bcast_S_S2048 (constant S_ .f32 0x00000000#32)))
    (Host.rsqrt (maximumf (degV col2 ew2) (broadcastInDim S2048 ![] bcast_S_S2048 (constant S_ .f32 0x2B8CBCCC#32))))
    (broadcastInDim S2048 ![] bcast_S_S2048 (id (constant S_ .f32 0x00000000#32)))

section Facts

variable (a1 : FVec Ideal S8x256x256 .f32) (row2 col2 : IVec S526336 32) (ew2 : FVec Ideal S526336 .f32)
  (hrow : ∀ e, row2 (ix1 e) = BitVec.ofNat 32 (Gcn.src e)) (hcol : ∀ e, col2 (ix1 e) = BitVec.ofNat 32 (Gcn.tgt e))
  (hewE : ∀ g r c, ew2 (ix1 (Gcn.edge g r c)) = Gcn.pos (a1 (ix3 g r c))) (hewS : ∀ n, ew2 (ix1 (Gcn.selfLoop n)) = Gcn.one)

include hcol hewE hewS in
/-- The degree of node 256·g + c is the specification's: graph g's column sum of positive parts, plus one. -/
theorem degV_apply (g : Fin 8) (c : Fin 256) :
    degV col2 ew2 (ix1 (node g c)) = Gcn.deg (fun r c => a1 (ix3 g r c)) c := by
  unfold degV Gcn.deg
  rw [scatterAdd1_apply, scalarR_apply]
  have hf : (Finset.univ.filter fun e : Fin 526336 => (normIdxV col2 (ix2 e (0 : Fin 1))).toInt = ((node g c).val : Int))
      = Finset.univ.filter fun e : Fin 526336 => Gcn.tgt e = (node g c).val := by
    refine Finset.filter_congr fun e _ => ?_
    rw [normIdxV_toInt col2 Gcn.tgt Gcn.tgt_lt hcol e]
    exact Int.natCast_inj
  rw [hf, Gcn.sum_tgt (fun e => ew2 (ix1 e)) g c (node g c) (node_val g c), hewS]
  simp only [hewE]
  exact (congrArg (fun t => t + _) Gcn.zero_eq).trans (zero_add _)

include hcol hewE hewS in
theorem disV_apply (g : Fin 8) (c : Fin 256) :
    disV col2 ew2 (ix1 (node g c)) = Gcn.dis (fun r c => a1 (ix3 g r c)) c := by
  unfold disV Gcn.dis
  have hd := degV_apply a1 col2 ew2 hcol hewE hewS g c
  have h1 := Gcn.one_le_deg (fun r c => a1 (ix3 g r c)) c
  rw [select_apply, cmpf_apply, hostRsqrt_apply, maximumf_apply, scalarR_apply, scalarR_apply, hd, max_eq_left (le_trans Gcn.tiny_le_one h1)]
  have hpos : (Ideal.ofBits .f32 0x00000000#32 : EReal) < Gcn.deg (fun r c => a1 (ix3 g r c)) c := by
    rw [Ideal.ofBits_zero_f32]; exact lt_of_lt_of_le (by norm_num) h1
  have hc : FloatOps.cmpf (F := Ideal) .ogt (Gcn.deg (fun r c => a1 (ix3 g r c)) c) (Ideal.ofBits .f32 0x00000000#32) = 1#1 := by
    show BitVec.ofBool (decide (_ < _)) = 1#1
    rw [decide_eq_true hpos]; rfl
  rw [hc, select_one]

/-- The node an index vector of numbers names, as the gather clamps it. -/
theorem gatherNode (v : IVec S526336 32) (x : Fin 526336 → ℕ) (hx : ∀ e, x e < 2048) (hv : ∀ e, v (ix1 e) = BitVec.ofNat 32 (x e))
    (e : Fin 526336) (h : min (normIdxV v (ix2 e (0 : Fin 1))).toInt.toNat 2047 < 2048) :
    (⟨min (normIdxV v (ix2 e (0 : Fin 1))).toInt.toNat 2047, h⟩ : Fin 2048) = ⟨x e, hx e⟩ := by
  refine Fin.ext ?_
  show min (normIdxV v (ix2 e (0 : Fin 1))).toInt.toNat 2047 = x e
  rw [normIdxV_toInt v x hx hv e, Int.toNat_natCast]
  have := hx e
  omega

/-! ## The edge coefficients -/

def normV (col2 : IVec S526336 32) (ew2 : FVec Ideal S526336 .f32) (row2 : IVec S526336 32) : FVec Ideal S526336 .f32 :=
  mulf (mulf (Host.gather gather_S2048_S526336x1_S526336_n_0_n_n_0_1_1 (disV col2 ew2) (normIdxV row2)) ew2)
    (Host.gather gather_S2048_S526336x1_S526336_n_0_n_n_0_1_1 (disV col2 ew2) (normIdxV col2))

theorem f8_eq : f8_v113 (F := Ideal) col2 ew2 row2 = normV col2 ew2 row2 := rfl
theorem f12_eq : f12_v201 (F := Ideal) col2 ew2 row2 = normV col2 ew2 row2 := rfl

include hrow hcol in
theorem normV_apply (e : Fin 526336) :
    normV col2 ew2 row2 (ix1 e) = (disV col2 ew2 (ix1 ⟨Gcn.src e, Gcn.src_lt e⟩) * ew2 (ix1 e)) * disV col2 ew2 (ix1 ⟨Gcn.tgt e, Gcn.tgt_lt e⟩) := by
  unfold normV
  rw [mulf_apply, mulf_apply, gather1_apply, gather1_apply, gatherNode row2 Gcn.src Gcn.src_lt hrow e, gatherNode col2 Gcn.tgt Gcn.tgt_lt hcol e]

theorem src_edge_node (g : Fin 8) (r c : Fin 256) : (⟨Gcn.src (Gcn.edge g r c), Gcn.src_lt _⟩ : Fin 2048) = node g r := Fin.ext (Gcn.src_edge g r c)
theorem tgt_edge_node (g : Fin 8) (r c : Fin 256) : (⟨Gcn.tgt (Gcn.edge g r c), Gcn.tgt_lt _⟩ : Fin 2048) = node g c := Fin.ext (Gcn.tgt_edge g r c)
theorem src_self_node (n : Fin 2048) : (⟨Gcn.src (Gcn.selfLoop n), Gcn.src_lt _⟩ : Fin 2048) = n := Fin.ext (Gcn.src_self n)
theorem tgt_self_node (n : Fin 2048) : (⟨Gcn.tgt (Gcn.selfLoop n), Gcn.tgt_lt _⟩ : Fin 2048) = n := Fin.ext (Gcn.tgt_self n)

include hrow hcol hewE hewS in
theorem normV_edge (g : Fin 8) (r c : Fin 256) :
    normV col2 ew2 row2 (ix1 (Gcn.edge g r c))
      = (Gcn.dis (fun r c => a1 (ix3 g r c)) r * Gcn.pos (a1 (ix3 g r c))) * Gcn.dis (fun r c => a1 (ix3 g r c)) c := by
  rw [normV_apply row2 col2 ew2 hrow hcol, src_edge_node, tgt_edge_node, disV_apply a1 col2 ew2 hcol hewE hewS,
    disV_apply a1 col2 ew2 hcol hewE hewS, hewE]

include hrow hcol hewE hewS in
theorem normV_self (g : Fin 8) (c : Fin 256) :
    normV col2 ew2 row2 (ix1 (Gcn.selfLoop (node g c)))
      = (Gcn.dis (fun r c => a1 (ix3 g r c)) c * Gcn.one) * Gcn.dis (fun r c => a1 (ix3 g r c)) c := by
  rw [normV_apply row2 col2 ew2 hrow hcol, src_self_node, tgt_self_node, disV_apply a1 col2 ew2 hcol hewE hewS, hewS]

/-! ## The messages -/

def convRV (Wc : FVec Ideal S128x128 .f32) (X : FVec Ideal S2048x128 .f32) (row2 : IVec S526336 32) (norm : FVec Ideal S526336 .f32)
    (col2 : IVec S526336 32) (bc : FVec Ideal S128 .f32) : FVec Ideal S2048x128 .f32 :=
  addf (Host.scatterAdd scatter_S2048x128_S526336x1_S526336x128_1_0_0_1
      (broadcastInDim S2048x128 ![] bcast_S_S2048x128 (constant S_ .f32 0x00000000#32)) (normIdxV col2)
      (mulf (Host.gather gather_S2048x128_S526336x1_S526336x128_1_0_n_n_0_1_1128
          (Host.dotGeneral dot_S2048x128_S128x128_S2048x128_1_0_0_1_n_n none X (transpose S128x128 [1, 0] Wc transposes_S128x128_S128x128_1_0))
          (normIdxV row2))
        (broadcastInDim S526336x128 ![0, 1] bcast_S526336x1_S526336x128_0_1 (broadcastInDim S526336x1 ![0] bcast_S526336_S526336x1_0 norm))))
    (broadcastInDim S2048x128 ![0, 1] bcast_S1x128_S2048x128_0_1 (broadcastInDim S1x128 ![1] bcast_S128_S1x128_1 bc))

theorem f9_eq (Wc : FVec Ideal S128x128 .f32) (X : FVec Ideal S2048x128 .f32) (norm : FVec Ideal S526336 .f32) (bc : FVec Ideal S128 .f32) :
    f9_v136 (F := Ideal) Wc X row2 norm col2 bc = convRV Wc X row2 norm col2 bc := rfl
theorem f13_eq (Wc : FVec Ideal S128x128 .f32) (X : FVec Ideal S2048x128 .f32) (norm : FVec Ideal S526336 .f32) (bc : FVec Ideal S128 .f32) :
    f13_v224 (F := Ideal) Wc X row2 norm col2 bc = convRV Wc X row2 norm col2 bc := rfl

theorem normB_apply (norm : FVec Ideal S526336 .f32) (e : Fin 526336) (f : Fin 128) :
    broadcastInDim S526336x128 ![0, 1] bcast_S526336x1_S526336x128_0_1 (broadcastInDim S526336x1 ![0] bcast_S526336_S526336x1_0 norm) (ix2 e f)
      = norm (ix1 e) := by
  refine (broadcastInDim_apply _ _ _ (ix2 e f) (ix2 e (0 : Fin 1)) fun a => ?_).trans ?_
  · match a with
    | ⟨0, _⟩ => rfl
    | ⟨1, _⟩ => rfl
  · refine broadcastInDim_apply _ _ _ (ix2 e (0 : Fin 1)) (ix1 e) fun a => ?_
    match a with
    | ⟨0, _⟩ => rfl

include hrow in
/-- One message entry: the source row by weightsᵀ, times the edge's coefficient. -/
theorem msg_apply (Wc : FVec Ideal S128x128 .f32) (X : FVec Ideal S2048x128 .f32) (norm : FVec Ideal S526336 .f32) (e : Fin 526336) (f : Fin 128) :
    mulf (Host.gather gather_S2048x128_S526336x1_S526336x128_1_0_n_n_0_1_1128
          (Host.dotGeneral dot_S2048x128_S128x128_S2048x128_1_0_0_1_n_n none X (transpose S128x128 [1, 0] Wc transposes_S128x128_S128x128_1_0))
          (normIdxV row2))
        (broadcastInDim S526336x128 ![0, 1] bcast_S526336x1_S526336x128_0_1 (broadcastInDim S526336x1 ![0] bcast_S526336_S526336x1_0 norm))
        (ix2 e f)
      = Gcn.lin (fun f k => Wc (ix2 f k)) (fun k => X (ix2 (⟨Gcn.src e, Gcn.src_lt e⟩ : Fin 2048) k)) f * norm (ix1 e) := by
  rw [mulf_apply, gatherRows_apply, normB_apply, gatherNode row2 Gcn.src Gcn.src_lt hrow, dotT_apply]
  rfl

include hrow hcol hewE hewS in
/-- THE CONVOLUTION AT A NODE: the reference's scatter-added messages at node 256·g + c are the specification's dense
    convolution of graph g at node c, of the rows 256·g + r of the layer's input. -/
theorem convRV_apply (Wc : FVec Ideal S128x128 .f32) (X : FVec Ideal S2048x128 .f32) (bc : FVec Ideal S128 .f32)
    (g : Fin 8) (c : Fin 256) (f : Fin 128) :
    convRV Wc X row2 (normV col2 ew2 row2) col2 bc (ix2 (node g c) f)
      = Gcn.convRaw (fun r c => Gcn.pos (a1 (ix3 g r c))) (Gcn.dis (fun r c => a1 (ix3 g r c))) (fun f k => Wc (ix2 f k)) (fun f => bc (ix1 f))
          (fun r k => X (ix2 (node g r) k)) c f := by
  unfold convRV Gcn.convRaw
  rw [addf_apply, scatterAdd2_apply, scalarR_apply, bias_apply]
  have hf : (Finset.univ.filter fun e : Fin 526336 => (normIdxV col2 (ix2 e (0 : Fin 1))).toInt = ((node g c).val : Int))
      = Finset.univ.filter fun e : Fin 526336 => Gcn.tgt e = (node g c).val := by
    refine Finset.filter_congr fun e _ => ?_
    rw [normIdxV_toInt col2 Gcn.tgt Gcn.tgt_lt hcol e]
    exact Int.natCast_inj
  rw [hf, Gcn.sum_tgt _ g c (node g c) (node_val g c), Ideal.ofBits_zero_f32, zero_add]
  refine congrArg (fun t => t + bc (ix1 f)) ?_
  refine Eq.trans ?_ (Gcn.conv_law (fun r => Gcn.pos (a1 (ix3 g r c))) (fun r => Gcn.lin (fun f k => Wc (ix2 f k)) (fun k => X (ix2 (node g r) k)) f)
    (Gcn.dis fun r c => a1 (ix3 g r c)) (Gcn.lin (fun f k => Wc (ix2 f k)) (fun k => X (ix2 (node g c) k)) f)
    (Gcn.dis (fun r c => a1 (ix3 g r c)) c) (Gcn.dis_nonneg (fun r c => a1 (ix3 g r c)) c) (Gcn.dis_ne_top (fun r c => a1 (ix3 g r c)) c))
  refine congrArg₂ (· + ·) (Finset.sum_congr rfl fun r _ => ?_) ?_
  · rw [msg_apply row2 hrow, src_edge_node, normV_edge a1 row2 col2 ew2 hrow hcol hewE hewS]
  · rw [msg_apply row2 hrow, src_self_node, normV_self a1 row2 col2 ew2 hrow hcol hewE hewS]

end Facts

end Cert.ReferenceIdeal.Read

end
-- ==== Proof.LibWindowScatter.lean ====
/-
  A host scatter whose body returns the update (`.at[...].set`), read at an index. The scatter is a left fold over
  the update's entries, each overwriting the operand at the index it lands on. An index no entry lands on keeps the
  operand's value; an index exactly one entry lands on ends holding that entry's update.
-/
import Idealize.ShloMosaic.PureOps

namespace Idealize.ShloMosaic.WindowScatter

variable {α ι κ : Type} [DecidableEq ι]

/-- One step of the fold: entry `n` overwrites the index it lands on, if any. -/
def step (res : κ → Option ι) (upd : κ → α) (r : ι → α) (n : κ) : ι → α :=
  match res n with
  | some i => fun i' => if i' = i then upd n else r i'
  | none => r

theorem step_miss (res : κ → Option ι) (upd : κ → α) (r : ι → α) (n : κ) (i : ι) (h : res n ≠ some i) :
    step res upd r n i = r i := by
  unfold step
  cases hn : res n with
  | none => rfl
  | some i0 =>
    show (if i = i0 then upd n else r i) = r i
    rw [if_neg fun e => h (by rw [hn, e])]

theorem step_hit (res : κ → Option ι) (upd : κ → α) (r : ι → α) (n : κ) (i : ι) (h : res n = some i) :
    step res upd r n i = upd n := by
  unfold step
  rw [h]
  show (if i = i then upd n else r i) = upd n
  rw [if_pos rfl]

/-- An index no entry of the list lands on keeps its value through the fold. -/
theorem foldl_miss (res : κ → Option ι) (upd : κ → α) (i : ι) :
    ∀ (L : List κ) (x : ι → α), (∀ n ∈ L, res n ≠ some i) → (L.foldl (step res upd) x) i = x i
  | [], _, _ => rfl
  | n :: L, x, h => by
    rw [List.foldl_cons, foldl_miss res upd i L _ fun m hm => h m (List.mem_cons_of_mem _ hm),
      step_miss res upd x n i (h n List.mem_cons_self)]

/-- An index exactly one entry `n₀` of a duplicate-free list lands on ends holding that entry's update. -/
theorem foldl_hit (res : κ → Option ι) (upd : κ → α) (i : ι) (n₀ : κ) (h₀ : res n₀ = some i) :
    ∀ (L : List κ) (x : ι → α), n₀ ∈ L → L.Nodup → (∀ n ∈ L, res n = some i → n = n₀) → (L.foldl (step res upd) x) i = upd n₀
  | [], _, hm, _, _ => absurd hm List.not_mem_nil
  | n :: L, x, hm, hnd, hu => by
    rw [List.foldl_cons]
    rcases List.mem_cons.mp hm with rfl | hm'
    · rw [foldl_miss res upd i L _ fun m hmL hres => by
          have := hu m (List.mem_cons_of_mem _ hmL) hres
          exact (List.nodup_cons.mp hnd).1 (this ▸ hmL)]
      exact step_hit res upd x n₀ i h₀
    · exact foldl_hit res upd i n₀ h₀ L _ hm' (List.nodup_cons.mp hnd).2 fun m hmL => hu m (List.mem_cons_of_mem _ hmL)

end Idealize.ShloMosaic.WindowScatter

namespace Idealize.ShloMosaic

variable {α : Type} {s si u : Shape} {w : Nat}

/-- The host scatter with the body that returns the update is the fold of `WindowScatter.step`. -/
theorem Host.scatter_set_eq (d : ScatterDims s si u) (x : s.Idx → α) (idx : IVec si w) (upd : u.Idx → α) :
    Host.scatter d (fun _ b => b) x idx upd
      = (List.finRange u.numel).foldl (WindowScatter.step (fun n => d.resultIdx? (u.rowMajor.symm n) idx) (fun n => upd (u.rowMajor.symm n))) x := by
  unfold Host.scatter
  refine congrArg (fun f => List.foldl f x (List.finRange u.numel)) ?_
  funext r n
  unfold WindowScatter.step
  dsimp only
  cases d.resultIdx? (u.rowMajor.symm n) idx <;> rfl

/-- An index no update entry lands on keeps the operand's value. -/
theorem Host.scatter_set_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [Host.scatter_set_eq]
  exact WindowScatter.foldl_miss _ _ i _ x fun n _ => h _

/-- An index exactly one update entry `j₀` lands on ends holding that entry. -/
theorem Host.scatter_set_hit (d : ScatterDims s si u) (x : s.Idx → α) (idx : IVec si w) (upd : u.Idx → α) (i : s.Idx) (j₀ : u.Idx)
    (h₀ : d.resultIdx? j₀ idx = some i) (hu : ∀ j : u.Idx, d.resultIdx? j idx = some i → j = j₀) :
    Host.scatter d (fun _ b => b) x idx upd i = upd j₀ := by
  rw [Host.scatter_set_eq]
  have e := WindowScatter.foldl_hit (fun n => d.resultIdx? (u.rowMajor.symm n) idx) (fun n => upd (u.rowMajor.symm n)) i (u.rowMajor j₀)
    (by simp [h₀]) (List.finRange u.numel) x (List.mem_finRange _) (List.nodup_finRange _)
    (fun n _ hn => by
      have := hu _ hn
      rw [← this]; simp)
  rw [e]
  simp

end Idealize.ShloMosaic
-- ==== Proof.RefBlockDiag.lean ====
/-
  The block-diagonal adjacency read at an in-block entry. Eight window scatters write the graphs' 256×256 adjacency
  blocks at (256·k, 256·k) of a zero 2048×2048 array; entry (256·g + r, 256·g + c) lies in the g-th block only, so
  it ends holding graph g's adjacency at (r, c).
-/
import proofs.«151161_g38689065402409_fold_wed_m_144_3_alg».proof.Proof.RefChain
import proofs.«151161_g38689065402409_fold_wed_m_144_3_alg».proof.Proof.GcnLaw
import proofs.«151161_g38689065402409_fold_wed_m_144_3_alg».proof.Proof.GcnArray
import proofs.«151161_g38689065402409_fold_wed_m_144_3_alg».proof.Proof.RefDense
import proofs.«151161_g38689065402409_fold_wed_m_144_3_alg».proof.Proof.LibWindowScatter
import proofs.«151161_g38689065402409_fold_wed_m_144_3_alg».proof.Proof.LibInt32
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open scoped BigOperators

open Idealize.ShloMosaic.Int32

/-! ## Where one block's entries land -/

theorem bd_start0 (idx : IVec S2 32) (j : S256x256.Idx) : scatter_S2048x2048_S2_S256x256_01_n_01_0.start j idx (0 : Fin 2) = (idx (ix1 (0 : Fin 2))).toInt := by
  unfold ScatterDims.start
  rw [dif_pos (show (0 : Fin 2) ∈ scatter_S2048x2048_S2_S256x256_01_n_01_0.scatterDimsToOperandDims from by decide)]
  refine congrArg (fun t => (idx t).toInt) ?_
  funext b
  refine Fin.ext ?_
  match b with
  | ⟨0, _⟩ => rfl

theorem bd_start1 (idx : IVec S2 32) (j : S256x256.Idx) : scatter_S2048x2048_S2_S256x256_01_n_01_0.start j idx (1 : Fin 2) = (idx (ix1 (1 : Fin 2))).toInt := by
  unfold ScatterDims.start
  rw [dif_pos (show (1 : Fin 2) ∈ scatter_S2048x2048_S2_S256x256_01_n_01_0.scatterDimsToOperandDims from by decide)]
  refine congrArg (fun t => (idx t).toInt) ?_
  funext b
  refine Fin.ext ?_
  match b with
  | ⟨0, _⟩ => rfl

theorem bd_window0 (j : S256x256.Idx) : scatter_S2048x2048_S2_S256x256_01_n_01_0.window j (0 : Fin 2) = (j 0).val := rfl
theorem bd_window1 (j : S256x256.Idx) : scatter_S2048x2048_S2_S256x256_01_n_01_0.window j (1 : Fin 2) = (j 1).val := rfl

/-- With the start index `(s, s)`, update entry `(p, q)` lands on `(s + p, s + q)` and nowhere else. -/
theorem bd_result (idx : IVec S2 32) (s0 : ℕ) (hs : s0 + 255 < 2048)
    (h0 : idx (ix1 (0 : Fin 2)) = BitVec.ofNat 32 s0) (h1 : idx (ix1 (1 : Fin 2)) = BitVec.ofNat 32 s0)
    (p q : Fin 256) (i0 i1 : Fin 2048) :
    scatter_S2048x2048_S2_S256x256_01_n_01_0.resultIdx? (ix2 p q) idx = some (ix2 i0 i1) ↔ i0.val = s0 + p.val ∧ i1.val = s0 + q.val := by
  have hp := p.isLt
  have hq := q.isLt
  have t0 : (idx (ix1 (0 : Fin 2))).toInt = (s0 : Int) := by rw [h0, toInt_ofNat_small _ (by omega)]
  have t1 : (idx (ix1 (1 : Fin 2))).toInt = (s0 : Int) := by rw [h1, toInt_ofNat_small _ (by omega)]
  unfold ScatterDims.resultIdx?
  constructor
  · intro h
    split at h
    · have e0 := congrArg Fin.val (congrFun (Option.some.inj h) (0 : Fin 2))
      have e1 := congrArg Fin.val (congrFun (Option.some.inj h) (1 : Fin 2))
      change (scatter_S2048x2048_S2_S256x256_01_n_01_0.start (ix2 p q) idx 0 + (scatter_S2048x2048_S2_S256x256_01_n_01_0.window (ix2 p q) 0 : Int)).toNat = i0.val at e0
      change (scatter_S2048x2048_S2_S256x256_01_n_01_0.start (ix2 p q) idx 1 + (scatter_S2048x2048_S2_S256x256_01_n_01_0.window (ix2 p q) 1 : Int)).toNat = i1.val at e1
      rw [bd_start0, bd_window0, t0] at e0
      rw [bd_start1, bd_window1, t1] at e1
      have f0 : ((s0 : Int) + ((p.val : Nat) : Int)).toNat = s0 + p.val := by omega
      have f1 : ((s0 : Int) + ((q.val : Nat) : Int)).toNat = s0 + q.val := by omega
      exact ⟨(e0.symm.trans f0), (e1.symm.trans f1)⟩
    · exact absurd h (by simp)
  · rintro ⟨e0, e1⟩
    have hb : ∀ a, 0 ≤ scatter_S2048x2048_S2_S256x256_01_n_01_0.start (ix2 p q) idx a + (scatter_S2048x2048_S2_S256x256_01_n_01_0.window (ix2 p q) a : Int)
        ∧ scatter_S2048x2048_S2_S256x256_01_n_01_0.start (ix2 p q) idx a + (scatter_S2048x2048_S2_S256x256_01_n_01_0.window (ix2 p q) a : Int) < (S2048x2048.size a : Int) := by
      intro a
      match a with
      | ⟨0, _⟩ =>
        show 0 ≤ scatter_S2048x2048_S2_S256x256_01_n_01_0.start (ix2 p q) idx 0 + (scatter_S2048x2048_S2_S256x256_01_n_01_0.window (ix2 p q) 0 : Int)
          ∧ scatter_S2048x2048_S2_S256x256_01_n_01_0.start (ix2 p q) idx 0 + (scatter_S2048x2048_S2_S256x256_01_n_01_0.window (ix2 p q) 0 : Int) < ((2048 : Nat) : Int)
        rw [bd_start0, bd_window0, t0]
        show 0 ≤ (s0 : Int) + ((p.val : Nat) : Int) ∧ (s0 : Int) + ((p.val : Nat) : Int) < ((2048 : Nat) : Int)
        constructor <;> omega
      | ⟨1, _⟩ =>
        show 0 ≤ scatter_S2048x2048_S2_S256x256_01_n_01_0.start (ix2 p q) idx 1 + (scatter_S2048x2048_S2_S256x256_01_n_01_0.window (ix2 p q) 1 : Int)
          ∧ scatter_S2048x2048_S2_S256x256_01_n_01_0.start (ix2 p q) idx 1 + (scatter_S2048x2048_S2_S256x256_01_n_01_0.window (ix2 p q) 1 : Int) < ((2048 : Nat) : Int)
        rw [bd_start1, bd_window1, t1]
        show 0 ≤ (s0 : Int) + ((q.val : Nat) : Int) ∧ (s0 : Int) + ((q.val : Nat) : Int) < ((2048 : Nat) : Int)
        constructor <;> omega
    rw [dif_pos hb]
    refine congrArg some ?_
    funext a
    refine Fin.ext ?_
    match a with
    | ⟨0, _⟩ =>
      show (scatter_S2048x2048_S2_S256x256_01_n_01_0.start (ix2 p q) idx 0 + (scatter_S2048x2048_S2_S256x256_01_n_01_0.window (ix2 p q) 0 : Int)).toNat = i0.val
      rw [bd_start0, bd_window0, t0]
      show ((s0 : Int) + ((p.val : Nat) : Int)).toNat = i0.val
      omega
    | ⟨1, _⟩ =>
      show (scatter_S2048x2048_S2_S256x256_01_n_01_0.start (ix2 p q) idx 1 + (scatter_S2048x2048_S2_S256x256_01_n_01_0.window (ix2 p q) 1 : Int)).toNat = i1.val
      rw [bd_start1, bd_window1, t1]
      show ((s0 : Int) + ((q.val : Nat) : Int)).toNat = i1.val
      omega

/-! ## One block written -/

/-- Writing a 256×256 block at a start index. -/
def bd (x : FVec Ideal S2048x2048 .f32) (idx : IVec S2 32) (U : FVec Ideal S256x256 .f32) : FVec Ideal S2048x2048 .f32 :=
  Host.scatter scatter_S2048x2048_S2_S256x256_01_n_01_0 (fun _ b => b) x idx U

/-- Writing block `k` at (256·k, 256·k): the in-block entry (r, c) of graph `g` becomes the block's (r, c) when k = g and is
    untouched otherwise. -/
theorem bd_apply (x : FVec Ideal S2048x2048 .f32) (idx : IVec S2 32) (U : FVec Ideal S256x256 .f32) (k : Fin 8)
    (s0 : ℕ) (hs : s0 = 256 * k.val)
    (h0 : idx (ix1 (0 : Fin 2)) = BitVec.ofNat 32 s0) (h1 : idx (ix1 (1 : Fin 2)) = BitVec.ofNat 32 s0)
    (g : Fin 8) (r c : Fin 256) :
    bd x idx U (ix2 (node g r) (node g c)) = if k = g then U (ix2 r c) else x (ix2 (node g r) (node g c)) := by
  subst hs
  have hk := k.isLt
  have hg := g.isLt
  have hr := r.isLt
  have hc := c.isLt
  unfold bd
  by_cases hkg : k = g
  · subst hkg
    rw [if_pos rfl]
    refine Host.scatter_set_hit _ x idx U _ (ix2 r c) ?_ ?_
    · exact (bd_result idx (256 * k.val) (by omega) h0 h1 r c (node k r) (node k c)).mpr ⟨by show k.val * 256 + r.val = _; omega, by show k.val * 256 + c.val = _; omega⟩
    · intro j hj
      obtain ⟨p, q, rfl⟩ : ∃ (p q : Fin 256), j = ix2 p q := ⟨j 0, j 1, eq_ix2 j⟩
      obtain ⟨e0, e1⟩ := (bd_result idx (256 * k.val) (by omega) h0 h1 p q (node k r) (node k c)).mp hj
      have e0' : k.val * 256 + r.val = 256 * k.val + p.val := e0
      have e1' : k.val * 256 + c.val = 256 * k.val + q.val := e1
      refine congrArg₂ ix2 (Fin.ext ?_) (Fin.ext ?_) <;> omega
  · rw [if_neg hkg]
    refine Host.scatter_set_miss _ x idx U _ fun j hj => ?_
    obtain ⟨p, q, rfl⟩ : ∃ (p q : Fin 256), j = ix2 p q := ⟨j 0, j 1, eq_ix2 j⟩
    obtain ⟨e0, -⟩ := (bd_result idx (256 * k.val) (by omega) h0 h1 p q (node g r) (node g c)).mp hj
    have e0' : g.val * 256 + r.val = 256 * k.val + p.val := e0
    have hp := p.isLt
    exact hkg (Fin.ext (by omega))

/-! ## The start indices and the blocks of the program -/

/-- The start index `(w, w)`, built by concatenating two one-entry vectors. -/
theorem pairConst_apply (w : BitVec 32) (a : Fin 2) :
    concatenate S2 0 [⟨S1, (broadcastInDim S1 ![] bcast_S_S1 (constantI S_ 32 w) : IVec S1 32)⟩,
      ⟨S1, (broadcastInDim S1 ![] bcast_S_S1 (constantI S_ 32 w) : IVec S1 32)⟩] concatenates_S1_S1_S2_d0 (ix1 a) = w := by
  match a with
  | ⟨0, _⟩ =>
    refine (concatenate_pair_apply_left (t := S2) (s₁ := S1) (s₂ := S1) (0 : Fin 1) _ _ _ (ix1 (0 : Fin 2)) rfl (ix1 (0 : Fin 1)) (fun b => ?_)).trans rfl
    match b with
    | ⟨0, _⟩ => rfl
  | ⟨1, _⟩ =>
    refine (concatenate_pair_apply_right (t := S2) (s₁ := S1) (s₂ := S1) (0 : Fin 1) _ _ _ (ix1 (1 : Fin 2)) rfl rfl (ix1 (0 : Fin 1)) (fun b hb => ?_) ?_).trans rfl
    · exact absurd (Subsingleton.elim _ _) hb
    · rfl

/-- Graph `k`'s adjacency as a 256×256 block: a unit slice of the argument with its unit axis dropped. -/
theorem block_apply (a1 : FVec Ideal S8x256x256 .f32) (k : ℕ) (hk : k < 8) (h : S8x256x256.Slices ![k, 0, 0] S1x256x256) (p q : Fin 256) :
    shapeCast S256x256 (extractStridedSlice S1x256x256 ![k, 0, 0] a1 h) shapeCasts_S1x256x256_S256x256 (ix2 p q) = a1 (ix3 (⟨k, hk⟩ : Fin 8) p q) := by
  refine (shapeCast_1ab_ab_apply _ _ p q).trans ?_
  refine extractStridedSlice_apply _ a1 h (ix3 (0 : Fin 1) p q) (ix3 (⟨k, hk⟩ : Fin 8) p q) fun a => ?_
  match a with
  | ⟨0, _⟩ => show k = k + 0; omega
  | ⟨1, _⟩ => show p.val = 0 + p.val; omega
  | ⟨2, _⟩ => show q.val = 0 + q.val; omega

/-! ## The eight blocks -/

theorem v48_eq (a1 : FVec Ideal S8x256x256 .f32) :
    r_v48 (F := Ideal) a1 = (bd (bd (bd (bd (bd (bd (bd (bd (broadcastInDim S2048x2048 ![] bcast_S_S2048x2048 (constant (F := Ideal) S_ .f32 0x00000000#32))
      (concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0)
      (shapeCast S256x256 (extractStridedSlice S1x256x256 ![0, 0, 0] a1 slices_S8x256x256_S1x256x256_0_0_0) shapeCasts_S1x256x256_S256x256))
      (concatenate S2 0 [⟨S1, (broadcastInDim S1 ![] bcast_S_S1 (constantI S_ 32 256#32) : IVec S1 32)⟩, ⟨S1, (broadcastInDim S1 ![] bcast_S_S1 (constantI S_ 32 256#32) : IVec S1 32)⟩] concatenates_S1_S1_S2_d0)
      (shapeCast S256x256 (extractStridedSlice S1x256x256 ![1, 0, 0] a1 slices_S8x256x256_S1x256x256_1_0_0) shapeCasts_S1x256x256_S256x256))
      (concatenate S2 0 [⟨S1, (broadcastInDim S1 ![] bcast_S_S1 (constantI S_ 32 512#32) : IVec S1 32)⟩, ⟨S1, (broadcastInDim S1 ![] bcast_S_S1 (constantI S_ 32 512#32) : IVec S1 32)⟩] concatenates_S1_S1_S2_d0)
      (shapeCast S256x256 (extractStridedSlice S1x256x256 ![2, 0, 0] a1 slices_S8x256x256_S1x256x256_2_0_0) shapeCasts_S1x256x256_S256x256))
      (concatenate S2 0 [⟨S1, (broadcastInDim S1 ![] bcast_S_S1 (constantI S_ 32 768#32) : IVec S1 32)⟩, ⟨S1, (broadcastInDim S1 ![] bcast_S_S1 (constantI S_ 32 768#32) : IVec S1 32)⟩] concatenates_S1_S1_S2_d0)
      (shapeCast S256x256 (extractStridedSlice S1x256x256 ![3, 0, 0] a1 slices_S8x256x256_S1x256x256_3_0_0) shapeCasts_S1x256x256_S256x256))
      (concatenate S2 0 [⟨S1, (broadcastInDim S1 ![] bcast_S_S1 (constantI S_ 32 1024#32) : IVec S1 32)⟩, ⟨S1, (broadcastInDim S1 ![] bcast_S_S1 (constantI S_ 32 1024#32) : IVec S1 32)⟩] concatenates_S1_S1_S2_d0)
      (shapeCast S256x256 (extractStridedSlice S1x256x256 ![4, 0, 0] a1 slices_S8x256x256_S1x256x256_4_0_0) shapeCasts_S1x256x256_S256x256))
      (concatenate S2 0 [⟨S1, (broadcastInDim S1 ![] bcast_S_S1 (constantI S_ 32 1280#32) : IVec S1 32)⟩, ⟨S1, (broadcastInDim S1 ![] bcast_S_S1 (constantI S_ 32 1280#32) : IVec S1 32)⟩] concatenates_S1_S1_S2_d0)
      (shapeCast S256x256 (extractStridedSlice S1x256x256 ![5, 0, 0] a1 slices_S8x256x256_S1x256x256_5_0_0) shapeCasts_S1x256x256_S256x256))
      (concatenate S2 0 [⟨S1, (broadcastInDim S1 ![] bcast_S_S1 (constantI S_ 32 1536#32) : IVec S1 32)⟩, ⟨S1, (broadcastInDim S1 ![] bcast_S_S1 (constantI S_ 32 1536#32) : IVec S1 32)⟩] concatenates_S1_S1_S2_d0)
      (shapeCast S256x256 (extractStridedSlice S1x256x256 ![6, 0, 0] a1 slices_S8x256x256_S1x256x256_6_0_0) shapeCasts_S1x256x256_S256x256))
      (concatenate S2 0 [⟨S1, (broadcastInDim S1 ![] bcast_S_S1 (constantI S_ 32 1792#32) : IVec S1 32)⟩, ⟨S1, (broadcastInDim S1 ![] bcast_S_S1 (constantI S_ 32 1792#32) : IVec S1 32)⟩] concatenates_S1_S1_S2_d0)
      (shapeCast S256x256 (extractStridedSlice S1x256x256 ![7, 0, 0] a1 slices_S8x256x256_S1x256x256_7_0_0) shapeCasts_S1x256x256_S256x256)) := rfl

attribute [irreducible] bd

/-- Entry (256·g + r, 256·g + c) of the block-diagonal array is graph g's adjacency at (r, c). -/
theorem blockDiag_apply (a1 : FVec Ideal S8x256x256 .f32) (g : Fin 8) (r c : Fin 256) :
    r_v48 (F := Ideal) a1 (ix2 (node g r) (node g c)) = a1 (ix3 g r c) := by
  rw [v48_eq]
  rw [bd_apply _ _ _ (7 : Fin 8) 1792 rfl (pairConst_apply 1792#32 0) (pairConst_apply 1792#32 1) g r c, block_apply a1 7 (by norm_num) _ r c]
  rw [bd_apply _ _ _ (6 : Fin 8) 1536 rfl (pairConst_apply 1536#32 0) (pairConst_apply 1536#32 1) g r c, block_apply a1 6 (by norm_num) _ r c]
  rw [bd_apply _ _ _ (5 : Fin 8) 1280 rfl (pairConst_apply 1280#32 0) (pairConst_apply 1280#32 1) g r c, block_apply a1 5 (by norm_num) _ r c]
  rw [bd_apply _ _ _ (4 : Fin 8) 1024 rfl (pairConst_apply 1024#32 0) (pairConst_apply 1024#32 1) g r c, block_apply a1 4 (by norm_num) _ r c]
  rw [bd_apply _ _ _ (3 : Fin 8) 768 rfl (pairConst_apply 768#32 0) (pairConst_apply 768#32 1) g r c, block_apply a1 3 (by norm_num) _ r c]
  rw [bd_apply _ _ _ (2 : Fin 8) 512 rfl (pairConst_apply 512#32 0) (pairConst_apply 512#32 1) g r c, block_apply a1 2 (by norm_num) _ r c]
  rw [bd_apply _ _ _ (1 : Fin 8) 256 rfl (pairConst_apply 256#32 0) (pairConst_apply 256#32 1) g r c, block_apply a1 1 (by norm_num) _ r c]
  rw [bd_apply _ _ _ (0 : Fin 8) 0 rfl (pairConst_apply 0#32 0) (pairConst_apply 0#32 1) g r c, block_apply a1 0 (by norm_num) _ r c]
  match g with
  | ⟨0, _⟩ => simp (decide := true)
  | ⟨1, _⟩ => simp (decide := true)
  | ⟨2, _⟩ => simp (decide := true)
  | ⟨3, _⟩ => simp (decide := true)
  | ⟨4, _⟩ => simp (decide := true)
  | ⟨5, _⟩ => simp (decide := true)
  | ⟨6, _⟩ => simp (decide := true)
  | ⟨7, _⟩ => simp (decide := true)

end Cert.ReferenceIdeal.Read

end
-- ==== Proof.RefEdges.lean ====
/-
  The edge lists of the reference as numbers and weights: entry j of the source and target lists holds src j and
  tgt j; the weight of the edge r → c of graph g is the positive part of that graph's adjacency at (r, c), read
  out of the block-diagonal array at (256·g + r, 256·g + c); a self loop weighs one.
-/
import proofs.«151161_g38689065402409_fold_wed_m_144_3_alg».proof.Proof.RefChain
import proofs.«151161_g38689065402409_fold_wed_m_144_3_alg».proof.Proof.GcnLaw
import proofs.«151161_g38689065402409_fold_wed_m_144_3_alg».proof.Proof.GcnArray
import proofs.«151161_g38689065402409_fold_wed_m_144_3_alg».proof.Proof.RefIndex
import proofs.«151161_g38689065402409_fold_wed_m_144_3_alg».proof.Proof.RefConv
import proofs.«151161_g38689065402409_fold_wed_m_144_3_alg».proof.Proof.RefBlockDiag
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open scoped BigOperators

open Idealize.ShloMosaic.Int32

/-! ## Sources and targets -/

theorem v80_apply (j : Fin 526336) : r_v80 (F := Ideal) (ix1 j) = BitVec.ofNat 32 (Gcn.src j) := by
  have h : r_v80 (F := Ideal) = concatenate S526336 0 [⟨S524288, r_v55 (F := Ideal)⟩, ⟨S2048, iotaInDim S2048 32 0⟩]
      concatenates_S524288_S2048_S526336_d0 := rfl
  rw [h]
  unfold Gcn.src
  by_cases hj : j.val < 524288
  · rw [if_pos hj]
    refine (concatenate_pair_apply_left (t := S526336) (s₁ := S524288) (s₂ := S2048) (0 : Fin 1) _ _ _ (ix1 j) rfl (ix1 (⟨j.val, hj⟩ : Fin 524288)) (fun b => ?_)).trans (v55_apply _)
    match b with
    | ⟨0, _⟩ => rfl
  · rw [if_neg hj]
    have hj2 : j.val - 524288 < 2048 := by have := j.isLt; omega
    refine (concatenate_pair_apply_right (t := S526336) (s₁ := S524288) (s₂ := S2048) (0 : Fin 1) _ _ _ (ix1 j) rfl rfl (ix1 (⟨j.val - 524288, hj2⟩ : Fin 2048)) (fun b hb => ?_) ?_).trans rfl
    · exact absurd (Subsingleton.elim _ _) hb
    · show (j.val - 524288) + 524288 = j.val
      omega

theorem v81_apply (j : Fin 526336) : r_v81 (F := Ideal) (ix1 j) = BitVec.ofNat 32 (Gcn.tgt j) := by
  have h : r_v81 (F := Ideal) = concatenate S526336 0 [⟨S524288, r_v59 (F := Ideal)⟩, ⟨S2048, iotaInDim S2048 32 0⟩]
      concatenates_S524288_S2048_S526336_d0 := rfl
  rw [h]
  unfold Gcn.tgt
  by_cases hj : j.val < 524288
  · rw [if_pos hj]
    refine (concatenate_pair_apply_left (t := S526336) (s₁ := S524288) (s₂ := S2048) (0 : Fin 1) _ _ _ (ix1 j) rfl (ix1 (⟨j.val, hj⟩ : Fin 524288)) (fun b => ?_)).trans (v59_apply _)
    match b with
    | ⟨0, _⟩ => rfl
  · rw [if_neg hj]
    have hj2 : j.val - 524288 < 2048 := by have := j.isLt; omega
    refine (concatenate_pair_apply_right (t := S526336) (s₁ := S524288) (s₂ := S2048) (0 : Fin 1) _ _ _ (ix1 j) rfl rfl (ix1 (⟨j.val - 524288, hj2⟩ : Fin 2048)) (fun b hb => ?_) ?_).trans rfl
    · exact absurd (Subsingleton.elim _ _) hb
    · show (j.val - 524288) + 524288 = j.val
      omega

/-! ## The weights -/

/-- The index pairs the block-diagonal array is gathered at. -/
def pairIdx (row col : IVec S524288 32) : IVec S524288x2 32 :=
  concatenate S524288x2 1
    [⟨S524288x1, broadcastInDim S524288x1 ![0] bcast_S524288_S524288x1_0
        (select (cmpi .slt row (broadcastInDim S524288 ![] bcast_S_S524288 (constantI S_ 32 0#32)))
          (addi row (broadcastInDim S524288 ![] bcast_S_S524288 (constantI S_ 32 2048#32))) row)⟩,
     ⟨S524288x1, broadcastInDim S524288x1 ![0] bcast_S524288_S524288x1_0
        (select (cmpi .slt col (broadcastInDim S524288 ![] bcast_S_S524288 (constantI S_ 32 0#32)))
          (addi col (broadcastInDim S524288 ![] bcast_S_S524288 (constantI S_ 32 2048#32))) col)⟩]
    concatenates_S524288x1_S524288x1_S524288x2_d1

theorem pairIdx_row (row col : IVec S524288 32) (e : Fin 524288) : pairIdx row col (ix2 e (0 : Fin 2)) = normW (row (ix1 e)) 2048#32 := by
  unfold pairIdx
  refine (concatenate_pair_apply_left (t := S524288x2) (s₁ := S524288x1) (s₂ := S524288x1) (1 : Fin 2) _ _ _ (ix2 e (0 : Fin 2)) rfl (ix2 e (0 : Fin 1)) (fun b => ?_)).trans ?_
  · match b with
    | ⟨0, _⟩ => rfl
    | ⟨1, _⟩ => rfl
  · refine (broadcastInDim_apply _ _ _ (ix2 e (0 : Fin 1)) (ix1 e) fun a => ?_).trans rfl
    match a with
    | ⟨0, _⟩ => rfl

theorem pairIdx_col (row col : IVec S524288 32) (e : Fin 524288) : pairIdx row col (ix2 e (1 : Fin 2)) = normW (col (ix1 e)) 2048#32 := by
  unfold pairIdx
  refine (concatenate_pair_apply_right (t := S524288x2) (s₁ := S524288x1) (s₂ := S524288x1) (1 : Fin 2) _ _ _ (ix2 e (1 : Fin 2)) rfl rfl (ix2 e (0 : Fin 1)) (fun b hb => ?_) ?_).trans ?_
  · match b with
    | ⟨0, _⟩ => rfl
    | ⟨1, _⟩ => exact absurd rfl hb
  · rfl
  · refine (broadcastInDim_apply _ _ _ (ix2 e (0 : Fin 1)) (ix1 e) fun a => ?_).trans rfl
    match a with
    | ⟨0, _⟩ => rfl

/-- The gather of single entries of the 2048×2048 array: entry `e` reads at its (clamped) index pair. -/
theorem gatherPair_apply {α : Type} (x : S2048x2048.Idx → α) (idx : IVec S524288x2 32) (e : Fin 524288) :
    Host.gather gather_S2048x2048_S524288x2_S524288_n_01_n_n_01_1_11 x idx (ix1 e)
      = x (ix2 (⟨min (idx (ix2 e (0 : Fin 2))).toInt.toNat 2047, by omega⟩ : Fin 2048)
            (⟨min (idx (ix2 e (1 : Fin 2))).toInt.toNat 2047, by omega⟩ : Fin 2048)) := by
  unfold Host.gather
  refine congrArg x ?_
  funext a
  refine Fin.ext ?_
  match a with
  | ⟨0, _⟩ =>
    show gather_S2048x2048_S524288x2_S524288_n_01_n_n_01_1_11.start (ix1 e) idx 0
        + gather_S2048x2048_S524288x2_S524288_n_01_n_n_01_1_11.batchCoord (ix1 e) 0
        + gather_S2048x2048_S524288x2_S524288_n_01_n_n_01_1_11.offCoord (ix1 e) 0 = _
    have h1 : gather_S2048x2048_S524288x2_S524288_n_01_n_n_01_1_11.batchCoord (ix1 e) 0 = 0 := rfl
    have h2 : gather_S2048x2048_S524288x2_S524288_n_01_n_n_01_1_11.offCoord (ix1 e) 0 = 0 := rfl
    have h3 : gather_S2048x2048_S524288x2_S524288_n_01_n_n_01_1_11.start (ix1 e) idx 0 = min (idx (ix2 e (0 : Fin 2))).toInt.toNat 2047 := by
      unfold GatherDims.start
      rw [dif_pos (show (0 : Fin 2) ∈ gather_S2048x2048_S524288x2_S524288_n_01_n_n_01_1_11.startIndexMap from by decide)]
      refine congrArg (fun t => min (idx t).toInt.toNat _) ?_
      funext b
      refine Fin.ext ?_
      match b with
      | ⟨0, _⟩ => rfl
      | ⟨1, _⟩ => rfl
    rw [h1, h2, h3]
    rfl
  | ⟨1, _⟩ =>
    show gather_S2048x2048_S524288x2_S524288_n_01_n_n_01_1_11.start (ix1 e) idx 1
        + gather_S2048x2048_S524288x2_S524288_n_01_n_n_01_1_11.batchCoord (ix1 e) 1
        + gather_S2048x2048_S524288x2_S524288_n_01_n_n_01_1_11.offCoord (ix1 e) 1 = _
    have h1 : gather_S2048x2048_S524288x2_S524288_n_01_n_n_01_1_11.batchCoord (ix1 e) 1 = 0 := rfl
    have h2 : gather_S2048x2048_S524288x2_S524288_n_01_n_n_01_1_11.offCoord (ix1 e) 1 = 0 := rfl
    have h3 : gather_S2048x2048_S524288x2_S524288_n_01_n_n_01_1_11.start (ix1 e) idx 1 = min (idx (ix2 e (1 : Fin 2))).toInt.toNat 2047 := by
      unfold GatherDims.start
      rw [dif_pos (show (1 : Fin 2) ∈ gather_S2048x2048_S524288x2_S524288_n_01_n_n_01_1_11.startIndexMap from by decide)]
      refine congrArg (fun t => min (idx t).toInt.toNat _) ?_
      funext b
      refine Fin.ext ?_
      match b with
      | ⟨0, _⟩ => rfl
      | ⟨1, _⟩ => rfl
    rw [h1, h2, h3]
    rfl

/-- Selecting a value where it is positive and zero elsewhere is its positive part. -/
theorem select_pos (x : EReal) :
    Scalar.select (FloatOps.cmpf (F := Ideal) .ogt x (Ideal.ofBits .f32 0x00000000#32)) x (Ideal.ofBits .f32 0x00000000#32) = Gcn.pos x := by
  unfold Gcn.pos
  show Scalar.select (BitVec.ofBool (decide (Gcn.zero < x))) x Gcn.zero = max x Gcn.zero
  by_cases h : Gcn.zero < x
  · rw [decide_eq_true h, max_eq_left h.le]; rfl
  · rw [decide_eq_false h, max_eq_right (not_lt.mp h)]; rfl

theorem f6_eq (row col : IVec S524288 32) (NA : FVec Ideal S2048x2048 .f32) :
    f6_v77 (F := Ideal) row col NA
      = select (cmpf .ogt (Host.gather gather_S2048x2048_S524288x2_S524288_n_01_n_n_01_1_11 NA (pairIdx row col))
            (broadcastInDim S524288 ![] bcast_S_S524288 (constant S_ .f32 0x00000000#32)))
          (Host.gather gather_S2048x2048_S524288x2_S524288_n_01_n_n_01_1_11 NA (pairIdx row col))
          (broadcastInDim S524288 ![] bcast_S_S524288 (constant S_ .f32 0x00000000#32)) := rfl

/-- The weight of the edge r → c of graph g, for any 2048×2048 array holding graph g's adjacency in its g-th diagonal block. -/
theorem f6_edge (a1 : FVec Ideal S8x256x256 .f32) (NA : FVec Ideal S2048x2048 .f32) (g : Fin 8) (r c : Fin 256)
    (hNA : NA (ix2 (node g r) (node g c)) = a1 (ix3 g r c)) :
    f6_v77 (F := Ideal) (r_v55 (F := Ideal)) (r_v59 (F := Ideal)) NA (ix1 (⟨(Gcn.edge g r c).val, Gcn.edge_lt g r c⟩ : Fin 524288))
      = Gcn.pos (a1 (ix3 g r c)) := by
  have hg := g.isLt
  have hr := r.isLt
  have hc := c.isLt
  have hv : (Gcn.edge g r c).val = g.val * 65536 + r.val * 256 + c.val := rfl
  have hrow : (Gcn.edge g r c).val / 256 = g.val * 256 + r.val := by rw [hv]; omega
  have hcol : (Gcn.edge g r c).val / 65536 * 256 + (Gcn.edge g r c).val % 256 = g.val * 256 + c.val := by rw [hv]; omega
  have hx : Host.gather gather_S2048x2048_S524288x2_S524288_n_01_n_n_01_1_11 NA (pairIdx (r_v55 (F := Ideal)) (r_v59 (F := Ideal)))
      (ix1 (⟨(Gcn.edge g r c).val, Gcn.edge_lt g r c⟩ : Fin 524288)) = a1 (ix3 g r c) := by
    rw [gatherPair_apply]
    refine Eq.trans (congrArg NA ?_) hNA
    refine congrArg₂ ix2 (Fin.ext ?_) (Fin.ext ?_)
    · show min (pairIdx (r_v55 (F := Ideal)) (r_v59 (F := Ideal)) (ix2 _ (0 : Fin 2))).toInt.toNat 2047 = g.val * 256 + r.val
      rw [pairIdx_row, v55_apply]
      show min (normW (BitVec.ofNat 32 ((Gcn.edge g r c).val / 256)) 2048#32).toInt.toNat 2047 = _
      rw [hrow, normW_ofNat _ (by omega), toInt_ofNat_small _ (by omega), Int.toNat_natCast]
      omega
    · show min (pairIdx (r_v55 (F := Ideal)) (r_v59 (F := Ideal)) (ix2 _ (1 : Fin 2))).toInt.toNat 2047 = g.val * 256 + c.val
      rw [pairIdx_col, v59_apply]
      show min (normW (BitVec.ofNat 32 ((Gcn.edge g r c).val / 65536 * 256 + (Gcn.edge g r c).val % 256)) 2048#32).toInt.toNat 2047 = _
      rw [hcol, normW_ofNat _ (by omega), toInt_ofNat_small _ (by omega), Int.toNat_natCast]
      omega
  rw [f6_eq, select_apply, cmpf_apply, scalarR_apply, hx]
  exact select_pos _

theorem v77_edge (a1 : FVec Ideal S8x256x256 .f32) (g : Fin 8) (r c : Fin 256) :
    r_v77 (F := Ideal) a1 (ix1 (⟨(Gcn.edge g r c).val, Gcn.edge_lt g r c⟩ : Fin 524288)) = Gcn.pos (a1 (ix3 g r c)) :=
  f6_edge a1 (r_v48 (F := Ideal) a1) g r c (blockDiag_apply a1 g r c)

theorem v83_edge (a1 : FVec Ideal S8x256x256 .f32) (g : Fin 8) (r c : Fin 256) :
    r_v83 (F := Ideal) a1 (ix1 (Gcn.edge g r c)) = Gcn.pos (a1 (ix3 g r c)) := by
  have h : r_v83 (F := Ideal) a1 = concatenate S526336 0 [⟨S524288, r_v77 (F := Ideal) a1⟩,
      ⟨S2048, (broadcastInDim S2048 ![] bcast_S_S2048 (constant (F := Ideal) S_ .f32 0x3F800000#32) : FVec Ideal S2048 .f32)⟩] concatenates_S524288_S2048_S526336_d0 := rfl
  rw [h]
  refine (concatenate_pair_apply_left (t := S526336) (s₁ := S524288) (s₂ := S2048) (0 : Fin 1) _ _ _ (ix1 (Gcn.edge g r c)) rfl
    (ix1 (⟨(Gcn.edge g r c).val, Gcn.edge_lt g r c⟩ : Fin 524288)) (fun b => ?_)).trans (v77_edge a1 g r c)
  match b with
  | ⟨0, _⟩ => rfl

theorem v83_self (a1 : FVec Ideal S8x256x256 .f32) (n : Fin 2048) : r_v83 (F := Ideal) a1 (ix1 (Gcn.selfLoop n)) = Gcn.one := by
  have h : r_v83 (F := Ideal) a1 = concatenate S526336 0 [⟨S524288, r_v77 (F := Ideal) a1⟩,
      ⟨S2048, (broadcastInDim S2048 ![] bcast_S_S2048 (constant (F := Ideal) S_ .f32 0x3F800000#32) : FVec Ideal S2048 .f32)⟩] concatenates_S524288_S2048_S526336_d0 := rfl
  rw [h]
  refine (concatenate_pair_apply_right (t := S526336) (s₁ := S524288) (s₂ := S2048) (0 : Fin 1) _ _ _ (ix1 (Gcn.selfLoop n)) rfl rfl (ix1 n) (fun b hb => ?_) ?_).trans rfl
  · exact absurd (Subsingleton.elim _ _) hb
  · show n.val + 524288 = 524288 + n.val
    omega

end Cert.ReferenceIdeal.Read

end
-- ==== Proof.RefValue.lean ====
/-
  The reference's result against the specification: the composed stage functions of the sixteen arguments are
  the decoder of those arguments, entry by entry. Row 256·g + r of every flattened array is node r of graph g;
  each layer's convolution is the dense one by the edge-list law, its dense tail and normalisation are the
  kernel's, and the projection reads the rows back into graphs.
-/
import proofs.«151161_g38689065402409_fold_wed_m_144_3_alg».proof.Proof.RefChain
import proofs.«151161_g38689065402409_fold_wed_m_144_3_alg».proof.Proof.GcnLaw
import proofs.«151161_g38689065402409_fold_wed_m_144_3_alg».proof.Proof.GcnArray
import proofs.«151161_g38689065402409_fold_wed_m_144_3_alg».proof.Proof.RefEdges
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open scoped BigOperators

/-- The second layer's copy of the edge lists is the first's. -/
theorem v168_eq : r_v168 (F := Ideal) = r_v80 (F := Ideal) := rfl
theorem v169_eq : r_v169 (F := Ideal) = r_v81 (F := Ideal) := rfl
theorem v171_eq (a1 : FVec Ideal S8x256x256 .f32) : r_v171 (F := Ideal) a1 = r_v83 (F := Ideal) a1 := rfl

/-- The flattened node features: row 256·g + r is node r of graph g. -/
theorem v78_apply (a0 : FVec Ideal S8x256x128 .f32) (g : Fin 8) (r : Fin 256) (k : Fin 128) :
    r_v78 (F := Ideal) a0 (ix2 (node g r) k) = a0 (ix3 g r k) := by
  have h : r_v78 (F := Ideal) a0 = shapeCast S2048x128 a0 shapeCasts_S8x256x128_S2048x128 := rfl
  rw [h]
  refine shapeCast_apply _ _ (ix2 (node g r) k) (ix3 g r k) ?_
  rw [Shape.rowMajor_val_two, Shape.rowMajor_val_three]
  rfl

/-- ONE LAYER of the reference at node 256·g + c is the specification's layer of graph g at node c. -/
theorem layer_apply (a1 : FVec Ideal S8x256x256 .f32) (Wc : FVec Ideal S128x128 .f32) (bc : FVec Ideal S128 .f32)
    (Wm : FVec Ideal S128x128 .f32) (bm γ β : FVec Ideal S128 .f32) (X : FVec Ideal S2048x128 .f32)
    (g : Fin 8) (x : Fin 256 → Fin 128 → EReal) (hX : ∀ r k, X (ix2 (node g r) k) = x r k) (c : Fin 256) (f : Fin 128) :
    lnR (denseR (convRV Wc X (r_v80 (F := Ideal)) (normV (r_v81 (F := Ideal)) (r_v83 (F := Ideal) a1) (r_v80 (F := Ideal))) (r_v81 (F := Ideal)) bc) Wm bm) γ β
        (ix2 (node g c) f)
      = Gcn.layerRaw (fun r c => Gcn.pos (a1 (ix3 g r c))) (Gcn.dis (fun r c => a1 (ix3 g r c))) (fun f k => Wc (ix2 f k)) (fun f => bc (ix1 f))
          (fun f k => Wm (ix2 f k)) (fun f => bm (ix1 f)) (fun f => γ (ix1 f)) (fun f => β (ix1 f)) x c f := by
  rw [lnR_apply]
  unfold Gcn.layerRaw Gcn.preRaw
  refine congrArg (fun y => Gcn.lnrelu (fun f => γ (ix1 f)) (fun f => β (ix1 f)) y f) ?_
  funext k
  rw [denseR_apply]
  refine congrArg (fun y => Gcn.lin (fun f k => Wm (ix2 f k)) y k + bm (ix1 k)) ?_
  funext k'
  rw [convRV_apply a1 (r_v80 (F := Ideal)) (r_v81 (F := Ideal)) (r_v83 (F := Ideal) a1) v80_apply v81_apply (v83_edge a1) (v83_self a1)]
  refine congrArg (fun y => Gcn.convRaw _ _ _ _ y c k') ?_
  funext r k''
  exact hX r k''

/-- THE REFERENCE IS THE DECODER. -/
theorem result_eq (a0 : (⟨3, ![8, 256, 128]⟩ : Shape).Idx → EReal) (a1 : (⟨3, ![8, 256, 256]⟩ : Shape).Idx → EReal) (a2 : (⟨2, ![128, 128]⟩ : Shape).Idx → EReal) (a3 : (⟨1, ![128]⟩ : Shape).Idx → EReal) (a4 : (⟨2, ![128, 128]⟩ : Shape).Idx → EReal) (a5 : (⟨1, ![128]⟩ : Shape).Idx → EReal) (a6 : (⟨1, ![128]⟩ : Shape).Idx → EReal) (a7 : (⟨1, ![128]⟩ : Shape).Idx → EReal) (a8 : (⟨2, ![128, 128]⟩ : Shape).Idx → EReal) (a9 : (⟨1, ![128]⟩ : Shape).Idx → EReal) (a10 : (⟨2, ![128, 128]⟩ : Shape).Idx → EReal) (a11 : (⟨1, ![128]⟩ : Shape).Idx → EReal) (a12 : (⟨1, ![128]⟩ : Shape).Idx → EReal) (a13 : (⟨1, ![128]⟩ : Shape).Idx → EReal) (a14 : (⟨2, ![64, 128]⟩ : Shape).Idx → EReal) (a15 : (⟨1, ![64]⟩ : Shape).Idx → EReal) :
    (r_v260 (F := Ideal) a0 a1 a2 a3 a4 a5 a6 a7 a8 a9 a10 a11 a12 a13 a14 a15 : (⟨3, ![8, 256, 64]⟩ : Shape).Idx → EReal) = Gcn.arrayOut a0 a1 a2 a3 a4 a5 a6 a7 a8 a9 a10 a11 a12 a13 a14 a15 := by
  funext i
  obtain ⟨g, r, o, rfl⟩ : ∃ (g : Fin 8) (r : Fin 256) (o : Fin 64), i = ix3 g r o := ⟨i 0, i 1, i 2, eq_ix3 i⟩
  rw [Gcn.arrayOut_ix3]
  unfold Gcn.arrayDecode Gcn.decode
  -- the first layer's output, row by row
  have hL0 : ∀ (r : Fin 256) (k : Fin 128), r_v166 (F := Ideal) a0 a1 a2 a3 a4 a5 a6 a7 (ix2 (node g r) k)
      = Gcn.layerRaw (fun r c => Gcn.pos (a1 (ix3 g r c))) (Gcn.dis (fun r c => a1 (ix3 g r c))) (fun f k => a2 (ix2 f k)) (fun f => a3 (ix1 f))
          (fun f k => a4 (ix2 f k)) (fun f => a5 (ix1 f)) (fun f => a6 (ix1 f)) (fun f => a7 (ix1 f)) (fun r k => a0 (ix3 g r k)) r k := by
    intro r k
    have h : r_v166 (F := Ideal) a0 a1 a2 a3 a4 a5 a6 a7
        = lnR (denseR (convRV a2 (r_v78 (F := Ideal) a0) (r_v80 (F := Ideal)) (normV (r_v81 (F := Ideal)) (r_v83 (F := Ideal) a1) (r_v80 (F := Ideal))) (r_v81 (F := Ideal)) a3) a4 a5) a6 a7 := rfl
    rw [h]
    exact layer_apply a1 a2 a3 a4 a5 a6 a7 (r_v78 (F := Ideal) a0) g _ (fun r k => v78_apply a0 g r k) r k
  -- the second layer's
  have hL1 : ∀ (r : Fin 256) (k : Fin 128), r_v254 (F := Ideal) a0 a1 a2 a3 a4 a5 a6 a7 a8 a9 a10 a11 a12 a13 (ix2 (node g r) k)
      = Gcn.layerRaw (fun r c => Gcn.pos (a1 (ix3 g r c))) (Gcn.dis (fun r c => a1 (ix3 g r c))) (fun f k => a8 (ix2 f k)) (fun f => a9 (ix1 f))
          (fun f k => a10 (ix2 f k)) (fun f => a11 (ix1 f)) (fun f => a12 (ix1 f)) (fun f => a13 (ix1 f))
          (Gcn.layerRaw (fun r c => Gcn.pos (a1 (ix3 g r c))) (Gcn.dis (fun r c => a1 (ix3 g r c))) (fun f k => a2 (ix2 f k)) (fun f => a3 (ix1 f))
            (fun f k => a4 (ix2 f k)) (fun f => a5 (ix1 f)) (fun f => a6 (ix1 f)) (fun f => a7 (ix1 f)) (fun r k => a0 (ix3 g r k))) r k := by
    intro r k
    have h : r_v254 (F := Ideal) a0 a1 a2 a3 a4 a5 a6 a7 a8 a9 a10 a11 a12 a13
        = lnR (denseR (convRV a8 (r_v166 (F := Ideal) a0 a1 a2 a3 a4 a5 a6 a7) (r_v80 (F := Ideal)) (normV (r_v81 (F := Ideal)) (r_v83 (F := Ideal) a1) (r_v80 (F := Ideal))) (r_v81 (F := Ideal)) a9) a10 a11) a12 a13 := rfl
    rw [h]
    exact layer_apply a1 a8 a9 a10 a11 a12 a13 (r_v166 (F := Ideal) a0 a1 a2 a3 a4 a5 a6 a7) g _ hL0 r k
  have h : r_v260 (F := Ideal) a0 a1 a2 a3 a4 a5 a6 a7 a8 a9 a10 a11 a12 a13 a14 a15 = f15_v260 (F := Ideal) a14 (r_v254 (F := Ideal) a0 a1 a2 a3 a4 a5 a6 a7 a8 a9 a10 a11 a12 a13) a15 := rfl
  rw [h, f15_apply]
  refine congrArg (fun y => Gcn.lin (fun o k => a14 (ix2 o k)) y o + a15 (ix1 o)) ?_
  funext k
  exact hL1 r k

end Cert.ReferenceIdeal.Read

end
-- ==== Proof.lean ====
/-
  The certificate of a two-layer graph-convolution decoder: one Pallas program per graph (a grid of 8),
  each running  relu(adj) → degrees → inverse square roots, then twice
  [x·Wcᵀ, the normalised neighbourhood sum, bias, x·Wmᵀ + bias, layer normalisation, rectifier],
  then the output projection — against a jnp reference that builds ALL 8·256·256 in-block edges of a
  block-diagonal adjacency plus 2048 self loops and passes messages by gather and scatter-add.

  The three frames: both kernel programs by the generated frame; the reference by its run as a straight
  line of 412 host operations. The idealization rewrote nothing, so it is preserved trivially. The
  algebraic claim joins the kernel's per-graph dense formula and the reference's edge-list formula.
-/
import proofs.«151161_g38689065402409_fold_wed_m_144_3_alg».proof.Defs
import proofs.«151161_g38689065402409_fold_wed_m_144_3_alg».proof.Proof.Gen.Kernel
import proofs.«151161_g38689065402409_fold_wed_m_144_3_alg».proof.Proof.Gen.Kernel.Skeleton
import proofs.«151161_g38689065402409_fold_wed_m_144_3_alg».proof.Proof.Gen.Kernel.Launch
import proofs.«151161_g38689065402409_fold_wed_m_144_3_alg».proof.Proof.Gen.Kernel.Points
import proofs.«151161_g38689065402409_fold_wed_m_144_3_alg».proof.Proof.Gen.Kernel.Frame
import proofs.«151161_g38689065402409_fold_wed_m_144_3_alg».proof.Proof.Gen.KernelIdeal
import proofs.«151161_g38689065402409_fold_wed_m_144_3_alg».proof.Proof.Gen.KernelIdeal.Skeleton
import proofs.«151161_g38689065402409_fold_wed_m_144_3_alg».proof.Proof.Gen.KernelIdeal.Launch
import proofs.«151161_g38689065402409_fold_wed_m_144_3_alg».proof.Proof.Gen.KernelIdeal.Points
import proofs.«151161_g38689065402409_fold_wed_m_144_3_alg».proof.Proof.Gen.KernelIdeal.Frame
import proofs.«151161_g38689065402409_fold_wed_m_144_3_alg».proof.Proof.Gen.KernelIdeal.Value
import proofs.«151161_g38689065402409_fold_wed_m_144_3_alg».proof.Proof.Gen.ReferenceIdeal
import proofs.«151161_g38689065402409_fold_wed_m_144_3_alg».proof.Proof.Gen.Pre_finite_inputs
import proofs.«151161_g38689065402409_fold_wed_m_144_3_alg».proof.Proof.HostRun
import proofs.«151161_g38689065402409_fold_wed_m_144_3_alg».proof.Proof.KernelValue
import proofs.«151161_g38689065402409_fold_wed_m_144_3_alg».proof.Proof.RefValue
import Idealize.ShloMosaic.Adequacy
import Idealize.ShloMosaic.Init

noncomputable section

namespace Cert.Proof

open Idealize.ShloMosaic Idealize.SL.Sem

/-- The word-level kernel runs and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun _ h c => (h c).2) (Cert.ReferenceIdeal.HostRun.run_kept (F := Ideal) m ρ)

/-- The ideal pass rewrote no operation. -/
theorem preserves : Cert.preserves_Kernel_KernelIdeal := trivial

/-- Both idealized programs end at the decoder of the (agreeing) arguments: the kernel block by block, the reference
    through its fifteen stages. -/
theorem algebraic : Cert.algebraic_KernelIdeal_ReferenceIdeal := by
  intro m ρ m' ρ' hpre hagree
  refine ⟨fun c => Gcn.arrayOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Final.run m ρ, ?_⟩
  refine (θ_run Cert.ReferenceIdeal.defs _ _).mono (fun r h c => ⟨(h c).1.trans ?_, (h c).2⟩)
    (Cert.ReferenceIdeal.HostRun.run_kept (F := Ideal) m' ρ')
  rw [Cert.ReferenceIdeal.Stages.chain]
  refine (Cert.ReferenceIdeal.Read.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
